-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S5x128 : Shape := ⟨2, ![5, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1024x128 : Shape := ⟨2, ![1024, 128]⟩
abbrev S1024x256 : Shape := ⟨2, ![1024, 256]⟩
abbrev S1024 : Shape := ⟨1, ![1024]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S128 .f32) (main_arg8 : FVec F S1024x128 .f32) (main_arg9 : FVec F S1024x256 .f32) (main_arg10 : FVec F S1024 .f32) (main_arg11 : FVec F S1024 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x128 .f32 := Host.absf main_arg8
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S128x256 .f32) (main_arg5 : FVec F S128 .f32) (main_arg6 : FVec F S128 .f32) (main_arg7 : FVec F S128 .f32) (main_arg8 : FVec F S1024x128 .f32) (main_arg9 : FVec F S1024x256 .f32) (main_arg10 : FVec F S1024 .f32) (main_arg11 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x128 .f32) (main_arg1 : FVec F S5x128 .f32) (main_arg2 : FVec F S256x128 .f32) (main_arg3 : FVec F S256 .f32) (main_arg4 : FVec F S128x256 .f32) (main_arg5 : FVec F S128 .f32) (main_arg6 : FVec F S128 .f32) (main_arg7 : FVec F S128 .f32) (main_arg8 : FVec F S1024x128 .f32) (main_arg9 : FVec F S1024x256 .f32) (main_arg10 : FVec F S1024 .f32) (main_arg11 : FVec F S1024 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S5x128 .f32 := Host.absf main_arg1
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S16384x128 : Shape := ⟨2, ![16384, 128]⟩
abbrev S5x128 : Shape := ⟨2, ![5, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1024x128 : Shape := ⟨2, ![1024, 128]⟩
abbrev S1024x256 : Shape := ⟨2, ![1024, 256]⟩
abbrev S1024 : Shape := ⟨1, ![1024]⟩
abbrev S256x1024 : Shape := ⟨2, ![256, 1024]⟩
abbrev S1x256 : Shape := ⟨2, ![1, 256]⟩
abbrev S1x128 : Shape := ⟨2, ![1, 128]⟩
abbrev S128x1024 : Shape := ⟨2, ![128, 1024]⟩
abbrev S128x896 : Shape := ⟨2, ![128, 896]⟩
abbrev S896 : Shape := ⟨1, ![896]⟩
abbrev S1x896 : Shape := ⟨2, ![1, 896]⟩
abbrev S16384x1 : Shape := ⟨2, ![16384, 1]⟩
abbrev S1024x1 : Shape := ⟨2, ![1024, 1]⟩
abbrev S5x256 : Shape := ⟨2, ![5, 256]⟩
abbrev S5 : Shape := ⟨1, ![5]⟩
abbrev S5x1 : Shape := ⟨2, ![5, 1]⟩
abbrev S1024x896 : Shape := ⟨2, ![1024, 896]⟩
abbrev S16384 : Shape := ⟨1, ![16384]⟩

abbrev nBuf : Space → Nat
  | .hbm => 28
  | .vmem => 15
  | .smem => 0
  | _ => 0

abbrev bufTy : (tb : Table) → Fin (tcTables nBuf tb) → BufTy
  | .hbm, ⟨0, _⟩ => ⟨S16384x128, .f32⟩
  | .hbm, ⟨1, _⟩ => ⟨S5x128, .f32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1024x128, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S256x1024, .f32⟩
  | .hbm, ⟨13, _⟩ => ⟨S128x256, .f32⟩
  | .hbm, ⟨14, _⟩ => ⟨S1x256, .f32⟩
  | .hbm, ⟨15, _⟩ => ⟨S256x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S128x1024, .f32⟩
  | .hbm, ⟨20, _⟩ => ⟨S128x896, .f32⟩
  | .hbm, ⟨21, _⟩ => ⟨S128x896, .f32⟩
  | .hbm, ⟨22, _⟩ => ⟨S128x896, .f32⟩
  | .hbm, ⟨23, _⟩ => ⟨S1024, .f32⟩
  | .hbm, ⟨24, _⟩ => ⟨S896, .f32⟩
  | .hbm, ⟨25, _⟩ => ⟨S1x896, .f32⟩
  | .hbm, ⟨26, _⟩ => ⟨S16384x1, .f32⟩
  | .hbm, ⟨27, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S5x128, .f32⟩
  | .local _ .vmem, ⟨3, _⟩ => ⟨S128x256, .f32⟩
  | .local _ .vmem, ⟨4, _⟩ => ⟨S1x256, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S1x896, .f32⟩
  | .local _ .vmem, ⟨13, _⟩ => ⟨S1024x1, .f32⟩
  | .local _ .vmem, ⟨14, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x896 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x256_S256x1024_1_0 : S1024x256.Transposes [1, 0] S256x1024
  transposes_S256x128_S128x256_1_0 : S256x128.Transposes [1, 0] S128x256
  shapeCasts_S256_S1x256 : S256.ShapeCasts S1x256
  transposes_S128x256_S256x128_1_0 : S128x256.Transposes [1, 0] S256x128
  shapeCasts_S128_S1x128 : S128.ShapeCasts S1x128
  transposes_S1024x128_S128x1024_1_0 : S1024x128.Transposes [1, 0] S128x1024
  slices_S128x1024_S128x896_0_0 : S128x1024.Slices ![0, 0] S128x896
  slices_S256x1024_S128x896_0_0 : S256x1024.Slices ![0, 0] S128x896
  slices_S256x1024_S128x896_128_0 : S256x1024.Slices ![128, 0] S128x896
  slices_S1024_S896_0 : S1024.Slices ![0] S896
  shapeCasts_S896_S1x896 : S896.ShapeCasts S1x896
  inb_S5x128_S5x128_0_0 : ∀ a, (![0, 0] : Fin 2 → Nat) a + S5x128.size a ≤ S5x128.size a
  h_S5x128 : 0 < S5x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5x256 : S1x256.Broadcasts S5x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5x128 : S1x128.Broadcasts S5x128
  reduces_S5x128_S5 : S5x128.Reduces [1] S5
  shapeCasts_S5_S5x1 : S5.ShapeCasts S5x1
  broadcasts_S5x1_S5x128 : S5x1.Broadcasts S5x128
  reduces_S5x128_S128 : S5x128.Reduces [0] S128
  inb_S128x896_S128x896_0_0 : ∀ a, (![0, 0] : Fin 2 → Nat) a + S128x896.size a ≤ S128x896.size a
  h_S128x896 : 0 < S128x896.numel
  shapeCasts_S128x896_S128x896 : S128x896.ShapeCasts S128x896
  inb_S1024x128_S1024x128_0_0 : ∀ a, (![0, 0] : Fin 2 → Nat) a + S1024x128.size a ≤ S1024x128.size a
  h_S1024x128 : 0 < S1024x128.numel
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S1024x896 : S1x896.Broadcasts S1024x896
  slices_S1024x896_o0_0_S1024x256 : S1024x896.Slices ![0, 0] S1024x256
  slices_S1024x896_o0_512_S1024x256 : S1024x896.Slices ![0, 512] S1024x256
  slices_S1024x896_o0_768_S1024x128 : S1024x896.Slices ![0, 768] S1024x128
  slices_S1024x256_o0_0_S1024x128 : S1024x256.Slices ![0, 0] S1024x128
  slices_S1024x896_o0_256_S1024x256 : S1024x896.Slices ![0, 256] S1024x256
  slices_S1024x896_o0_0_S1024x128 : S1024x896.Slices ![0, 0] S1024x128
  slices_S1024x896_o0_256_S1024x128 : S1024x896.Slices ![0, 256] S1024x128
  slices_S1024x896_o0_512_S1024x128 : S1024x896.Slices ![0, 512] S1024x128
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  dot_S5x128_S128x256_S5x256_1_0_0_1_n_n_wf : DotDims.WF S5x128 S128x256 S5x256 [1] [0] [0] [1] [] []
  dot_S5x256_S256x128_S5x128_1_0_0_1_n_n_wf : DotDims.WF S5x256 S256x128 S5x128 [1] [0] [0] [1] [] []
  dot_S1x128_S128x896_S1x896_1_0_0_1_n_n_wf : DotDims.WF S1x128 S128x896 S1x896 [1] [0] [0] [1] [] []
  dot_S1024x128_S128x896_S1024x896_1_0_0_1_n_n_wf : DotDims.WF S1024x128 S128x896 S1024x896 [1] [0] [0] [1] [] []
  dot_S1024x128_S1x128_S1024x1_1_1_0_0_n_n_wf : DotDims.WF S1024x128 S1x128 S1024x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x896.size a ≤ S128x896.size a
  hwx0_8 : ∀ i : grid0.Coords, EltTy.bits .f32 = 32 ∨ (Rect.block (s := S128x896) S128x896.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x896.size a ≤ S128x896.size a
  hwx0_9 : ∀ i : grid0.Coords, EltTy.bits .f32 = 32 ∨ (Rect.block (s := S128x896) S128x896.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x896.size a ≤ S128x896.size a
  hwx0_10 : ∀ i : grid0.Coords, EltTy.bits .f32 = 32 ∨ (Rect.block (s := S128x896) S128x896.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x896.size a ≤ S1x896.size a
  hwx0_11 : ∀ i : grid0.Coords, EltTy.bits .f32 = 32 ∨ (Rect.block (s := S1x896) S1x896.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S16384x1.size a
  hwx0_12 : ∀ i : grid0.Coords, EltTy.bits .f32 = 32 ∨ (Rect.block (s := S16384x1) S1024x1.size (cc0_transform_12 i) (hinb0_12 i)).WholeWords (EltTy.packing .f32)

variable [Facts₀]

def dot_S5x128_S128x256_S5x256_1_0_0_1_n_n : DotDims S5x128 S128x256 S5x256 where
  lhsContracting := [1]
  rhsContracting := [0]
  lhsNonContracting := [0]
  rhsNonContracting := [1]
  lhsBatch := []
  rhsBatch := []
  wf := dot_S5x128_S128x256_S5x256_1_0_0_1_n_n_wf
def dot_S5x256_S256x128_S5x128_1_0_0_1_n_n : DotDims S5x256 S256x128 S5x128 where
  lhsContracting := [1]
  rhsContracting := [0]
  lhsNonContracting := [0]
  rhsNonContracting := [1]
  lhsBatch := []
  rhsBatch := []
  wf := dot_S5x256_S256x128_S5x128_1_0_0_1_n_n_wf
def dot_S1x128_S128x896_S1x896_1_0_0_1_n_n : DotDims S1x128 S128x896 S1x896 where
  lhsContracting := [1]
  rhsContracting := [0]
  lhsNonContracting := [0]
  rhsNonContracting := [1]
  lhsBatch := []
  rhsBatch := []
  wf := dot_S1x128_S128x896_S1x896_1_0_0_1_n_n_wf
def dot_S1024x128_S128x896_S1024x896_1_0_0_1_n_n : DotDims S1024x128 S128x896 S1024x896 where
  lhsContracting := [1]
  rhsContracting := [0]
  lhsNonContracting := [0]
  rhsNonContracting := [1]
  lhsBatch := []
  rhsBatch := []
  wf := dot_S1024x128_S128x896_S1024x896_1_0_0_1_n_n_wf
def dot_S1024x128_S1x128_S1024x1_1_1_0_0_n_n : DotDims S1024x128 S1x128 S1024x1 where
  lhsContracting := [1]
  rhsContracting := [1]
  lhsNonContracting := [0]
  rhsNonContracting := [0]
  lhsBatch := []
  rhsBatch := []
  wf := dot_S1024x128_S1x128_S1024x1_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S128x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x896.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S128x896.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x896.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x128 : Shape := ⟨2, ![16384, 128]⟩
abbrev S5x128 : Shape := ⟨2, ![5, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1024x128 : Shape := ⟨2, ![1024, 128]⟩
abbrev S1024x256 : Shape := ⟨2, ![1024, 256]⟩
abbrev S1024 : Shape := ⟨1, ![1024]⟩
abbrev S5x256 : Shape := ⟨2, ![5, 256]⟩
abbrev S1x256 : Shape := ⟨2, ![1, 256]⟩
abbrev S_ : Shape := ⟨0, ![]⟩
abbrev S1x128 : Shape := ⟨2, ![1, 128]⟩
abbrev S5 : Shape := ⟨1, ![5]⟩
abbrev S5x1 : Shape := ⟨2, ![5, 1]⟩
abbrev S16384x256 : Shape := ⟨2, ![16384, 256]⟩
abbrev S128x1024 : Shape := ⟨2, ![128, 1024]⟩
abbrev S16384x1024 : Shape := ⟨2, ![16384, 1024]⟩
abbrev S1x1024 : Shape := ⟨2, ![1, 1024]⟩
abbrev S256x1024 : Shape := ⟨2, ![256, 1024]⟩
abbrev S128x1 : Shape := ⟨2, ![128, 1]⟩
abbrev S16384x1 : Shape := ⟨2, ![16384, 1]⟩
abbrev S16384 : Shape := ⟨1, ![16384]⟩

abbrev nBuf : Space → Nat
  | .hbm => 335
  | .vmem => 0
  | .smem => 0
  | _ => 0

abbrev hbmTy0_0 (i : Nat) : BufTy := match i % 128 with
  | 0 => ⟨S16384x128, .f32⟩
  | 1 => ⟨S5x128, .f32⟩
  | 2 => ⟨S256x128, .f32⟩
  | 3 => ⟨S256, .f32⟩
  | 4 => ⟨S128x256, .f32⟩
  | 5 => ⟨S128, .f32⟩
  | 6 => ⟨S128, .f32⟩
  | 7 => ⟨S128, .f32⟩
  | 8 => ⟨S1024x128, .f32⟩
  | 9 => ⟨S1024x256, .f32⟩
  | 10 => ⟨S1024, .f32⟩
  | 11 => ⟨S1024, .f32⟩
  | 12 => ⟨S128x256, .f32⟩
  | 13 => ⟨S5x256, .f32⟩
  | 14 => ⟨S1x256, .f32⟩
  | 15 => ⟨S5x256, .f32⟩
  | 16 => ⟨S5x256, .f32⟩
  | 17 => ⟨S_, .f32⟩
  | 18 => ⟨S5x256, .f32⟩
  | 19 => ⟨S5x256, .f32⟩
  | 20 => ⟨S256x128, .f32⟩
  | 21 => ⟨S5x128, .f32⟩
  | 22 => ⟨S1x128, .f32⟩
  | 23 => ⟨S5x128, .f32⟩
  | 24 => ⟨S5x128, .f32⟩
  | 25 => ⟨S5x128, .f32⟩
  | 26 => ⟨S_, .f32⟩
  | 27 => ⟨S5, .f32⟩
  | 28 => ⟨S5x1, .f32⟩
  | 29 => ⟨S_, .f32⟩
  | 30 => ⟨S5x1, .f32⟩
  | 31 => ⟨S5x1, .f32⟩
  | 32 => ⟨S_, .i32⟩
  | 33 => ⟨S_, .f32⟩
  | 34 => ⟨S5, .f32⟩
  | 35 => ⟨S5x1, .f32⟩
  | 36 => ⟨S_, .f32⟩
  | 37 => ⟨S5x1, .f32⟩
  | 38 => ⟨S5x1, .f32⟩
  | 39 => ⟨S5x128, .f32⟩
  | 40 => ⟨S5x128, .f32⟩
  | 41 => ⟨S5x128, .f32⟩
  | 42 => ⟨S_, .f32⟩
  | 43 => ⟨S_, .f32⟩
  | 44 => ⟨S_, .f32⟩
  | 45 => ⟨S_, .f32⟩
  | 46 => ⟨S5, .f32⟩
  | 47 => ⟨S5x1, .f32⟩
  | 48 => ⟨S5x1, .f32⟩
  | 49 => ⟨S5x1, .f32⟩
  | 50 => ⟨S_, .f32⟩
  | 51 => ⟨S_, .i1⟩
  | 52 => ⟨S_, .f32⟩
  | 53 => ⟨S_, .f32⟩
  | 54 => ⟨S5x1, .f32⟩
  | 55 => ⟨S5x1, .f32⟩
  | 56 => ⟨S5x1, .f32⟩
  | 57 => ⟨S5x128, .f32⟩
  | 58 => ⟨S5x128, .f32⟩
  | 59 => ⟨S_, .f32⟩
  | 60 => ⟨S5x1, .f32⟩
  | 61 => ⟨S5x1, .f32⟩
  | 62 => ⟨S5x128, .f32⟩
  | 63 => ⟨S5x128, .f32⟩
  | 64 => ⟨S1x128, .f32⟩
  | 65 => ⟨S5x128, .f32⟩
  | 66 => ⟨S5x128, .f32⟩
  | 67 => ⟨S1x128, .f32⟩
  | 68 => ⟨S5x128, .f32⟩
  | 69 => ⟨S5x128, .f32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S16384x256, .f32⟩
  | 78 => ⟨S_, .f32⟩
  | 79 => ⟨S16384x256, .f32⟩
  | 80 => ⟨S128x1024, .f32⟩
  | 81 => ⟨S16384x1024, .f32⟩
  | 82 => ⟨S1x1024, .f32⟩
  | 83 => ⟨S16384x1024, .f32⟩
  | 84 => ⟨S16384x1024, .f32⟩
  | 85 => ⟨S256x1024, .f32⟩
  | 86 => ⟨S16384x1024, .f32⟩
  | 87 => ⟨S16384x1024, .f32⟩
  | 88 => ⟨S1x1024, .f32⟩
  | 89 => ⟨S16384x1024, .f32⟩
  | 90 => ⟨S16384x1024, .f32⟩
  | 91 => ⟨S16384x256, .f32⟩
  | 92 => ⟨S16384x256, .f32⟩
  | 93 => ⟨S16384x256, .f32⟩
  | 94 => ⟨S16384x256, .f32⟩
  | 95 => ⟨S16384x256, .f32⟩
  | 96 => ⟨S16384x256, .f32⟩
  | 97 => ⟨S_, .f32⟩
  | 98 => ⟨S16384x256, .f32⟩
  | 99 => ⟨S16384x256, .f32⟩
  | 100 => ⟨S_, .f32⟩
  | 101 => ⟨S16384x256, .f32⟩
  | 102 => ⟨S16384x256, .f32⟩
  | 103 => ⟨S16384x256, .f32⟩
  | 104 => ⟨S16384x256, .f32⟩
  | 105 => ⟨S_, .f32⟩
  | 106 => ⟨S16384x256, .f32⟩
  | 107 => ⟨S16384x256, .f32⟩
  | 108 => ⟨S_, .f32⟩
  | 109 => ⟨S16384x256, .f32⟩
  | 110 => ⟨S16384x256, .f32⟩
  | 111 => ⟨S16384x256, .f32⟩
  | 112 => ⟨S16384x256, .f32⟩
  | 113 => ⟨S16384x256, .f32⟩
  | 114 => ⟨S_, .f32⟩
  | 115 => ⟨S16384x256, .f32⟩
  | 116 => ⟨S16384x256, .f32⟩
  | 117 => ⟨S_, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x256, .f32⟩
  | 124 => ⟨S16384x256, .f32⟩
  | 125 => ⟨S16384x128, .f32⟩
  | 126 => ⟨S16384x128, .f32⟩
  | 127 => ⟨S128x1, .f32⟩
  | _ => ⟨S16384x128, .f32⟩

abbrev hbmTy0_1 (i : Nat) : BufTy := match i % 128 with
  | 0 => ⟨S16384x1, .f32⟩
  | 1 => ⟨S_, .f32⟩
  | 2 => ⟨S16384, .f32⟩
  | 3 => ⟨S_, .f32⟩
  | 4 => ⟨S16384, .f32⟩
  | 5 => ⟨S16384, .f32⟩
  | 6 => ⟨S16384x1, .f32⟩
  | 7 => ⟨S16384x1, .f32⟩
  | 8 => ⟨S16384x1, .f32⟩
  | 9 => ⟨S_, .f32⟩
  | 10 => ⟨S16384, .f32⟩
  | 11 => ⟨S16384x1, .f32⟩
  | 12 => ⟨S16384x1, .f32⟩
  | 13 => ⟨S16384x128, .f32⟩
  | 14 => ⟨S16384x256, .f32⟩
  | 15 => ⟨S128x1024, .f32⟩
  | 16 => ⟨S16384x1024, .f32⟩
  | 17 => ⟨S1x1024, .f32⟩
  | 18 => ⟨S16384x1024, .f32⟩
  | 19 => ⟨S16384x1024, .f32⟩
  | 20 => ⟨S256x1024, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S_, .f32⟩
  | 33 => ⟨S16384x256, .f32⟩
  | 34 => ⟨S16384x256, .f32⟩
  | 35 => ⟨S_, .f32⟩
  | 36 => ⟨S16384x256, .f32⟩
  | 37 => ⟨S16384x256, .f32⟩
  | 38 => ⟨S16384x256, .f32⟩
  | 39 => ⟨S16384x256, .f32⟩
  | 40 => ⟨S_, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S16384x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S_, .f32⟩
  | 53 => ⟨S16384x256, .f32⟩
  | 54 => ⟨S16384x256, .f32⟩
  | 55 => ⟨S16384x256, .f32⟩
  | 56 => ⟨S16384x256, .f32⟩
  | 57 => ⟨S16384x256, .f32⟩
  | 58 => ⟨S16384x256, .f32⟩
  | 59 => ⟨S16384x256, .f32⟩
  | 60 => ⟨S16384x128, .f32⟩
  | 61 => ⟨S16384x128, .f32⟩
  | 62 => ⟨S128x1, .f32⟩
  | 63 => ⟨S16384x1, .f32⟩
  | 64 => ⟨S_, .f32⟩
  | 65 => ⟨S16384, .f32⟩
  | 66 => ⟨S_, .f32⟩
  | 67 => ⟨S16384, .f32⟩
  | 68 => ⟨S16384, .f32⟩
  | 69 => ⟨S16384x1, .f32⟩
  | 70 => ⟨S16384x1, .f32⟩
  | 71 => ⟨S16384x1, .f32⟩
  | 72 => ⟨S_, .f32⟩
  | 73 => ⟨S16384, .f32⟩
  | 74 => ⟨S16384x1, .f32⟩
  | 75 => ⟨S16384x1, .f32⟩
  | 76 => ⟨S16384x128, .f32⟩
  | 77 => ⟨S16384x256, .f32⟩
  | 78 => ⟨S128x1024, .f32⟩
  | 79 => ⟨S16384x1024, .f32⟩
  | 80 => ⟨S1x1024, .f32⟩
  | 81 => ⟨S16384x1024, .f32⟩
  | 82 => ⟨S16384x1024, .f32⟩
  | 83 => ⟨S256x1024, .f32⟩
  | 84 => ⟨S16384x1024, .f32⟩
  | 85 => ⟨S16384x1024, .f32⟩
  | 86 => ⟨S1x1024, .f32⟩
  | 87 => ⟨S16384x1024, .f32⟩
  | 88 => ⟨S16384x1024, .f32⟩
  | 89 => ⟨S16384x256, .f32⟩
  | 90 => ⟨S16384x256, .f32⟩
  | 91 => ⟨S16384x256, .f32⟩
  | 92 => ⟨S16384x256, .f32⟩
  | 93 => ⟨S16384x256, .f32⟩
  | 94 => ⟨S16384x256, .f32⟩
  | 95 => ⟨S_, .f32⟩
  | 96 => ⟨S16384x256, .f32⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S16384x256, .f32⟩
  | 103 => ⟨S_, .f32⟩
  | 104 => ⟨S16384x256, .f32⟩
  | 105 => ⟨S16384x256, .f32⟩
  | 106 => ⟨S_, .f32⟩
  | 107 => ⟨S16384x256, .f32⟩
  | 108 => ⟨S16384x256, .f32⟩
  | 109 => ⟨S16384x256, .f32⟩
  | 110 => ⟨S16384x256, .f32⟩
  | 111 => ⟨S16384x256, .f32⟩
  | 112 => ⟨S_, .f32⟩
  | 113 => ⟨S16384x256, .f32⟩
  | 114 => ⟨S16384x256, .f32⟩
  | 115 => ⟨S_, .f32⟩
  | 116 => ⟨S16384x256, .f32⟩
  | 117 => ⟨S16384x256, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x128, .f32⟩
  | 124 => ⟨S16384x128, .f32⟩
  | 125 => ⟨S128x1, .f32⟩
  | 126 => ⟨S16384x1, .f32⟩
  | 127 => ⟨S_, .f32⟩
  | _ => ⟨S16384x128, .f32⟩

abbrev hbmTy0_2 (i : Nat) : BufTy := match i % 128 with
  | 0 => ⟨S16384, .f32⟩
  | 1 => ⟨S_, .f32⟩
  | 2 => ⟨S16384, .f32⟩
  | 3 => ⟨S16384, .f32⟩
  | 4 => ⟨S16384x1, .f32⟩
  | 5 => ⟨S16384x1, .f32⟩
  | 6 => ⟨S16384x1, .f32⟩
  | 7 => ⟨S_, .f32⟩
  | 8 => ⟨S16384, .f32⟩
  | 9 => ⟨S16384x1, .f32⟩
  | 10 => ⟨S16384x1, .f32⟩
  | 11 => ⟨S16384x128, .f32⟩
  | 12 => ⟨S16384x256, .f32⟩
  | 13 => ⟨S128x1024, .f32⟩
  | 14 => ⟨S16384x1024, .f32⟩
  | 15 => ⟨S1x1024, .f32⟩
  | 16 => ⟨S16384x1024, .f32⟩
  | 17 => ⟨S16384x1024, .f32⟩
  | 18 => ⟨S256x1024, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x256, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S_, .f32⟩
  | 31 => ⟨S16384x256, .f32⟩
  | 32 => ⟨S16384x256, .f32⟩
  | 33 => ⟨S_, .f32⟩
  | 34 => ⟨S16384x256, .f32⟩
  | 35 => ⟨S16384x256, .f32⟩
  | 36 => ⟨S16384x256, .f32⟩
  | 37 => ⟨S16384x256, .f32⟩
  | 38 => ⟨S_, .f32⟩
  | 39 => ⟨S16384x256, .f32⟩
  | 40 => ⟨S16384x256, .f32⟩
  | 41 => ⟨S_, .f32⟩
  | 42 => ⟨S16384x256, .f32⟩
  | 43 => ⟨S16384x256, .f32⟩
  | 44 => ⟨S16384x256, .f32⟩
  | 45 => ⟨S16384x256, .f32⟩
  | 46 => ⟨S16384x256, .f32⟩
  | 47 => ⟨S_, .f32⟩
  | 48 => ⟨S16384x256, .f32⟩
  | 49 => ⟨S16384x256, .f32⟩
  | 50 => ⟨S_, .f32⟩
  | 51 => ⟨S16384x256, .f32⟩
  | 52 => ⟨S16384x256, .f32⟩
  | 53 => ⟨S16384x256, .f32⟩
  | 54 => ⟨S16384x256, .f32⟩
  | 55 => ⟨S16384x256, .f32⟩
  | 56 => ⟨S16384x256, .f32⟩
  | 57 => ⟨S16384x256, .f32⟩
  | 58 => ⟨S16384x128, .f32⟩
  | 59 => ⟨S16384x128, .f32⟩
  | 60 => ⟨S128x1, .f32⟩
  | 61 => ⟨S16384x1, .f32⟩
  | 62 => ⟨S_, .f32⟩
  | 63 => ⟨S16384, .f32⟩
  | 64 => ⟨S_, .f32⟩
  | 65 => ⟨S16384, .f32⟩
  | 66 => ⟨S16384, .f32⟩
  | 67 => ⟨S16384x1, .f32⟩
  | 68 => ⟨S16384x1, .f32⟩
  | 69 => ⟨S16384x1, .f32⟩
  | 70 => ⟨S_, .f32⟩
  | 71 => ⟨S16384, .f32⟩
  | 72 => ⟨S16384x1, .f32⟩
  | 73 => ⟨S16384x1, .f32⟩
  | 74 => ⟨S16384x128, .f32⟩
  | 75 => ⟨S16384x256, .f32⟩
  | 76 => ⟨S128x1, .f32⟩
  | 77 => ⟨S16384x1, .f32⟩
  | 78 => ⟨S16384, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_cst_0 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_cst_1 : Ref sig .tc := ⟨.hbm, 43, rfl⟩
abbrev main_call1_call0_v8 : Ref sig .tc := ⟨.hbm, 44, rfl⟩
abbrev main_call1_call0_cst_2 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_call0_v12 : Ref sig .tc := ⟨.hbm, 49, rfl⟩
abbrev main_call1_call0_cst_3 : Ref sig .tc := ⟨.hbm, 50, rfl⟩
abbrev main_call1_call0_v13 : Ref sig .tc := ⟨.hbm, 51, rfl⟩
abbrev main_call1_call0_cst_4 : Ref sig .tc := ⟨.hbm, 52, rfl⟩
abbrev main_call1_call0_call0_v0 : Ref sig .tc := ⟨.hbm, 53, rfl⟩
abbrev main_call1_call0_call0_v1 : Ref sig .tc := ⟨.hbm, 54, rfl⟩
abbrev main_call1_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_2 : Ref sig .tc := ⟨.hbm, 70, rfl⟩
abbrev main_v29 : Ref sig .tc := ⟨.hbm, 71, rfl⟩
abbrev main_v30 : Ref sig .tc := ⟨.hbm, 72, rfl⟩
abbrev main_cst_3 : Ref sig .tc := ⟨.hbm, 73, rfl⟩
abbrev main_v31 : Ref sig .tc := ⟨.hbm, 74, rfl⟩
abbrev main_v32 : Ref sig .tc := ⟨.hbm, 75, rfl⟩
abbrev main_cst_4 : Ref sig .tc := ⟨.hbm, 76, rfl⟩
abbrev main_v33 : Ref sig .tc := ⟨.hbm, 77, rfl⟩
abbrev main_cst_5 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_6 : Ref sig .tc := ⟨.hbm, 97, rfl⟩
abbrev main_v52 : Ref sig .tc := ⟨.hbm, 98, rfl⟩
abbrev main_v53 : Ref sig .tc := ⟨.hbm, 99, rfl⟩
abbrev main_cst_7 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_8 : Ref sig .tc := ⟨.hbm, 105, rfl⟩
abbrev main_v58 : Ref sig .tc := ⟨.hbm, 106, rfl⟩
abbrev main_v59 : Ref sig .tc := ⟨.hbm, 107, rfl⟩
abbrev main_cst_9 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_10 : Ref sig .tc := ⟨.hbm, 114, rfl⟩
abbrev main_v65 : Ref sig .tc := ⟨.hbm, 115, rfl⟩
abbrev main_v66 : Ref sig .tc := ⟨.hbm, 116, rfl⟩
abbrev main_cst_11 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_cst_13 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_14 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_15 : Ref sig .tc := ⟨.hbm, 160, rfl⟩
abbrev main_v106 : Ref sig .tc := ⟨.hbm, 161, rfl⟩
abbrev main_v107 : Ref sig .tc := ⟨.hbm, 162, rfl⟩
abbrev main_cst_16 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_17 : Ref sig .tc := ⟨.hbm, 168, rfl⟩
abbrev main_v112 : Ref sig .tc := ⟨.hbm, 169, rfl⟩
abbrev main_v113 : Ref sig .tc := ⟨.hbm, 170, rfl⟩
abbrev main_cst_18 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_19 : Ref sig .tc := ⟨.hbm, 177, rfl⟩
abbrev main_v119 : Ref sig .tc := ⟨.hbm, 178, rfl⟩
abbrev main_v120 : Ref sig .tc := ⟨.hbm, 179, rfl⟩
abbrev main_cst_20 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_21 : Ref sig .tc := ⟨.hbm, 192, rfl⟩
abbrev main_v132 : Ref sig .tc := ⟨.hbm, 193, rfl⟩
abbrev main_cst_22 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_23 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_24 : Ref sig .tc := ⟨.hbm, 223, rfl⟩
abbrev main_v160 : Ref sig .tc := ⟨.hbm, 224, rfl⟩
abbrev main_v161 : Ref sig .tc := ⟨.hbm, 225, rfl⟩
abbrev main_cst_25 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_26 : Ref sig .tc := ⟨.hbm, 231, rfl⟩
abbrev main_v166 : Ref sig .tc := ⟨.hbm, 232, rfl⟩
abbrev main_v167 : Ref sig .tc := ⟨.hbm, 233, rfl⟩
abbrev main_cst_27 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_cst_28 : Ref sig .tc := ⟨.hbm, 240, rfl⟩
abbrev main_v173 : Ref sig .tc := ⟨.hbm, 241, rfl⟩
abbrev main_v174 : Ref sig .tc := ⟨.hbm, 242, rfl⟩
abbrev main_cst_29 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_30 : Ref sig .tc := ⟨.hbm, 255, rfl⟩
abbrev main_v186 : Ref sig .tc := ⟨.hbm, 256, rfl⟩
abbrev main_cst_31 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_cst_32 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_33 : Ref sig .tc := ⟨.hbm, 286, rfl⟩
abbrev main_v214 : Ref sig .tc := ⟨.hbm, 287, rfl⟩
abbrev main_v215 : Ref sig .tc := ⟨.hbm, 288, rfl⟩
abbrev main_cst_34 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_cst_35 : Ref sig .tc := ⟨.hbm, 294, rfl⟩
abbrev main_v220 : Ref sig .tc := ⟨.hbm, 295, rfl⟩
abbrev main_v221 : Ref sig .tc := ⟨.hbm, 296, rfl⟩
abbrev main_cst_36 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_cst_37 : Ref sig .tc := ⟨.hbm, 303, rfl⟩
abbrev main_v227 : Ref sig .tc := ⟨.hbm, 304, rfl⟩
abbrev main_v228 : Ref sig .tc := ⟨.hbm, 305, rfl⟩
abbrev main_cst_38 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_cst_39 : Ref sig .tc := ⟨.hbm, 318, rfl⟩
abbrev main_v240 : Ref sig .tc := ⟨.hbm, 319, rfl⟩
abbrev main_cst_40 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_cst_41 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S5x256_0_1 : S1x256.BroadcastsInDim S5x256 (![0, 1] : Fin 2 → Fin S5x256.rank)
  bcast_S_S5x256 : S_.BroadcastsInDim S5x256 (![] : Fin 0 → Fin S5x256.rank)
  transposes_S128x256_S256x128_1_0 : S128x256.Transposes [1, 0] S256x128
  bcast_S128_S1x128_1 : S128.BroadcastsInDim S1x128 (![1] : Fin 1 → Fin S1x128.rank)
  bcast_S1x128_S5x128_0_1 : S1x128.BroadcastsInDim S5x128 (![0, 1] : Fin 2 → Fin S5x128.rank)
  reducesTo_S5x128_S5_d1 : S5x128.ReducesTo [1] S5
  h_S_ : 0 < S_.numel
  bcast_S5_S5x1_0 : S5.BroadcastsInDim S5x1 (![0] : Fin 1 → Fin S5x1.rank)
  bcast_S_S5x1 : S_.BroadcastsInDim S5x1 (![] : Fin 0 → Fin S5x1.rank)
  bcast_S5x1_S5x128_0_1 : S5x1.BroadcastsInDim S5x128 (![0, 1] : Fin 2 → Fin S5x128.rank)
  reducesTo_S5x128_S128_d0 : S5x128.ReducesTo [0] S128
  bcast_S_S1x128 : S_.BroadcastsInDim S1x128 (![] : Fin 0 → Fin S1x128.rank)
  bcast_S_S16384x256 : S_.BroadcastsInDim S16384x256 (![] : Fin 0 → Fin S16384x256.rank)
  transposes_S1024x128_S128x1024_1_0 : S1024x128.Transposes [1, 0] S128x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  slices_S16384x256_S16384x128_0_0 : S16384x256.Slices ![0, 0] S16384x128
  transposes_S1x128_S128x1_1_0 : S1x128.Transposes [1, 0] S128x1
  reducesTo_S16384x1_S16384_d1 : S16384x1.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  concatenates_S16384x128_S16384x128_S16384x256_d1 : Shape.Concatenates [S16384x128, S16384x128] S16384x256 1
  shapeCasts_S16384x1_S16384 : S16384x1.ShapeCasts S16384
  dot_S5x128_S128x256_S5x256_1_0_0_1_n_n_wf : DotDims.WF S5x128 S128x256 S5x256 [1] [0] [0] [1] [] []
  dot_S5x256_S256x128_S5x128_1_0_0_1_n_n_wf : DotDims.WF S5x256 S256x128 S5x128 [1] [0] [0] [1] [] []
  dot_S16384x128_S128x1024_S16384x1024_1_0_0_1_n_n_wf : DotDims.WF S16384x128 S128x1024 S16384x1024 [1] [0] [0] [1] [] []
  dot_S16384x256_S256x1024_S16384x1024_1_0_0_1_n_n_wf : DotDims.WF S16384x256 S256x1024 S16384x1024 [1] [0] [0] [1] [] []
  dot_S16384x128_S128x1_S16384x1_1_0_0_1_n_n_wf : DotDims.WF S16384x128 S128x1 S16384x1 [1] [0] [0] [1] [] []
  dot_S16384x1_S1x128_S16384x128_1_0_0_1_n_n_wf : DotDims.WF S16384x1 S1x128 S16384x128 [1] [0] [0] [1] [] []

variable [Facts₀]

def dot_S5x128_S128x256_S5x256_1_0_0_1_n_n : DotDims S5x128 S128x256 S5x256 where
  lhsContracting := [1]
  rhsContracting := [0]
  lhsNonContracting := [0]
  rhsNonContracting := [1]
  lhsBatch := []
  rhsBatch := []
  wf := dot_S5x128_S128x256_S5x256_1_0_0_1_n_n_wf
def dot_S5x256_S256x128_S5x128_1_0_0_1_n_n : DotDims S5x256 S256x128 S5x128 where
  lhsContracting := [1]
  rhsContracting := [0]
  lhsNonContracting := [0]
  rhsNonContracting := [1]
  lhsBatch := []
  rhsBatch := []
  wf := dot_S5x256_S256x128_S5x128_1_0_0_1_n_n_wf
def dot_S16384x128_S128x1024_S16384x1024_1_0_0_1_n_n : DotDims S16384x128 S128x1024 S16384x1024 where
  lhsContracting := [1]
  rhsContracting := [0]
  lhsNonContracting := [0]
  rhsNonContracting := [1]
  lhsBatch := []
  rhsBatch := []
  wf := dot_S16384x128_S128x1024_S16384x1024_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x1_S1x128_S16384x128_1_0_0_1_n_n : DotDims S16384x1 S1x128 S16384x128 where
  lhsContracting := [1]
  rhsContracting := [0]
  lhsNonContracting := [0]
  rhsNonContracting := [1]
  lhsBatch := []
  rhsBatch := []
  wf := dot_S16384x1_S1x128_S16384x128_1_0_0_1_n_n_wf

class Facts : Prop extends Facts₀ where

variable [Facts]
-- ==== Proof.KerWin.lean ====
/-
  What the kernel's windows hold.

  Grid point `t` works on query rows `1024·t … 1024·t + 1023`; every other operand is staged whole at every point.
  The arrays the region finds in those windows are the arguments re-laid by the host lines before it: `W1`, `W2`,
  `W_ih` and `W_hh` transposed (the last two cut to the 896 kept columns, `W_hh` also into its two row halves), the
  bias vectors as one-row matrices, the two gate biases added. What point `t` writes back is the similarity of its
  rows; the sixteen blocks tile the result column, and the host line after the region drops the unit axis.
-/
import proofs.«162834_g48816598286877_cont_sun_m_45_4_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- An array read as a function of its indices. -/
abbrev asFn {S : Shape} (x : S.Idx → EReal) : S.Idx → EReal := x

theorem hz : (![0, 0] : Fin 2 → Nat) = fun _ => 0 := funext fun a => by fin_cases a <;> rfl

/-- The printed index maps over the grid: the query and result windows move with the point, every other window stays. -/
theorem idx_facts : ∀ t : Fin cfg0.N, win0_0.index t (0 : Fin 2) = t.val
    ∧ win0_0.index t (1 : Fin 2) = 0
    ∧ win0_12.index t (0 : Fin 2) = t.val
    ∧ win0_12.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

/-! ## The arrays the windows find, as the arguments re-laid -/

theorem V_v1 (c : Dev nD) (k : Fin 128) (j : Fin 256) :
    (V m c main_v1 : S128x256.Idx → EReal) (ix2 k j) = ((m ((c.tc : Thread nD τ).loc main_arg2)) : S256x128.Idx → EReal) (ix2 j k) := by
  have e : (V m c main_v1 : S128x256.Idx → EReal) = transpose S128x256 [1, 0] (m ((c.tc : Thread nD τ).loc main_arg2)) transposes_S256x128_S128x256_1_0 := by
    show StableHlo.after hostOps0 (fun b => m (c, b)) (Proc.devRef .tc main_v1) = _
    after_results <;> rfl
  rw [e]; exact transpose_ix2_apply _ _ k j

theorem V_v2 (c : Dev nD) (j : Fin 256) :
    (V m c main_v2 : S1x256.Idx → EReal) (ix2 (0 : Fin 1) j) = ((m ((c.tc : Thread nD τ).loc main_arg3)) : S256.Idx → EReal) (ix1 j) := by
  have e : (V m c main_v2 : S1x256.Idx → EReal) = shapeCast S1x256 (m ((c.tc : Thread nD τ).loc main_arg3)) shapeCasts_S256_S1x256 := by
    show StableHlo.after hostOps0 (fun b => m (c, b)) (Proc.devRef .tc main_v2) = _
    after_results <;> rfl
  rw [e]; exact shapeCast_a_1a_apply _ _ 0 j

theorem V_v3 (c : Dev nD) (k : Fin 256) (j : Fin 128) :
    (V m c main_v3 : S256x128.Idx → EReal) (ix2 k j) = ((m ((c.tc : Thread nD τ).loc main_arg4)) : S128x256.Idx → EReal) (ix2 j k) := by
  have e : (V m c main_v3 : S256x128.Idx → EReal) = transpose S256x128 [1, 0] (m ((c.tc : Thread nD τ).loc main_arg4)) transposes_S128x256_S256x128_1_0 := by
    show StableHlo.after hostOps0 (fun b => m (c, b)) (Proc.devRef .tc main_v3) = _
    after_results <;> rfl
  rw [e]; exact transpose_ix2_apply _ _ k j

theorem V_v4 (c : Dev nD) (j : Fin 128) :
    (V m c main_v4 : S1x128.Idx → EReal) (ix2 (0 : Fin 1) j) = ((m ((c.tc : Thread nD τ).loc main_arg5)) : S128.Idx → EReal) (ix1 j) := by
  have e : (V m c main_v4 : S1x128.Idx → EReal) = shapeCast S1x128 (m ((c.tc : Thread nD τ).loc main_arg5)) shapeCasts_S128_S1x128 := by
    show StableHlo.after hostOps0 (fun b => m (c, b)) (Proc.devRef .tc main_v4) = _
    after_results <;> rfl
  rw [e]; exact shapeCast_a_1a_apply _ _ 0 j

theorem V_v5 (c : Dev nD) (j : Fin 128) :
    (V m c main_v5 : S1x128.Idx → EReal) (ix2 (0 : Fin 1) j) = ((m ((c.tc : Thread nD τ).loc main_arg6)) : S128.Idx → EReal) (ix1 j) := by
  have e : (V m c main_v5 : S1x128.Idx → EReal) = shapeCast S1x128 (m ((c.tc : Thread nD τ).loc main_arg6)) shapeCasts_S128_S1x128 := by
    show StableHlo.after hostOps0 (fun b => m (c, b)) (Proc.devRef .tc main_v5) = _
    after_results <;> rfl
  rw [e]; exact shapeCast_a_1a_apply _ _ 0 j

theorem V_v6 (c : Dev nD) (j : Fin 128) :
    (V m c main_v6 : S1x128.Idx → EReal) (ix2 (0 : Fin 1) j) = ((m ((c.tc : Thread nD τ).loc main_arg7)) : S128.Idx → EReal) (ix1 j) := by
  have e : (V m c main_v6 : S1x128.Idx → EReal) = shapeCast S1x128 (m ((c.tc : Thread nD τ).loc main_arg7)) shapeCasts_S128_S1x128 := by
    show StableHlo.after hostOps0 (fun b => m (c, b)) (Proc.devRef .tc main_v6) = _
    after_results <;> rfl
  rw [e]; exact shapeCast_a_1a_apply _ _ 0 j

theorem V_v8 (c : Dev nD) (k : Fin 128) (j : Fin 896) :
    (V m c main_v8 : S128x896.Idx → EReal) (ix2 k j) = ((m ((c.tc : Thread nD τ).loc main_arg8)) : S1024x128.Idx → EReal) (ix2 ⟨j.val, by omega⟩ k) := by
  have e : (V m c main_v8 : S128x896.Idx → EReal) = extractStridedSlice S128x896 ![0, 0] (transpose S128x1024 [1, 0] (m ((c.tc : Thread nD τ).loc main_arg8)) transposes_S1024x128_S128x1024_1_0) slices_S128x1024_S128x896_0_0 := by
    show StableHlo.after hostOps0 (fun b => m (c, b)) (Proc.devRef .tc main_v8) = _
    after_results <;> rfl
  rw [e, slice2_axis1_apply 0 _ _ k j ⟨j.val, by omega⟩ (by simp)]
  exact transpose_ix2_apply _ _ k _

theorem V_v9 (c : Dev nD) (k : Fin 128) (j : Fin 896) :
    (V m c main_v9 : S128x896.Idx → EReal) (ix2 k j) = ((m ((c.tc : Thread nD τ).loc main_arg9)) : S1024x256.Idx → EReal) (ix2 ⟨j.val, by omega⟩ ⟨k.val, by omega⟩) := by
  have e : (V m c main_v9 : S128x896.Idx → EReal) = extractStridedSlice S128x896 ![0, 0] (transpose S256x1024 [1, 0] (m ((c.tc : Thread nD τ).loc main_arg9)) transposes_S1024x256_S256x1024_1_0) slices_S256x1024_S128x896_0_0 := by
    show StableHlo.after hostOps0 (fun b => m (c, b)) (Proc.devRef .tc main_v9) = _
    after_results <;> rfl
  rw [e]
  refine (extractStridedSlice_apply _ _ _ (ix2 k j) (ix2 (⟨k.val, by omega⟩ : Fin 256) (⟨j.val, by omega⟩ : Fin 1024)) fun a => ?_).trans (transpose_ix2_apply _ _ _ _)
  match a with
  | ⟨0, _⟩ => exact (Nat.zero_add _).symm
  | ⟨1, _⟩ => exact (Nat.zero_add _).symm

theorem V_v10 (c : Dev nD) (k : Fin 128) (j : Fin 896) :
    (V m c main_v10 : S128x896.Idx → EReal) (ix2 k j) = ((m ((c.tc : Thread nD τ).loc main_arg9)) : S1024x256.Idx → EReal) (ix2 ⟨j.val, by omega⟩ ⟨128 + k.val, by omega⟩) := by
  have e : (V m c main_v10 : S128x896.Idx → EReal) = extractStridedSlice S128x896 ![128, 0] (transpose S256x1024 [1, 0] (m ((c.tc : Thread nD τ).loc main_arg9)) transposes_S1024x256_S256x1024_1_0) slices_S256x1024_S128x896_128_0 := by
    show StableHlo.after hostOps0 (fun b => m (c, b)) (Proc.devRef .tc main_v10) = _
    after_results <;> rfl
  rw [e]
  refine (extractStridedSlice_apply _ _ _ (ix2 k j) (ix2 (⟨128 + k.val, by omega⟩ : Fin 256) (⟨j.val, by omega⟩ : Fin 1024)) fun a => ?_).trans (transpose_ix2_apply _ _ _ _)
  match a with
  | ⟨0, _⟩ => rfl
  | ⟨1, _⟩ => exact (Nat.zero_add _).symm

theorem V_v13 (c : Dev nD) (j : Fin 896) :
    (V m c main_v13 : S1x896.Idx → EReal) (ix2 (0 : Fin 1) j)
      = asFn (S := S1024) (m ((c.tc : Thread nD τ).loc main_arg10)) (ix1 ⟨j.val, by omega⟩) + asFn (S := S1024) (m ((c.tc : Thread nD τ).loc main_arg11)) (ix1 ⟨j.val, by omega⟩) := by
  have e : (V m c main_v13 : S1x896.Idx → EReal) = shapeCast S1x896 (extractStridedSlice S896 ![0] (addf (F := Ideal) (s := S1024) (φ := .f32) (m ((c.tc : Thread nD τ).loc main_arg10)) (m ((c.tc : Thread nD τ).loc main_arg11))) slices_S1024_S896_0) shapeCasts_S896_S1x896 := by
    show StableHlo.after hostOps0 (fun b => m (c, b)) (Proc.devRef .tc main_v13) = _
    after_results <;> rfl
  rw [e, shapeCast_a_1a_apply _ _ 0 j]
  refine (extractStridedSlice_apply _ _ _ (ix1 j) (ix1 (⟨j.val, by omega⟩ : Fin 1024)) fun a => ?_).trans rfl
  match a with
  | ⟨0, _⟩ => exact (Nat.zero_add _).symm

/-! ## The windows' blocks -/

/-- The query window's block at point `t` is rows `1024·t …` of the query array. -/
theorem iblk0_apply (c : Dev nD) (t : Fin cfg0.N) (r : Fin 1024) (k : Fin 128) (b : Fin 16384) (hb : b.val = 1024 * t.val + r.val) :
    (iblk m c 0 t : Vec Ideal S1024x128 .f32) (ix2 r k) = ((m ((c.tc : Thread nD τ).loc main_arg0)) : S16384x128.Idx → EReal) (ix2 b k) := by
  have h0 : win0_0.index t (0 : Fin 2) = t.val := (idx_facts t).1
  have h1 : win0_0.index t (1 : Fin 2) = 0 := (idx_facts t).2.1
  unfold iblk
  rw [View.read_apply]
  show V m c main_arg0 _ = m ((c.tc : Thread nD τ).loc main_arg0) _
  rw [V_main_arg0 m c]
  refine congrArg (m ((c.tc : Thread nD τ).loc main_arg0)) (funext fun a => Fin.ext ?_)
  match a with
  | ⟨0, _⟩ => show win0_0.index t (0 : Fin 2) * 1024 + 1 * r.val = b.val; rw [h0, hb]; omega
  | ⟨1, _⟩ => show win0_0.index t (1 : Fin 2) * 128 + 1 * k.val = k.val; rw [h1]; omega

theorem iblk1_apply (c : Dev nD) (t : Fin cfg0.N) (y : S5x128.Idx) :
    (iblk m c 1 t : Vec Ideal S5x128 .f32) y = (V m c main_arg1 : S5x128.Idx → EReal) y := by
  have h0 : win0_1.index t (0 : Fin 2) = 0 := (idx_facts t).2.2.2.2.1
  have h1 : win0_1.index t (1 : Fin 2) = 0 := (idx_facts t).2.2.2.2.2.1
  unfold iblk
  rw [View.read_apply]
  show V m c main_arg1 _ = V m c main_arg1 y
  refine congrArg (V m c main_arg1) (funext fun a => Fin.ext ?_)
  match a with
  | ⟨0, _⟩ => show win0_1.index t (0 : Fin 2) * 5 + 1 * (y 0).val = (y 0).val; rw [h0]; omega
  | ⟨1, _⟩ => show win0_1.index t (1 : Fin 2) * 128 + 1 * (y 1).val = (y 1).val; rw [h1]; omega

theorem iblk2_apply (c : Dev nD) (t : Fin cfg0.N) (y : S128x256.Idx) :
    (iblk m c 2 t : Vec Ideal S128x256 .f32) y = (V m c main_v1 : S128x256.Idx → EReal) y := by
  have h0 : win0_2.index t (0 : Fin 2) = 0 := (idx_facts t).2.2.2.2.2.2.1
  have h1 : win0_2.index t (1 : Fin 2) = 0 := (idx_facts t).2.2.2.2.2.2.2.1
  unfold iblk
  rw [View.read_apply]
  show V m c main_v1 _ = V m c main_v1 y
  refine congrArg (V m c main_v1) (funext fun a => Fin.ext ?_)
  match a with
  | ⟨0, _⟩ => show win0_2.index t (0 : Fin 2) * 128 + 1 * (y 0).val = (y 0).val; rw [h0]; omega
  | ⟨1, _⟩ => show win0_2.index t (1 : Fin 2) * 256 + 1 * (y 1).val = (y 1).val; rw [h1]; omega

theorem iblk3_apply (c : Dev nD) (t : Fin cfg0.N) (y : S1x256.Idx) :
    (iblk m c 3 t : Vec Ideal S1x256 .f32) y = (V m c main_v2 : S1x256.Idx → EReal) y := by
  have h0 : win0_3.index t (0 : Fin 2) = 0 := (idx_facts t).2.2.2.2.2.2.2.2.1
  have h1 : win0_3.index t (1 : Fin 2) = 0 := (idx_facts t).2.2.2.2.2.2.2.2.2.1
  unfold iblk
  rw [View.read_apply]
  show V m c main_v2 _ = V m c main_v2 y
  refine congrArg (V m c main_v2) (funext fun a => Fin.ext ?_)
  match a with
  | ⟨0, _⟩ => show win0_3.index t (0 : Fin 2) * 1 + 1 * (y 0).val = (y 0).val; rw [h0]; omega
  | ⟨1, _⟩ => show win0_3.index t (1 : Fin 2) * 256 + 1 * (y 1).val = (y 1).val; rw [h1]; omega

theorem iblk4_apply (c : Dev nD) (t : Fin cfg0.N) (y : S256x128.Idx) :
    (iblk m c 4 t : Vec Ideal S256x128 .f32) y = (V m c main_v3 : S256x128.Idx → EReal) y := by
  have h0 : win0_4.index t (0 : Fin 2) = 0 := (idx_facts t).2.2.2.2.2.2.2.2.2.2.1
  have h1 : win0_4.index t (1 : Fin 2) = 0 := (idx_facts t).2.2.2.2.2.2.2.2.2.2.2.1
  unfold iblk
  rw [View.read_apply]
  show V m c main_v3 _ = V m c main_v3 y
  refine congrArg (V m c main_v3) (funext fun a => Fin.ext ?_)
  match a with
  | ⟨0, _⟩ => show win0_4.index t (0 : Fin 2) * 256 + 1 * (y 0).val = (y 0).val; rw [h0]; omega
  | ⟨1, _⟩ => show win0_4.index t (1 : Fin 2) * 128 + 1 * (y 1).val = (y 1).val; rw [h1]; omega

theorem iblk5_apply (c : Dev nD) (t : Fin cfg0.N) (y : S1x128.Idx) :
    (iblk m c 5 t : Vec Ideal S1x128 .f32) y = (V m c main_v4 : S1x128.Idx → EReal) y := by
  have h0 : win0_5.index t (0 : Fin 2) = 0 := (idx_facts t).2.2.2.2.2.2.2.2.2.2.2.2.1
  have h1 : win0_5.index t (1 : Fin 2) = 0 := (idx_facts t).2.2.2.2.2.2.2.2.2.2.2.2.2.1
  unfold iblk
  rw [View.read_apply]
  show V m c main_v4 _ = V m c main_v4 y
  refine congrArg (V m c main_v4) (funext fun a => Fin.ext ?_)
  match a with
  | ⟨0, _⟩ => show win0_5.index t (0 : Fin 2) * 1 + 1 * (y 0).val = (y 0).val; rw [h0]; omega
  | ⟨1, _⟩ => show win0_5.index t (1 : Fin 2) * 128 + 1 * (y 1).val = (y 1).val; rw [h1]; omega

theorem iblk6_apply (c : Dev nD) (t : Fin cfg0.N) (y : S1x128.Idx) :
    (iblk m c 6 t : Vec Ideal S1x128 .f32) y = (V m c main_v5 : S1x128.Idx → EReal) y := by
  have h0 : win0_6.index t (0 : Fin 2) = 0 := (idx_facts t).2.2.2.2.2.2.2.2.2.2.2.2.2.2.1
  have h1 : win0_6.index t (1 : Fin 2) = 0 := (idx_facts t).2.2.2.2.2.2.2.2.2.2.2.2.2.2.2.1
  unfold iblk
  rw [View.read_apply]
  show V m c main_v5 _ = V m c main_v5 y
  refine congrArg (V m c main_v5) (funext fun a => Fin.ext ?_)
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

theorem iblk7_apply (c : Dev nD) (t : Fin cfg0.N) (y : S1x128.Idx) :
    (iblk m c 7 t : Vec Ideal S1x128 .f32) y = (V m c main_v6 : S1x128.Idx → EReal) y := by
  have h0 : win0_7.index t (0 : Fin 2) = 0 := (idx_facts t).2.2.2.2.2.2.2.2.2.2.2.2.2.2.2.2.1
  have h1 : win0_7.index t (1 : Fin 2) = 0 := (idx_facts t).2.2.2.2.2.2.2.2.2.2.2.2.2.2.2.2.2.1
  unfold iblk
  rw [View.read_apply]
  show V m c main_v6 _ = V m c main_v6 y
  refine congrArg (V m c main_v6) (funext fun a => Fin.ext ?_)
  match a with
  | ⟨0, _⟩ => show win0_7.index t (0 : Fin 2) * 1 + 1 * (y 0).val = (y 0).val; rw [h0]; omega
  | ⟨1, _⟩ => show win0_7.index t (1 : Fin 2) * 128 + 1 * (y 1).val = (y 1).val; rw [h1]; omega

theorem iblk8_apply (c : Dev nD) (t : Fin cfg0.N) (y : S128x896.Idx) :
    (iblk m c 8 t : Vec Ideal S128x896 .f32) y = (V m c main_v8 : S128x896.Idx → EReal) y := by
  have h0 : win0_8.index t (0 : Fin 2) = 0 := (idx_facts t).2.2.2.2.2.2.2.2.2.2.2.2.2.2.2.2.2.2.1
  have h1 : win0_8.index t (1 : Fin 2) = 0 := (idx_facts t).2.2.2.2.2.2.2.2.2.2.2.2.2.2.2.2.2.2.2.1
  unfold iblk
  rw [View.read_apply]
  show V m c main_v8 _ = V m c main_v8 y
  refine congrArg (V m c main_v8) (funext fun a => Fin.ext ?_)
  match a with
  | ⟨0, _⟩ => show win0_8.index t (0 : Fin 2) * 128 + 1 * (y 0).val = (y 0).val; rw [h0]; omega
  | ⟨1, _⟩ => show win0_8.index t (1 : Fin 2) * 896 + 1 * (y 1).val = (y 1).val; rw [h1]; omega

theorem iblk9_apply (c : Dev nD) (t : Fin cfg0.N) (y : S128x896.Idx) :
    (iblk m c 9 t : Vec Ideal S128x896 .f32) y = (V m c main_v9 : S128x896.Idx → EReal) y := by
  have h0 : win0_9.index t (0 : Fin 2) = 0 := (idx_facts t).2.2.2.2.2.2.2.2.2.2.2.2.2.2.2.2.2.2.2.2.1
  have h1 : win0_9.index t (1 : Fin 2) = 0 := (idx_facts t).2.2.2.2.2.2.2.2.2.2.2.2.2.2.2.2.2.2.2.2.2.1
  unfold iblk
  rw [View.read_apply]
  show V m c main_v9 _ = V m c main_v9 y
  refine congrArg (V m c main_v9) (funext fun a => Fin.ext ?_)
  match a with
  | ⟨0, _⟩ => show win0_9.index t (0 : Fin 2) * 128 + 1 * (y 0).val = (y 0).val; rw [h0]; omega
  | ⟨1, _⟩ => show win0_9.index t (1 : Fin 2) * 896 + 1 * (y 1).val = (y 1).val; rw [h1]; omega

theorem iblk10_apply (c : Dev nD) (t : Fin cfg0.N) (y : S128x896.Idx) :
    (iblk m c 10 t : Vec Ideal S128x896 .f32) y = (V m c main_v10 : S128x896.Idx → EReal) y := by
  have h0 : win0_10.index t (0 : Fin 2) = 0 := (idx_facts t).2.2.2.2.2.2.2.2.2.2.2.2.2.2.2.2.2.2.2.2.2.2.1
  have h1 : win0_10.index t (1 : Fin 2) = 0 := (idx_facts t).2.2.2.2.2.2.2.2.2.2.2.2.2.2.2.2.2.2.2.2.2.2.2.1
  unfold iblk
  rw [View.read_apply]
  show V m c main_v10 _ = V m c main_v10 y
  refine congrArg (V m c main_v10) (funext fun a => Fin.ext ?_)
  match a with
  | ⟨0, _⟩ => show win0_10.index t (0 : Fin 2) * 128 + 1 * (y 0).val = (y 0).val; rw [h0]; omega
  | ⟨1, _⟩ => show win0_10.index t (1 : Fin 2) * 896 + 1 * (y 1).val = (y 1).val; rw [h1]; omega

theorem iblk11_apply (c : Dev nD) (t : Fin cfg0.N) (y : S1x896.Idx) :
    (iblk m c 11 t : Vec Ideal S1x896 .f32) y = (V m c main_v13 : S1x896.Idx → EReal) y := by
  have h0 : win0_11.index t (0 : Fin 2) = 0 := (idx_facts t).2.2.2.2.2.2.2.2.2.2.2.2.2.2.2.2.2.2.2.2.2.2.2.2.1
  have h1 : win0_11.index t (1 : Fin 2) = 0 := (idx_facts t).2.2.2.2.2.2.2.2.2.2.2.2.2.2.2.2.2.2.2.2.2.2.2.2.2
  unfold iblk
  rw [View.read_apply]
  show V m c main_v13 _ = V m c main_v13 y
  refine congrArg (V m c main_v13) (funext fun a => Fin.ext ?_)
  match a with
  | ⟨0, _⟩ => show win0_11.index t (0 : Fin 2) * 1 + 1 * (y 0).val = (y 0).val; rw [h0]; omega
  | ⟨1, _⟩ => show win0_11.index t (1 : Fin 2) * 896 + 1 * (y 1).val = (y 1).val; rw [h1]; omega

end Cert.KernelIdeal.Whole

end
-- ==== Proof.Spec.lean ====
/-
  The mathematics both programs compute, one query row at a time, on the extended reals.

  A support set of five rows passes through a two-layer perceptron with a residual connection and a layer
  normalisation (mean, unbiased variance, a small constant added to the standard deviation); the five normalised rows
  are averaged into one vector `sg`. A query row `x` then runs four steps of a long short-term memory cell whose
  hidden input is the previous output `h` followed by `sg` (the attention over a single support vector is the
  constant one, so the read-out is `sg` itself); only the first half of the cell's output feeds the next step. The
  result is the inner product of the last `h` with `sg`.
-/
import Idealize.ShloMosaic.PureOps.Ideal

noncomputable section

namespace Cert.Spec

open Idealize.ShloMosaic

abbrev c0 : EReal := Ideal.ofBits .f32 0x00000000#32
abbrev c1 : EReal := Ideal.ofBits .f32 0x3F800000#32
abbrev chalf : EReal := Ideal.ofBits .f32 0x3F000000#32
abbrev c128 : EReal := Ideal.ofBits .f32 0x43000000#32
abbrev c127 : EReal := Ideal.ofBits .f32 0x42FE0000#32
abbrev c5 : EReal := Ideal.ofBits .f32 0x40A00000#32
abbrev ceps : EReal := Ideal.ofBits .f32 0x3A83126F#32

/-! ## The support encoder -/

/-- The hidden layer: `max (sup · W1ᵀ + b1) 0`. -/
def hid (sup : Fin 5 → Fin 128 → EReal) (W1 : Fin 256 → Fin 128 → EReal) (b1 : Fin 256 → EReal)
    (s : Fin 5) (j : Fin 256) : EReal :=
  max ((∑ k : Fin 128, sup s k * W1 j k) + b1 j) c0

/-- The second layer with its bias and the residual: `hid · W2ᵀ + b2 + sup`. -/
def res (sup : Fin 5 → Fin 128 → EReal) (W1 : Fin 256 → Fin 128 → EReal) (b1 : Fin 256 → EReal)
    (W2 : Fin 128 → Fin 256 → EReal) (b2 : Fin 128 → EReal) (s : Fin 5) (j : Fin 128) : EReal :=
  ((∑ k : Fin 256, hid sup W1 b1 s k * W2 j k) + b2 j) + sup s j

/-- A row's mean. -/
def mean (t : Fin 5 → Fin 128 → EReal) (s : Fin 5) : EReal := Ideal.div (∑ k : Fin 128, t s k) c128

/-- A row's unbiased variance. -/
def var (t : Fin 5 → Fin 128 → EReal) (s : Fin 5) : EReal :=
  Ideal.div (∑ k : Fin 128, (t s k - mean t s) * (t s k - mean t s)) c127

/-- The centred row over its standard deviation plus the small constant. -/
def cen (t : Fin 5 → Fin 128 → EReal) (s : Fin 5) (j : Fin 128) : EReal :=
  Ideal.div (t s j - mean t s) (Ideal.sqrt (var t s) + ceps)

/-- The layer normalisation: scaled by `g`, shifted by `b`. -/
def lnorm (t : Fin 5 → Fin 128 → EReal) (g b : Fin 128 → EReal) (s : Fin 5) (j : Fin 128) : EReal :=
  cen t s j * g j + b j

/-- The support vector: the mean of the five normalised rows. -/
def sgOf (t : Fin 5 → Fin 128 → EReal) (g b : Fin 128 → EReal) (j : Fin 128) : EReal :=
  Ideal.div (∑ s : Fin 5, lnorm t g b s j) c5

/-! ## The cell -/

/-- The logistic function as the quotient `1 / (1 + e^{-x})`. -/
def sig (x : EReal) : EReal := Ideal.div c1 (c1 + Ideal.exp (-x))

/-- The four gate blocks of a 1024-wide gate vector. -/
def gi (j : Fin 256) : Fin 1024 := ⟨j.val, by omega⟩
def gf (j : Fin 256) : Fin 1024 := ⟨256 + j.val, by omega⟩
def gg (j : Fin 256) : Fin 1024 := ⟨512 + j.val, by omega⟩
def go (j : Fin 256) : Fin 1024 := ⟨768 + j.val, by omega⟩

/-- The first half of a 256-wide vector. -/
def lo (j : Fin 128) : Fin 256 := ⟨j.val, by omega⟩
/-- The second half. -/
def hi (j : Fin 128) : Fin 256 := ⟨128 + j.val, by omega⟩

/-- The hidden input of a step: the previous output followed by the support vector. -/
def cat (h sg : Fin 128 → EReal) (k : Fin 256) : EReal :=
  if hk : k.val < 128 then h ⟨k.val, hk⟩ else sg ⟨k.val - 128, by omega⟩

/-- The gate pre-activations: `x · W_ihᵀ + b_ih + hr · W_hhᵀ + b_hh`, added in this order. -/
def gates (Wih : Fin 1024 → Fin 128 → EReal) (Whh : Fin 1024 → Fin 256 → EReal) (bih bhh : Fin 1024 → EReal)
    (x : Fin 128 → EReal) (hr : Fin 256 → EReal) (j : Fin 1024) : EReal :=
  (((∑ k : Fin 128, x k * Wih j k) + bih j) + ∑ k : Fin 256, hr k * Whh j k) + bhh j

/-- The new cell state: forget gate times the old state plus input gate times candidate. -/
def cell (G : Fin 1024 → EReal) (c : Fin 256 → EReal) (j : Fin 256) : EReal :=
  sig (G (gf j)) * c j + sig (G (gi j)) * Ideal.tanh (G (gg j))

/-- The step's output on its first half: the query row plus output gate times `tanh` of the new cell state. -/
def hnext (x : Fin 128 → EReal) (G : Fin 1024 → EReal) (c : Fin 256 → EReal) (j : Fin 128) : EReal :=
  x j + sig (G (go (lo j))) * Ideal.tanh (cell G c (lo j))

/-- The state after `n` steps: the cell state and the output (step 0: zero cell state, zero hidden input). -/
structure St where
  c : Fin 256 → EReal
  h : Fin 128 → EReal

def step (Wih : Fin 1024 → Fin 128 → EReal) (Whh : Fin 1024 → Fin 256 → EReal) (bih bhh : Fin 1024 → EReal)
    (x : Fin 128 → EReal) (hr : Fin 256 → EReal) (c : Fin 256 → EReal) : St :=
  ⟨cell (gates Wih Whh bih bhh x hr) c, hnext x (gates Wih Whh bih bhh x hr) c⟩

def st1 (Wih : Fin 1024 → Fin 128 → EReal) (Whh : Fin 1024 → Fin 256 → EReal) (bih bhh : Fin 1024 → EReal)
    (x : Fin 128 → EReal) : St :=
  step Wih Whh bih bhh x (fun _ => c0) (fun _ => c0)

def st2 (Wih : Fin 1024 → Fin 128 → EReal) (Whh : Fin 1024 → Fin 256 → EReal) (bih bhh : Fin 1024 → EReal)
    (sg x : Fin 128 → EReal) : St :=
  step Wih Whh bih bhh x (cat (st1 Wih Whh bih bhh x).h sg) (st1 Wih Whh bih bhh x).c

def st3 (Wih : Fin 1024 → Fin 128 → EReal) (Whh : Fin 1024 → Fin 256 → EReal) (bih bhh : Fin 1024 → EReal)
    (sg x : Fin 128 → EReal) : St :=
  step Wih Whh bih bhh x (cat (st2 Wih Whh bih bhh sg x).h sg) (st2 Wih Whh bih bhh sg x).c

def st4 (Wih : Fin 1024 → Fin 128 → EReal) (Whh : Fin 1024 → Fin 256 → EReal) (bih bhh : Fin 1024 → EReal)
    (sg x : Fin 128 → EReal) : St :=
  step Wih Whh bih bhh x (cat (st3 Wih Whh bih bhh sg x).h sg) (st3 Wih Whh bih bhh sg x).c

/-- The similarity of a query row to the support vector. -/
def out (Wih : Fin 1024 → Fin 128 → EReal) (Whh : Fin 1024 → Fin 256 → EReal) (bih bhh : Fin 1024 → EReal)
    (sg x : Fin 128 → EReal) : EReal :=
  ∑ k : Fin 128, (st4 Wih Whh bih bhh sg x).h k * sg k

end Cert.Spec

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KerPay.lean ====
import proofs.«162834_g48816598286877_cont_sun_m_45_4_alg».proof.Proof.Gen.KernelIdeal.Skeleton
import proofs.«162834_g48816598286877_cont_sun_m_45_4_alg».proof.Proof.Spec
import proofs.«162834_g48816598286877_cont_sun_m_45_4_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

/-!
  The kernel body's values read entry by entry on the extended reals: each named value of the body at row `r` and
  column `j` of its block as the arithmetic of the values it is computed from at that row. A matrix product into a
  zero accumulator is the row-by-column sum; a column slice reads the source at the shifted column; the logistic
  function appears in the form `½·tanh(½·x) + ½`.
-/
namespace Cert.KernelIdeal.Pay

open Cert.KernelIdeal Cert.KernelIdeal.Gen Idealize.ShloMosaic Idealize.ShloMosaic.ValueIdx

/-- The logistic function as the kernel computes it. -/
def sigK (x : EReal) : EReal := Cert.Spec.chalf * Ideal.tanh (Cert.Spec.chalf * x) + Cert.Spec.chalf

theorem tanh_at {s : Shape} (a : FVec Ideal s .f32) (i : s.Idx) : tanh a i = Ideal.tanh (a i) := rfl

/-- A column slice of a 896-wide block at `(r, j)` is the block at `(r, o + j)`. -/
theorem cols896 {w : Nat} (o : Nat) (X : Vec Ideal S1024x896 .f32) (h : S1024x896.Slices ![0, o] ⟨2, ![1024, w]⟩)
    (r : Fin 1024) (j : Fin w) (k : Fin 896) (hk : k.val = o + j.val) :
    extractStridedSlice ⟨2, ![1024, w]⟩ ![0, o] X h (ix2 r j) = X (ix2 r k) :=
  slice2_axis1_apply o X h r j k hk

/-- The first 128 columns of a 256-wide block. -/
theorem cols256 (X : Vec Ideal S1024x256 .f32) (h : S1024x256.Slices ![0, 0] ⟨2, ![1024, 128]⟩)
    (r : Fin 1024) (j : Fin 128) (k : Fin 256) (hk : k.val = j.val) :
    extractStridedSlice ⟨2, ![1024, 128]⟩ ![0, 0] X h (ix2 r j) = X (ix2 r k) :=
  slice2_axis1_apply 0 X h r j k (by omega)

/-- The query block times a weight block, at an entry. -/
theorem mm896 (x : FVec Ideal S1024x128 .f32) (w : FVec Ideal S128x896 .f32) (r : Fin 1024) (j : Fin 896) :
    matmul (F := Ideal) (φ₁ := .f32) (φ₂ := .f32) dot_S1024x128_S128x896_S1024x896_1_0_0_1_n_n none x w (constant S1024x896 .f32 0x00000000#32) (ix2 r j)
      = ∑ k : Fin 128, x (ix2 r k) * w (ix2 k j) :=
  Cert.LibDense.matmul_plain (M := 1024) (K := 128) (N := 896) (φ₁ := .f32) (φ₂ := .f32) x w (ix2 r j)

/-- The input part of the gates: the query row times `W_ihᵀ` plus the summed biases. -/
theorem pay4_apply (v53 : Vec Ideal S1024x128 .f32) (v54 : Vec Ideal S128x896 .f32) (v57 : Vec Ideal S1x896 .f32)
    (r : Fin 1024) (j : Fin 896) :
    k0_pay4 v53 v54 v57 (ix2 r j) = (∑ k : Fin 128, v53 (ix2 r k) * v54 (ix2 k j)) + v57 (ix2 (0 : Fin 1) j) := by
  unfold k0_pay4
  rw [shapeCast_self, shapeCast_self]
  exact congrArg₂ (· + ·) (mm896 v53 v54 r j) (broadcastTo_1b_ab_apply v57 _ r j)

/-- The same plus the support vector's constant contribution through the second half of `W_hhᵀ`. -/
theorem pay5_apply (v37 : FVec Ideal S5x128 .f32) (v38 v42 : Vec Ideal S1x128 .f32) (v50 : Vec Ideal S128x896 .f32)
    (v53 : Vec Ideal S1024x128 .f32) (v54 : Vec Ideal S128x896 .f32) (v57 : Vec Ideal S1x896 .f32) (r : Fin 1024) (j : Fin 896) :
    k0_pay5 v37 v38 v42 v50 v53 v54 v57 (ix2 r j)
      = k0_pay4 v53 v54 v57 (ix2 r j) + ∑ k : Fin 128, k0_pay3 v37 v38 v42 (ix2 (0 : Fin 1) k) * v50 (ix2 k j) := by
  unfold k0_pay5
  rw [shapeCast_self]
  refine congrArg₂ (· + ·) rfl ?_
  refine (broadcastTo_1b_ab_apply _ _ r j).trans ?_
  exact Cert.LibDense.matmul_plain (M := 1) (K := 128) (N := 896) (k0_pay3 v37 v38 v42) v50 (ix2 (0 : Fin 1) j)

/-- Step one's input gate. -/
theorem pay6_apply (v53 : Vec Ideal S1024x128 .f32) (v54 : Vec Ideal S128x896 .f32) (v57 : Vec Ideal S1x896 .f32)
    (r : Fin 1024) (j : Fin 256) :
    k0_pay6 v53 v54 v57 (ix2 r j) = sigK (k0_pay4 v53 v54 v57 (ix2 r ⟨j.val, by omega⟩)) := by
  unfold k0_pay6 sigK
  show Cert.Spec.chalf * Ideal.tanh (Cert.Spec.chalf * extractStridedSlice S1024x256 ![0, 0] (k0_pay4 v53 v54 v57) slices_S1024x896_o0_0_S1024x256 (ix2 r j)) + Cert.Spec.chalf = _
  rw [cols896 0 (k0_pay4 v53 v54 v57) _ r j ⟨j.val, by omega⟩ (by simp)]

/-- Step one's candidate. -/
theorem pay7_apply (v53 : Vec Ideal S1024x128 .f32) (v54 : Vec Ideal S128x896 .f32) (v57 : Vec Ideal S1x896 .f32)
    (r : Fin 1024) (j : Fin 256) :
    k0_pay7 v53 v54 v57 (ix2 r j) = Ideal.tanh (k0_pay4 v53 v54 v57 (ix2 r ⟨512 + j.val, by omega⟩)) := by
  unfold k0_pay7
  show Ideal.tanh (extractStridedSlice S1024x256 ![0, 512] (k0_pay4 v53 v54 v57) slices_S1024x896_o0_512_S1024x256 (ix2 r j)) = _
  rw [cols896 512 (k0_pay4 v53 v54 v57) _ r j ⟨512 + j.val, by omega⟩ rfl]

/-- Step one's output gate, before its final `+ ½`. -/
theorem pay8_apply (v53 : Vec Ideal S1024x128 .f32) (v54 : Vec Ideal S128x896 .f32) (v57 : Vec Ideal S1x896 .f32)
    (r : Fin 1024) (j : Fin 128) :
    k0_pay8 v53 v54 v57 (ix2 r j) = Cert.Spec.chalf * Ideal.tanh (Cert.Spec.chalf * k0_pay4 v53 v54 v57 (ix2 r ⟨768 + j.val, by omega⟩)) := by
  unfold k0_pay8
  show Cert.Spec.chalf * Ideal.tanh (Cert.Spec.chalf * extractStridedSlice S1024x128 ![0, 768] (k0_pay4 v53 v54 v57) slices_S1024x896_o0_768_S1024x128 (ix2 r j)) = _
  rw [cols896 768 (k0_pay4 v53 v54 v57) _ r j ⟨768 + j.val, by omega⟩ rfl]

/-- Step one's cell state: input gate times candidate. -/
theorem pay9_apply (v70 v72 : FVec Ideal S1024x256 .f32) (i : S1024x256.Idx) : k0_pay9 v70 v72 i = v70 i * v72 i := rfl

/-- Step two's gates. -/
theorem pay10_apply (v53 : Vec Ideal S1024x128 .f32) (v62 : FVec Ideal S1024x896 .f32) (v70 v72 : FVec Ideal S1024x256 .f32)
    (v78 : FVec Ideal S1024x128 .f32) (cst : EReal) (v86 : Vec Ideal S128x896 .f32) (r : Fin 1024) (j : Fin 896) :
    k0_pay10 v53 v62 v70 v72 v78 cst v86 (ix2 r j)
      = v62 (ix2 r j) + ∑ k : Fin 128, (v53 (ix2 r k) + (v78 (ix2 r k) + cst) * Ideal.tanh (k0_pay9 v70 v72 (ix2 r ⟨k.val, by omega⟩))) * v86 (ix2 k j) := by
  unfold k0_pay10
  rw [shapeCast_self]
  refine congrArg₂ (· + ·) rfl ?_
  refine (mm896 _ v86 r j).trans (Finset.sum_congr rfl fun k _ => congrArg (· * v86 (ix2 k j)) ?_)
  show v53 (ix2 r k) + (v78 (ix2 r k) + cst) * Ideal.tanh (extractStridedSlice S1024x128 ![0, 0] (k0_pay9 v70 v72) slices_S1024x256_o0_0_S1024x128 (ix2 r k)) = _
  rw [cols256 (k0_pay9 v70 v72) _ r k ⟨k.val, by omega⟩ rfl]

/-- A later step's cell state from its gates `G` and the previous cell state `c`. -/
theorem cell_of (G : FVec Ideal S1024x896 .f32) (c : FVec Ideal S1024x256 .f32) (r : Fin 1024) (j : Fin 256) :
    sigK (extractStridedSlice S1024x256 ![0, 256] G slices_S1024x896_o0_256_S1024x256 (ix2 r j)) * c (ix2 r j)
      + sigK (extractStridedSlice S1024x256 ![0, 0] G slices_S1024x896_o0_0_S1024x256 (ix2 r j))
        * Ideal.tanh (extractStridedSlice S1024x256 ![0, 512] G slices_S1024x896_o0_512_S1024x256 (ix2 r j))
      = sigK (G (ix2 r ⟨256 + j.val, by omega⟩)) * c (ix2 r j)
        + sigK (G (ix2 r ⟨j.val, by omega⟩)) * Ideal.tanh (G (ix2 r ⟨512 + j.val, by omega⟩)) := by
  rw [cols896 256 G _ r j ⟨256 + j.val, by omega⟩ rfl, cols896 0 G _ r j ⟨j.val, by omega⟩ (by simp),
    cols896 512 G _ r j ⟨512 + j.val, by omega⟩ rfl]

/-- Step two's cell state. -/
theorem pay11_apply (v53 : Vec Ideal S1024x128 .f32) (v62 : FVec Ideal S1024x896 .f32) (v70 v72 : FVec Ideal S1024x256 .f32)
    (v78 : FVec Ideal S1024x128 .f32) (cst : EReal) (v86 : Vec Ideal S128x896 .f32) (r : Fin 1024) (j : Fin 256) :
    k0_pay11 v53 v62 v70 v72 v78 cst v86 (ix2 r j)
      = sigK (k0_pay10 v53 v62 v70 v72 v78 cst v86 (ix2 r ⟨256 + j.val, by omega⟩)) * k0_pay9 v70 v72 (ix2 r j)
        + sigK (k0_pay10 v53 v62 v70 v72 v78 cst v86 (ix2 r ⟨j.val, by omega⟩))
          * Ideal.tanh (k0_pay10 v53 v62 v70 v72 v78 cst v86 (ix2 r ⟨512 + j.val, by omega⟩)) := by
  unfold k0_pay11
  exact cell_of (k0_pay10 v53 v62 v70 v72 v78 cst v86) (k0_pay9 v70 v72) r j

/-- Step two's output. -/
theorem pay12_apply (v53 : Vec Ideal S1024x128 .f32) (v62 : FVec Ideal S1024x896 .f32) (v70 v72 : FVec Ideal S1024x256 .f32)
    (v78 : FVec Ideal S1024x128 .f32) (cst : EReal) (v86 : Vec Ideal S128x896 .f32) (r : Fin 1024) (j : Fin 128) :
    k0_pay12 v53 v62 v70 v72 v78 cst v86 (ix2 r j)
      = v53 (ix2 r j) + sigK (k0_pay10 v53 v62 v70 v72 v78 cst v86 (ix2 r ⟨768 + j.val, by omega⟩))
          * Ideal.tanh (k0_pay11 v53 v62 v70 v72 v78 cst v86 (ix2 r ⟨j.val, by omega⟩)) := by
  unfold k0_pay12 sigK
  show v53 (ix2 r j) + (Cert.Spec.chalf * Ideal.tanh (Cert.Spec.chalf * extractStridedSlice S1024x128 ![0, 768] (k0_pay10 v53 v62 v70 v72 v78 cst v86) slices_S1024x896_o0_768_S1024x128 (ix2 r j)) + Cert.Spec.chalf)
      * Ideal.tanh (extractStridedSlice S1024x128 ![0, 0] (k0_pay11 v53 v62 v70 v72 v78 cst v86) slices_S1024x256_o0_0_S1024x128 (ix2 r j)) = _
  rw [cols896 768 (k0_pay10 v53 v62 v70 v72 v78 cst v86) _ r j ⟨768 + j.val, by omega⟩ rfl,
    cols256 (k0_pay11 v53 v62 v70 v72 v78 cst v86) _ r j ⟨j.val, by omega⟩ rfl]

theorem pay13_eq (v123 : Vec Ideal S128x896 .f32) : k0_pay13 v123 = v123 := by
  unfold k0_pay13; exact shapeCast_self _ _

/-- Step three's gates. -/
theorem pay14_apply (v62 : FVec Ideal S1024x896 .f32) (v122 : FVec Ideal S1024x128 .f32) (v124 : FVec Ideal S128x896 .f32)
    (r : Fin 1024) (j : Fin 896) :
    k0_pay14 v62 v122 v124 (ix2 r j) = v62 (ix2 r j) + ∑ k : Fin 128, v122 (ix2 r k) * v124 (ix2 k j) := by
  unfold k0_pay14
  exact congrArg₂ (· + ·) rfl (mm896 v122 v124 r j)

/-- Step three's cell state. -/
theorem pay15_apply (v62 : FVec Ideal S1024x896 .f32) (v118 : FVec Ideal S1024x256 .f32) (v122 : FVec Ideal S1024x128 .f32)
    (v124 : FVec Ideal S128x896 .f32) (r : Fin 1024) (j : Fin 256) :
    k0_pay15 v62 v118 v122 v124 (ix2 r j)
      = sigK (k0_pay14 v62 v122 v124 (ix2 r ⟨256 + j.val, by omega⟩)) * v118 (ix2 r j)
        + sigK (k0_pay14 v62 v122 v124 (ix2 r ⟨j.val, by omega⟩)) * Ideal.tanh (k0_pay14 v62 v122 v124 (ix2 r ⟨512 + j.val, by omega⟩)) := by
  unfold k0_pay15
  exact cell_of (k0_pay14 v62 v122 v124) v118 r j

/-- Step four's gates. -/
theorem pay16_apply (v53 : Vec Ideal S1024x128 .f32) (v62 : FVec Ideal S1024x896 .f32) (v118 : FVec Ideal S1024x256 .f32)
    (v122 : FVec Ideal S1024x128 .f32) (v124 : FVec Ideal S128x896 .f32) (v160 : Vec Ideal S128x896 .f32) (r : Fin 1024) (j : Fin 896) :
    k0_pay16 v53 v62 v118 v122 v124 v160 (ix2 r j)
      = v62 (ix2 r j) + ∑ k : Fin 128, (v53 (ix2 r k) + sigK (k0_pay14 v62 v122 v124 (ix2 r ⟨768 + k.val, by omega⟩))
          * Ideal.tanh (k0_pay15 v62 v118 v122 v124 (ix2 r ⟨k.val, by omega⟩))) * v160 (ix2 k j) := by
  unfold k0_pay16
  rw [shapeCast_self]
  refine congrArg₂ (· + ·) rfl ?_
  refine (mm896 _ v160 r j).trans (Finset.sum_congr rfl fun k _ => congrArg (· * v160 (ix2 k j)) ?_)
  unfold sigK
  show v53 (ix2 r k) + (Cert.Spec.chalf * Ideal.tanh (Cert.Spec.chalf * extractStridedSlice S1024x128 ![0, 768] (k0_pay14 v62 v122 v124) slices_S1024x896_o0_768_S1024x128 (ix2 r k)) + Cert.Spec.chalf)
      * Ideal.tanh (extractStridedSlice S1024x128 ![0, 0] (k0_pay15 v62 v118 v122 v124) slices_S1024x256_o0_0_S1024x128 (ix2 r k)) = _
  rw [cols896 768 (k0_pay14 v62 v122 v124) _ r k ⟨768 + k.val, by omega⟩ rfl,
    cols256 (k0_pay15 v62 v118 v122 v124) _ r k ⟨k.val, by omega⟩ rfl]

/-- Step four's input gate, before its final `+ ½`. -/
theorem pay17_apply (v53 : Vec Ideal S1024x128 .f32) (v62 : FVec Ideal S1024x896 .f32) (v118 : FVec Ideal S1024x256 .f32)
    (v122 : FVec Ideal S1024x128 .f32) (v124 : FVec Ideal S128x896 .f32) (v160 : Vec Ideal S128x896 .f32) (r : Fin 1024) (j : Fin 128) :
    k0_pay17 v53 v62 v118 v122 v124 v160 (ix2 r j)
      = Cert.Spec.chalf * Ideal.tanh (Cert.Spec.chalf * k0_pay16 v53 v62 v118 v122 v124 v160 (ix2 r ⟨j.val, by omega⟩)) := by
  unfold k0_pay17
  show Cert.Spec.chalf * Ideal.tanh (Cert.Spec.chalf * extractStridedSlice S1024x128 ![0, 0] (k0_pay16 v53 v62 v118 v122 v124 v160) slices_S1024x896_o0_0_S1024x128 (ix2 r j)) = _
  rw [cols896 0 (k0_pay16 v53 v62 v118 v122 v124 v160) _ r j ⟨j.val, by omega⟩ (by simp)]

/-- The last product: every row of the block against the single support row. -/
theorem mmNT (x : FVec Ideal S1024x128 .f32) (w : FVec Ideal S1x128 .f32) (r : Fin 1024) :
    matmul (F := Ideal) (φ₁ := .f32) (φ₂ := .f32) dot_S1024x128_S1x128_S1024x1_1_1_0_0_n_n none x w (constant S1024x1 .f32 0x00000000#32) (ix2 r (0 : Fin 1))
      = ∑ k : Fin 128, x (ix2 r k) * w (ix2 (0 : Fin 1) k) := by
  refine (Ideal.matmul_constant_zero_apply dot_S1024x128_S1x128_S1024x1_1_1_0_0_n_n none x w (ix2 r (0 : Fin 1))).trans ?_
  rw [← Equiv.sum_comp (contrEquiv1 dot_S1024x128_S1x128_S1024x1_1_1_0_0_n_n 128 rfl rfl).symm]
  refine Finset.sum_congr rfl fun k _ => ?_
  have hk := contrEquiv1_symm_val dot_S1024x128_S1x128_S1024x1_1_1_0_0_n_n 128 rfl rfl k
  have el : dot_S1024x128_S1x128_S1024x1_1_1_0_0_n_n.lhsIdx (ix2 r (0 : Fin 1)) ((contrEquiv1 dot_S1024x128_S1x128_S1024x1_1_1_0_0_n_n 128 rfl rfl).symm k) = ix2 r k :=
    funext fun a => Fin.ext (by
      match a with
      | ⟨0, _⟩ =>
        show (dot_S1024x128_S1x128_S1024x1_1_1_0_0_n_n.lhsIdx (ix2 r (0 : Fin 1)) _ (0 : Fin S1024x128.rank)).val = r.val
        unfold DotDims.lhsIdx
        rw [dif_neg (show ¬(0 : Fin S1024x128.rank) ∈ dot_S1024x128_S1x128_S1024x1_1_1_0_0_n_n.lhsBatch from List.not_mem_nil),
          dif_pos (show (0 : Fin S1024x128.rank) ∈ dot_S1024x128_S1x128_S1024x1_1_1_0_0_n_n.lhsNonContracting from List.mem_singleton.mpr rfl)]
        rfl
      | ⟨1, _⟩ => exact (dot_S1024x128_S1x128_S1024x1_1_1_0_0_n_n.lhsIdx_val_of_single rfl _ _).trans hk)
  have er : dot_S1024x128_S1x128_S1024x1_1_1_0_0_n_n.rhsIdx (ix2 r (0 : Fin 1)) ((contrEquiv1 dot_S1024x128_S1x128_S1024x1_1_1_0_0_n_n 128 rfl rfl).symm k) = ix2 (0 : Fin 1) k :=
    funext fun a => Fin.ext (by
      match a with
      | ⟨0, _⟩ => exact Nat.lt_one_iff.mp (dot_S1024x128_S1x128_S1024x1_1_1_0_0_n_n.rhsIdx (ix2 r (0 : Fin 1)) _ ⟨0, by decide⟩).isLt
      | ⟨1, _⟩ => exact (dot_S1024x128_S1x128_S1024x1_1_1_0_0_n_n.rhsIdx_val_of_single rfl _ _).trans hk)
  exact congrArg₂ (· * ·) (congrArg x el) (congrArg w er)

/-- The result: the last output's inner product with the support vector, the last step's quantities 128 wide. -/
theorem pay1_apply (v49 : FVec Ideal S1x128 .f32) (v53 : Vec Ideal S1024x128 .f32) (v155 : FVec Ideal S1024x256 .f32)
    (v163 : FVec Ideal S1024x896 .f32) (v169 : FVec Ideal S1024x128 .f32) (r : Fin 1024) :
    k0_pay1 v49 v53 v155 v163 v169 (ix2 r (0 : Fin 1))
      = ∑ k : Fin 128, (v53 (ix2 r k) + sigK (v163 (ix2 r ⟨768 + k.val, by omega⟩))
          * Ideal.tanh (sigK (v163 (ix2 r ⟨256 + k.val, by omega⟩)) * v155 (ix2 r ⟨k.val, by omega⟩)
              + (v169 (ix2 r k) + Cert.Spec.chalf) * Ideal.tanh (v163 (ix2 r ⟨512 + k.val, by omega⟩)))) * v49 (ix2 (0 : Fin 1) k) := by
  unfold k0_pay1
  refine (mmNT _ v49 r).trans (Finset.sum_congr rfl fun k _ => congrArg (· * v49 (ix2 (0 : Fin 1) k)) ?_)
  unfold sigK
  show v53 (ix2 r k) + (Cert.Spec.chalf * Ideal.tanh (Cert.Spec.chalf * extractStridedSlice S1024x128 ![0, 768] v163 slices_S1024x896_o0_768_S1024x128 (ix2 r k)) + Cert.Spec.chalf)
      * Ideal.tanh ((Cert.Spec.chalf * Ideal.tanh (Cert.Spec.chalf * extractStridedSlice S1024x128 ![0, 256] v163 slices_S1024x896_o0_256_S1024x128 (ix2 r k)) + Cert.Spec.chalf)
            * extractStridedSlice S1024x128 ![0, 0] v155 slices_S1024x256_o0_0_S1024x128 (ix2 r k)
          + (v169 (ix2 r k) + Cert.Spec.chalf) * Ideal.tanh (extractStridedSlice S1024x128 ![0, 512] v163 slices_S1024x896_o0_512_S1024x128 (ix2 r k))) = _
  rw [cols896 768 v163 _ r k ⟨768 + k.val, by omega⟩ rfl, cols896 256 v163 _ r k ⟨256 + k.val, by omega⟩ rfl,
    cols256 v155 _ r k ⟨k.val, by omega⟩ rfl, cols896 512 v163 _ r k ⟨512 + k.val, by omega⟩ rfl]

end Cert.KernelIdeal.Pay

end
-- ==== Proof.Reals.lean ====
/-
  Facts on the extended reals that the cell and the support encoder rest on: the constants as real numbers, the
  logistic quotient as a hyperbolic tangent, which of the values are real numbers, and the gate sums split into the
  part that reads the previous output and the part that reads the support vector.
-/
import Idealize.ShloMosaic.PureOps.Ideal
import proofs.«162834_g48816598286877_cont_sun_m_45_4_alg».proof.Proof.Spec

noncomputable section

namespace Cert.Reals

open Idealize.ShloMosaic Cert.Spec

/-! ## The constants as real numbers -/

theorem c0_eq : c0 = 0 := by
  show Ideal.ofBits .f32 0x00000000#32 = 0
  simp [Ideal.ofBits, Ideal.ieee]

theorem c1_eq : c1 = 1 := by
  show Ideal.ofBits .f32 0x3F800000#32 = 1
  simp [Ideal.ofBits, Ideal.ieee, -EReal.coe_mul]; norm_num

theorem chalf_eq : chalf = ((1 / 2 : ℝ) : EReal) := by
  show Ideal.ofBits .f32 0x3F000000#32 = ((1 / 2 : ℝ) : EReal)
  simp [Ideal.ofBits, Ideal.ieee, -EReal.coe_mul]; norm_num

theorem c128_eq : c128 = ((128 : ℝ) : EReal) := by
  show Ideal.ofBits .f32 0x43000000#32 = ((128 : ℝ) : EReal)
  simp [Ideal.ofBits, Ideal.ieee, -EReal.coe_mul]; norm_num

theorem c127_eq : c127 = ((127 : ℝ) : EReal) := by
  show Ideal.ofBits .f32 0x42FE0000#32 = ((127 : ℝ) : EReal)
  simp [Ideal.ofBits, Ideal.ieee, -EReal.coe_mul]; norm_num

theorem c5_eq : c5 = ((5 : ℝ) : EReal) := by
  show Ideal.ofBits .f32 0x40A00000#32 = ((5 : ℝ) : EReal)
  simp [Ideal.ofBits, Ideal.ieee, -EReal.coe_mul]; norm_num

/-- The small constant is a positive real number. -/
theorem ceps_pos : ∃ e : ℝ, 0 < e ∧ ceps = (e : EReal) := by
  show ∃ e : ℝ, 0 < e ∧ Ideal.ofBits .f32 0x3A83126F#32 = (e : EReal)
  simp [Ideal.ofBits, Ideal.ieee, -EReal.coe_mul]

/-- The pattern of minus infinity denotes the bottom element. -/
theorem ninf_eq : Ideal.ofBits .f32 0xFF800000#32 = ⊥ := by
  simp [Ideal.ofBits, Ideal.ieee]

/-! ## The logistic quotient is a hyperbolic tangent -/

theorem sig_eq_logistic (x : EReal) : sig x = Ideal.logistic x := by
  unfold sig Ideal.logistic
  rw [c1_eq]

/-- With `a = e^y`, `b = e^{-y}`: `1 / (1 + b²) = a / (a + b) = (1 + (a - b) / (a + b)) / 2`. -/
private theorem logistic_tanh_alg (a b : ℝ) (ha : 0 < a) (hb : 0 < b) (hab : a * b = 1) :
    (1 + b * b)⁻¹ = 1 / 2 * ((a - b) / 2 / ((a + b) / 2)) + 1 / 2 := by
  have hsum : a + b ≠ 0 := by positivity
  have h1 : 1 + b * b ≠ 0 := by positivity
  have hL : (1 + b * b)⁻¹ = a / (a + b) := by
    rw [inv_eq_one_div, div_eq_div_iff h1 hsum]
    linear_combination (-b) * hab
  have hR : 1 / 2 * ((a - b) / 2 / ((a + b) / 2)) + 1 / 2 = a / (a + b) := by
    field_simp
    ring
  rw [hL, hR]

theorem real_logistic_tanh (r : ℝ) : (1 + Real.exp (-r))⁻¹ = 1 / 2 * Real.tanh (1 / 2 * r) + 1 / 2 := by
  have hab : Real.exp (1 / 2 * r) * Real.exp (-(1 / 2 * r)) = 1 := by
    rw [← Real.exp_add, add_neg_cancel, Real.exp_zero]
  have hbb : Real.exp (-r) = Real.exp (-(1 / 2 * r)) * Real.exp (-(1 / 2 * r)) := by
    rw [← Real.exp_add]; congr 1; ring
  rw [Real.tanh_eq_sinh_div_cosh, Real.sinh_eq, Real.cosh_eq, hbb]
  exact logistic_tanh_alg _ _ (Real.exp_pos _) (Real.exp_pos _) hab

/-- On every extended real, the logistic quotient is `tanh (x / 2) / 2 + 1 / 2`. -/
theorem sig_eq_tanh (x : EReal) : sig x = chalf * Ideal.tanh (chalf * x) + chalf := by
  have hh : (0 : ℝ) < 1 / 2 := by norm_num
  rw [sig_eq_logistic, chalf_eq]
  induction x with
  | bot =>
    rw [EReal.coe_mul_bot_of_pos hh, Ideal.tanh_bot, Ideal.logistic_bot, ← EReal.coe_one, ← EReal.coe_neg,
      ← EReal.coe_mul, ← EReal.coe_add]
    norm_num
  | coe r =>
    rw [Ideal.logistic_coe, ← EReal.coe_mul, Ideal.tanh_coe, ← EReal.coe_mul, ← EReal.coe_add, real_logistic_tanh]
  | top =>
    rw [EReal.coe_mul_top_of_pos hh, Ideal.tanh_top, Ideal.logistic_top, mul_one, ← EReal.coe_add]
    norm_num

/-! ## The gate sums -/

/-- A sum over 256 indices is the sum over the first half plus the sum over the second half. -/
theorem sum_split (f : Fin 256 → EReal) :
    ∑ k : Fin 256, f k = (∑ k : Fin 128, f (lo k)) + ∑ k : Fin 128, f (hi k) := by
  have h : (∑ k : Fin 256, f k) =
      (∑ i : Fin 128, f (Fin.castAdd 128 i)) + ∑ i : Fin 128, f (Fin.natAdd 128 i) :=
    Fin.sum_univ_add (a := 128) (b := 128) f
  rw [h]
  congr 1 <;> exact Finset.sum_congr rfl (fun k _ => congrArg f (Fin.ext rfl))

theorem cat_lo (h sg : Fin 128 → EReal) (k : Fin 128) : cat h sg (lo k) = h k := by
  unfold cat
  split_ifs with hk
  · rfl
  · exact absurd k.isLt hk

theorem cat_hi (h sg : Fin 128 → EReal) (k : Fin 128) : cat h sg (hi k) = sg k := by
  have hv : (hi k).val = 128 + k.val := rfl
  unfold cat
  split_ifs with hk
  · omega
  · apply congrArg sg
    apply Fin.ext
    show (hi k).val - 128 = k.val
    omega

/-- The first step's gates: the hidden input is zero, so only the query row and the two biases remain. -/
theorem gates_zero (Wih : Fin 1024 → Fin 128 → EReal) (Whh : Fin 1024 → Fin 256 → EReal) (bih bhh : Fin 1024 → EReal)
    (x : Fin 128 → EReal) (j : Fin 1024) :
    gates Wih Whh bih bhh x (fun _ => c0) j = (∑ k : Fin 128, x k * Wih j k) + (bih j + bhh j) := by
  unfold gates
  simp only [c0_eq, zero_mul, Finset.sum_const_zero, add_zero, add_assoc]

/-- A later step's gates: the part constant over the steps, then the support vector's part, then the previous
    output's part. -/
theorem gates_cat (Wih : Fin 1024 → Fin 128 → EReal) (Whh : Fin 1024 → Fin 256 → EReal) (bih bhh : Fin 1024 → EReal)
    (x h sg : Fin 128 → EReal) (j : Fin 1024) :
    gates Wih Whh bih bhh x (cat h sg) j =
      (((∑ k : Fin 128, x k * Wih j k) + (bih j + bhh j)) + ∑ k : Fin 128, sg k * Whh j (hi k)) +
        ∑ k : Fin 128, h k * Whh j (lo k) := by
  have hs := sum_split (fun k => cat h sg k * Whh j k)
  simp only [cat_lo, cat_hi] at hs
  unfold gates
  rw [hs]
  abel

/-- The first step's cell state: the old state is zero, so only input gate times candidate remains. -/
theorem cell_zero (G : Fin 1024 → EReal) (j : Fin 256) :
    cell G (fun _ => c0) j = sig (G (gi j)) * Ideal.tanh (G (gg j)) := by
  unfold cell
  simp only [c0_eq, mul_zero, zero_add]

end Cert.Reals

end
-- ==== Proof.KerBody.lean ====
/-
  The kernel body's result at one row is the specification's similarity of that row.

  Row `r` of the query block is `x`. The gates the body computes are the specification's gates restricted to the 896
  columns it keeps (the input, forget and candidate blocks whole, the first half of the output block): the input part
  with the two biases added first, plus the support vector's constant contribution through the second half of
  `W_hh`, plus the previous output's contribution through the first half — the same sum as the specification's, by
  commutativity and associativity alone. The logistic function in the form `½·tanh(½·x) + ½` is the quotient form on
  every extended real. Step one starts from zero state, so its gates have no hidden contribution and its cell state
  no forget term.
-/
import proofs.«162834_g48816598286877_cont_sun_m_45_4_alg».proof.Proof.KerPay
import proofs.«162834_g48816598286877_cont_sun_m_45_4_alg».proof.Proof.Reals

noncomputable section

namespace Cert.KernelIdeal.Body

open Cert.KernelIdeal Cert.KernelIdeal.Gen Cert.KernelIdeal.Pay Idealize.ShloMosaic Idealize.ShloMosaic.ValueIdx
open Cert.Spec

/-- A kept column as a column of the full 1024-wide gate vector. -/
def col (j : Fin 896) : Fin 1024 := ⟨j.val, by omega⟩

theorem sigK_eq (x : EReal) : sigK x = Cert.Spec.sig x := (Cert.Reals.sig_eq_tanh x).symm

section
variable (Wih : Fin 1024 → Fin 128 → EReal) (Whh : Fin 1024 → Fin 256 → EReal) (bih bhh : Fin 1024 → EReal)
  (sg : Fin 128 → EReal)
variable (x0 : Vec Ideal S1024x128 .f32) (x1 : Vec Ideal S5x128 .f32) (x2 : Vec Ideal S128x256 .f32) (x3 : Vec Ideal S1x256 .f32)
  (x4 : Vec Ideal S256x128 .f32) (x5 x6 x7 : Vec Ideal S1x128 .f32) (x8 x9 x10 : Vec Ideal S128x896 .f32) (x11 : Vec Ideal S1x896 .f32)
variable (hWih : ∀ (j : Fin 896) (k : Fin 128), x8 (ix2 k j) = Wih (col j) k)
  (hWlo : ∀ (j : Fin 896) (k : Fin 128), x9 (ix2 k j) = Whh (col j) (lo k))
  (hWhi : ∀ (j : Fin 896) (k : Fin 128), x10 (ix2 k j) = Whh (col j) (hi k))
  (hb : ∀ j : Fin 896, x11 (ix2 (0 : Fin 1) j) = bih (col j) + bhh (col j))
  (hsg : ∀ k : Fin 128, k0_pay3 (k0_pay2 x1 x2 x3 x4 x5) x6 x7 (ix2 (0 : Fin 1) k) = sg k)
variable (r : Fin 1024)

/-- The query row. -/
abbrev row : Fin 128 → EReal := fun k => x0 (ix2 r k)

include hWih hb in
/-- The input part of the kept gates is the specification's step-one gate vector. -/
theorem base_eq (j : Fin 896) :
    k0_pay4 x0 x8 x11 (ix2 r j) = gates Wih Whh bih bhh (row x0 r) (fun _ => c0) (col j) := by
  rw [pay4_apply, Cert.Reals.gates_zero, hb j]
  exact congrArg (· + (bih (col j) + bhh (col j))) (Finset.sum_congr rfl fun k _ => by rw [hWih j k])

include hWih hWhi hb hsg in
/-- With the support vector's contribution: what every later step adds its hidden part to. -/
theorem base2_eq (j : Fin 896) :
    k0_pay5 (k0_pay2 x1 x2 x3 x4 x5) x6 x7 x10 x0 x8 x11 (ix2 r j)
      = ((∑ k : Fin 128, row x0 r k * Wih (col j) k) + (bih (col j) + bhh (col j))) + ∑ k : Fin 128, sg k * Whh (col j) (hi k) := by
  rw [pay5_apply, pay4_apply, hb j]
  refine congrArg₂ (· + ·) (congrArg (· + (bih (col j) + bhh (col j))) (Finset.sum_congr rfl fun k _ => by rw [hWih j k])) ?_
  exact Finset.sum_congr rfl fun k _ => by rw [hsg k, hWhi j k]

include hWih hWlo hWhi hb hsg in
/-- A later step's kept gates from the previous output `h`. -/
theorem gates_eq (h : Fin 128 → EReal) (A : EReal) (j : Fin 896)
    (hA : A = k0_pay5 (k0_pay2 x1 x2 x3 x4 x5) x6 x7 x10 x0 x8 x11 (ix2 r j) + ∑ k : Fin 128, h k * x9 (ix2 k j)) :
    A = gates Wih Whh bih bhh (row x0 r) (cat h sg) (col j) := by
  rw [hA, base2_eq Wih Whh bih bhh sg x0 x1 x2 x3 x4 x5 x6 x7 x8 x10 x11 hWih hWhi hb hsg r j, Cert.Reals.gates_cat]
  exact congrArg _ (Finset.sum_congr rfl fun k _ => by rw [hWlo j k])

end

section
variable (Wih : Fin 1024 → Fin 128 → EReal) (Whh : Fin 1024 → Fin 256 → EReal) (bih bhh : Fin 1024 → EReal)
  (sg : Fin 128 → EReal)
variable (x0 : Vec Ideal S1024x128 .f32) (x1 : Vec Ideal S5x128 .f32) (x2 : Vec Ideal S128x256 .f32) (x3 : Vec Ideal S1x256 .f32)
  (x4 : Vec Ideal S256x128 .f32) (x5 x6 x7 : Vec Ideal S1x128 .f32) (x8 x9 x10 : Vec Ideal S128x896 .f32) (x11 : Vec Ideal S1x896 .f32)

/-- The body's stored value, from the twelve input blocks. -/
def bodyVal : FVec Ideal S1024x1 .f32 :=
  k0_pay1 (k0_pay3 (k0_pay2 x1 x2 x3 x4 x5) x6 x7) x0 (k0_pay15 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9)) (k0_pay16 x0 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9) x9) (k0_pay17 x0 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9) x9)

variable (hWih : ∀ (j : Fin 896) (k : Fin 128), x8 (ix2 k j) = Wih (col j) k)
  (hWlo : ∀ (j : Fin 896) (k : Fin 128), x9 (ix2 k j) = Whh (col j) (lo k))
  (hWhi : ∀ (j : Fin 896) (k : Fin 128), x10 (ix2 k j) = Whh (col j) (hi k))
  (hb : ∀ j : Fin 896, x11 (ix2 (0 : Fin 1) j) = bih (col j) + bhh (col j))
  (hsg : ∀ k : Fin 128, k0_pay3 (k0_pay2 x1 x2 x3 x4 x5) x6 x7 (ix2 (0 : Fin 1) k) = sg k)
variable (r : Fin 1024)

include hWih hWlo hWhi hb hsg in
/-- Row `r` of the stored value is the specification's similarity of query row `r`. -/
theorem body_spec :
    bodyVal x0 x1 x2 x3 x4 x5 x6 x7 x8 x9 x10 x11 (ix2 r (0 : Fin 1)) = out Wih Whh bih bhh sg (row x0 r) := by
  -- step one
  have h4 : ∀ j : Fin 896, k0_pay4 x0 x8 x11 (ix2 r j) = (gates Wih Whh bih bhh (row x0 r) (fun _ => c0)) (col j) :=
    fun j => base_eq Wih Whh bih bhh x0 x8 x11 hWih hb r j
  have h6 : ∀ j : Fin 256, (k0_pay6 x0 x8 x11) (ix2 r j) = Cert.Spec.sig ((gates Wih Whh bih bhh (row x0 r) (fun _ => c0)) (gi j)) := fun j => by
    rw [pay6_apply, sigK_eq, h4]; rfl
  have h7 : ∀ j : Fin 256, (k0_pay7 x0 x8 x11) (ix2 r j) = Ideal.tanh ((gates Wih Whh bih bhh (row x0 r) (fun _ => c0)) (gg j)) := fun j => by
    rw [pay7_apply, h4]; rfl
  have h8 : ∀ j : Fin 128, (k0_pay8 x0 x8 x11) (ix2 r j) = chalf * Ideal.tanh (chalf * (gates Wih Whh bih bhh (row x0 r) (fun _ => c0)) (go (lo j))) := fun j => by
    rw [pay8_apply, h4]; rfl
  have hc1 : ∀ j : Fin 256, k0_pay9 (k0_pay6 x0 x8 x11) (k0_pay7 x0 x8 x11) (ix2 r j) = (st1 Wih Whh bih bhh (row x0 r)).c j := fun j => by
    rw [pay9_apply, h6, h7]; exact (Cert.Reals.cell_zero _ j).symm
  have hh1 : ∀ k : Fin 128, x0 (ix2 r k) + ((k0_pay8 x0 x8 x11) (ix2 r k) + chalf) * Ideal.tanh (k0_pay9 (k0_pay6 x0 x8 x11) (k0_pay7 x0 x8 x11) (ix2 r ⟨k.val, by omega⟩)) = (st1 Wih Whh bih bhh (row x0 r)).h k := fun k => by
    rw [h8, hc1]
    show row x0 r k + sigK ((gates Wih Whh bih bhh (row x0 r) (fun _ => c0)) (go (lo k))) * Ideal.tanh ((st1 Wih Whh bih bhh (row x0 r)).c (lo k)) = _
    rw [sigK_eq]; rfl
  -- step two
  have h10 : ∀ j : Fin 896, (k0_pay10 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (ix2 r j) = (gates Wih Whh bih bhh (row x0 r) (cat (st1 Wih Whh bih bhh (row x0 r)).h sg)) (col j) := fun j => by
    refine gates_eq Wih Whh bih bhh sg x0 x1 x2 x3 x4 x5 x6 x7 x8 x9 x10 x11 hWih hWlo hWhi hb hsg r (st1 Wih Whh bih bhh (row x0 r)).h _ j ?_
    rw [pay10_apply]
    exact congrArg _ (Finset.sum_congr rfl fun k _ => congrArg (· * x9 (ix2 k j)) (hh1 k))
  have hc2 : ∀ j : Fin 256, (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (ix2 r j) = (st2 Wih Whh bih bhh sg (row x0 r)).c j := fun j => by
    rw [pay11_apply, sigK_eq, sigK_eq, h10, h10, h10, hc1]; rfl
  have hh2 : ∀ j : Fin 128, (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (ix2 r j) = (st2 Wih Whh bih bhh sg (row x0 r)).h j := fun j => by
    rw [pay12_apply, sigK_eq, h10, hc2]; rfl
  -- step three
  have h14 : ∀ j : Fin 896, (k0_pay14 (k0_pay5 (k0_pay2 x1 x2 x3 x4 x5) x6 x7 x10 x0 x8 x11) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9)) (ix2 r j) = (gates Wih Whh bih bhh (row x0 r) (cat (st2 Wih Whh bih bhh sg (row x0 r)).h sg)) (col j) := fun j => by
    refine gates_eq Wih Whh bih bhh sg x0 x1 x2 x3 x4 x5 x6 x7 x8 x9 x10 x11 hWih hWlo hWhi hb hsg r (st2 Wih Whh bih bhh sg (row x0 r)).h _ j ?_
    rw [pay14_apply, pay13_eq]
    exact congrArg _ (Finset.sum_congr rfl fun k _ => congrArg (· * x9 (ix2 k j)) (hh2 k))
  have hc3 : ∀ j : Fin 256, (k0_pay15 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9)) (ix2 r j) = (st3 Wih Whh bih bhh sg (row x0 r)).c j := fun j => by
    rw [pay15_apply, sigK_eq, sigK_eq, h14, h14, h14, hc2]; rfl
  have hh3 : ∀ k : Fin 128, x0 (ix2 r k) + sigK ((k0_pay14 (k0_pay5 (k0_pay2 x1 x2 x3 x4 x5) x6 x7 x10 x0 x8 x11) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9)) (ix2 r ⟨768 + k.val, by omega⟩)) * Ideal.tanh ((k0_pay15 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9)) (ix2 r ⟨k.val, by omega⟩)) = (st3 Wih Whh bih bhh sg (row x0 r)).h k := fun k => by
    rw [sigK_eq, h14, hc3]; rfl
  -- step four
  have h16 : ∀ j : Fin 896, (k0_pay16 x0 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9) x9) (ix2 r j) = (gates Wih Whh bih bhh (row x0 r) (cat (st3 Wih Whh bih bhh sg (row x0 r)).h sg)) (col j) := fun j => by
    refine gates_eq Wih Whh bih bhh sg x0 x1 x2 x3 x4 x5 x6 x7 x8 x9 x10 x11 hWih hWlo hWhi hb hsg r (st3 Wih Whh bih bhh sg (row x0 r)).h _ j ?_
    rw [pay16_apply]
    exact congrArg _ (Finset.sum_congr rfl fun k _ => congrArg (· * x9 (ix2 k j)) (hh3 k))
  have h17 : ∀ j : Fin 128, (k0_pay17 x0 (k0_pay5 (k0_pay2 x1 x2 x3 x4 x5) x6 x7 x10 x0 x8 x11) (k0_pay11 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay12 x0 (k0_pay5 (k0_pay2 x1 x2 x3 x4 x5) x6 x7 x10 x0 x8 x11) (k0_pay6 x0 x8 x11) (k0_pay7 x0 x8 x11) (k0_pay8 x0 x8 x11) (Scalar.ofBits .f32 0x3F000000#32) x9) (k0_pay13 x9) x9) (ix2 r j) = chalf * Ideal.tanh (chalf * (gates Wih Whh bih bhh (row x0 r) (cat (st3 Wih Whh bih bhh sg (row x0 r)).h sg)) (gi (lo j))) := fun j => by
    rw [pay17_apply, h16]; rfl
  unfold bodyVal out
  rw [pay1_apply]
  refine Finset.sum_congr rfl fun k _ => ?_
  rw [hsg k, sigK_eq, sigK_eq, h16, h16, h16, hc3, h17]
  show (row x0 r k + Cert.Spec.sig ((gates Wih Whh bih bhh (row x0 r) (cat (st3 Wih Whh bih bhh sg (row x0 r)).h sg)) (go (lo k))) * Ideal.tanh (Cert.Spec.sig ((gates Wih Whh bih bhh (row x0 r) (cat (st3 Wih Whh bih bhh sg (row x0 r)).h sg)) (gf (lo k))) * (st3 Wih Whh bih bhh sg (row x0 r)).c (lo k)
      + sigK ((gates Wih Whh bih bhh (row x0 r) (cat (st3 Wih Whh bih bhh sg (row x0 r)).h sg)) (gi (lo k))) * Ideal.tanh ((gates Wih Whh bih bhh (row x0 r) (cat (st3 Wih Whh bih bhh sg (row x0 r)).h sg)) (gg (lo k))))) * sg k = _
  rw [sigK_eq]; rfl

end

end Cert.KernelIdeal.Body

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.KerSupport.lean ====
/-
  The support encoder of the kernel body, read index by index on the extended reals.

  The body's first payload is, at row s and column j, the centred row of the residual over its standard deviation plus
  the small constant; the second scales it by the gain, adds the bias, sums the five rows and divides by five. Each
  intermediate vector is read at an index: a matrix product into the zero accumulator is the row-by-column sum, a
  row broadcast reads its one row, a column broadcast reads its one column, a reduction along an axis is the finite
  sum over that axis, and every pointwise operation acts at the index.
-/
import proofs.«162834_g48816598286877_cont_sun_m_45_4_alg».proof.Proof.Gen.KernelIdeal.Skeleton
import proofs.«162834_g48816598286877_cont_sun_m_45_4_alg».proof.Proof.Spec
import proofs.«162834_g48816598286877_cont_sun_m_45_4_alg».proof.Proof.LibDense
import proofs.«162834_g48816598286877_cont_sun_m_45_4_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Support

open Idealize.ShloMosaic Idealize.ShloMosaic.ValueIdx Cert.KernelIdeal Cert.KernelIdeal.Gen

/-! ## Two layout readings -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The residual -/

section
variable (x1 : FVec Ideal S5x128 .f32) (x2 : FVec Ideal S128x256 .f32) (x3 : FVec Ideal S1x256 .f32)
  (x4 : FVec Ideal S256x128 .f32) (x5 : FVec Ideal S1x128 .f32)

/-- The hidden layer as the body computes it. -/
def hidK : FVec Ideal S5x256 .f32 :=
  maximumf (addf (matmul dot_S5x128_S128x256_S5x256_1_0_0_1_n_n none x1 (shapeCast S128x256 x2 shapeCasts_S128x256_S128x256) (constant S5x256 .f32 0x00000000#32))
      (broadcastTo S5x256 (shapeCast S1x256 x3 shapeCasts_S1x256_S1x256) broadcasts_S1x256_S5x256))
    (broadcast S5x256 (Scalar.ofBits .f32 0x00000000#32))

/-- The hidden layer at (s, a): the larger of row s of the support times column a of the first weight plus the
    bias, and zero. -/
theorem hidK_apply (s : Fin 5) (a : Fin 256) :
    hidK x1 x2 x3 (ix2 s a)
      = Cert.Spec.hid (fun s k => x1 (ix2 s k)) (fun a k => x2 (ix2 k a)) (fun a => x3 (ix2 0 a)) s a := by
  unfold hidK Cert.Spec.hid
  rw [shapeCast_self, shapeCast_self]
  show max (_ + _) _ = _
  refine congrArg₂ max (congrArg₂ (· + ·) ?_ ?_) rfl
  · exact Cert.LibDense.matmul_plain x1 x2 (ix2 s a)
  · exact broadcastTo_1b_ab_apply x3 _ s a

/-- The residual as the body computes it. -/
def resK : FVec Ideal S5x128 .f32 :=
  addf (addf (matmul dot_S5x256_S256x128_S5x128_1_0_0_1_n_n none (hidK x1 x2 x3) (shapeCast S256x128 x4 shapeCasts_S256x128_S256x128) (constant S5x128 .f32 0x00000000#32))
      (broadcastTo S5x128 (shapeCast S1x128 x5 shapeCasts_S1x128_S1x128) broadcasts_S1x128_S5x128)) x1

/-- The residual at (s, j). -/
theorem resK_apply (s : Fin 5) (j : Fin 128) :
    resK x1 x2 x3 x4 x5 (ix2 s j)
      = Cert.Spec.res (fun s k => x1 (ix2 s k)) (fun a k => x2 (ix2 k a)) (fun a => x3 (ix2 0 a))
          (fun a k => x4 (ix2 k a)) (fun a => x5 (ix2 0 a)) s j := by
  unfold resK Cert.Spec.res
  rw [shapeCast_self, shapeCast_self]
  show (_ + _) + _ = _
  refine congrArg₂ (· + ·) (congrArg₂ (· + ·) ?_ ?_) rfl
  · refine (Cert.LibDense.matmul_plain (hidK x1 x2 x3) x4 (ix2 s j)).trans ?_
    unfold Cert.LibDense.prod
    exact Finset.sum_congr rfl fun k _ => congrArg (· * x4 (ix2 k j)) (hidK_apply x1 x2 x3 s k)
  · exact broadcastTo_1b_ab_apply x5 _ s j

end

/-! ## The normalisation of a `[5, 128]` array -/

section
variable (t : FVec Ideal S5x128 .f32)

/-- The row means, kept as a column. -/
def meanK : FVec Ideal S5x1 .f32 :=
  divf (shapeCast S5x1 (multiReduction .add [1] S5 t 0x00000000#32 reduces_S5x128_S5 (.inl rfl) rfl) shapeCasts_S5_S5x1)
    (broadcast S5x1 (Scalar.ofBits .f32 0x43000000#32))

theorem meanK_apply (s : Fin 5) (u : Fin 1) :
    meanK t (ix2 s u) = Cert.Spec.mean (fun s k => t (ix2 s k)) s := by
  unfold meanK Cert.Spec.mean
  show Ideal.div _ _ = _
  refine congrArg₂ Ideal.div ?_ rfl
  exact (shapeCast_a_a1_apply _ _ s u).trans (Cert.LibAxisSum.sum_last t _ _ _ _ s)

/-- The array minus its row means. -/
def subK : FVec Ideal S5x128 .f32 := subf t (broadcastTo S5x128 (meanK t) broadcasts_S5x1_S5x128)

theorem subK_apply (s : Fin 5) (j : Fin 128) :
    subK t (ix2 s j) = t (ix2 s j) - Cert.Spec.mean (fun s k => t (ix2 s k)) s := by
  unfold subK
  show _ - _ = _
  rw [broadcastTo_a1_ab_apply, meanK_apply]

/-- The row variances, kept as a column. -/
def varK : FVec Ideal S5x1 .f32 :=
  divf (shapeCast S5x1 (multiReduction .add [1] S5 (mulf (subK t) (subK t)) 0x00000000#32 reduces_S5x128_S5 (.inl rfl) rfl) shapeCasts_S5_S5x1)
    (broadcast S5x1 (Scalar.ofBits .f32 0x42FE0000#32))

theorem varK_apply (s : Fin 5) (u : Fin 1) :
    varK t (ix2 s u) = Cert.Spec.var (fun s k => t (ix2 s k)) s := by
  unfold varK Cert.Spec.var
  show Ideal.div _ _ = _
  refine congrArg₂ Ideal.div ?_ rfl
  refine (shapeCast_a_a1_apply _ _ s u).trans ((Cert.LibAxisSum.sum_last _ _ _ _ _ s).trans ?_)
  refine Finset.sum_congr rfl fun k _ => ?_
  show _ * _ = _
  rw [subK_apply]

/-- The centred rows over the standard deviation plus the small constant. -/
def cenK : FVec Ideal S5x128 .f32 :=
  divf (subK t)
    (broadcastTo S5x128 (addf (sqrt (varK t)) (broadcast S5x1 (Scalar.ofBits .f32 0x3A83126F#32))) broadcasts_S5x1_S5x128)

theorem cenK_apply (s : Fin 5) (j : Fin 128) :
    cenK t (ix2 s j) = Cert.Spec.cen (fun s k => t (ix2 s k)) s j := by
  unfold cenK Cert.Spec.cen
  show Ideal.div _ _ = _
  rw [broadcastTo_a1_ab_apply, subK_apply]
  show Ideal.div _ (Ideal.sqrt _ + _) = _
  rw [varK_apply]
  rfl

end

/-- The body's first payload is the normalisation of its residual. -/
theorem pay2_eq (x1 : Vec Ideal S5x128 .f32) (x2 : Vec Ideal S128x256 .f32) (x3 : Vec Ideal S1x256 .f32)
    (x4 : Vec Ideal S256x128 .f32) (x5 : Vec Ideal S1x128 .f32) :
    Gen.k0_pay2 (F := Ideal) x1 x2 x3 x4 x5 = cenK (resK x1 x2 x3 x4 x5) := by
  unfold Gen.k0_pay2 cenK subK varK meanK resK hidK
  rfl

/-- The body's second payload at (0, j): the five rows scaled, shifted, summed and divided by five. -/
theorem pay3_apply (v : FVec Ideal S5x128 .f32) (x6 x7 : Vec Ideal S1x128 .f32) (j : Fin 128) :
    Gen.k0_pay3 (F := Ideal) v x6 x7 (ix2 0 j)
      = Ideal.div (∑ s : Fin 5, (v (ix2 s j) * x6 (ix2 0 j) + x7 (ix2 0 j))) Cert.Spec.c5 := by
  unfold Gen.k0_pay3
  show Ideal.div _ _ = _
  refine congrArg₂ Ideal.div ?_ rfl
  refine (shapeCast_a_1a_apply _ _ 0 j).trans ((Cert.LibAxisSum.sum_first _ _ _ _ _ j).trans ?_)
  refine Finset.sum_congr rfl fun s _ => ?_
  show _ * _ + _ = _
  rw [shapeCast_self, shapeCast_self, broadcastTo_1b_ab_apply, broadcastTo_1b_ab_apply]

/-- The body's support vector at column j is the mean of the five normalised rows of the residual. -/
theorem kernel_support (x1 : Vec Ideal S5x128 .f32) (x2 : Vec Ideal S128x256 .f32) (x3 : Vec Ideal S1x256 .f32)
    (x4 : Vec Ideal S256x128 .f32) (x5 x6 x7 : Vec Ideal S1x128 .f32) (j : Fin 128) :
    Gen.k0_pay3 (F := Ideal) (Gen.k0_pay2 x1 x2 x3 x4 x5) x6 x7 (ix2 0 j)
      = Cert.Spec.sgOf (Cert.Spec.res (fun s k => x1 (ix2 s k)) (fun a k => x2 (ix2 k a)) (fun a => x3 (ix2 0 a))
          (fun a k => x4 (ix2 k a)) (fun a => x5 (ix2 0 a))) (fun a => x6 (ix2 0 a)) (fun a => x7 (ix2 0 a)) j := by
  have hT : (fun s k => resK x1 x2 x3 x4 x5 (ix2 s k))
      = Cert.Spec.res (fun s k => x1 (ix2 s k)) (fun a k => x2 (ix2 k a)) (fun a => x3 (ix2 0 a))
          (fun a k => x4 (ix2 k a)) (fun a => x5 (ix2 0 a)) :=
    funext fun s => funext fun k => resK_apply x1 x2 x3 x4 x5 s k
  rw [pay3_apply, pay2_eq]
  unfold Cert.Spec.sgOf Cert.Spec.lnorm
  refine congrArg₂ Ideal.div (Finset.sum_congr rfl fun s _ => ?_) rfl
  rw [cenK_apply, hT]

end Cert.KernelIdeal.Support

end
-- ==== Proof.SpecArr.lean ====
/-
  The specification over whole arrays: the weights and biases read off their arrays, the support vector from the
  seven encoder arrays, the result array entry `b` the similarity of query row `b`.
-/
import proofs.«162834_g48816598286877_cont_sun_m_45_4_alg».proof.Proof.Spec
import Idealize.ShloMosaic.Lib.ValueIdx

noncomputable section

namespace Cert.Spec

open Idealize.ShloMosaic Idealize.ShloMosaic.ValueIdx

/-- The support vector from the encoder's arrays: support [5,128], W1 [256,128], b1 [256], W2 [128,256], b2, gain, bias [128]. -/
def sgArr (a1 : (⟨2, ![5, 128]⟩ : Shape).Idx → EReal) (a2 : (⟨2, ![256, 128]⟩ : Shape).Idx → EReal)
    (a3 : (⟨1, ![256]⟩ : Shape).Idx → EReal) (a4 : (⟨2, ![128, 256]⟩ : Shape).Idx → EReal)
    (a5 a6 a7 : (⟨1, ![128]⟩ : Shape).Idx → EReal) : Fin 128 → EReal :=
  sgOf (res (fun s k => a1 (ix2 s k)) (fun a k => a2 (ix2 a k)) (fun a => a3 (ix1 a)) (fun a k => a4 (ix2 a k)) (fun a => a5 (ix1 a)))
    (fun a => a6 (ix1 a)) (fun a => a7 (ix1 a))

/-- The similarity of query row `b`. -/
def rowOut (a0 : (⟨2, ![16384, 128]⟩ : Shape).Idx → EReal) (a8 : (⟨2, ![1024, 128]⟩ : Shape).Idx → EReal)
    (a9 : (⟨2, ![1024, 256]⟩ : Shape).Idx → EReal) (a10 a11 : (⟨1, ![1024]⟩ : Shape).Idx → EReal) (sg : Fin 128 → EReal)
    (b : Fin 16384) : EReal :=
  out (fun j k => a8 (ix2 j k)) (fun j k => a9 (ix2 j k)) (fun j => a10 (ix1 j)) (fun j => a11 (ix1 j)) sg (fun k => a0 (ix2 b k))

/-- The result array. -/
def result (a0 : (⟨2, ![16384, 128]⟩ : Shape).Idx → EReal) (a1 : (⟨2, ![5, 128]⟩ : Shape).Idx → EReal)
    (a2 : (⟨2, ![256, 128]⟩ : Shape).Idx → EReal) (a3 : (⟨1, ![256]⟩ : Shape).Idx → EReal)
    (a4 : (⟨2, ![128, 256]⟩ : Shape).Idx → EReal) (a5 a6 a7 : (⟨1, ![128]⟩ : Shape).Idx → EReal)
    (a8 : (⟨2, ![1024, 128]⟩ : Shape).Idx → EReal) (a9 : (⟨2, ![1024, 256]⟩ : Shape).Idx → EReal)
    (a10 a11 : (⟨1, ![1024]⟩ : Shape).Idx → EReal) : (⟨1, ![16384]⟩ : Shape).Idx → EReal :=
  fun i => rowOut a0 a8 a9 a10 a11 (sgArr a1 a2 a3 a4 a5 a6 a7) (i 0)

end Cert.Spec

end
-- ==== Proof.KerValue.lean ====
/-
  The kernel's run read as a value: the result array after the run is the specification's result of the argument
  arrays.

  What point `t` writes back is the body's stored value of the point's blocks, and row `r` of it is the
  specification's similarity of query row `1024·t + r`: the weights' blocks are the re-laid arguments, the support
  vector the encoder's. The sixteen blocks tile the result column, so the column after the run is the specification's
  at every row; the host line after the region reads the column as a vector.
-/
import proofs.«162834_g48816598286877_cont_sun_m_45_4_alg».proof.Proof.KerWin
import proofs.«162834_g48816598286877_cont_sun_m_45_4_alg».proof.Proof.KerBody
import proofs.«162834_g48816598286877_cont_sun_m_45_4_alg».proof.Proof.KerSupport
import proofs.«162834_g48816598286877_cont_sun_m_45_4_alg».proof.Proof.SpecArr

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The support vector of the argument arrays. -/
abbrev sgv (c : Dev nD) : Fin 128 → EReal :=
  Cert.Spec.sgArr (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The result column: row `b` the similarity of query row `b`. -/
def column (c : Dev nD) : S16384x1.Idx → EReal := fun i =>
  Cert.Spec.rowOut (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) (sgv m c) (i 0)

/-- The encoder's value on the staged blocks is the support vector of the arguments. -/
theorem support_eq (c : Dev nD) (t : Fin cfg0.N) (k : Fin 128) :
    k0_pay3 (F := Ideal) (k0_pay2 (iblk m c 1 t) (iblk m c 2 t) (iblk m c 3 t) (iblk m c 4 t) (iblk m c 5 t)) (iblk m c 6 t) (iblk m c 7 t) (ix2 (0 : Fin 1) k)
      = sgv m c k := by
  refine (Cert.KernelIdeal.Support.kernel_support (iblk m c 1 t) (iblk m c 2 t) (iblk m c 3 t) (iblk m c 4 t) (iblk m c 5 t) (iblk m c 6 t) (iblk m c 7 t) k).trans ?_
  unfold sgv Cert.Spec.sgArr
  have e1 : (fun (s : Fin 5) (k : Fin 128) => (iblk m c 1 t : Vec Ideal S5x128 .f32) (ix2 s k)) = fun s k => (m ((c.tc : Thread nD τ).loc main_arg1)) (ix2 s k) :=
    funext fun s => funext fun k => (iblk1_apply m c t (ix2 s k)).trans (congrFun (V_main_arg1 m c) (ix2 s k))
  have e2 : (fun (a : Fin 256) (k : Fin 128) => (iblk m c 2 t : Vec Ideal S128x256 .f32) (ix2 k a)) = fun a k => (m ((c.tc : Thread nD τ).loc main_arg2)) (ix2 a k) :=
    funext fun a => funext fun k => (iblk2_apply m c t (ix2 k a)).trans (V_v1 m c k a)
  have e3 : (fun (a : Fin 256) => (iblk m c 3 t : Vec Ideal S1x256 .f32) (ix2 (0 : Fin 1) a)) = fun a => (m ((c.tc : Thread nD τ).loc main_arg3)) (ix1 a) :=
    funext fun a => (iblk3_apply m c t (ix2 (0 : Fin 1) a)).trans (V_v2 m c a)
  have e4 : (fun (a : Fin 128) (k : Fin 256) => (iblk m c 4 t : Vec Ideal S256x128 .f32) (ix2 k a)) = fun a k => (m ((c.tc : Thread nD τ).loc main_arg4)) (ix2 a k) :=
    funext fun a => funext fun k => (iblk4_apply m c t (ix2 k a)).trans (V_v3 m c k a)
  have e5 : (fun (a : Fin 128) => (iblk m c 5 t : Vec Ideal S1x128 .f32) (ix2 (0 : Fin 1) a)) = fun a => (m ((c.tc : Thread nD τ).loc main_arg5)) (ix1 a) :=
    funext fun a => (iblk5_apply m c t (ix2 (0 : Fin 1) a)).trans (V_v4 m c a)
  have e6 : (fun (a : Fin 128) => (iblk m c 6 t : Vec Ideal S1x128 .f32) (ix2 (0 : Fin 1) a)) = fun a => (m ((c.tc : Thread nD τ).loc main_arg6)) (ix1 a) :=
    funext fun a => (iblk6_apply m c t (ix2 (0 : Fin 1) a)).trans (V_v5 m c a)
  have e7 : (fun (a : Fin 128) => (iblk m c 7 t : Vec Ideal S1x128 .f32) (ix2 (0 : Fin 1) a)) = fun a => (m ((c.tc : Thread nD τ).loc main_arg7)) (ix1 a) :=
    funext fun a => (iblk7_apply m c t (ix2 (0 : Fin 1) a)).trans (V_v6 m c a)
  rw [e1, e2, e3, e4, e5, e6, e7]

/-- WHAT POINT `t` WRITES BACK is block `t` of the result column. -/
theorem flushed_eq (c : Dev nD) (t : Fin cfg0.N) :
    (dats m 0 c).flushed 12 t = ((cfg0.win 12).blk t).view.read (Elt Ideal) (column m c) := by
  show (cfg0.win 12).cut (grid0.coords t) ((dats m 0 c).after 12 t) = _
  rw [after0_12]
  unfold out0_12
  rw [View.canon_unit_zero hz]
  simp only [View.ld_unit_zero (S := S5x128) hz, View.ld_unit_zero (S := S128x256) hz, View.ld_unit_zero (S := S1x256) hz, View.ld_unit_zero (S := S256x128) hz, View.ld_unit_zero (S := S1x128) hz, View.ld_unit_zero (S := S128x896) hz, View.ld_unit_zero (S := S1024x128) hz, View.ld_unit_zero (S := S1x896) hz]
  funext y
  obtain ⟨r, z, rfl⟩ : ∃ (r : Fin 1024) (z : Fin 1), y = ix2 r z := ⟨y 0, y 1, eq_ix2 y⟩
  obtain rfl : z = 0 := Subsingleton.elim _ _
  have h0 : win0_12.index t (0 : Fin 2) = t.val := (idx_facts t).2.2.1
  have hN : cfg0.N = 16 := N_0
  have htl : t.val < 16 := hN ▸ t.isLt
  refine (Cert.KernelIdeal.Body.body_spec
    (fun j k => (m ((c.tc : Thread nD τ).loc main_arg8)) (ix2 j k)) (fun j k => (m ((c.tc : Thread nD τ).loc main_arg9)) (ix2 j k)) (fun j => (m ((c.tc : Thread nD τ).loc main_arg10)) (ix1 j)) (fun j => (m ((c.tc : Thread nD τ).loc main_arg11)) (ix1 j)) (sgv m c)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (fun j k => (iblk8_apply m c t (ix2 k j)).trans (V_v8 m c k j))
    (fun j k => (iblk9_apply m c t (ix2 k j)).trans (V_v9 m c k j))
    (fun j k => (iblk10_apply m c t (ix2 k j)).trans (V_v10 m c k j))
    (fun j => (iblk11_apply m c t (ix2 (0 : Fin 1) j)).trans (V_v13 m c j))
    (support_eq m c t) r).trans ?_
  show _ = column m c (((cfg0.win 12).blk t).view.emb (ix2 r (0 : Fin 1)))
  unfold column Cert.Spec.rowOut
  have hrow : (((cfg0.win 12).blk t).view.emb (ix2 r (0 : Fin 1)) (0 : Fin 2)).val = 1024 * t.val + r.val := by
    show win0_12.index t (0 : Fin 2) * 1024 + 1 * r.val = _
    rw [h0]; omega
  refine congrArg (Cert.Spec.out _ _ _ _ _) (funext fun k => ?_)
  exact iblk0_apply m c t r k _ hrow

/-- An index of the column is in point `t`'s block iff its row is among the block's 1024. -/
theorem mem_blk (t : Fin cfg0.N) (i : S16384x1.Idx) :
    i ∈ ((cfg0.win 12).blk t).view.set ↔ ∀ a : Fin 2, win0_12.index t a * S1024x1.size a ≤ (i a).val ∧ (i a).val < win0_12.index t a * S1024x1.size a + S1024x1.size a := by
  show i ∈ ((View.whole main_v14).slice (win0_12.rect t)).set ↔ _
  rw [View.set_slice_whole, Rect.mem_set_unit]
  exact Iff.rfl

/-- THE COLUMN after the run. -/
theorem final (c : Dev nD) : (dats m 0 c).arrAt 12 cfg0.N = column m c :=
  (dats m 0 c).arrAt_eq_of_cover 12 (column m c) (fun t _ => flushed_eq m c t) fun i => by
    have hi0 : (i 0).val < 16384 := (i 0).isLt
    have hi1 : (i 1).val < 1 := (i 1).isLt
    have hN : cfg0.N = 16 := N_0
    refine ⟨⟨(i 0).val / 1024, by rw [hN]; omega⟩, flush0_12 _, ?_⟩
    rw [mem_blk]
    intro a
    have h0 := (idx_facts ⟨(i 0).val / 1024, by rw [hN]; omega⟩).2.2.1
    have h1 := (idx_facts ⟨(i 0).val / 1024, by rw [hN]; omega⟩).2.2.2.1
    match a with
    | ⟨0, _⟩ =>
      show win0_12.index _ (0 : Fin 2) * 1024 ≤ (i 0).val ∧ (i 0).val < win0_12.index _ (0 : Fin 2) * 1024 + 1024
      rw [h0]; show (i 0).val / 1024 * 1024 ≤ (i 0).val ∧ (i 0).val < (i 0).val / 1024 * 1024 + 1024; omega
    | ⟨1, _⟩ =>
      show win0_12.index _ (1 : Fin 2) * 1 ≤ (i 1).val ∧ (i 1).val < win0_12.index _ (1 : Fin 2) * 1 + 1
      rw [h1]; omega

/-- The host line after the region: the column read as a vector. -/
theorem tail_eq (c : Dev nD) :
    Pipeline.afterTail₀ cfgs (dats m) 0 (V0 m) [hostOps1] c main_v15
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  show StableHlo.after hostOps1 _ (Proc.devRef .tc main_v15) = _
  after_results
  funext i
  obtain ⟨b, rfl⟩ : ∃ b : Fin 16384, i = ix1 b := ⟨i 0, eq_ix1 i⟩
  show shapeCast S16384 (Pipeline.withArrays spec0 c (V0 m c) (fun w => (dats m 0 c).arrAt w cfg0.N) (Proc.devRef .tc main_v14)) shapeCasts_S16384x1_S16384 (ix1 b) = _
  rw [show Pipeline.withArrays spec0 c (V0 m c) (fun w => (dats m 0 c).arrAt w cfg0.N) (Proc.devRef .tc main_v14) = column m c from
    (Pipeline.withArrays_arr spec0 launch0.win.arr_inj c _ _ 12).trans (final m c)]
  refine (shapeCast_apply (column m c) shapeCasts_S16384x1_S16384 (ix1 b) (ix2 b (0 : Fin 1)) ?_).trans rfl
  rw [Shape.rowMajor_val_two, Shape.rowMajor_val_one]
  show b.val * 1 + 0 = b.val
  omega

/-- The run, read: the result at the specification's value of the arguments, the arguments unchanged. -/
theorem run : θ_run defs (onTc (τ := τ) (main (F := Ideal))) ⟨m, fun _ => 0, ρ⟩ fun r => ∀ c : Dev nD,
      r.2.mem ((c.tc : Thread nD τ).loc main_v15) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v15 (Pipeline.mem_restRefs_of main_v15 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.Whole

end
-- ==== Proof.RefOps.lean ====
/-
  The reference program as a straight line: its host operations in order, the called functions' operations written
  out at their call sites, cut into the stages of the mathematics (the support encoder, the zero arrays, the four
  recurrence steps each in two halves, the final inner products).
-/
import proofs.«162834_g48816598286877_cont_sun_m_45_4_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

abbrev opsEnc : List (HloOp τ sig (Elt F)) :=
  [ unary main_arg2 main_v0 ((transpose S128x256 [1, 0] · transposes_S256x128_S128x256_1_0) : (⟨S256x128, .f32⟩ : BufTy).Contents (Elt F) → (⟨S128x256, .f32⟩ : BufTy).Contents (Elt F)),
    binary main_arg1 main_v0 main_v1 ((fun l r => Host.dotGeneral dot_S5x128_S128x256_S5x256_1_0_0_1_n_n none l r) : (⟨S5x128, .f32⟩ : BufTy).Contents (Elt F) → (⟨S128x256, .f32⟩ : BufTy).Contents (Elt F) → (⟨S5x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S5x256 ![0, 1] bcast_S1x256_S5x256_0_1 : (⟨S1x256, .f32⟩ : BufTy).Contents (Elt F) → (⟨S5x256, .f32⟩ : BufTy).Contents (Elt F)),
    binary main_v1 main_v3 main_v4 (addf : (⟨S5x256, .f32⟩ : BufTy).Contents (Elt F) → (⟨S5x256, .f32⟩ : BufTy).Contents (Elt F) → (⟨S5x256, .f32⟩ : BufTy).Contents (Elt F)),
    TRef.nullary main_call0.cst (constant S_ .f32 0x00000000#32),
    TRef.unary main_call0.cst main_call0.v0 (broadcastInDim S5x256 ![] bcast_S_S5x256),
    TRef.binary (.of main_v4) main_call0.v0 main_call0.v1 maximumf,
    unary main_arg4 main_v6 ((transpose S256x128 [1, 0] · transposes_S128x256_S256x128_1_0) : (⟨S128x256, .f32⟩ : BufTy).Contents (Elt F) → (⟨S256x128, .f32⟩ : BufTy).Contents (Elt F)),
    binary main_v5 main_v6 main_v7 ((fun l r => Host.dotGeneral dot_S5x256_S256x128_S5x128_1_0_0_1_n_n none l r) : (⟨S5x256, .f32⟩ : BufTy).Contents (Elt F) → (⟨S256x128, .f32⟩ : BufTy).Contents (Elt F) → (⟨S5x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S5x128 ![0, 1] bcast_S1x128_S5x128_0_1 : (⟨S1x128, .f32⟩ : BufTy).Contents (Elt F) → (⟨S5x128, .f32⟩ : BufTy).Contents (Elt F)),
    binary main_v7 main_v9 main_v10 (addf : (⟨S5x128, .f32⟩ : BufTy).Contents (Elt F) → (⟨S5x128, .f32⟩ : BufTy).Contents (Elt F) → (⟨S5x128, .f32⟩ : BufTy).Contents (Elt F)),
    binary main_v10 main_arg1 main_v11 (addf : (⟨S5x128, .f32⟩ : BufTy).Contents (Elt F) → (⟨S5x128, .f32⟩ : BufTy).Contents (Elt F) → (⟨S5x128, .f32⟩ : BufTy).Contents (Elt F)),
    nullary main_cst (constant S_ .f32 0x00000000#32),
    binary main_v11 main_cst main_v12 ((fun x v => Host.reduceAdd x v reducesTo_S5x128_S5_d1 h_S_) : (⟨S5x128, .f32⟩ : BufTy).Contents (Elt F) → (⟨S_, .f32⟩ : BufTy).Contents (Elt F) → (⟨S5, .f32⟩ : BufTy).Contents (Elt F)),
    unary main_v12 main_v13 (broadcastInDim S5x1 ![0] bcast_S5_S5x1_0 : (⟨S5, .f32⟩ : BufTy).Contents (Elt F) → (⟨S5x1, .f32⟩ : BufTy).Contents (Elt F)),
    nullary main_cst_0 (constant S_ .f32 0x43000000#32),
    unary main_cst_0 main_v14 (broadcastInDim S5x1 ![] bcast_S_S5x1 : (⟨S_, .f32⟩ : BufTy).Contents (Elt F) → (⟨S5x1, .f32⟩ : BufTy).Contents (Elt F)),
    binary main_v13 main_v14 main_v15 (Host.divf : (⟨S5x1, .f32⟩ : BufTy).Contents (Elt F) → (⟨S5x1, .f32⟩ : BufTy).Contents (Elt F) → (⟨S5x1, .f32⟩ : BufTy).Contents (Elt F)),
    nullary main_c (constantI S_ 32 1#32),
    TRef.nullary main_call1.call0.cst (constant S_ .f32 0x00000000#32),
    TRef.binary (.of main_v11) main_call1.call0.cst main_call1.call0.v0 (fun x v => Host.reduceAdd x v reducesTo_S5x128_S5_d1 h_S_),
    TRef.unary main_call1.call0.v0 main_call1.call0.v1 (broadcastInDim S5x1 ![0] bcast_S5_S5x1_0),
    TRef.nullary main_call1.call0.cst_0 (constant S_ .f32 0x43000000#32),
    TRef.unary main_call1.call0.cst_0 main_call1.call0.v2 (broadcastInDim S5x1 ![] bcast_S_S5x1),
    TRef.binary main_call1.call0.v1 main_call1.call0.v2 main_call1.call0.v3 Host.divf,
    TRef.unary main_call1.call0.v3 main_call1.call0.v4 (broadcastInDim S5x128 ![0, 1] bcast_S5x1_S5x128_0_1),
    TRef.binary (.of main_v11) main_call1.call0.v4 main_call1.call0.v5 subf,
    TRef.binary main_call1.call0.v5 main_call1.call0.v5 main_call1.call0.v6 mulf,
    TRef.unary (.of main_c) main_call1.call0.v7 (sitofp .f32),
    TRef.nullary main_call1.call0.cst_1 (constant S_ .f32 0x43000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S5x128_S5_d1 h_S_),
    TRef.unary main_call1.call0.v9 main_call1.call0.v10 (broadcastInDim S5x1 ![0] bcast_S5_S5x1_0),
    TRef.unary main_call1.call0.v8 main_call1.call0.v11 (broadcastInDim S5x1 ![] bcast_S_S5x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S5x1 ![] bcast_S_S5x1),
    TRef.ternary main_call1.call0.v13 main_call1.call0.v12 main_call1.call0.call0.v1 main_call1.call0.call0.v2 (fun p a b => select (broadcastInDim S5x1 ![] bcast_S_S5x1 p) a b),
    TRef.unary main_call1.call0.call0.v2 main_call1.v1 Host.sqrt,
    unary main_v15 main_v17 (broadcastInDim S5x128 ![0, 1] bcast_S5x1_S5x128_0_1 : (⟨S5x1, .f32⟩ : BufTy).Contents (Elt F) → (⟨S5x128, .f32⟩ : BufTy).Contents (Elt F)),
    binary main_v11 main_v17 main_v18 (subf : (⟨S5x128, .f32⟩ : BufTy).Contents (Elt F) → (⟨S5x128, .f32⟩ : BufTy).Contents (Elt F) → (⟨S5x128, .f32⟩ : BufTy).Contents (Elt F)),
    nullary main_cst_1 (constant S_ .f32 0x3A83126F#32),
    unary main_cst_1 main_v19 (broadcastInDim S5x1 ![] bcast_S_S5x1 : (⟨S_, .f32⟩ : BufTy).Contents (Elt F) → (⟨S5x1, .f32⟩ : BufTy).Contents (Elt F)),
    binary main_v16 main_v19 main_v20 (addf : (⟨S5x1, .f32⟩ : BufTy).Contents (Elt F) → (⟨S5x1, .f32⟩ : BufTy).Contents (Elt F) → (⟨S5x1, .f32⟩ : BufTy).Contents (Elt F)),
    unary main_v20 main_v21 (broadcastInDim S5x128 ![0, 1] bcast_S5x1_S5x128_0_1 : (⟨S5x1, .f32⟩ : BufTy).Contents (Elt F) → (⟨S5x128, .f32⟩ : BufTy).Contents (Elt F)),
    binary main_v18 main_v21 main_v22 (Host.divf : (⟨S5x128, .f32⟩ : BufTy).Contents (Elt F) → (⟨S5x128, .f32⟩ : BufTy).Contents (Elt F) → (⟨S5x128, .f32⟩ : BufTy).Contents (Elt F)),
    unary main_arg6 main_v23 (broadcastInDim S1x128 ![1] bcast_S128_S1x128_1 : (⟨S128, .f32⟩ : BufTy).Contents (Elt F) → (⟨S1x128, .f32⟩ : BufTy).Contents (Elt F)),
    unary main_v23 main_v24 (broadcastInDim S5x128 ![0, 1] bcast_S1x128_S5x128_0_1 : (⟨S1x128, .f32⟩ : BufTy).Contents (Elt F) → (⟨S5x128, .f32⟩ : BufTy).Contents (Elt F)),
    binary main_v22 main_v24 main_v25 (mulf : (⟨S5x128, .f32⟩ : BufTy).Contents (Elt F) → (⟨S5x128, .f32⟩ : BufTy).Contents (Elt F) → (⟨S5x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S5x128 ![0, 1] bcast_S1x128_S5x128_0_1 : (⟨S1x128, .f32⟩ : BufTy).Contents (Elt F) → (⟨S5x128, .f32⟩ : BufTy).Contents (Elt F)),
    binary main_v25 main_v27 main_v28 (addf : (⟨S5x128, .f32⟩ : BufTy).Contents (Elt F) → (⟨S5x128, .f32⟩ : BufTy).Contents (Elt F) → (⟨S5x128, .f32⟩ : BufTy).Contents (Elt F)),
    nullary main_cst_2 (constant S_ .f32 0x00000000#32),
    binary main_v28 main_cst_2 main_v29 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    unary main_v29 main_v30 (broadcastInDim S1x128 ![1] bcast_S128_S1x128_1 : (⟨S128, .f32⟩ : BufTy).Contents (Elt F) → (⟨S1x128, .f32⟩ : BufTy).Contents (Elt F)),
    nullary main_cst_3 (constant S_ .f32 0x40A00000#32),
    unary main_cst_3 main_v31 (broadcastInDim S1x128 ![] bcast_S_S1x128 : (⟨S_, .f32⟩ : BufTy).Contents (Elt F) → (⟨S1x128, .f32⟩ : BufTy).Contents (Elt F)),
    binary main_v30 main_v31 main_v32 (Host.divf : (⟨S1x128, .f32⟩ : BufTy).Contents (Elt F) → (⟨S1x128, .f32⟩ : BufTy).Contents (Elt F) → (⟨S1x128, .f32⟩ : BufTy).Contents (Elt F)) ]

abbrev opsZero : List (HloOp τ sig (Elt F)) :=
  [ nullary main_cst_4 (constant S_ .f32 0x00000000#32),
    unary main_cst_4 main_v33 (broadcastInDim S16384x256 ![] bcast_S_S16384x256 : (⟨S_, .f32⟩ : BufTy).Contents (Elt F) → (⟨S16384x256, .f32⟩ : BufTy).Contents (Elt F)),
    nullary main_cst_5 (constant S_ .f32 0x00000000#32),
    unary main_cst_5 main_v34 (broadcastInDim S16384x256 ![] bcast_S_S16384x256 : (⟨S_, .f32⟩ : BufTy).Contents (Elt F) → (⟨S16384x256, .f32⟩ : BufTy).Contents (Elt F)) ]

abbrev opsS1a : List (HloOp τ sig (Elt F)) :=
  [ unary main_arg8 main_v35 ((transpose S128x1024 [1, 0] · transposes_S1024x128_S128x1024_1_0) : (⟨S1024x128, .f32⟩ : BufTy).Contents (Elt F) → (⟨S128x1024, .f32⟩ : BufTy).Contents (Elt F)),
    binary main_arg0 main_v35 main_v36 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v37 (broadcastInDim S1x1024 ![1] bcast_S1024_S1x1024_1 : (⟨S1024, .f32⟩ : BufTy).Contents (Elt F) → (⟨S1x1024, .f32⟩ : BufTy).Contents (Elt F)),
    unary main_v37 main_v38 (broadcastInDim S16384x1024 ![0, 1] bcast_S1x1024_S16384x1024_0_1 : (⟨S1x1024, .f32⟩ : BufTy).Contents (Elt F) → (⟨S16384x1024, .f32⟩ : BufTy).Contents (Elt F)),
    binary main_v36 main_v38 main_v39 (addf : (⟨S16384x1024, .f32⟩ : BufTy).Contents (Elt F) → (⟨S16384x1024, .f32⟩ : BufTy).Contents (Elt F) → (⟨S16384x1024, .f32⟩ : BufTy).Contents (Elt F)),
    unary main_arg9 main_v40 ((transpose S256x1024 [1, 0] · transposes_S1024x256_S256x1024_1_0) : (⟨S1024x256, .f32⟩ : BufTy).Contents (Elt F) → (⟨S256x1024, .f32⟩ : BufTy).Contents (Elt F)),
    binary main_v33 main_v40 main_v41 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v39 main_v41 main_v42 (addf : (⟨S16384x1024, .f32⟩ : BufTy).Contents (Elt F) → (⟨S16384x1024, .f32⟩ : BufTy).Contents (Elt F) → (⟨S16384x1024, .f32⟩ : BufTy).Contents (Elt F)),
    unary main_arg11 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S16384x1024 ![0, 1] bcast_S1x1024_S16384x1024_0_1 : (⟨S1x1024, .f32⟩ : BufTy).Contents (Elt F) → (⟨S16384x1024, .f32⟩ : BufTy).Contents (Elt F)),
    binary main_v42 main_v44 main_v45 (addf : (⟨S16384x1024, .f32⟩ : BufTy).Contents (Elt F) → (⟨S16384x1024, .f32⟩ : BufTy).Contents (Elt F) → (⟨S16384x1024, .f32⟩ : BufTy).Contents (Elt F)),
    unary main_v45 main_v46 ((extractStridedSlice S16384x256 ![0, 0] · slices_S16384x1024_S16384x256_0_0) : (⟨S16384x1024, .f32⟩ : BufTy).Contents (Elt F) → (⟨S16384x256, .f32⟩ : BufTy).Contents (Elt F)),
    unary main_v45 main_v47 ((extractStridedSlice S16384x256 ![0, 256] · slices_S16384x1024_S16384x256_0_256) : (⟨S16384x1024, .f32⟩ : BufTy).Contents (Elt F) → (⟨S16384x256, .f32⟩ : BufTy).Contents (Elt F)),
    unary main_v45 main_v48 ((extractStridedSlice S16384x256 ![0, 512] · slices_S16384x1024_S16384x256_0_512) : (⟨S16384x1024, .f32⟩ : BufTy).Contents (Elt F) → (⟨S16384x256, .f32⟩ : BufTy).Contents (Elt F)),
    unary main_v45 main_v49 ((extractStridedSlice S16384x256 ![0, 768] · slices_S16384x1024_S16384x256_0_768) : (⟨S16384x1024, .f32⟩ : BufTy).Contents (Elt F) → (⟨S16384x256, .f32⟩ : BufTy).Contents (Elt F)),
    unary main_v46 main_v50 (Host.negf : (⟨S16384x256, .f32⟩ : BufTy).Contents (Elt F) → (⟨S16384x256, .f32⟩ : BufTy).Contents (Elt F)),
    unary main_v50 main_v51 (Host.exp : (⟨S16384x256, .f32⟩ : BufTy).Contents (Elt F) → (⟨S16384x256, .f32⟩ : BufTy).Contents (Elt F)),
    nullary main_cst_6 (constant S_ .f32 0x3F800000#32),
    unary main_cst_6 main_v52 (broadcastInDim S16384x256 ![] bcast_S_S16384x256 : (⟨S_, .f32⟩ : BufTy).Contents (Elt F) → (⟨S16384x256, .f32⟩ : BufTy).Contents (Elt F)),
    binary main_v52 main_v51 main_v53 (addf : (⟨S16384x256, .f32⟩ : BufTy).Contents (Elt F) → (⟨S16384x256, .f32⟩ : BufTy).Contents (Elt F) → (⟨S16384x256, .f32⟩ : BufTy).Contents (Elt F)),
    nullary main_cst_7 (constant S_ .f32 0x3F800000#32),
    unary main_cst_7 main_v54 (broadcastInDim S16384x256 ![] bcast_S_S16384x256 : (⟨S_, .f32⟩ : BufTy).Contents (Elt F) → (⟨S16384x256, .f32⟩ : BufTy).Contents (Elt F)),
    binary main_v54 main_v53 main_v55 (Host.divf : (⟨S16384x256, .f32⟩ : BufTy).Contents (Elt F) → (⟨S16384x256, .f32⟩ : BufTy).Contents (Elt F) → (⟨S16384x256, .f32⟩ : BufTy).Contents (Elt F)),
    unary main_v47 main_v56 (Host.negf : (⟨S16384x256, .f32⟩ : BufTy).Contents (Elt F) → (⟨S16384x256, .f32⟩ : BufTy).Contents (Elt F)),
    unary main_v56 main_v57 (Host.exp : (⟨S16384x256, .f32⟩ : BufTy).Contents (Elt F) → (⟨S16384x256, .f32⟩ : BufTy).Contents (Elt F)),
    nullary main_cst_8 (constant S_ .f32 0x3F800000#32),
    unary main_cst_8 main_v58 (broadcastInDim S16384x256 ![] bcast_S_S16384x256 : (⟨S_, .f32⟩ : BufTy).Contents (Elt F) → (⟨S16384x256, .f32⟩ : BufTy).Contents (Elt F)),
    binary main_v58 main_v57 main_v59 (addf : (⟨S16384x256, .f32⟩ : BufTy).Contents (Elt F) → (⟨S16384x256, .f32⟩ : BufTy).Contents (Elt F) → (⟨S16384x256, .f32⟩ : BufTy).Contents (Elt F)),
    nullary main_cst_9 (constant S_ .f32 0x3F800000#32),
    unary main_cst_9 main_v60 (broadcastInDim S16384x256 ![] bcast_S_S16384x256 : (⟨S_, .f32⟩ : BufTy).Contents (Elt F) → (⟨S16384x256, .f32⟩ : BufTy).Contents (Elt F)),
    binary main_v60 main_v59 main_v61 (Host.divf : (⟨S16384x256, .f32⟩ : BufTy).Contents (Elt F) → (⟨S16384x256, .f32⟩ : BufTy).Contents (Elt F) → (⟨S16384x256, .f32⟩ : BufTy).Contents (Elt F)),
    unary main_v48 main_v62 (Host.tanh : (⟨S16384x256, .f32⟩ : BufTy).Contents (Elt F) → (⟨S16384x256, .f32⟩ : BufTy).Contents (Elt F)),
    unary main_v49 main_v63 (Host.negf : (⟨S16384x256, .f32⟩ : BufTy).Contents (Elt F) → (⟨S16384x256, .f32⟩ : BufTy).Contents (Elt F)),
    unary main_v63 main_v64 (Host.exp : (⟨S16384x256, .f32⟩ : BufTy).Contents (Elt F) → (⟨S16384x256, .f32⟩ : BufTy).Contents (Elt F)),
    nullary main_cst_10 (constant S_ .f32 0x3F800000#32),
    unary main_cst_10 main_v65 (broadcastInDim S16384x256 ![] bcast_S_S16384x256 : (⟨S_, .f32⟩ : BufTy).Contents (Elt F) → (⟨S16384x256, .f32⟩ : BufTy).Contents (Elt F)),
    binary main_v65 main_v64 main_v66 (addf : (⟨S16384x256, .f32⟩ : BufTy).Contents (Elt F) → (⟨S16384x256, .f32⟩ : BufTy).Contents (Elt F) → (⟨S16384x256, .f32⟩ : BufTy).Contents (Elt F)),
    nullary main_cst_11 (constant S_ .f32 0x3F800000#32),
    unary main_cst_11 main_v67 (broadcastInDim S16384x256 ![] bcast_S_S16384x256 : (⟨S_, .f32⟩ : BufTy).Contents (Elt F) → (⟨S16384x256, .f32⟩ : BufTy).Contents (Elt F)),
    binary main_v67 main_v66 main_v68 (Host.divf : (⟨S16384x256, .f32⟩ : BufTy).Contents (Elt F) → (⟨S16384x256, .f32⟩ : BufTy).Contents (Elt F) → (⟨S16384x256, .f32⟩ : BufTy).Contents (Elt F)),
    binary main_v61 main_v34 main_v69 (mulf : (⟨S16384x256, .f32⟩ : BufTy).Contents (Elt F) → (⟨S16384x256, .f32⟩ : BufTy).Contents (Elt F) → (⟨S16384x256, .f32⟩ : BufTy).Contents (Elt F)),
    binary main_v55 main_v62 main_v70 (mulf : (⟨S16384x256, .f32⟩ : BufTy).Contents (Elt F) → (⟨S16384x256, .f32⟩ : BufTy).Contents (Elt F) → (⟨S16384x256, .f32⟩ : BufTy).Contents (Elt F)),
    binary main_v69 main_v70 main_v71 (addf : (⟨S16384x256, .f32⟩ : BufTy).Contents (Elt F) → (⟨S16384x256, .f32⟩ : BufTy).Contents (Elt F) → (⟨S16384x256, .f32⟩ : BufTy).Contents (Elt F)),
    unary main_v71 main_v72 (Host.tanh : (⟨S16384x256, .f32⟩ : BufTy).Contents (Elt F) → (⟨S16384x256, .f32⟩ : BufTy).Contents (Elt F)),
    binary main_v68 main_v72 main_v73 (mulf : (⟨S16384x256, .f32⟩ : BufTy).Contents (Elt F) → (⟨S16384x256, .f32⟩ : BufTy).Contents (Elt F) → (⟨S16384x256, .f32⟩ : BufTy).Contents (Elt F)),
    unary main_v73 main_v74 ((extractStridedSlice S16384x128 ![0, 0] · slices_S16384x256_S16384x128_0_0) : (⟨S16384x256, .f32⟩ : BufTy).Contents (Elt F) → (⟨S16384x128, .f32⟩ : BufTy).Contents (Elt F)),
    binary main_arg0 main_v74 main_v75 (addf : (⟨S16384x128, .f32⟩ : BufTy).Contents (Elt F) → (⟨S16384x128, .f32⟩ : BufTy).Contents (Elt F) → (⟨S16384x128, .f32⟩ : BufTy).Contents (Elt F)) ]

abbrev opsS1b : List (HloOp τ sig (Elt F)) :=
  [ unary main_v32 main_v76 ((transpose S128x1 [1, 0] · transposes_S1x128_S128x1_1_0) : (⟨S1x128, .f32⟩ : BufTy).Contents (Elt F) → (⟨S128x1, .f32⟩ : BufTy).Contents (Elt F)),
    binary main_v75 main_v76 main_v77 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_12 (constant S_ .f32 0xFF800000#32),
    binary main_v77 main_cst_12 main_v78 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_13 (constant S_ .f32 0xFF800000#32),
    unary main_cst_13 main_v79 (broadcastInDim S16384 ![] bcast_S_S16384 : (⟨S_, .f32⟩ : BufTy).Contents (Elt F) → (⟨S16384, .f32⟩ : BufTy).Contents (Elt F)),
    binary main_v79 main_v78 main_v80 (maximumf : (⟨S16384, .f32⟩ : BufTy).Contents (Elt F) → (⟨S16384, .f32⟩ : BufTy).Contents (Elt F) → (⟨S16384, .f32⟩ : BufTy).Contents (Elt F)),
    unary main_v80 main_v81 (broadcastInDim S16384x1 ![0] bcast_S16384_S16384x1_0 : (⟨S16384, .f32⟩ : BufTy).Contents (Elt F) → (⟨S16384x1, .f32⟩ : BufTy).Contents (Elt F)),
    binary main_v77 main_v81 main_v82 (subf : (⟨S16384x1, .f32⟩ : BufTy).Contents (Elt F) → (⟨S16384x1, .f32⟩ : BufTy).Contents (Elt F) → (⟨S16384x1, .f32⟩ : BufTy).Contents (Elt F)),
    unary main_v82 main_v83 (Host.exp : (⟨S16384x1, .f32⟩ : BufTy).Contents (Elt F) → (⟨S16384x1, .f32⟩ : BufTy).Contents (Elt F)),
    nullary main_cst_14 (constant S_ .f32 0x00000000#32),
    binary main_v83 main_cst_14 main_v84 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v84 main_v85 (broadcastInDim S16384x1 ![0] bcast_S16384_S16384x1_0 : (⟨S16384, .f32⟩ : BufTy).Contents (Elt F) → (⟨S16384x1, .f32⟩ : BufTy).Contents (Elt F)),
    binary main_v83 main_v85 main_v86 (Host.divf : (⟨S16384x1, .f32⟩ : BufTy).Contents (Elt F) → (⟨S16384x1, .f32⟩ : BufTy).Contents (Elt F) → (⟨S16384x1, .f32⟩ : BufTy).Contents (Elt F)),
    binary main_v86 main_v32 main_v87 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v75 main_v87 main_v88 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) ]

abbrev opsS2a : List (HloOp τ sig (Elt F)) :=
  [ unary main_arg8 main_v89 ((transpose S128x1024 [1, 0] · transposes_S1024x128_S128x1024_1_0) : (⟨S1024x128, .f32⟩ : BufTy).Contents (Elt F) → (⟨S128x1024, .f32⟩ : BufTy).Contents (Elt F)),
    binary main_arg0 main_v89 main_v90 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v91 (broadcastInDim S1x1024 ![1] bcast_S1024_S1x1024_1 : (⟨S1024, .f32⟩ : BufTy).Contents (Elt F) → (⟨S1x1024, .f32⟩ : BufTy).Contents (Elt F)),
    unary main_v91 main_v92 (broadcastInDim S16384x1024 ![0, 1] bcast_S1x1024_S16384x1024_0_1 : (⟨S1x1024, .f32⟩ : BufTy).Contents (Elt F) → (⟨S16384x1024, .f32⟩ : BufTy).Contents (Elt F)),
    binary main_v90 main_v92 main_v93 (addf : (⟨S16384x1024, .f32⟩ : BufTy).Contents (Elt F) → (⟨S16384x1024, .f32⟩ : BufTy).Contents (Elt F) → (⟨S16384x1024, .f32⟩ : BufTy).Contents (Elt F)),
    unary main_arg9 main_v94 ((transpose S256x1024 [1, 0] · transposes_S1024x256_S256x1024_1_0) : (⟨S1024x256, .f32⟩ : BufTy).Contents (Elt F) → (⟨S256x1024, .f32⟩ : BufTy).Contents (Elt F)),
    binary main_v88 main_v94 main_v95 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v93 main_v95 main_v96 (addf : (⟨S16384x1024, .f32⟩ : BufTy).Contents (Elt F) → (⟨S16384x1024, .f32⟩ : BufTy).Contents (Elt F) → (⟨S16384x1024, .f32⟩ : BufTy).Contents (Elt F)),
    unary main_arg11 main_v97 (broadcastInDim S1x1024 ![1] bcast_S1024_S1x1024_1 : (⟨S1024, .f32⟩ : BufTy).Contents (Elt F) → (⟨S1x1024, .f32⟩ : BufTy).Contents (Elt F)),
    unary main_v97 main_v98 (broadcastInDim S16384x1024 ![0, 1] bcast_S1x1024_S16384x1024_0_1 : (⟨S1x1024, .f32⟩ : BufTy).Contents (Elt F) → (⟨S16384x1024, .f32⟩ : BufTy).Contents (Elt F)),
    binary main_v96 main_v98 main_v99 (addf : (⟨S16384x1024, .f32⟩ : BufTy).Contents (Elt F) → (⟨S16384x1024, .f32⟩ : BufTy).Contents (Elt F) → (⟨S16384x1024, .f32⟩ : BufTy).Contents (Elt F)),
    unary main_v99 main_v100 ((extractStridedSlice S16384x256 ![0, 0] · slices_S16384x1024_S16384x256_0_0) : (⟨S16384x1024, .f32⟩ : BufTy).Contents (Elt F) → (⟨S16384x256, .f32⟩ : BufTy).Contents (Elt F)),
    unary main_v99 main_v101 ((extractStridedSlice S16384x256 ![0, 256] · slices_S16384x1024_S16384x256_0_256) : (⟨S16384x1024, .f32⟩ : BufTy).Contents (Elt F) → (⟨S16384x256, .f32⟩ : BufTy).Contents (Elt F)),
    unary main_v99 main_v102 ((extractStridedSlice S16384x256 ![0, 512] · slices_S16384x1024_S16384x256_0_512) : (⟨S16384x1024, .f32⟩ : BufTy).Contents (Elt F) → (⟨S16384x256, .f32⟩ : BufTy).Contents (Elt F)),
    unary main_v99 main_v103 ((extractStridedSlice S16384x256 ![0, 768] · slices_S16384x1024_S16384x256_0_768) : (⟨S16384x1024, .f32⟩ : BufTy).Contents (Elt F) → (⟨S16384x256, .f32⟩ : BufTy).Contents (Elt F)),
    unary main_v100 main_v104 (Host.negf : (⟨S16384x256, .f32⟩ : BufTy).Contents (Elt F) → (⟨S16384x256, .f32⟩ : BufTy).Contents (Elt F)),
    unary main_v104 main_v105 (Host.exp : (⟨S16384x256, .f32⟩ : BufTy).Contents (Elt F) → (⟨S16384x256, .f32⟩ : BufTy).Contents (Elt F)),
    nullary main_cst_15 (constant S_ .f32 0x3F800000#32),
    unary main_cst_15 main_v106 (broadcastInDim S16384x256 ![] bcast_S_S16384x256 : (⟨S_, .f32⟩ : BufTy).Contents (Elt F) → (⟨S16384x256, .f32⟩ : BufTy).Contents (Elt F)),
    binary main_v106 main_v105 main_v107 (addf : (⟨S16384x256, .f32⟩ : BufTy).Contents (Elt F) → (⟨S16384x256, .f32⟩ : BufTy).Contents (Elt F) → (⟨S16384x256, .f32⟩ : BufTy).Contents (Elt F)),
    nullary main_cst_16 (constant S_ .f32 0x3F800000#32),
    unary main_cst_16 main_v108 (broadcastInDim S16384x256 ![] bcast_S_S16384x256 : (⟨S_, .f32⟩ : BufTy).Contents (Elt F) → (⟨S16384x256, .f32⟩ : BufTy).Contents (Elt F)),
    binary main_v108 main_v107 main_v109 (Host.divf : (⟨S16384x256, .f32⟩ : BufTy).Contents (Elt F) → (⟨S16384x256, .f32⟩ : BufTy).Contents (Elt F) → (⟨S16384x256, .f32⟩ : BufTy).Contents (Elt F)),
    unary main_v101 main_v110 (Host.negf : (⟨S16384x256, .f32⟩ : BufTy).Contents (Elt F) → (⟨S16384x256, .f32⟩ : BufTy).Contents (Elt F)),
    unary main_v110 main_v111 (Host.exp : (⟨S16384x256, .f32⟩ : BufTy).Contents (Elt F) → (⟨S16384x256, .f32⟩ : BufTy).Contents (Elt F)),
    nullary main_cst_17 (constant S_ .f32 0x3F800000#32),
    unary main_cst_17 main_v112 (broadcastInDim S16384x256 ![] bcast_S_S16384x256 : (⟨S_, .f32⟩ : BufTy).Contents (Elt F) → (⟨S16384x256, .f32⟩ : BufTy).Contents (Elt F)),
    binary main_v112 main_v111 main_v113 (addf : (⟨S16384x256, .f32⟩ : BufTy).Contents (Elt F) → (⟨S16384x256, .f32⟩ : BufTy).Contents (Elt F) → (⟨S16384x256, .f32⟩ : BufTy).Contents (Elt F)),
    nullary main_cst_18 (constant S_ .f32 0x3F800000#32),
    unary main_cst_18 main_v114 (broadcastInDim S16384x256 ![] bcast_S_S16384x256 : (⟨S_, .f32⟩ : BufTy).Contents (Elt F) → (⟨S16384x256, .f32⟩ : BufTy).Contents (Elt F)),
    binary main_v114 main_v113 main_v115 (Host.divf : (⟨S16384x256, .f32⟩ : BufTy).Contents (Elt F) → (⟨S16384x256, .f32⟩ : BufTy).Contents (Elt F) → (⟨S16384x256, .f32⟩ : BufTy).Contents (Elt F)),
    unary main_v102 main_v116 (Host.tanh : (⟨S16384x256, .f32⟩ : BufTy).Contents (Elt F) → (⟨S16384x256, .f32⟩ : BufTy).Contents (Elt F)),
    unary main_v103 main_v117 (Host.negf : (⟨S16384x256, .f32⟩ : BufTy).Contents (Elt F) → (⟨S16384x256, .f32⟩ : BufTy).Contents (Elt F)),
    unary main_v117 main_v118 (Host.exp : (⟨S16384x256, .f32⟩ : BufTy).Contents (Elt F) → (⟨S16384x256, .f32⟩ : BufTy).Contents (Elt F)),
    nullary main_cst_19 (constant S_ .f32 0x3F800000#32),
    unary main_cst_19 main_v119 (broadcastInDim S16384x256 ![] bcast_S_S16384x256 : (⟨S_, .f32⟩ : BufTy).Contents (Elt F) → (⟨S16384x256, .f32⟩ : BufTy).Contents (Elt F)),
    binary main_v119 main_v118 main_v120 (addf : (⟨S16384x256, .f32⟩ : BufTy).Contents (Elt F) → (⟨S16384x256, .f32⟩ : BufTy).Contents (Elt F) → (⟨S16384x256, .f32⟩ : BufTy).Contents (Elt F)),
    nullary main_cst_20 (constant S_ .f32 0x3F800000#32),
    unary main_cst_20 main_v121 (broadcastInDim S16384x256 ![] bcast_S_S16384x256 : (⟨S_, .f32⟩ : BufTy).Contents (Elt F) → (⟨S16384x256, .f32⟩ : BufTy).Contents (Elt F)),
    binary main_v121 main_v120 main_v122 (Host.divf : (⟨S16384x256, .f32⟩ : BufTy).Contents (Elt F) → (⟨S16384x256, .f32⟩ : BufTy).Contents (Elt F) → (⟨S16384x256, .f32⟩ : BufTy).Contents (Elt F)),
    binary main_v115 main_v71 main_v123 (mulf : (⟨S16384x256, .f32⟩ : BufTy).Contents (Elt F) → (⟨S16384x256, .f32⟩ : BufTy).Contents (Elt F) → (⟨S16384x256, .f32⟩ : BufTy).Contents (Elt F)),
    binary main_v109 main_v116 main_v124 (mulf : (⟨S16384x256, .f32⟩ : BufTy).Contents (Elt F) → (⟨S16384x256, .f32⟩ : BufTy).Contents (Elt F) → (⟨S16384x256, .f32⟩ : BufTy).Contents (Elt F)),
    binary main_v123 main_v124 main_v125 (addf : (⟨S16384x256, .f32⟩ : BufTy).Contents (Elt F) → (⟨S16384x256, .f32⟩ : BufTy).Contents (Elt F) → (⟨S16384x256, .f32⟩ : BufTy).Contents (Elt F)),
    unary main_v125 main_v126 (Host.tanh : (⟨S16384x256, .f32⟩ : BufTy).Contents (Elt F) → (⟨S16384x256, .f32⟩ : BufTy).Contents (Elt F)),
    binary main_v122 main_v126 main_v127 (mulf : (⟨S16384x256, .f32⟩ : BufTy).Contents (Elt F) → (⟨S16384x256, .f32⟩ : BufTy).Contents (Elt F) → (⟨S16384x256, .f32⟩ : BufTy).Contents (Elt F)),
    unary main_v127 main_v128 ((extractStridedSlice S16384x128 ![0, 0] · slices_S16384x256_S16384x128_0_0) : (⟨S16384x256, .f32⟩ : BufTy).Contents (Elt F) → (⟨S16384x128, .f32⟩ : BufTy).Contents (Elt F)),
    binary main_arg0 main_v128 main_v129 (addf : (⟨S16384x128, .f32⟩ : BufTy).Contents (Elt F) → (⟨S16384x128, .f32⟩ : BufTy).Contents (Elt F) → (⟨S16384x128, .f32⟩ : BufTy).Contents (Elt F)) ]

abbrev opsS2b : List (HloOp τ sig (Elt F)) :=
  [ unary main_v32 main_v130 ((transpose S128x1 [1, 0] · transposes_S1x128_S128x1_1_0) : (⟨S1x128, .f32⟩ : BufTy).Contents (Elt F) → (⟨S128x1, .f32⟩ : BufTy).Contents (Elt F)),
    binary main_v129 main_v130 main_v131 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_21 (constant S_ .f32 0xFF800000#32),
    binary main_v131 main_cst_21 main_v132 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_22 (constant S_ .f32 0xFF800000#32),
    unary main_cst_22 main_v133 (broadcastInDim S16384 ![] bcast_S_S16384 : (⟨S_, .f32⟩ : BufTy).Contents (Elt F) → (⟨S16384, .f32⟩ : BufTy).Contents (Elt F)),
    binary main_v133 main_v132 main_v134 (maximumf : (⟨S16384, .f32⟩ : BufTy).Contents (Elt F) → (⟨S16384, .f32⟩ : BufTy).Contents (Elt F) → (⟨S16384, .f32⟩ : BufTy).Contents (Elt F)),
    unary main_v134 main_v135 (broadcastInDim S16384x1 ![0] bcast_S16384_S16384x1_0 : (⟨S16384, .f32⟩ : BufTy).Contents (Elt F) → (⟨S16384x1, .f32⟩ : BufTy).Contents (Elt F)),
    binary main_v131 main_v135 main_v136 (subf : (⟨S16384x1, .f32⟩ : BufTy).Contents (Elt F) → (⟨S16384x1, .f32⟩ : BufTy).Contents (Elt F) → (⟨S16384x1, .f32⟩ : BufTy).Contents (Elt F)),
    unary main_v136 main_v137 (Host.exp : (⟨S16384x1, .f32⟩ : BufTy).Contents (Elt F) → (⟨S16384x1, .f32⟩ : BufTy).Contents (Elt F)),
    nullary main_cst_23 (constant S_ .f32 0x00000000#32),
    binary main_v137 main_cst_23 main_v138 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v138 main_v139 (broadcastInDim S16384x1 ![0] bcast_S16384_S16384x1_0 : (⟨S16384, .f32⟩ : BufTy).Contents (Elt F) → (⟨S16384x1, .f32⟩ : BufTy).Contents (Elt F)),
    binary main_v137 main_v139 main_v140 (Host.divf : (⟨S16384x1, .f32⟩ : BufTy).Contents (Elt F) → (⟨S16384x1, .f32⟩ : BufTy).Contents (Elt F) → (⟨S16384x1, .f32⟩ : BufTy).Contents (Elt F)),
    binary main_v140 main_v32 main_v141 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v129 main_v141 main_v142 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) ]

abbrev opsS3a : List (HloOp τ sig (Elt F)) :=
  [ unary main_arg8 main_v143 ((transpose S128x1024 [1, 0] · transposes_S1024x128_S128x1024_1_0) : (⟨S1024x128, .f32⟩ : BufTy).Contents (Elt F) → (⟨S128x1024, .f32⟩ : BufTy).Contents (Elt F)),
    binary main_arg0 main_v143 main_v144 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v145 (broadcastInDim S1x1024 ![1] bcast_S1024_S1x1024_1 : (⟨S1024, .f32⟩ : BufTy).Contents (Elt F) → (⟨S1x1024, .f32⟩ : BufTy).Contents (Elt F)),
    unary main_v145 main_v146 (broadcastInDim S16384x1024 ![0, 1] bcast_S1x1024_S16384x1024_0_1 : (⟨S1x1024, .f32⟩ : BufTy).Contents (Elt F) → (⟨S16384x1024, .f32⟩ : BufTy).Contents (Elt F)),
    binary main_v144 main_v146 main_v147 (addf : (⟨S16384x1024, .f32⟩ : BufTy).Contents (Elt F) → (⟨S16384x1024, .f32⟩ : BufTy).Contents (Elt F) → (⟨S16384x1024, .f32⟩ : BufTy).Contents (Elt F)),
    unary main_arg9 main_v148 ((transpose S256x1024 [1, 0] · transposes_S1024x256_S256x1024_1_0) : (⟨S1024x256, .f32⟩ : BufTy).Contents (Elt F) → (⟨S256x1024, .f32⟩ : BufTy).Contents (Elt F)),
    binary main_v142 main_v148 main_v149 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v147 main_v149 main_v150 (addf : (⟨S16384x1024, .f32⟩ : BufTy).Contents (Elt F) → (⟨S16384x1024, .f32⟩ : BufTy).Contents (Elt F) → (⟨S16384x1024, .f32⟩ : BufTy).Contents (Elt F)),
    unary main_arg11 main_v151 (broadcastInDim S1x1024 ![1] bcast_S1024_S1x1024_1 : (⟨S1024, .f32⟩ : BufTy).Contents (Elt F) → (⟨S1x1024, .f32⟩ : BufTy).Contents (Elt F)),
    unary main_v151 main_v152 (broadcastInDim S16384x1024 ![0, 1] bcast_S1x1024_S16384x1024_0_1 : (⟨S1x1024, .f32⟩ : BufTy).Contents (Elt F) → (⟨S16384x1024, .f32⟩ : BufTy).Contents (Elt F)),
    binary main_v150 main_v152 main_v153 (addf : (⟨S16384x1024, .f32⟩ : BufTy).Contents (Elt F) → (⟨S16384x1024, .f32⟩ : BufTy).Contents (Elt F) → (⟨S16384x1024, .f32⟩ : BufTy).Contents (Elt F)),
    unary main_v153 main_v154 ((extractStridedSlice S16384x256 ![0, 0] · slices_S16384x1024_S16384x256_0_0) : (⟨S16384x1024, .f32⟩ : BufTy).Contents (Elt F) → (⟨S16384x256, .f32⟩ : BufTy).Contents (Elt F)),
    unary main_v153 main_v155 ((extractStridedSlice S16384x256 ![0, 256] · slices_S16384x1024_S16384x256_0_256) : (⟨S16384x1024, .f32⟩ : BufTy).Contents (Elt F) → (⟨S16384x256, .f32⟩ : BufTy).Contents (Elt F)),
    unary main_v153 main_v156 ((extractStridedSlice S16384x256 ![0, 512] · slices_S16384x1024_S16384x256_0_512) : (⟨S16384x1024, .f32⟩ : BufTy).Contents (Elt F) → (⟨S16384x256, .f32⟩ : BufTy).Contents (Elt F)),
    unary main_v153 main_v157 ((extractStridedSlice S16384x256 ![0, 768] · slices_S16384x1024_S16384x256_0_768) : (⟨S16384x1024, .f32⟩ : BufTy).Contents (Elt F) → (⟨S16384x256, .f32⟩ : BufTy).Contents (Elt F)),
    unary main_v154 main_v158 (Host.negf : (⟨S16384x256, .f32⟩ : BufTy).Contents (Elt F) → (⟨S16384x256, .f32⟩ : BufTy).Contents (Elt F)),
    unary main_v158 main_v159 (Host.exp : (⟨S16384x256, .f32⟩ : BufTy).Contents (Elt F) → (⟨S16384x256, .f32⟩ : BufTy).Contents (Elt F)),
    nullary main_cst_24 (constant S_ .f32 0x3F800000#32),
    unary main_cst_24 main_v160 (broadcastInDim S16384x256 ![] bcast_S_S16384x256 : (⟨S_, .f32⟩ : BufTy).Contents (Elt F) → (⟨S16384x256, .f32⟩ : BufTy).Contents (Elt F)),
    binary main_v160 main_v159 main_v161 (addf : (⟨S16384x256, .f32⟩ : BufTy).Contents (Elt F) → (⟨S16384x256, .f32⟩ : BufTy).Contents (Elt F) → (⟨S16384x256, .f32⟩ : BufTy).Contents (Elt F)),
    nullary main_cst_25 (constant S_ .f32 0x3F800000#32),
    unary main_cst_25 main_v162 (broadcastInDim S16384x256 ![] bcast_S_S16384x256 : (⟨S_, .f32⟩ : BufTy).Contents (Elt F) → (⟨S16384x256, .f32⟩ : BufTy).Contents (Elt F)),
    binary main_v162 main_v161 main_v163 (Host.divf : (⟨S16384x256, .f32⟩ : BufTy).Contents (Elt F) → (⟨S16384x256, .f32⟩ : BufTy).Contents (Elt F) → (⟨S16384x256, .f32⟩ : BufTy).Contents (Elt F)),
    unary main_v155 main_v164 (Host.negf : (⟨S16384x256, .f32⟩ : BufTy).Contents (Elt F) → (⟨S16384x256, .f32⟩ : BufTy).Contents (Elt F)),
    unary main_v164 main_v165 (Host.exp : (⟨S16384x256, .f32⟩ : BufTy).Contents (Elt F) → (⟨S16384x256, .f32⟩ : BufTy).Contents (Elt F)),
    nullary main_cst_26 (constant S_ .f32 0x3F800000#32),
    unary main_cst_26 main_v166 (broadcastInDim S16384x256 ![] bcast_S_S16384x256 : (⟨S_, .f32⟩ : BufTy).Contents (Elt F) → (⟨S16384x256, .f32⟩ : BufTy).Contents (Elt F)),
    binary main_v166 main_v165 main_v167 (addf : (⟨S16384x256, .f32⟩ : BufTy).Contents (Elt F) → (⟨S16384x256, .f32⟩ : BufTy).Contents (Elt F) → (⟨S16384x256, .f32⟩ : BufTy).Contents (Elt F)),
    nullary main_cst_27 (constant S_ .f32 0x3F800000#32),
    unary main_cst_27 main_v168 (broadcastInDim S16384x256 ![] bcast_S_S16384x256 : (⟨S_, .f32⟩ : BufTy).Contents (Elt F) → (⟨S16384x256, .f32⟩ : BufTy).Contents (Elt F)),
    binary main_v168 main_v167 main_v169 (Host.divf : (⟨S16384x256, .f32⟩ : BufTy).Contents (Elt F) → (⟨S16384x256, .f32⟩ : BufTy).Contents (Elt F) → (⟨S16384x256, .f32⟩ : BufTy).Contents (Elt F)),
    unary main_v156 main_v170 (Host.tanh : (⟨S16384x256, .f32⟩ : BufTy).Contents (Elt F) → (⟨S16384x256, .f32⟩ : BufTy).Contents (Elt F)),
    unary main_v157 main_v171 (Host.negf : (⟨S16384x256, .f32⟩ : BufTy).Contents (Elt F) → (⟨S16384x256, .f32⟩ : BufTy).Contents (Elt F)),
    unary main_v171 main_v172 (Host.exp : (⟨S16384x256, .f32⟩ : BufTy).Contents (Elt F) → (⟨S16384x256, .f32⟩ : BufTy).Contents (Elt F)),
    nullary main_cst_28 (constant S_ .f32 0x3F800000#32),
    unary main_cst_28 main_v173 (broadcastInDim S16384x256 ![] bcast_S_S16384x256 : (⟨S_, .f32⟩ : BufTy).Contents (Elt F) → (⟨S16384x256, .f32⟩ : BufTy).Contents (Elt F)),
    binary main_v173 main_v172 main_v174 (addf : (⟨S16384x256, .f32⟩ : BufTy).Contents (Elt F) → (⟨S16384x256, .f32⟩ : BufTy).Contents (Elt F) → (⟨S16384x256, .f32⟩ : BufTy).Contents (Elt F)),
    nullary main_cst_29 (constant S_ .f32 0x3F800000#32),
    unary main_cst_29 main_v175 (broadcastInDim S16384x256 ![] bcast_S_S16384x256 : (⟨S_, .f32⟩ : BufTy).Contents (Elt F) → (⟨S16384x256, .f32⟩ : BufTy).Contents (Elt F)),
    binary main_v175 main_v174 main_v176 (Host.divf : (⟨S16384x256, .f32⟩ : BufTy).Contents (Elt F) → (⟨S16384x256, .f32⟩ : BufTy).Contents (Elt F) → (⟨S16384x256, .f32⟩ : BufTy).Contents (Elt F)),
    binary main_v169 main_v125 main_v177 (mulf : (⟨S16384x256, .f32⟩ : BufTy).Contents (Elt F) → (⟨S16384x256, .f32⟩ : BufTy).Contents (Elt F) → (⟨S16384x256, .f32⟩ : BufTy).Contents (Elt F)),
    binary main_v163 main_v170 main_v178 (mulf : (⟨S16384x256, .f32⟩ : BufTy).Contents (Elt F) → (⟨S16384x256, .f32⟩ : BufTy).Contents (Elt F) → (⟨S16384x256, .f32⟩ : BufTy).Contents (Elt F)),
    binary main_v177 main_v178 main_v179 (addf : (⟨S16384x256, .f32⟩ : BufTy).Contents (Elt F) → (⟨S16384x256, .f32⟩ : BufTy).Contents (Elt F) → (⟨S16384x256, .f32⟩ : BufTy).Contents (Elt F)),
    unary main_v179 main_v180 (Host.tanh : (⟨S16384x256, .f32⟩ : BufTy).Contents (Elt F) → (⟨S16384x256, .f32⟩ : BufTy).Contents (Elt F)),
    binary main_v176 main_v180 main_v181 (mulf : (⟨S16384x256, .f32⟩ : BufTy).Contents (Elt F) → (⟨S16384x256, .f32⟩ : BufTy).Contents (Elt F) → (⟨S16384x256, .f32⟩ : BufTy).Contents (Elt F)),
    unary main_v181 main_v182 ((extractStridedSlice S16384x128 ![0, 0] · slices_S16384x256_S16384x128_0_0) : (⟨S16384x256, .f32⟩ : BufTy).Contents (Elt F) → (⟨S16384x128, .f32⟩ : BufTy).Contents (Elt F)),
    binary main_arg0 main_v182 main_v183 (addf : (⟨S16384x128, .f32⟩ : BufTy).Contents (Elt F) → (⟨S16384x128, .f32⟩ : BufTy).Contents (Elt F) → (⟨S16384x128, .f32⟩ : BufTy).Contents (Elt F)) ]

abbrev opsS3b : List (HloOp τ sig (Elt F)) :=
  [ unary main_v32 main_v184 ((transpose S128x1 [1, 0] · transposes_S1x128_S128x1_1_0) : (⟨S1x128, .f32⟩ : BufTy).Contents (Elt F) → (⟨S128x1, .f32⟩ : BufTy).Contents (Elt F)),
    binary main_v183 main_v184 main_v185 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_30 (constant S_ .f32 0xFF800000#32),
    binary main_v185 main_cst_30 main_v186 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_31 (constant S_ .f32 0xFF800000#32),
    unary main_cst_31 main_v187 (broadcastInDim S16384 ![] bcast_S_S16384 : (⟨S_, .f32⟩ : BufTy).Contents (Elt F) → (⟨S16384, .f32⟩ : BufTy).Contents (Elt F)),
    binary main_v187 main_v186 main_v188 (maximumf : (⟨S16384, .f32⟩ : BufTy).Contents (Elt F) → (⟨S16384, .f32⟩ : BufTy).Contents (Elt F) → (⟨S16384, .f32⟩ : BufTy).Contents (Elt F)),
    unary main_v188 main_v189 (broadcastInDim S16384x1 ![0] bcast_S16384_S16384x1_0 : (⟨S16384, .f32⟩ : BufTy).Contents (Elt F) → (⟨S16384x1, .f32⟩ : BufTy).Contents (Elt F)),
    binary main_v185 main_v189 main_v190 (subf : (⟨S16384x1, .f32⟩ : BufTy).Contents (Elt F) → (⟨S16384x1, .f32⟩ : BufTy).Contents (Elt F) → (⟨S16384x1, .f32⟩ : BufTy).Contents (Elt F)),
    unary main_v190 main_v191 (Host.exp : (⟨S16384x1, .f32⟩ : BufTy).Contents (Elt F) → (⟨S16384x1, .f32⟩ : BufTy).Contents (Elt F)),
    nullary main_cst_32 (constant S_ .f32 0x00000000#32),
    binary main_v191 main_cst_32 main_v192 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v192 main_v193 (broadcastInDim S16384x1 ![0] bcast_S16384_S16384x1_0 : (⟨S16384, .f32⟩ : BufTy).Contents (Elt F) → (⟨S16384x1, .f32⟩ : BufTy).Contents (Elt F)),
    binary main_v191 main_v193 main_v194 (Host.divf : (⟨S16384x1, .f32⟩ : BufTy).Contents (Elt F) → (⟨S16384x1, .f32⟩ : BufTy).Contents (Elt F) → (⟨S16384x1, .f32⟩ : BufTy).Contents (Elt F)),
    binary main_v194 main_v32 main_v195 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v183 main_v195 main_v196 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) ]

abbrev opsS4a : List (HloOp τ sig (Elt F)) :=
  [ unary main_arg8 main_v197 ((transpose S128x1024 [1, 0] · transposes_S1024x128_S128x1024_1_0) : (⟨S1024x128, .f32⟩ : BufTy).Contents (Elt F) → (⟨S128x1024, .f32⟩ : BufTy).Contents (Elt F)),
    binary main_arg0 main_v197 main_v198 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v199 (broadcastInDim S1x1024 ![1] bcast_S1024_S1x1024_1 : (⟨S1024, .f32⟩ : BufTy).Contents (Elt F) → (⟨S1x1024, .f32⟩ : BufTy).Contents (Elt F)),
    unary main_v199 main_v200 (broadcastInDim S16384x1024 ![0, 1] bcast_S1x1024_S16384x1024_0_1 : (⟨S1x1024, .f32⟩ : BufTy).Contents (Elt F) → (⟨S16384x1024, .f32⟩ : BufTy).Contents (Elt F)),
    binary main_v198 main_v200 main_v201 (addf : (⟨S16384x1024, .f32⟩ : BufTy).Contents (Elt F) → (⟨S16384x1024, .f32⟩ : BufTy).Contents (Elt F) → (⟨S16384x1024, .f32⟩ : BufTy).Contents (Elt F)),
    unary main_arg9 main_v202 ((transpose S256x1024 [1, 0] · transposes_S1024x256_S256x1024_1_0) : (⟨S1024x256, .f32⟩ : BufTy).Contents (Elt F) → (⟨S256x1024, .f32⟩ : BufTy).Contents (Elt F)),
    binary main_v196 main_v202 main_v203 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v201 main_v203 main_v204 (addf : (⟨S16384x1024, .f32⟩ : BufTy).Contents (Elt F) → (⟨S16384x1024, .f32⟩ : BufTy).Contents (Elt F) → (⟨S16384x1024, .f32⟩ : BufTy).Contents (Elt F)),
    unary main_arg11 main_v205 (broadcastInDim S1x1024 ![1] bcast_S1024_S1x1024_1 : (⟨S1024, .f32⟩ : BufTy).Contents (Elt F) → (⟨S1x1024, .f32⟩ : BufTy).Contents (Elt F)),
    unary main_v205 main_v206 (broadcastInDim S16384x1024 ![0, 1] bcast_S1x1024_S16384x1024_0_1 : (⟨S1x1024, .f32⟩ : BufTy).Contents (Elt F) → (⟨S16384x1024, .f32⟩ : BufTy).Contents (Elt F)),
    binary main_v204 main_v206 main_v207 (addf : (⟨S16384x1024, .f32⟩ : BufTy).Contents (Elt F) → (⟨S16384x1024, .f32⟩ : BufTy).Contents (Elt F) → (⟨S16384x1024, .f32⟩ : BufTy).Contents (Elt F)),
    unary main_v207 main_v208 ((extractStridedSlice S16384x256 ![0, 0] · slices_S16384x1024_S16384x256_0_0) : (⟨S16384x1024, .f32⟩ : BufTy).Contents (Elt F) → (⟨S16384x256, .f32⟩ : BufTy).Contents (Elt F)),
    unary main_v207 main_v209 ((extractStridedSlice S16384x256 ![0, 256] · slices_S16384x1024_S16384x256_0_256) : (⟨S16384x1024, .f32⟩ : BufTy).Contents (Elt F) → (⟨S16384x256, .f32⟩ : BufTy).Contents (Elt F)),
    unary main_v207 main_v210 ((extractStridedSlice S16384x256 ![0, 512] · slices_S16384x1024_S16384x256_0_512) : (⟨S16384x1024, .f32⟩ : BufTy).Contents (Elt F) → (⟨S16384x256, .f32⟩ : BufTy).Contents (Elt F)),
    unary main_v207 main_v211 ((extractStridedSlice S16384x256 ![0, 768] · slices_S16384x1024_S16384x256_0_768) : (⟨S16384x1024, .f32⟩ : BufTy).Contents (Elt F) → (⟨S16384x256, .f32⟩ : BufTy).Contents (Elt F)),
    unary main_v208 main_v212 (Host.negf : (⟨S16384x256, .f32⟩ : BufTy).Contents (Elt F) → (⟨S16384x256, .f32⟩ : BufTy).Contents (Elt F)),
    unary main_v212 main_v213 (Host.exp : (⟨S16384x256, .f32⟩ : BufTy).Contents (Elt F) → (⟨S16384x256, .f32⟩ : BufTy).Contents (Elt F)),
    nullary main_cst_33 (constant S_ .f32 0x3F800000#32),
    unary main_cst_33 main_v214 (broadcastInDim S16384x256 ![] bcast_S_S16384x256 : (⟨S_, .f32⟩ : BufTy).Contents (Elt F) → (⟨S16384x256, .f32⟩ : BufTy).Contents (Elt F)),
    binary main_v214 main_v213 main_v215 (addf : (⟨S16384x256, .f32⟩ : BufTy).Contents (Elt F) → (⟨S16384x256, .f32⟩ : BufTy).Contents (Elt F) → (⟨S16384x256, .f32⟩ : BufTy).Contents (Elt F)),
    nullary main_cst_34 (constant S_ .f32 0x3F800000#32),
    unary main_cst_34 main_v216 (broadcastInDim S16384x256 ![] bcast_S_S16384x256 : (⟨S_, .f32⟩ : BufTy).Contents (Elt F) → (⟨S16384x256, .f32⟩ : BufTy).Contents (Elt F)),
    binary main_v216 main_v215 main_v217 (Host.divf : (⟨S16384x256, .f32⟩ : BufTy).Contents (Elt F) → (⟨S16384x256, .f32⟩ : BufTy).Contents (Elt F) → (⟨S16384x256, .f32⟩ : BufTy).Contents (Elt F)),
    unary main_v209 main_v218 (Host.negf : (⟨S16384x256, .f32⟩ : BufTy).Contents (Elt F) → (⟨S16384x256, .f32⟩ : BufTy).Contents (Elt F)),
    unary main_v218 main_v219 (Host.exp : (⟨S16384x256, .f32⟩ : BufTy).Contents (Elt F) → (⟨S16384x256, .f32⟩ : BufTy).Contents (Elt F)),
    nullary main_cst_35 (constant S_ .f32 0x3F800000#32),
    unary main_cst_35 main_v220 (broadcastInDim S16384x256 ![] bcast_S_S16384x256 : (⟨S_, .f32⟩ : BufTy).Contents (Elt F) → (⟨S16384x256, .f32⟩ : BufTy).Contents (Elt F)),
    binary main_v220 main_v219 main_v221 (addf : (⟨S16384x256, .f32⟩ : BufTy).Contents (Elt F) → (⟨S16384x256, .f32⟩ : BufTy).Contents (Elt F) → (⟨S16384x256, .f32⟩ : BufTy).Contents (Elt F)),
    nullary main_cst_36 (constant S_ .f32 0x3F800000#32),
    unary main_cst_36 main_v222 (broadcastInDim S16384x256 ![] bcast_S_S16384x256 : (⟨S_, .f32⟩ : BufTy).Contents (Elt F) → (⟨S16384x256, .f32⟩ : BufTy).Contents (Elt F)),
    binary main_v222 main_v221 main_v223 (Host.divf : (⟨S16384x256, .f32⟩ : BufTy).Contents (Elt F) → (⟨S16384x256, .f32⟩ : BufTy).Contents (Elt F) → (⟨S16384x256, .f32⟩ : BufTy).Contents (Elt F)),
    unary main_v210 main_v224 (Host.tanh : (⟨S16384x256, .f32⟩ : BufTy).Contents (Elt F) → (⟨S16384x256, .f32⟩ : BufTy).Contents (Elt F)),
    unary main_v211 main_v225 (Host.negf : (⟨S16384x256, .f32⟩ : BufTy).Contents (Elt F) → (⟨S16384x256, .f32⟩ : BufTy).Contents (Elt F)),
    unary main_v225 main_v226 (Host.exp : (⟨S16384x256, .f32⟩ : BufTy).Contents (Elt F) → (⟨S16384x256, .f32⟩ : BufTy).Contents (Elt F)),
    nullary main_cst_37 (constant S_ .f32 0x3F800000#32),
    unary main_cst_37 main_v227 (broadcastInDim S16384x256 ![] bcast_S_S16384x256 : (⟨S_, .f32⟩ : BufTy).Contents (Elt F) → (⟨S16384x256, .f32⟩ : BufTy).Contents (Elt F)),
    binary main_v227 main_v226 main_v228 (addf : (⟨S16384x256, .f32⟩ : BufTy).Contents (Elt F) → (⟨S16384x256, .f32⟩ : BufTy).Contents (Elt F) → (⟨S16384x256, .f32⟩ : BufTy).Contents (Elt F)),
    nullary main_cst_38 (constant S_ .f32 0x3F800000#32),
    unary main_cst_38 main_v229 (broadcastInDim S16384x256 ![] bcast_S_S16384x256 : (⟨S_, .f32⟩ : BufTy).Contents (Elt F) → (⟨S16384x256, .f32⟩ : BufTy).Contents (Elt F)),
    binary main_v229 main_v228 main_v230 (Host.divf : (⟨S16384x256, .f32⟩ : BufTy).Contents (Elt F) → (⟨S16384x256, .f32⟩ : BufTy).Contents (Elt F) → (⟨S16384x256, .f32⟩ : BufTy).Contents (Elt F)),
    binary main_v223 main_v179 main_v231 (mulf : (⟨S16384x256, .f32⟩ : BufTy).Contents (Elt F) → (⟨S16384x256, .f32⟩ : BufTy).Contents (Elt F) → (⟨S16384x256, .f32⟩ : BufTy).Contents (Elt F)),
    binary main_v217 main_v224 main_v232 (mulf : (⟨S16384x256, .f32⟩ : BufTy).Contents (Elt F) → (⟨S16384x256, .f32⟩ : BufTy).Contents (Elt F) → (⟨S16384x256, .f32⟩ : BufTy).Contents (Elt F)),
    binary main_v231 main_v232 main_v233 (addf : (⟨S16384x256, .f32⟩ : BufTy).Contents (Elt F) → (⟨S16384x256, .f32⟩ : BufTy).Contents (Elt F) → (⟨S16384x256, .f32⟩ : BufTy).Contents (Elt F)),
    unary main_v233 main_v234 (Host.tanh : (⟨S16384x256, .f32⟩ : BufTy).Contents (Elt F) → (⟨S16384x256, .f32⟩ : BufTy).Contents (Elt F)),
    binary main_v230 main_v234 main_v235 (mulf : (⟨S16384x256, .f32⟩ : BufTy).Contents (Elt F) → (⟨S16384x256, .f32⟩ : BufTy).Contents (Elt F) → (⟨S16384x256, .f32⟩ : BufTy).Contents (Elt F)),
    unary main_v235 main_v236 ((extractStridedSlice S16384x128 ![0, 0] · slices_S16384x256_S16384x128_0_0) : (⟨S16384x256, .f32⟩ : BufTy).Contents (Elt F) → (⟨S16384x128, .f32⟩ : BufTy).Contents (Elt F)),
    binary main_arg0 main_v236 main_v237 (addf : (⟨S16384x128, .f32⟩ : BufTy).Contents (Elt F) → (⟨S16384x128, .f32⟩ : BufTy).Contents (Elt F) → (⟨S16384x128, .f32⟩ : BufTy).Contents (Elt F)) ]

abbrev opsS4b : List (HloOp τ sig (Elt F)) :=
  [ unary main_v32 main_v238 ((transpose S128x1 [1, 0] · transposes_S1x128_S128x1_1_0) : (⟨S1x128, .f32⟩ : BufTy).Contents (Elt F) → (⟨S128x1, .f32⟩ : BufTy).Contents (Elt F)),
    binary main_v237 main_v238 main_v239 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_39 (constant S_ .f32 0xFF800000#32),
    binary main_v239 main_cst_39 main_v240 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_40 (constant S_ .f32 0xFF800000#32),
    unary main_cst_40 main_v241 (broadcastInDim S16384 ![] bcast_S_S16384 : (⟨S_, .f32⟩ : BufTy).Contents (Elt F) → (⟨S16384, .f32⟩ : BufTy).Contents (Elt F)),
    binary main_v241 main_v240 main_v242 (maximumf : (⟨S16384, .f32⟩ : BufTy).Contents (Elt F) → (⟨S16384, .f32⟩ : BufTy).Contents (Elt F) → (⟨S16384, .f32⟩ : BufTy).Contents (Elt F)),
    unary main_v242 main_v243 (broadcastInDim S16384x1 ![0] bcast_S16384_S16384x1_0 : (⟨S16384, .f32⟩ : BufTy).Contents (Elt F) → (⟨S16384x1, .f32⟩ : BufTy).Contents (Elt F)),
    binary main_v239 main_v243 main_v244 (subf : (⟨S16384x1, .f32⟩ : BufTy).Contents (Elt F) → (⟨S16384x1, .f32⟩ : BufTy).Contents (Elt F) → (⟨S16384x1, .f32⟩ : BufTy).Contents (Elt F)),
    unary main_v244 main_v245 (Host.exp : (⟨S16384x1, .f32⟩ : BufTy).Contents (Elt F) → (⟨S16384x1, .f32⟩ : BufTy).Contents (Elt F)),
    nullary main_cst_41 (constant S_ .f32 0x00000000#32),
    binary main_v245 main_cst_41 main_v246 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v246 main_v247 (broadcastInDim S16384x1 ![0] bcast_S16384_S16384x1_0 : (⟨S16384, .f32⟩ : BufTy).Contents (Elt F) → (⟨S16384x1, .f32⟩ : BufTy).Contents (Elt F)),
    binary main_v245 main_v247 main_v248 (Host.divf : (⟨S16384x1, .f32⟩ : BufTy).Contents (Elt F) → (⟨S16384x1, .f32⟩ : BufTy).Contents (Elt F) → (⟨S16384x1, .f32⟩ : BufTy).Contents (Elt F)),
    binary main_v248 main_v32 main_v249 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v237 main_v249 main_v250 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) ]

abbrev opsFin : List (HloOp τ sig (Elt F)) :=
  [ unary main_v32 main_v251 ((transpose S128x1 [1, 0] · transposes_S1x128_S128x1_1_0) : (⟨S1x128, .f32⟩ : BufTy).Contents (Elt F) → (⟨S128x1, .f32⟩ : BufTy).Contents (Elt F)),
    binary main_v237 main_v251 main_v252 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    reshape main_v252 main_v253 rfl shapeCasts_S16384x1_S16384 ]

/-- The whole program: the stages in order. -/
abbrev ops : List (HloOp τ sig (Elt F)) :=
  opsEnc ++ opsZero ++ opsS1a ++ opsS1b ++ opsS2a ++ opsS2b ++ opsS3a ++ opsS3b ++ opsS4a ++ opsS4b ++ opsFin

end Cert.ReferenceIdeal.HostRun

end
-- ==== Proof.RefParts.lean ====
/-
  The reference program's operations once more, cut where the program's text is cut into its five consecutive
  windows, and the program as the straight line of all of them: each window is the line of its own operations (the
  called functions' bodies written out in place), and the five lines run one after the other are the line of the
  concatenation.
-/
import proofs.«162834_g48816598286877_cont_sun_m_45_4_alg».proof.Proof.RefOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 (operations 1 … 85 of 323). -/
abbrev part0 : List (HloOp τ sig (Elt F)) :=
  [ unary main_arg2 main_v0 ((transpose S128x256 [1, 0] · transposes_S256x128_S128x256_1_0) : (⟨S256x128, .f32⟩ : BufTy).Contents (Elt F) → (⟨S128x256, .f32⟩ : BufTy).Contents (Elt F)),
    binary main_arg1 main_v0 main_v1 ((fun l r => Host.dotGeneral dot_S5x128_S128x256_S5x256_1_0_0_1_n_n none l r) : (⟨S5x128, .f32⟩ : BufTy).Contents (Elt F) → (⟨S128x256, .f32⟩ : BufTy).Contents (Elt F) → (⟨S5x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S5x256 ![0, 1] bcast_S1x256_S5x256_0_1 : (⟨S1x256, .f32⟩ : BufTy).Contents (Elt F) → (⟨S5x256, .f32⟩ : BufTy).Contents (Elt F)),
    binary main_v1 main_v3 main_v4 (addf : (⟨S5x256, .f32⟩ : BufTy).Contents (Elt F) → (⟨S5x256, .f32⟩ : BufTy).Contents (Elt F) → (⟨S5x256, .f32⟩ : BufTy).Contents (Elt F)),
    TRef.nullary main_call0.cst (constant S_ .f32 0x00000000#32),
    TRef.unary main_call0.cst main_call0.v0 (broadcastInDim S5x256 ![] bcast_S_S5x256),
    TRef.binary (.of main_v4) main_call0.v0 main_call0.v1 maximumf,
    unary main_arg4 main_v6 ((transpose S256x128 [1, 0] · transposes_S128x256_S256x128_1_0) : (⟨S128x256, .f32⟩ : BufTy).Contents (Elt F) → (⟨S256x128, .f32⟩ : BufTy).Contents (Elt F)),
    binary main_v5 main_v6 main_v7 ((fun l r => Host.dotGeneral dot_S5x256_S256x128_S5x128_1_0_0_1_n_n none l r) : (⟨S5x256, .f32⟩ : BufTy).Contents (Elt F) → (⟨S256x128, .f32⟩ : BufTy).Contents (Elt F) → (⟨S5x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S5x128 ![0, 1] bcast_S1x128_S5x128_0_1 : (⟨S1x128, .f32⟩ : BufTy).Contents (Elt F) → (⟨S5x128, .f32⟩ : BufTy).Contents (Elt F)),
    binary main_v7 main_v9 main_v10 (addf : (⟨S5x128, .f32⟩ : BufTy).Contents (Elt F) → (⟨S5x128, .f32⟩ : BufTy).Contents (Elt F) → (⟨S5x128, .f32⟩ : BufTy).Contents (Elt F)),
    binary main_v10 main_arg1 main_v11 (addf : (⟨S5x128, .f32⟩ : BufTy).Contents (Elt F) → (⟨S5x128, .f32⟩ : BufTy).Contents (Elt F) → (⟨S5x128, .f32⟩ : BufTy).Contents (Elt F)),
    nullary main_cst (constant S_ .f32 0x00000000#32),
    binary main_v11 main_cst main_v12 ((fun x v => Host.reduceAdd x v reducesTo_S5x128_S5_d1 h_S_) : (⟨S5x128, .f32⟩ : BufTy).Contents (Elt F) → (⟨S_, .f32⟩ : BufTy).Contents (Elt F) → (⟨S5, .f32⟩ : BufTy).Contents (Elt F)),
    unary main_v12 main_v13 (broadcastInDim S5x1 ![0] bcast_S5_S5x1_0 : (⟨S5, .f32⟩ : BufTy).Contents (Elt F) → (⟨S5x1, .f32⟩ : BufTy).Contents (Elt F)),
    nullary main_cst_0 (constant S_ .f32 0x43000000#32),
    unary main_cst_0 main_v14 (broadcastInDim S5x1 ![] bcast_S_S5x1 : (⟨S_, .f32⟩ : BufTy).Contents (Elt F) → (⟨S5x1, .f32⟩ : BufTy).Contents (Elt F)),
    binary main_v13 main_v14 main_v15 (Host.divf : (⟨S5x1, .f32⟩ : BufTy).Contents (Elt F) → (⟨S5x1, .f32⟩ : BufTy).Contents (Elt F) → (⟨S5x1, .f32⟩ : BufTy).Contents (Elt F)),
    nullary main_c (constantI S_ 32 1#32),
    TRef.nullary main_call1.call0.cst (constant S_ .f32 0x00000000#32),
    TRef.binary (.of main_v11) main_call1.call0.cst main_call1.call0.v0 (fun x v => Host.reduceAdd x v reducesTo_S5x128_S5_d1 h_S_),
    TRef.unary main_call1.call0.v0 main_call1.call0.v1 (broadcastInDim S5x1 ![0] bcast_S5_S5x1_0),
    TRef.nullary main_call1.call0.cst_0 (constant S_ .f32 0x43000000#32),
    TRef.unary main_call1.call0.cst_0 main_call1.call0.v2 (broadcastInDim S5x1 ![] bcast_S_S5x1),
    TRef.binary main_call1.call0.v1 main_call1.call0.v2 main_call1.call0.v3 Host.divf,
    TRef.unary main_call1.call0.v3 main_call1.call0.v4 (broadcastInDim S5x128 ![0, 1] bcast_S5x1_S5x128_0_1),
    TRef.binary (.of main_v11) main_call1.call0.v4 main_call1.call0.v5 subf,
    TRef.binary main_call1.call0.v5 main_call1.call0.v5 main_call1.call0.v6 mulf,
    TRef.unary (.of main_c) main_call1.call0.v7 (sitofp .f32),
    TRef.nullary main_call1.call0.cst_1 (constant S_ .f32 0x43000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S5x128_S5_d1 h_S_),
    TRef.unary main_call1.call0.v9 main_call1.call0.v10 (broadcastInDim S5x1 ![0] bcast_S5_S5x1_0),
    TRef.unary main_call1.call0.v8 main_call1.call0.v11 (broadcastInDim S5x1 ![] bcast_S_S5x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S5x1 ![] bcast_S_S5x1),
    TRef.ternary main_call1.call0.v13 main_call1.call0.v12 main_call1.call0.call0.v1 main_call1.call0.call0.v2 (fun p a b => select (broadcastInDim S5x1 ![] bcast_S_S5x1 p) a b),
    TRef.unary main_call1.call0.call0.v2 main_call1.v1 Host.sqrt,
    unary main_v15 main_v17 (broadcastInDim S5x128 ![0, 1] bcast_S5x1_S5x128_0_1 : (⟨S5x1, .f32⟩ : BufTy).Contents (Elt F) → (⟨S5x128, .f32⟩ : BufTy).Contents (Elt F)),
    binary main_v11 main_v17 main_v18 (subf : (⟨S5x128, .f32⟩ : BufTy).Contents (Elt F) → (⟨S5x128, .f32⟩ : BufTy).Contents (Elt F) → (⟨S5x128, .f32⟩ : BufTy).Contents (Elt F)),
    nullary main_cst_1 (constant S_ .f32 0x3A83126F#32),
    unary main_cst_1 main_v19 (broadcastInDim S5x1 ![] bcast_S_S5x1 : (⟨S_, .f32⟩ : BufTy).Contents (Elt F) → (⟨S5x1, .f32⟩ : BufTy).Contents (Elt F)),
    binary main_v16 main_v19 main_v20 (addf : (⟨S5x1, .f32⟩ : BufTy).Contents (Elt F) → (⟨S5x1, .f32⟩ : BufTy).Contents (Elt F) → (⟨S5x1, .f32⟩ : BufTy).Contents (Elt F)),
    unary main_v20 main_v21 (broadcastInDim S5x128 ![0, 1] bcast_S5x1_S5x128_0_1 : (⟨S5x1, .f32⟩ : BufTy).Contents (Elt F) → (⟨S5x128, .f32⟩ : BufTy).Contents (Elt F)),
    binary main_v18 main_v21 main_v22 (Host.divf : (⟨S5x128, .f32⟩ : BufTy).Contents (Elt F) → (⟨S5x128, .f32⟩ : BufTy).Contents (Elt F) → (⟨S5x128, .f32⟩ : BufTy).Contents (Elt F)),
    unary main_arg6 main_v23 (broadcastInDim S1x128 ![1] bcast_S128_S1x128_1 : (⟨S128, .f32⟩ : BufTy).Contents (Elt F) → (⟨S1x128, .f32⟩ : BufTy).Contents (Elt F)),
    unary main_v23 main_v24 (broadcastInDim S5x128 ![0, 1] bcast_S1x128_S5x128_0_1 : (⟨S1x128, .f32⟩ : BufTy).Contents (Elt F) → (⟨S5x128, .f32⟩ : BufTy).Contents (Elt F)),
    binary main_v22 main_v24 main_v25 (mulf : (⟨S5x128, .f32⟩ : BufTy).Contents (Elt F) → (⟨S5x128, .f32⟩ : BufTy).Contents (Elt F) → (⟨S5x128, .f32⟩ : BufTy).Contents (Elt F)),
    unary main_arg7 main_v26 (broadcastInDim S1x128 ![1] bcast_S128_S1x128_1 : (⟨S128, .f32⟩ : BufTy).Contents (Elt F) → (⟨S1x128, .f32⟩ : BufTy).Contents (Elt F)),
    unary main_v26 main_v27 (broadcastInDim S5x128 ![0, 1] bcast_S1x128_S5x128_0_1 : (⟨S1x128, .f32⟩ : BufTy).Contents (Elt F) → (⟨S5x128, .f32⟩ : BufTy).Contents (Elt F)),
    binary main_v25 main_v27 main_v28 (addf : (⟨S5x128, .f32⟩ : BufTy).Contents (Elt F) → (⟨S5x128, .f32⟩ : BufTy).Contents (Elt F) → (⟨S5x128, .f32⟩ : BufTy).Contents (Elt F)),
    nullary main_cst_2 (constant S_ .f32 0x00000000#32),
    binary main_v28 main_cst_2 main_v29 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    unary main_v29 main_v30 (broadcastInDim S1x128 ![1] bcast_S128_S1x128_1 : (⟨S128, .f32⟩ : BufTy).Contents (Elt F) → (⟨S1x128, .f32⟩ : BufTy).Contents (Elt F)),
    nullary main_cst_3 (constant S_ .f32 0x40A00000#32),
    unary main_cst_3 main_v31 (broadcastInDim S1x128 ![] bcast_S_S1x128 : (⟨S_, .f32⟩ : BufTy).Contents (Elt F) → (⟨S1x128, .f32⟩ : BufTy).Contents (Elt F)),
    binary main_v30 main_v31 main_v32 (Host.divf : (⟨S1x128, .f32⟩ : BufTy).Contents (Elt F) → (⟨S1x128, .f32⟩ : BufTy).Contents (Elt F) → (⟨S1x128, .f32⟩ : BufTy).Contents (Elt F)),
    nullary main_cst_4 (constant S_ .f32 0x00000000#32),
    unary main_cst_4 main_v33 (broadcastInDim S16384x256 ![] bcast_S_S16384x256 : (⟨S_, .f32⟩ : BufTy).Contents (Elt F) → (⟨S16384x256, .f32⟩ : BufTy).Contents (Elt F)),
    nullary main_cst_5 (constant S_ .f32 0x00000000#32),
    unary main_cst_5 main_v34 (broadcastInDim S16384x256 ![] bcast_S_S16384x256 : (⟨S_, .f32⟩ : BufTy).Contents (Elt F) → (⟨S16384x256, .f32⟩ : BufTy).Contents (Elt F)),
    unary main_arg8 main_v35 ((transpose S128x1024 [1, 0] · transposes_S1024x128_S128x1024_1_0) : (⟨S1024x128, .f32⟩ : BufTy).Contents (Elt F) → (⟨S128x1024, .f32⟩ : BufTy).Contents (Elt F)),
    binary main_arg0 main_v35 main_v36 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v37 (broadcastInDim S1x1024 ![1] bcast_S1024_S1x1024_1 : (⟨S1024, .f32⟩ : BufTy).Contents (Elt F) → (⟨S1x1024, .f32⟩ : BufTy).Contents (Elt F)),
    unary main_v37 main_v38 (broadcastInDim S16384x1024 ![0, 1] bcast_S1x1024_S16384x1024_0_1 : (⟨S1x1024, .f32⟩ : BufTy).Contents (Elt F) → (⟨S16384x1024, .f32⟩ : BufTy).Contents (Elt F)),
    binary main_v36 main_v38 main_v39 (addf : (⟨S16384x1024, .f32⟩ : BufTy).Contents (Elt F) → (⟨S16384x1024, .f32⟩ : BufTy).Contents (Elt F) → (⟨S16384x1024, .f32⟩ : BufTy).Contents (Elt F)),
    unary main_arg9 main_v40 ((transpose S256x1024 [1, 0] · transposes_S1024x256_S256x1024_1_0) : (⟨S1024x256, .f32⟩ : BufTy).Contents (Elt F) → (⟨S256x1024, .f32⟩ : BufTy).Contents (Elt F)),
    binary main_v33 main_v40 main_v41 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v39 main_v41 main_v42 (addf : (⟨S16384x1024, .f32⟩ : BufTy).Contents (Elt F) → (⟨S16384x1024, .f32⟩ : BufTy).Contents (Elt F) → (⟨S16384x1024, .f32⟩ : BufTy).Contents (Elt F)),
    unary main_arg11 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S16384x1024 ![0, 1] bcast_S1x1024_S16384x1024_0_1 : (⟨S1x1024, .f32⟩ : BufTy).Contents (Elt F) → (⟨S16384x1024, .f32⟩ : BufTy).Contents (Elt F)),
    binary main_v42 main_v44 main_v45 (addf : (⟨S16384x1024, .f32⟩ : BufTy).Contents (Elt F) → (⟨S16384x1024, .f32⟩ : BufTy).Contents (Elt F) → (⟨S16384x1024, .f32⟩ : BufTy).Contents (Elt F)),
    unary main_v45 main_v46 ((extractStridedSlice S16384x256 ![0, 0] · slices_S16384x1024_S16384x256_0_0) : (⟨S16384x1024, .f32⟩ : BufTy).Contents (Elt F) → (⟨S16384x256, .f32⟩ : BufTy).Contents (Elt F)),
    unary main_v45 main_v47 ((extractStridedSlice S16384x256 ![0, 256] · slices_S16384x1024_S16384x256_0_256) : (⟨S16384x1024, .f32⟩ : BufTy).Contents (Elt F) → (⟨S16384x256, .f32⟩ : BufTy).Contents (Elt F)),
    unary main_v45 main_v48 ((extractStridedSlice S16384x256 ![0, 512] · slices_S16384x1024_S16384x256_0_512) : (⟨S16384x1024, .f32⟩ : BufTy).Contents (Elt F) → (⟨S16384x256, .f32⟩ : BufTy).Contents (Elt F)),
    unary main_v45 main_v49 ((extractStridedSlice S16384x256 ![0, 768] · slices_S16384x1024_S16384x256_0_768) : (⟨S16384x1024, .f32⟩ : BufTy).Contents (Elt F) → (⟨S16384x256, .f32⟩ : BufTy).Contents (Elt F)),
    unary main_v46 main_v50 (Host.negf : (⟨S16384x256, .f32⟩ : BufTy).Contents (Elt F) → (⟨S16384x256, .f32⟩ : BufTy).Contents (Elt F)),
    unary main_v50 main_v51 (Host.exp : (⟨S16384x256, .f32⟩ : BufTy).Contents (Elt F) → (⟨S16384x256, .f32⟩ : BufTy).Contents (Elt F)) ]

/-- The operations of window 1 (operations 86 … 145 of 323). -/
abbrev part1 : List (HloOp τ sig (Elt F)) :=
  [ nullary main_cst_6 (constant S_ .f32 0x3F800000#32),
    unary main_cst_6 main_v52 (broadcastInDim S16384x256 ![] bcast_S_S16384x256 : (⟨S_, .f32⟩ : BufTy).Contents (Elt F) → (⟨S16384x256, .f32⟩ : BufTy).Contents (Elt F)),
    binary main_v52 main_v51 main_v53 (addf : (⟨S16384x256, .f32⟩ : BufTy).Contents (Elt F) → (⟨S16384x256, .f32⟩ : BufTy).Contents (Elt F) → (⟨S16384x256, .f32⟩ : BufTy).Contents (Elt F)),
    nullary main_cst_7 (constant S_ .f32 0x3F800000#32),
    unary main_cst_7 main_v54 (broadcastInDim S16384x256 ![] bcast_S_S16384x256 : (⟨S_, .f32⟩ : BufTy).Contents (Elt F) → (⟨S16384x256, .f32⟩ : BufTy).Contents (Elt F)),
    binary main_v54 main_v53 main_v55 (Host.divf : (⟨S16384x256, .f32⟩ : BufTy).Contents (Elt F) → (⟨S16384x256, .f32⟩ : BufTy).Contents (Elt F) → (⟨S16384x256, .f32⟩ : BufTy).Contents (Elt F)),
    unary main_v47 main_v56 (Host.negf : (⟨S16384x256, .f32⟩ : BufTy).Contents (Elt F) → (⟨S16384x256, .f32⟩ : BufTy).Contents (Elt F)),
    unary main_v56 main_v57 (Host.exp : (⟨S16384x256, .f32⟩ : BufTy).Contents (Elt F) → (⟨S16384x256, .f32⟩ : BufTy).Contents (Elt F)),
    nullary main_cst_8 (constant S_ .f32 0x3F800000#32),
    unary main_cst_8 main_v58 (broadcastInDim S16384x256 ![] bcast_S_S16384x256 : (⟨S_, .f32⟩ : BufTy).Contents (Elt F) → (⟨S16384x256, .f32⟩ : BufTy).Contents (Elt F)),
    binary main_v58 main_v57 main_v59 (addf : (⟨S16384x256, .f32⟩ : BufTy).Contents (Elt F) → (⟨S16384x256, .f32⟩ : BufTy).Contents (Elt F) → (⟨S16384x256, .f32⟩ : BufTy).Contents (Elt F)),
    nullary main_cst_9 (constant S_ .f32 0x3F800000#32),
    unary main_cst_9 main_v60 (broadcastInDim S16384x256 ![] bcast_S_S16384x256 : (⟨S_, .f32⟩ : BufTy).Contents (Elt F) → (⟨S16384x256, .f32⟩ : BufTy).Contents (Elt F)),
    binary main_v60 main_v59 main_v61 (Host.divf : (⟨S16384x256, .f32⟩ : BufTy).Contents (Elt F) → (⟨S16384x256, .f32⟩ : BufTy).Contents (Elt F) → (⟨S16384x256, .f32⟩ : BufTy).Contents (Elt F)),
    unary main_v48 main_v62 (Host.tanh : (⟨S16384x256, .f32⟩ : BufTy).Contents (Elt F) → (⟨S16384x256, .f32⟩ : BufTy).Contents (Elt F)),
    unary main_v49 main_v63 (Host.negf : (⟨S16384x256, .f32⟩ : BufTy).Contents (Elt F) → (⟨S16384x256, .f32⟩ : BufTy).Contents (Elt F)),
    unary main_v63 main_v64 (Host.exp : (⟨S16384x256, .f32⟩ : BufTy).Contents (Elt F) → (⟨S16384x256, .f32⟩ : BufTy).Contents (Elt F)),
    nullary main_cst_10 (constant S_ .f32 0x3F800000#32),
    unary main_cst_10 main_v65 (broadcastInDim S16384x256 ![] bcast_S_S16384x256 : (⟨S_, .f32⟩ : BufTy).Contents (Elt F) → (⟨S16384x256, .f32⟩ : BufTy).Contents (Elt F)),
    binary main_v65 main_v64 main_v66 (addf : (⟨S16384x256, .f32⟩ : BufTy).Contents (Elt F) → (⟨S16384x256, .f32⟩ : BufTy).Contents (Elt F) → (⟨S16384x256, .f32⟩ : BufTy).Contents (Elt F)),
    nullary main_cst_11 (constant S_ .f32 0x3F800000#32),
    unary main_cst_11 main_v67 (broadcastInDim S16384x256 ![] bcast_S_S16384x256 : (⟨S_, .f32⟩ : BufTy).Contents (Elt F) → (⟨S16384x256, .f32⟩ : BufTy).Contents (Elt F)),
    binary main_v67 main_v66 main_v68 (Host.divf : (⟨S16384x256, .f32⟩ : BufTy).Contents (Elt F) → (⟨S16384x256, .f32⟩ : BufTy).Contents (Elt F) → (⟨S16384x256, .f32⟩ : BufTy).Contents (Elt F)),
    binary main_v61 main_v34 main_v69 (mulf : (⟨S16384x256, .f32⟩ : BufTy).Contents (Elt F) → (⟨S16384x256, .f32⟩ : BufTy).Contents (Elt F) → (⟨S16384x256, .f32⟩ : BufTy).Contents (Elt F)),
    binary main_v55 main_v62 main_v70 (mulf : (⟨S16384x256, .f32⟩ : BufTy).Contents (Elt F) → (⟨S16384x256, .f32⟩ : BufTy).Contents (Elt F) → (⟨S16384x256, .f32⟩ : BufTy).Contents (Elt F)),
    binary main_v69 main_v70 main_v71 (addf : (⟨S16384x256, .f32⟩ : BufTy).Contents (Elt F) → (⟨S16384x256, .f32⟩ : BufTy).Contents (Elt F) → (⟨S16384x256, .f32⟩ : BufTy).Contents (Elt F)),
    unary main_v71 main_v72 (Host.tanh : (⟨S16384x256, .f32⟩ : BufTy).Contents (Elt F) → (⟨S16384x256, .f32⟩ : BufTy).Contents (Elt F)),
    binary main_v68 main_v72 main_v73 (mulf : (⟨S16384x256, .f32⟩ : BufTy).Contents (Elt F) → (⟨S16384x256, .f32⟩ : BufTy).Contents (Elt F) → (⟨S16384x256, .f32⟩ : BufTy).Contents (Elt F)),
    unary main_v73 main_v74 ((extractStridedSlice S16384x128 ![0, 0] · slices_S16384x256_S16384x128_0_0) : (⟨S16384x256, .f32⟩ : BufTy).Contents (Elt F) → (⟨S16384x128, .f32⟩ : BufTy).Contents (Elt F)),
    binary main_arg0 main_v74 main_v75 (addf : (⟨S16384x128, .f32⟩ : BufTy).Contents (Elt F) → (⟨S16384x128, .f32⟩ : BufTy).Contents (Elt F) → (⟨S16384x128, .f32⟩ : BufTy).Contents (Elt F)),
    unary main_v32 main_v76 ((transpose S128x1 [1, 0] · transposes_S1x128_S128x1_1_0) : (⟨S1x128, .f32⟩ : BufTy).Contents (Elt F) → (⟨S128x1, .f32⟩ : BufTy).Contents (Elt F)),
    binary main_v75 main_v76 main_v77 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_12 (constant S_ .f32 0xFF800000#32),
    binary main_v77 main_cst_12 main_v78 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_13 (constant S_ .f32 0xFF800000#32),
    unary main_cst_13 main_v79 (broadcastInDim S16384 ![] bcast_S_S16384 : (⟨S_, .f32⟩ : BufTy).Contents (Elt F) → (⟨S16384, .f32⟩ : BufTy).Contents (Elt F)),
    binary main_v79 main_v78 main_v80 (maximumf : (⟨S16384, .f32⟩ : BufTy).Contents (Elt F) → (⟨S16384, .f32⟩ : BufTy).Contents (Elt F) → (⟨S16384, .f32⟩ : BufTy).Contents (Elt F)),
    unary main_v80 main_v81 (broadcastInDim S16384x1 ![0] bcast_S16384_S16384x1_0 : (⟨S16384, .f32⟩ : BufTy).Contents (Elt F) → (⟨S16384x1, .f32⟩ : BufTy).Contents (Elt F)),
    binary main_v77 main_v81 main_v82 (subf : (⟨S16384x1, .f32⟩ : BufTy).Contents (Elt F) → (⟨S16384x1, .f32⟩ : BufTy).Contents (Elt F) → (⟨S16384x1, .f32⟩ : BufTy).Contents (Elt F)),
    unary main_v82 main_v83 (Host.exp : (⟨S16384x1, .f32⟩ : BufTy).Contents (Elt F) → (⟨S16384x1, .f32⟩ : BufTy).Contents (Elt F)),
    nullary main_cst_14 (constant S_ .f32 0x00000000#32),
    binary main_v83 main_cst_14 main_v84 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v84 main_v85 (broadcastInDim S16384x1 ![0] bcast_S16384_S16384x1_0 : (⟨S16384, .f32⟩ : BufTy).Contents (Elt F) → (⟨S16384x1, .f32⟩ : BufTy).Contents (Elt F)),
    binary main_v83 main_v85 main_v86 (Host.divf : (⟨S16384x1, .f32⟩ : BufTy).Contents (Elt F) → (⟨S16384x1, .f32⟩ : BufTy).Contents (Elt F) → (⟨S16384x1, .f32⟩ : BufTy).Contents (Elt F)),
    binary main_v86 main_v32 main_v87 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v75 main_v87 main_v88 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg8 main_v89 ((transpose S128x1024 [1, 0] · transposes_S1024x128_S128x1024_1_0) : (⟨S1024x128, .f32⟩ : BufTy).Contents (Elt F) → (⟨S128x1024, .f32⟩ : BufTy).Contents (Elt F)),
    binary main_arg0 main_v89 main_v90 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v91 (broadcastInDim S1x1024 ![1] bcast_S1024_S1x1024_1 : (⟨S1024, .f32⟩ : BufTy).Contents (Elt F) → (⟨S1x1024, .f32⟩ : BufTy).Contents (Elt F)),
    unary main_v91 main_v92 (broadcastInDim S16384x1024 ![0, 1] bcast_S1x1024_S16384x1024_0_1 : (⟨S1x1024, .f32⟩ : BufTy).Contents (Elt F) → (⟨S16384x1024, .f32⟩ : BufTy).Contents (Elt F)),
    binary main_v90 main_v92 main_v93 (addf : (⟨S16384x1024, .f32⟩ : BufTy).Contents (Elt F) → (⟨S16384x1024, .f32⟩ : BufTy).Contents (Elt F) → (⟨S16384x1024, .f32⟩ : BufTy).Contents (Elt F)),
    unary main_arg9 main_v94 ((transpose S256x1024 [1, 0] · transposes_S1024x256_S256x1024_1_0) : (⟨S1024x256, .f32⟩ : BufTy).Contents (Elt F) → (⟨S256x1024, .f32⟩ : BufTy).Contents (Elt F)),
    binary main_v88 main_v94 main_v95 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v93 main_v95 main_v96 (addf : (⟨S16384x1024, .f32⟩ : BufTy).Contents (Elt F) → (⟨S16384x1024, .f32⟩ : BufTy).Contents (Elt F) → (⟨S16384x1024, .f32⟩ : BufTy).Contents (Elt F)),
    unary main_arg11 main_v97 (broadcastInDim S1x1024 ![1] bcast_S1024_S1x1024_1 : (⟨S1024, .f32⟩ : BufTy).Contents (Elt F) → (⟨S1x1024, .f32⟩ : BufTy).Contents (Elt F)),
    unary main_v97 main_v98 (broadcastInDim S16384x1024 ![0, 1] bcast_S1x1024_S16384x1024_0_1 : (⟨S1x1024, .f32⟩ : BufTy).Contents (Elt F) → (⟨S16384x1024, .f32⟩ : BufTy).Contents (Elt F)),
    binary main_v96 main_v98 main_v99 (addf : (⟨S16384x1024, .f32⟩ : BufTy).Contents (Elt F) → (⟨S16384x1024, .f32⟩ : BufTy).Contents (Elt F) → (⟨S16384x1024, .f32⟩ : BufTy).Contents (Elt F)),
    unary main_v99 main_v100 ((extractStridedSlice S16384x256 ![0, 0] · slices_S16384x1024_S16384x256_0_0) : (⟨S16384x1024, .f32⟩ : BufTy).Contents (Elt F) → (⟨S16384x256, .f32⟩ : BufTy).Contents (Elt F)),
    unary main_v99 main_v101 ((extractStridedSlice S16384x256 ![0, 256] · slices_S16384x1024_S16384x256_0_256) : (⟨S16384x1024, .f32⟩ : BufTy).Contents (Elt F) → (⟨S16384x256, .f32⟩ : BufTy).Contents (Elt F)),
    unary main_v99 main_v102 ((extractStridedSlice S16384x256 ![0, 512] · slices_S16384x1024_S16384x256_0_512) : (⟨S16384x1024, .f32⟩ : BufTy).Contents (Elt F) → (⟨S16384x256, .f32⟩ : BufTy).Contents (Elt F)) ]

/-- The operations of window 2 (operations 146 … 205 of 323). -/
abbrev part2 : List (HloOp τ sig (Elt F)) :=
  [ unary main_v99 main_v103 ((extractStridedSlice S16384x256 ![0, 768] · slices_S16384x1024_S16384x256_0_768) : (⟨S16384x1024, .f32⟩ : BufTy).Contents (Elt F) → (⟨S16384x256, .f32⟩ : BufTy).Contents (Elt F)),
    unary main_v100 main_v104 (Host.negf : (⟨S16384x256, .f32⟩ : BufTy).Contents (Elt F) → (⟨S16384x256, .f32⟩ : BufTy).Contents (Elt F)),
    unary main_v104 main_v105 (Host.exp : (⟨S16384x256, .f32⟩ : BufTy).Contents (Elt F) → (⟨S16384x256, .f32⟩ : BufTy).Contents (Elt F)),
    nullary main_cst_15 (constant S_ .f32 0x3F800000#32),
    unary main_cst_15 main_v106 (broadcastInDim S16384x256 ![] bcast_S_S16384x256 : (⟨S_, .f32⟩ : BufTy).Contents (Elt F) → (⟨S16384x256, .f32⟩ : BufTy).Contents (Elt F)),
    binary main_v106 main_v105 main_v107 (addf : (⟨S16384x256, .f32⟩ : BufTy).Contents (Elt F) → (⟨S16384x256, .f32⟩ : BufTy).Contents (Elt F) → (⟨S16384x256, .f32⟩ : BufTy).Contents (Elt F)),
    nullary main_cst_16 (constant S_ .f32 0x3F800000#32),
    unary main_cst_16 main_v108 (broadcastInDim S16384x256 ![] bcast_S_S16384x256 : (⟨S_, .f32⟩ : BufTy).Contents (Elt F) → (⟨S16384x256, .f32⟩ : BufTy).Contents (Elt F)),
    binary main_v108 main_v107 main_v109 (Host.divf : (⟨S16384x256, .f32⟩ : BufTy).Contents (Elt F) → (⟨S16384x256, .f32⟩ : BufTy).Contents (Elt F) → (⟨S16384x256, .f32⟩ : BufTy).Contents (Elt F)),
    unary main_v101 main_v110 (Host.negf : (⟨S16384x256, .f32⟩ : BufTy).Contents (Elt F) → (⟨S16384x256, .f32⟩ : BufTy).Contents (Elt F)),
    unary main_v110 main_v111 (Host.exp : (⟨S16384x256, .f32⟩ : BufTy).Contents (Elt F) → (⟨S16384x256, .f32⟩ : BufTy).Contents (Elt F)),
    nullary main_cst_17 (constant S_ .f32 0x3F800000#32),
    unary main_cst_17 main_v112 (broadcastInDim S16384x256 ![] bcast_S_S16384x256 : (⟨S_, .f32⟩ : BufTy).Contents (Elt F) → (⟨S16384x256, .f32⟩ : BufTy).Contents (Elt F)),
    binary main_v112 main_v111 main_v113 (addf : (⟨S16384x256, .f32⟩ : BufTy).Contents (Elt F) → (⟨S16384x256, .f32⟩ : BufTy).Contents (Elt F) → (⟨S16384x256, .f32⟩ : BufTy).Contents (Elt F)),
    nullary main_cst_18 (constant S_ .f32 0x3F800000#32),
    unary main_cst_18 main_v114 (broadcastInDim S16384x256 ![] bcast_S_S16384x256 : (⟨S_, .f32⟩ : BufTy).Contents (Elt F) → (⟨S16384x256, .f32⟩ : BufTy).Contents (Elt F)),
    binary main_v114 main_v113 main_v115 (Host.divf : (⟨S16384x256, .f32⟩ : BufTy).Contents (Elt F) → (⟨S16384x256, .f32⟩ : BufTy).Contents (Elt F) → (⟨S16384x256, .f32⟩ : BufTy).Contents (Elt F)),
    unary main_v102 main_v116 (Host.tanh : (⟨S16384x256, .f32⟩ : BufTy).Contents (Elt F) → (⟨S16384x256, .f32⟩ : BufTy).Contents (Elt F)),
    unary main_v103 main_v117 (Host.negf : (⟨S16384x256, .f32⟩ : BufTy).Contents (Elt F) → (⟨S16384x256, .f32⟩ : BufTy).Contents (Elt F)),
    unary main_v117 main_v118 (Host.exp : (⟨S16384x256, .f32⟩ : BufTy).Contents (Elt F) → (⟨S16384x256, .f32⟩ : BufTy).Contents (Elt F)),
    nullary main_cst_19 (constant S_ .f32 0x3F800000#32),
    unary main_cst_19 main_v119 (broadcastInDim S16384x256 ![] bcast_S_S16384x256 : (⟨S_, .f32⟩ : BufTy).Contents (Elt F) → (⟨S16384x256, .f32⟩ : BufTy).Contents (Elt F)),
    binary main_v119 main_v118 main_v120 (addf : (⟨S16384x256, .f32⟩ : BufTy).Contents (Elt F) → (⟨S16384x256, .f32⟩ : BufTy).Contents (Elt F) → (⟨S16384x256, .f32⟩ : BufTy).Contents (Elt F)),
    nullary main_cst_20 (constant S_ .f32 0x3F800000#32),
    unary main_cst_20 main_v121 (broadcastInDim S16384x256 ![] bcast_S_S16384x256 : (⟨S_, .f32⟩ : BufTy).Contents (Elt F) → (⟨S16384x256, .f32⟩ : BufTy).Contents (Elt F)),
    binary main_v121 main_v120 main_v122 (Host.divf : (⟨S16384x256, .f32⟩ : BufTy).Contents (Elt F) → (⟨S16384x256, .f32⟩ : BufTy).Contents (Elt F) → (⟨S16384x256, .f32⟩ : BufTy).Contents (Elt F)),
    binary main_v115 main_v71 main_v123 (mulf : (⟨S16384x256, .f32⟩ : BufTy).Contents (Elt F) → (⟨S16384x256, .f32⟩ : BufTy).Contents (Elt F) → (⟨S16384x256, .f32⟩ : BufTy).Contents (Elt F)),
    binary main_v109 main_v116 main_v124 (mulf : (⟨S16384x256, .f32⟩ : BufTy).Contents (Elt F) → (⟨S16384x256, .f32⟩ : BufTy).Contents (Elt F) → (⟨S16384x256, .f32⟩ : BufTy).Contents (Elt F)),
    binary main_v123 main_v124 main_v125 (addf : (⟨S16384x256, .f32⟩ : BufTy).Contents (Elt F) → (⟨S16384x256, .f32⟩ : BufTy).Contents (Elt F) → (⟨S16384x256, .f32⟩ : BufTy).Contents (Elt F)),
    unary main_v125 main_v126 (Host.tanh : (⟨S16384x256, .f32⟩ : BufTy).Contents (Elt F) → (⟨S16384x256, .f32⟩ : BufTy).Contents (Elt F)),
    binary main_v122 main_v126 main_v127 (mulf : (⟨S16384x256, .f32⟩ : BufTy).Contents (Elt F) → (⟨S16384x256, .f32⟩ : BufTy).Contents (Elt F) → (⟨S16384x256, .f32⟩ : BufTy).Contents (Elt F)),
    unary main_v127 main_v128 ((extractStridedSlice S16384x128 ![0, 0] · slices_S16384x256_S16384x128_0_0) : (⟨S16384x256, .f32⟩ : BufTy).Contents (Elt F) → (⟨S16384x128, .f32⟩ : BufTy).Contents (Elt F)),
    binary main_arg0 main_v128 main_v129 (addf : (⟨S16384x128, .f32⟩ : BufTy).Contents (Elt F) → (⟨S16384x128, .f32⟩ : BufTy).Contents (Elt F) → (⟨S16384x128, .f32⟩ : BufTy).Contents (Elt F)),
    unary main_v32 main_v130 ((transpose S128x1 [1, 0] · transposes_S1x128_S128x1_1_0) : (⟨S1x128, .f32⟩ : BufTy).Contents (Elt F) → (⟨S128x1, .f32⟩ : BufTy).Contents (Elt F)),
    binary main_v129 main_v130 main_v131 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_21 (constant S_ .f32 0xFF800000#32),
    binary main_v131 main_cst_21 main_v132 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_22 (constant S_ .f32 0xFF800000#32),
    unary main_cst_22 main_v133 (broadcastInDim S16384 ![] bcast_S_S16384 : (⟨S_, .f32⟩ : BufTy).Contents (Elt F) → (⟨S16384, .f32⟩ : BufTy).Contents (Elt F)),
    binary main_v133 main_v132 main_v134 (maximumf : (⟨S16384, .f32⟩ : BufTy).Contents (Elt F) → (⟨S16384, .f32⟩ : BufTy).Contents (Elt F) → (⟨S16384, .f32⟩ : BufTy).Contents (Elt F)),
    unary main_v134 main_v135 (broadcastInDim S16384x1 ![0] bcast_S16384_S16384x1_0 : (⟨S16384, .f32⟩ : BufTy).Contents (Elt F) → (⟨S16384x1, .f32⟩ : BufTy).Contents (Elt F)),
    binary main_v131 main_v135 main_v136 (subf : (⟨S16384x1, .f32⟩ : BufTy).Contents (Elt F) → (⟨S16384x1, .f32⟩ : BufTy).Contents (Elt F) → (⟨S16384x1, .f32⟩ : BufTy).Contents (Elt F)),
    unary main_v136 main_v137 (Host.exp : (⟨S16384x1, .f32⟩ : BufTy).Contents (Elt F) → (⟨S16384x1, .f32⟩ : BufTy).Contents (Elt F)),
    nullary main_cst_23 (constant S_ .f32 0x00000000#32),
    binary main_v137 main_cst_23 main_v138 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v138 main_v139 (broadcastInDim S16384x1 ![0] bcast_S16384_S16384x1_0 : (⟨S16384, .f32⟩ : BufTy).Contents (Elt F) → (⟨S16384x1, .f32⟩ : BufTy).Contents (Elt F)),
    binary main_v137 main_v139 main_v140 (Host.divf : (⟨S16384x1, .f32⟩ : BufTy).Contents (Elt F) → (⟨S16384x1, .f32⟩ : BufTy).Contents (Elt F) → (⟨S16384x1, .f32⟩ : BufTy).Contents (Elt F)),
    binary main_v140 main_v32 main_v141 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v129 main_v141 main_v142 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg8 main_v143 ((transpose S128x1024 [1, 0] · transposes_S1024x128_S128x1024_1_0) : (⟨S1024x128, .f32⟩ : BufTy).Contents (Elt F) → (⟨S128x1024, .f32⟩ : BufTy).Contents (Elt F)),
    binary main_arg0 main_v143 main_v144 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v145 (broadcastInDim S1x1024 ![1] bcast_S1024_S1x1024_1 : (⟨S1024, .f32⟩ : BufTy).Contents (Elt F) → (⟨S1x1024, .f32⟩ : BufTy).Contents (Elt F)),
    unary main_v145 main_v146 (broadcastInDim S16384x1024 ![0, 1] bcast_S1x1024_S16384x1024_0_1 : (⟨S1x1024, .f32⟩ : BufTy).Contents (Elt F) → (⟨S16384x1024, .f32⟩ : BufTy).Contents (Elt F)),
    binary main_v144 main_v146 main_v147 (addf : (⟨S16384x1024, .f32⟩ : BufTy).Contents (Elt F) → (⟨S16384x1024, .f32⟩ : BufTy).Contents (Elt F) → (⟨S16384x1024, .f32⟩ : BufTy).Contents (Elt F)),
    unary main_arg9 main_v148 ((transpose S256x1024 [1, 0] · transposes_S1024x256_S256x1024_1_0) : (⟨S1024x256, .f32⟩ : BufTy).Contents (Elt F) → (⟨S256x1024, .f32⟩ : BufTy).Contents (Elt F)),
    binary main_v142 main_v148 main_v149 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v147 main_v149 main_v150 (addf : (⟨S16384x1024, .f32⟩ : BufTy).Contents (Elt F) → (⟨S16384x1024, .f32⟩ : BufTy).Contents (Elt F) → (⟨S16384x1024, .f32⟩ : BufTy).Contents (Elt F)),
    unary main_arg11 main_v151 (broadcastInDim S1x1024 ![1] bcast_S1024_S1x1024_1 : (⟨S1024, .f32⟩ : BufTy).Contents (Elt F) → (⟨S1x1024, .f32⟩ : BufTy).Contents (Elt F)),
    unary main_v151 main_v152 (broadcastInDim S16384x1024 ![0, 1] bcast_S1x1024_S16384x1024_0_1 : (⟨S1x1024, .f32⟩ : BufTy).Contents (Elt F) → (⟨S16384x1024, .f32⟩ : BufTy).Contents (Elt F)),
    binary main_v150 main_v152 main_v153 (addf : (⟨S16384x1024, .f32⟩ : BufTy).Contents (Elt F) → (⟨S16384x1024, .f32⟩ : BufTy).Contents (Elt F) → (⟨S16384x1024, .f32⟩ : BufTy).Contents (Elt F)) ]

/-- The operations of window 3 (operations 206 … 265 of 323). -/
abbrev part3 : List (HloOp τ sig (Elt F)) :=
  [ unary main_v153 main_v154 ((extractStridedSlice S16384x256 ![0, 0] · slices_S16384x1024_S16384x256_0_0) : (⟨S16384x1024, .f32⟩ : BufTy).Contents (Elt F) → (⟨S16384x256, .f32⟩ : BufTy).Contents (Elt F)),
    unary main_v153 main_v155 ((extractStridedSlice S16384x256 ![0, 256] · slices_S16384x1024_S16384x256_0_256) : (⟨S16384x1024, .f32⟩ : BufTy).Contents (Elt F) → (⟨S16384x256, .f32⟩ : BufTy).Contents (Elt F)),
    unary main_v153 main_v156 ((extractStridedSlice S16384x256 ![0, 512] · slices_S16384x1024_S16384x256_0_512) : (⟨S16384x1024, .f32⟩ : BufTy).Contents (Elt F) → (⟨S16384x256, .f32⟩ : BufTy).Contents (Elt F)),
    unary main_v153 main_v157 ((extractStridedSlice S16384x256 ![0, 768] · slices_S16384x1024_S16384x256_0_768) : (⟨S16384x1024, .f32⟩ : BufTy).Contents (Elt F) → (⟨S16384x256, .f32⟩ : BufTy).Contents (Elt F)),
    unary main_v154 main_v158 (Host.negf : (⟨S16384x256, .f32⟩ : BufTy).Contents (Elt F) → (⟨S16384x256, .f32⟩ : BufTy).Contents (Elt F)),
    unary main_v158 main_v159 (Host.exp : (⟨S16384x256, .f32⟩ : BufTy).Contents (Elt F) → (⟨S16384x256, .f32⟩ : BufTy).Contents (Elt F)),
    nullary main_cst_24 (constant S_ .f32 0x3F800000#32),
    unary main_cst_24 main_v160 (broadcastInDim S16384x256 ![] bcast_S_S16384x256 : (⟨S_, .f32⟩ : BufTy).Contents (Elt F) → (⟨S16384x256, .f32⟩ : BufTy).Contents (Elt F)),
    binary main_v160 main_v159 main_v161 (addf : (⟨S16384x256, .f32⟩ : BufTy).Contents (Elt F) → (⟨S16384x256, .f32⟩ : BufTy).Contents (Elt F) → (⟨S16384x256, .f32⟩ : BufTy).Contents (Elt F)),
    nullary main_cst_25 (constant S_ .f32 0x3F800000#32),
    unary main_cst_25 main_v162 (broadcastInDim S16384x256 ![] bcast_S_S16384x256 : (⟨S_, .f32⟩ : BufTy).Contents (Elt F) → (⟨S16384x256, .f32⟩ : BufTy).Contents (Elt F)),
    binary main_v162 main_v161 main_v163 (Host.divf : (⟨S16384x256, .f32⟩ : BufTy).Contents (Elt F) → (⟨S16384x256, .f32⟩ : BufTy).Contents (Elt F) → (⟨S16384x256, .f32⟩ : BufTy).Contents (Elt F)),
    unary main_v155 main_v164 (Host.negf : (⟨S16384x256, .f32⟩ : BufTy).Contents (Elt F) → (⟨S16384x256, .f32⟩ : BufTy).Contents (Elt F)),
    unary main_v164 main_v165 (Host.exp : (⟨S16384x256, .f32⟩ : BufTy).Contents (Elt F) → (⟨S16384x256, .f32⟩ : BufTy).Contents (Elt F)),
    nullary main_cst_26 (constant S_ .f32 0x3F800000#32),
    unary main_cst_26 main_v166 (broadcastInDim S16384x256 ![] bcast_S_S16384x256 : (⟨S_, .f32⟩ : BufTy).Contents (Elt F) → (⟨S16384x256, .f32⟩ : BufTy).Contents (Elt F)),
    binary main_v166 main_v165 main_v167 (addf : (⟨S16384x256, .f32⟩ : BufTy).Contents (Elt F) → (⟨S16384x256, .f32⟩ : BufTy).Contents (Elt F) → (⟨S16384x256, .f32⟩ : BufTy).Contents (Elt F)),
    nullary main_cst_27 (constant S_ .f32 0x3F800000#32),
    unary main_cst_27 main_v168 (broadcastInDim S16384x256 ![] bcast_S_S16384x256 : (⟨S_, .f32⟩ : BufTy).Contents (Elt F) → (⟨S16384x256, .f32⟩ : BufTy).Contents (Elt F)),
    binary main_v168 main_v167 main_v169 (Host.divf : (⟨S16384x256, .f32⟩ : BufTy).Contents (Elt F) → (⟨S16384x256, .f32⟩ : BufTy).Contents (Elt F) → (⟨S16384x256, .f32⟩ : BufTy).Contents (Elt F)),
    unary main_v156 main_v170 (Host.tanh : (⟨S16384x256, .f32⟩ : BufTy).Contents (Elt F) → (⟨S16384x256, .f32⟩ : BufTy).Contents (Elt F)),
    unary main_v157 main_v171 (Host.negf : (⟨S16384x256, .f32⟩ : BufTy).Contents (Elt F) → (⟨S16384x256, .f32⟩ : BufTy).Contents (Elt F)),
    unary main_v171 main_v172 (Host.exp : (⟨S16384x256, .f32⟩ : BufTy).Contents (Elt F) → (⟨S16384x256, .f32⟩ : BufTy).Contents (Elt F)),
    nullary main_cst_28 (constant S_ .f32 0x3F800000#32),
    unary main_cst_28 main_v173 (broadcastInDim S16384x256 ![] bcast_S_S16384x256 : (⟨S_, .f32⟩ : BufTy).Contents (Elt F) → (⟨S16384x256, .f32⟩ : BufTy).Contents (Elt F)),
    binary main_v173 main_v172 main_v174 (addf : (⟨S16384x256, .f32⟩ : BufTy).Contents (Elt F) → (⟨S16384x256, .f32⟩ : BufTy).Contents (Elt F) → (⟨S16384x256, .f32⟩ : BufTy).Contents (Elt F)),
    nullary main_cst_29 (constant S_ .f32 0x3F800000#32),
    unary main_cst_29 main_v175 (broadcastInDim S16384x256 ![] bcast_S_S16384x256 : (⟨S_, .f32⟩ : BufTy).Contents (Elt F) → (⟨S16384x256, .f32⟩ : BufTy).Contents (Elt F)),
    binary main_v175 main_v174 main_v176 (Host.divf : (⟨S16384x256, .f32⟩ : BufTy).Contents (Elt F) → (⟨S16384x256, .f32⟩ : BufTy).Contents (Elt F) → (⟨S16384x256, .f32⟩ : BufTy).Contents (Elt F)),
    binary main_v169 main_v125 main_v177 (mulf : (⟨S16384x256, .f32⟩ : BufTy).Contents (Elt F) → (⟨S16384x256, .f32⟩ : BufTy).Contents (Elt F) → (⟨S16384x256, .f32⟩ : BufTy).Contents (Elt F)),
    binary main_v163 main_v170 main_v178 (mulf : (⟨S16384x256, .f32⟩ : BufTy).Contents (Elt F) → (⟨S16384x256, .f32⟩ : BufTy).Contents (Elt F) → (⟨S16384x256, .f32⟩ : BufTy).Contents (Elt F)),
    binary main_v177 main_v178 main_v179 (addf : (⟨S16384x256, .f32⟩ : BufTy).Contents (Elt F) → (⟨S16384x256, .f32⟩ : BufTy).Contents (Elt F) → (⟨S16384x256, .f32⟩ : BufTy).Contents (Elt F)),
    unary main_v179 main_v180 (Host.tanh : (⟨S16384x256, .f32⟩ : BufTy).Contents (Elt F) → (⟨S16384x256, .f32⟩ : BufTy).Contents (Elt F)),
    binary main_v176 main_v180 main_v181 (mulf : (⟨S16384x256, .f32⟩ : BufTy).Contents (Elt F) → (⟨S16384x256, .f32⟩ : BufTy).Contents (Elt F) → (⟨S16384x256, .f32⟩ : BufTy).Contents (Elt F)),
    unary main_v181 main_v182 ((extractStridedSlice S16384x128 ![0, 0] · slices_S16384x256_S16384x128_0_0) : (⟨S16384x256, .f32⟩ : BufTy).Contents (Elt F) → (⟨S16384x128, .f32⟩ : BufTy).Contents (Elt F)),
    binary main_arg0 main_v182 main_v183 (addf : (⟨S16384x128, .f32⟩ : BufTy).Contents (Elt F) → (⟨S16384x128, .f32⟩ : BufTy).Contents (Elt F) → (⟨S16384x128, .f32⟩ : BufTy).Contents (Elt F)),
    unary main_v32 main_v184 ((transpose S128x1 [1, 0] · transposes_S1x128_S128x1_1_0) : (⟨S1x128, .f32⟩ : BufTy).Contents (Elt F) → (⟨S128x1, .f32⟩ : BufTy).Contents (Elt F)),
    binary main_v183 main_v184 main_v185 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_30 (constant S_ .f32 0xFF800000#32),
    binary main_v185 main_cst_30 main_v186 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_31 (constant S_ .f32 0xFF800000#32),
    unary main_cst_31 main_v187 (broadcastInDim S16384 ![] bcast_S_S16384 : (⟨S_, .f32⟩ : BufTy).Contents (Elt F) → (⟨S16384, .f32⟩ : BufTy).Contents (Elt F)),
    binary main_v187 main_v186 main_v188 (maximumf : (⟨S16384, .f32⟩ : BufTy).Contents (Elt F) → (⟨S16384, .f32⟩ : BufTy).Contents (Elt F) → (⟨S16384, .f32⟩ : BufTy).Contents (Elt F)),
    unary main_v188 main_v189 (broadcastInDim S16384x1 ![0] bcast_S16384_S16384x1_0 : (⟨S16384, .f32⟩ : BufTy).Contents (Elt F) → (⟨S16384x1, .f32⟩ : BufTy).Contents (Elt F)),
    binary main_v185 main_v189 main_v190 (subf : (⟨S16384x1, .f32⟩ : BufTy).Contents (Elt F) → (⟨S16384x1, .f32⟩ : BufTy).Contents (Elt F) → (⟨S16384x1, .f32⟩ : BufTy).Contents (Elt F)),
    unary main_v190 main_v191 (Host.exp : (⟨S16384x1, .f32⟩ : BufTy).Contents (Elt F) → (⟨S16384x1, .f32⟩ : BufTy).Contents (Elt F)),
    nullary main_cst_32 (constant S_ .f32 0x00000000#32),
    binary main_v191 main_cst_32 main_v192 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v192 main_v193 (broadcastInDim S16384x1 ![0] bcast_S16384_S16384x1_0 : (⟨S16384, .f32⟩ : BufTy).Contents (Elt F) → (⟨S16384x1, .f32⟩ : BufTy).Contents (Elt F)),
    binary main_v191 main_v193 main_v194 (Host.divf : (⟨S16384x1, .f32⟩ : BufTy).Contents (Elt F) → (⟨S16384x1, .f32⟩ : BufTy).Contents (Elt F) → (⟨S16384x1, .f32⟩ : BufTy).Contents (Elt F)),
    binary main_v194 main_v32 main_v195 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v183 main_v195 main_v196 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg8 main_v197 ((transpose S128x1024 [1, 0] · transposes_S1024x128_S128x1024_1_0) : (⟨S1024x128, .f32⟩ : BufTy).Contents (Elt F) → (⟨S128x1024, .f32⟩ : BufTy).Contents (Elt F)),
    binary main_arg0 main_v197 main_v198 ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)),
    unary main_arg10 main_v199 (broadcastInDim S1x1024 ![1] bcast_S1024_S1x1024_1 : (⟨S1024, .f32⟩ : BufTy).Contents (Elt F) → (⟨S1x1024, .f32⟩ : BufTy).Contents (Elt F)),
    unary main_v199 main_v200 (broadcastInDim S16384x1024 ![0, 1] bcast_S1x1024_S16384x1024_0_1 : (⟨S1x1024, .f32⟩ : BufTy).Contents (Elt F) → (⟨S16384x1024, .f32⟩ : BufTy).Contents (Elt F)),
    binary main_v198 main_v200 main_v201 (addf : (⟨S16384x1024, .f32⟩ : BufTy).Contents (Elt F) → (⟨S16384x1024, .f32⟩ : BufTy).Contents (Elt F) → (⟨S16384x1024, .f32⟩ : BufTy).Contents (Elt F)),
    unary main_arg9 main_v202 ((transpose S256x1024 [1, 0] · transposes_S1024x256_S256x1024_1_0) : (⟨S1024x256, .f32⟩ : BufTy).Contents (Elt F) → (⟨S256x1024, .f32⟩ : BufTy).Contents (Elt F)),
    binary main_v196 main_v202 main_v203 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v201 main_v203 main_v204 (addf : (⟨S16384x1024, .f32⟩ : BufTy).Contents (Elt F) → (⟨S16384x1024, .f32⟩ : BufTy).Contents (Elt F) → (⟨S16384x1024, .f32⟩ : BufTy).Contents (Elt F)) ]

/-- The operations of window 4 (operations 266 … 323 of 323). -/
abbrev part4 : List (HloOp τ sig (Elt F)) :=
  [ unary main_arg11 main_v205 (broadcastInDim S1x1024 ![1] bcast_S1024_S1x1024_1 : (⟨S1024, .f32⟩ : BufTy).Contents (Elt F) → (⟨S1x1024, .f32⟩ : BufTy).Contents (Elt F)),
    unary main_v205 main_v206 (broadcastInDim S16384x1024 ![0, 1] bcast_S1x1024_S16384x1024_0_1 : (⟨S1x1024, .f32⟩ : BufTy).Contents (Elt F) → (⟨S16384x1024, .f32⟩ : BufTy).Contents (Elt F)),
    binary main_v204 main_v206 main_v207 (addf : (⟨S16384x1024, .f32⟩ : BufTy).Contents (Elt F) → (⟨S16384x1024, .f32⟩ : BufTy).Contents (Elt F) → (⟨S16384x1024, .f32⟩ : BufTy).Contents (Elt F)),
    unary main_v207 main_v208 ((extractStridedSlice S16384x256 ![0, 0] · slices_S16384x1024_S16384x256_0_0) : (⟨S16384x1024, .f32⟩ : BufTy).Contents (Elt F) → (⟨S16384x256, .f32⟩ : BufTy).Contents (Elt F)),
    unary main_v207 main_v209 ((extractStridedSlice S16384x256 ![0, 256] · slices_S16384x1024_S16384x256_0_256) : (⟨S16384x1024, .f32⟩ : BufTy).Contents (Elt F) → (⟨S16384x256, .f32⟩ : BufTy).Contents (Elt F)),
    unary main_v207 main_v210 ((extractStridedSlice S16384x256 ![0, 512] · slices_S16384x1024_S16384x256_0_512) : (⟨S16384x1024, .f32⟩ : BufTy).Contents (Elt F) → (⟨S16384x256, .f32⟩ : BufTy).Contents (Elt F)),
    unary main_v207 main_v211 ((extractStridedSlice S16384x256 ![0, 768] · slices_S16384x1024_S16384x256_0_768) : (⟨S16384x1024, .f32⟩ : BufTy).Contents (Elt F) → (⟨S16384x256, .f32⟩ : BufTy).Contents (Elt F)),
    unary main_v208 main_v212 (Host.negf : (⟨S16384x256, .f32⟩ : BufTy).Contents (Elt F) → (⟨S16384x256, .f32⟩ : BufTy).Contents (Elt F)),
    unary main_v212 main_v213 (Host.exp : (⟨S16384x256, .f32⟩ : BufTy).Contents (Elt F) → (⟨S16384x256, .f32⟩ : BufTy).Contents (Elt F)),
    nullary main_cst_33 (constant S_ .f32 0x3F800000#32),
    unary main_cst_33 main_v214 (broadcastInDim S16384x256 ![] bcast_S_S16384x256 : (⟨S_, .f32⟩ : BufTy).Contents (Elt F) → (⟨S16384x256, .f32⟩ : BufTy).Contents (Elt F)),
    binary main_v214 main_v213 main_v215 (addf : (⟨S16384x256, .f32⟩ : BufTy).Contents (Elt F) → (⟨S16384x256, .f32⟩ : BufTy).Contents (Elt F) → (⟨S16384x256, .f32⟩ : BufTy).Contents (Elt F)),
    nullary main_cst_34 (constant S_ .f32 0x3F800000#32),
    unary main_cst_34 main_v216 (broadcastInDim S16384x256 ![] bcast_S_S16384x256 : (⟨S_, .f32⟩ : BufTy).Contents (Elt F) → (⟨S16384x256, .f32⟩ : BufTy).Contents (Elt F)),
    binary main_v216 main_v215 main_v217 (Host.divf : (⟨S16384x256, .f32⟩ : BufTy).Contents (Elt F) → (⟨S16384x256, .f32⟩ : BufTy).Contents (Elt F) → (⟨S16384x256, .f32⟩ : BufTy).Contents (Elt F)),
    unary main_v209 main_v218 (Host.negf : (⟨S16384x256, .f32⟩ : BufTy).Contents (Elt F) → (⟨S16384x256, .f32⟩ : BufTy).Contents (Elt F)),
    unary main_v218 main_v219 (Host.exp : (⟨S16384x256, .f32⟩ : BufTy).Contents (Elt F) → (⟨S16384x256, .f32⟩ : BufTy).Contents (Elt F)),
    nullary main_cst_35 (constant S_ .f32 0x3F800000#32),
    unary main_cst_35 main_v220 (broadcastInDim S16384x256 ![] bcast_S_S16384x256 : (⟨S_, .f32⟩ : BufTy).Contents (Elt F) → (⟨S16384x256, .f32⟩ : BufTy).Contents (Elt F)),
    binary main_v220 main_v219 main_v221 (addf : (⟨S16384x256, .f32⟩ : BufTy).Contents (Elt F) → (⟨S16384x256, .f32⟩ : BufTy).Contents (Elt F) → (⟨S16384x256, .f32⟩ : BufTy).Contents (Elt F)),
    nullary main_cst_36 (constant S_ .f32 0x3F800000#32),
    unary main_cst_36 main_v222 (broadcastInDim S16384x256 ![] bcast_S_S16384x256 : (⟨S_, .f32⟩ : BufTy).Contents (Elt F) → (⟨S16384x256, .f32⟩ : BufTy).Contents (Elt F)),
    binary main_v222 main_v221 main_v223 (Host.divf : (⟨S16384x256, .f32⟩ : BufTy).Contents (Elt F) → (⟨S16384x256, .f32⟩ : BufTy).Contents (Elt F) → (⟨S16384x256, .f32⟩ : BufTy).Contents (Elt F)),
    unary main_v210 main_v224 (Host.tanh : (⟨S16384x256, .f32⟩ : BufTy).Contents (Elt F) → (⟨S16384x256, .f32⟩ : BufTy).Contents (Elt F)),
    unary main_v211 main_v225 (Host.negf : (⟨S16384x256, .f32⟩ : BufTy).Contents (Elt F) → (⟨S16384x256, .f32⟩ : BufTy).Contents (Elt F)),
    unary main_v225 main_v226 (Host.exp : (⟨S16384x256, .f32⟩ : BufTy).Contents (Elt F) → (⟨S16384x256, .f32⟩ : BufTy).Contents (Elt F)),
    nullary main_cst_37 (constant S_ .f32 0x3F800000#32),
    unary main_cst_37 main_v227 (broadcastInDim S16384x256 ![] bcast_S_S16384x256 : (⟨S_, .f32⟩ : BufTy).Contents (Elt F) → (⟨S16384x256, .f32⟩ : BufTy).Contents (Elt F)),
    binary main_v227 main_v226 main_v228 (addf : (⟨S16384x256, .f32⟩ : BufTy).Contents (Elt F) → (⟨S16384x256, .f32⟩ : BufTy).Contents (Elt F) → (⟨S16384x256, .f32⟩ : BufTy).Contents (Elt F)),
    nullary main_cst_38 (constant S_ .f32 0x3F800000#32),
    unary main_cst_38 main_v229 (broadcastInDim S16384x256 ![] bcast_S_S16384x256 : (⟨S_, .f32⟩ : BufTy).Contents (Elt F) → (⟨S16384x256, .f32⟩ : BufTy).Contents (Elt F)),
    binary main_v229 main_v228 main_v230 (Host.divf : (⟨S16384x256, .f32⟩ : BufTy).Contents (Elt F) → (⟨S16384x256, .f32⟩ : BufTy).Contents (Elt F) → (⟨S16384x256, .f32⟩ : BufTy).Contents (Elt F)),
    binary main_v223 main_v179 main_v231 (mulf : (⟨S16384x256, .f32⟩ : BufTy).Contents (Elt F) → (⟨S16384x256, .f32⟩ : BufTy).Contents (Elt F) → (⟨S16384x256, .f32⟩ : BufTy).Contents (Elt F)),
    binary main_v217 main_v224 main_v232 (mulf : (⟨S16384x256, .f32⟩ : BufTy).Contents (Elt F) → (⟨S16384x256, .f32⟩ : BufTy).Contents (Elt F) → (⟨S16384x256, .f32⟩ : BufTy).Contents (Elt F)),
    binary main_v231 main_v232 main_v233 (addf : (⟨S16384x256, .f32⟩ : BufTy).Contents (Elt F) → (⟨S16384x256, .f32⟩ : BufTy).Contents (Elt F) → (⟨S16384x256, .f32⟩ : BufTy).Contents (Elt F)),
    unary main_v233 main_v234 (Host.tanh : (⟨S16384x256, .f32⟩ : BufTy).Contents (Elt F) → (⟨S16384x256, .f32⟩ : BufTy).Contents (Elt F)),
    binary main_v230 main_v234 main_v235 (mulf : (⟨S16384x256, .f32⟩ : BufTy).Contents (Elt F) → (⟨S16384x256, .f32⟩ : BufTy).Contents (Elt F) → (⟨S16384x256, .f32⟩ : BufTy).Contents (Elt F)),
    unary main_v235 main_v236 ((extractStridedSlice S16384x128 ![0, 0] · slices_S16384x256_S16384x128_0_0) : (⟨S16384x256, .f32⟩ : BufTy).Contents (Elt F) → (⟨S16384x128, .f32⟩ : BufTy).Contents (Elt F)),
    binary main_arg0 main_v236 main_v237 (addf : (⟨S16384x128, .f32⟩ : BufTy).Contents (Elt F) → (⟨S16384x128, .f32⟩ : BufTy).Contents (Elt F) → (⟨S16384x128, .f32⟩ : BufTy).Contents (Elt F)),
    unary main_v32 main_v238 ((transpose S128x1 [1, 0] · transposes_S1x128_S128x1_1_0) : (⟨S1x128, .f32⟩ : BufTy).Contents (Elt F) → (⟨S128x1, .f32⟩ : BufTy).Contents (Elt F)),
    binary main_v237 main_v238 main_v239 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    nullary main_cst_39 (constant S_ .f32 0xFF800000#32),
    binary main_v239 main_cst_39 main_v240 ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)),
    nullary main_cst_40 (constant S_ .f32 0xFF800000#32),
    unary main_cst_40 main_v241 (broadcastInDim S16384 ![] bcast_S_S16384 : (⟨S_, .f32⟩ : BufTy).Contents (Elt F) → (⟨S16384, .f32⟩ : BufTy).Contents (Elt F)),
    binary main_v241 main_v240 main_v242 (maximumf : (⟨S16384, .f32⟩ : BufTy).Contents (Elt F) → (⟨S16384, .f32⟩ : BufTy).Contents (Elt F) → (⟨S16384, .f32⟩ : BufTy).Contents (Elt F)),
    unary main_v242 main_v243 (broadcastInDim S16384x1 ![0] bcast_S16384_S16384x1_0 : (⟨S16384, .f32⟩ : BufTy).Contents (Elt F) → (⟨S16384x1, .f32⟩ : BufTy).Contents (Elt F)),
    binary main_v239 main_v243 main_v244 (subf : (⟨S16384x1, .f32⟩ : BufTy).Contents (Elt F) → (⟨S16384x1, .f32⟩ : BufTy).Contents (Elt F) → (⟨S16384x1, .f32⟩ : BufTy).Contents (Elt F)),
    unary main_v244 main_v245 (Host.exp : (⟨S16384x1, .f32⟩ : BufTy).Contents (Elt F) → (⟨S16384x1, .f32⟩ : BufTy).Contents (Elt F)),
    nullary main_cst_41 (constant S_ .f32 0x00000000#32),
    binary main_v245 main_cst_41 main_v246 ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)),
    unary main_v246 main_v247 (broadcastInDim S16384x1 ![0] bcast_S16384_S16384x1_0 : (⟨S16384, .f32⟩ : BufTy).Contents (Elt F) → (⟨S16384x1, .f32⟩ : BufTy).Contents (Elt F)),
    binary main_v245 main_v247 main_v248 (Host.divf : (⟨S16384x1, .f32⟩ : BufTy).Contents (Elt F) → (⟨S16384x1, .f32⟩ : BufTy).Contents (Elt F) → (⟨S16384x1, .f32⟩ : BufTy).Contents (Elt F)),
    binary main_v248 main_v32 main_v249 ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)),
    binary main_v237 main_v249 main_v250 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_v32 main_v251 ((transpose S128x1 [1, 0] · transposes_S1x128_S128x1_1_0) : (⟨S1x128, .f32⟩ : BufTy).Contents (Elt F) → (⟨S128x1, .f32⟩ : BufTy).Contents (Elt F)),
    binary main_v237 main_v251 main_v252 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    reshape main_v252 main_v253 rfl shapeCasts_S16384x1_S16384 ]

set_option maxRecDepth 100000 in
set_option maxHeartbeats 4000000 in
/-- The stages in order are the windows in order: the same list, cut at other places. -/
theorem ops_eq_parts : (ops : List (HloOp τ sig (Elt F))) = part0 ++ (part1 ++ (part2 ++ (part3 ++ part4))) := rfl

set_option maxRecDepth 8192 in
set_option maxHeartbeats 4000000 in
/-- The first window is the line of its operations: the called functions unfolded at their calls, sequencing
    reassociated. -/
theorem main_part0_eq (c : Dev nD) : main_part0 (F := F) c = seq part0 := by
  simp only [main_part0, fn_relu.body, fn_std.body, fn_var.body, fn_where.body, seq, bind_assoc, pure_bind]
  rfl

set_option maxRecDepth 8192 in
set_option maxHeartbeats 4000000 in
theorem main_part1_eq (c : Dev nD) : main_part1 (F := F) c = seq part1 := rfl

set_option maxRecDepth 8192 in
set_option maxHeartbeats 4000000 in
theorem main_part2_eq (c : Dev nD) : main_part2 (F := F) c = seq part2 := rfl

set_option maxRecDepth 8192 in
set_option maxHeartbeats 4000000 in
theorem main_part3_eq (c : Dev nD) : main_part3 (F := F) c = seq part3 := rfl

set_option maxRecDepth 8192 in
set_option maxHeartbeats 4000000 in
theorem main_part4_eq (c : Dev nD) : main_part4 (F := F) c = seq part4 := rfl

set_option maxRecDepth 8192 in
set_option maxHeartbeats 4000000 in
/-- The program is the straight line of its operations: its five windows one after the other, each the line of its
    own operations. -/
theorem main_eq (c : Dev nD) : main (F := F) c = seq ops := by
  first
    | (rw [ops_eq_parts, seq_append, seq_append, seq_append, seq_append]
       unfold main
       rw [main_part0_eq c, main_part1_eq c, main_part2_eq c, main_part3_eq c, main_part4_eq c])
    | (rw [ops_eq_parts]
       simp only [seq_append, ← main_part0_eq c, ← main_part1_eq c, ← main_part2_eq c, ← main_part3_eq c, ← main_part4_eq c]
       rfl)

end Cert.ReferenceIdeal.HostRun

end
-- ==== Proof.RefSub.lean ====
/-
  What the run of the straight line asks of its operations, stage by stage and then of the whole line: every operation
  touches buffers of the tensor core only, and every operation determines its results; no buffer and no counter of the
  program is scoped. With the program being that line, every execution ends with each buffer at the fold of the
  operations' results over the launch contents.
-/
import proofs.«162834_g48816598286877_cont_sun_m_45_4_alg».proof.Proof.RefParts

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append' {α : Type _} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsEnc_sub : (opsEnc : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub ..⟩

set_option maxRecDepth 8192 in
theorem opsEnc_fresh : (opsEnc : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsZero_sub : (opsZero : List (HloOp τ sig (Elt F))).Forall fun op => op.bufs ⊆ tcRefs τ sig :=
  ⟨nullary_bufs_sub .., unary_bufs_sub .., nullary_bufs_sub .., unary_bufs_sub ..⟩

set_option maxRecDepth 8192 in
theorem opsZero_fresh : (opsZero : List (HloOp τ sig (Elt F))).Forall fun op => op.fresh = ∅ :=
  ⟨rfl, rfl, rfl, rfl⟩

set_option maxRecDepth 8192 in
theorem opsS1a_sub : (opsS1a : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub .., unary_bufs_sub .., unary_bufs_sub .., binary_bufs_sub .., unary_bufs_sub ..,
    unary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub .., unary_bufs_sub .., binary_bufs_sub .., unary_bufs_sub .., binary_bufs_sub ..⟩

set_option maxRecDepth 8192 in
theorem opsS1a_fresh : (opsS1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsS1b_sub : (opsS1b : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., unary_bufs_sub .., binary_bufs_sub .., unary_bufs_sub .., nullary_bufs_sub .., binary_bufs_sub ..,
    unary_bufs_sub .., binary_bufs_sub .., binary_bufs_sub .., binary_bufs_sub ..⟩

set_option maxRecDepth 8192 in
theorem opsS1b_fresh : (opsS1b : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem opsS2a_sub : (opsS2a : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub .., unary_bufs_sub .., unary_bufs_sub .., binary_bufs_sub .., unary_bufs_sub ..,
    unary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub .., unary_bufs_sub .., binary_bufs_sub .., unary_bufs_sub .., binary_bufs_sub ..⟩

set_option maxRecDepth 8192 in
theorem opsS2a_fresh : (opsS2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsS2b_sub : (opsS2b : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., unary_bufs_sub .., binary_bufs_sub .., unary_bufs_sub .., nullary_bufs_sub .., binary_bufs_sub ..,
    unary_bufs_sub .., binary_bufs_sub .., binary_bufs_sub .., binary_bufs_sub ..⟩

set_option maxRecDepth 8192 in
theorem opsS2b_fresh : (opsS2b : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem opsS3a_sub : (opsS3a : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub .., unary_bufs_sub .., unary_bufs_sub .., binary_bufs_sub .., unary_bufs_sub ..,
    unary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub .., unary_bufs_sub .., binary_bufs_sub .., unary_bufs_sub .., binary_bufs_sub ..⟩

set_option maxRecDepth 8192 in
theorem opsS3a_fresh : (opsS3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsS3b_sub : (opsS3b : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., unary_bufs_sub .., binary_bufs_sub .., unary_bufs_sub .., nullary_bufs_sub .., binary_bufs_sub ..,
    unary_bufs_sub .., binary_bufs_sub .., binary_bufs_sub .., binary_bufs_sub ..⟩

set_option maxRecDepth 8192 in
theorem opsS3b_fresh : (opsS3b : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem opsS4a_sub : (opsS4a : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub .., unary_bufs_sub .., unary_bufs_sub .., binary_bufs_sub .., unary_bufs_sub ..,
    unary_bufs_sub .., unary_bufs_sub .., unary_bufs_sub .., unary_bufs_sub .., unary_bufs_sub .., nullary_bufs_sub ..,
    unary_bufs_sub .., binary_bufs_sub .., nullary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., unary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub .., unary_bufs_sub .., binary_bufs_sub .., unary_bufs_sub .., binary_bufs_sub ..⟩

set_option maxRecDepth 8192 in
theorem opsS4a_fresh : (opsS4a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsS4b_sub : (opsS4b : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., unary_bufs_sub .., binary_bufs_sub .., unary_bufs_sub .., nullary_bufs_sub .., binary_bufs_sub ..,
    unary_bufs_sub .., binary_bufs_sub .., binary_bufs_sub .., binary_bufs_sub ..⟩

set_option maxRecDepth 8192 in
theorem opsS4b_fresh : (opsS4b : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem opsFin_sub : (opsFin : List (HloOp τ sig (Elt F))).Forall fun op => op.bufs ⊆ tcRefs τ sig :=
  ⟨unary_bufs_sub .., binary_bufs_sub .., reshape_bufs_sub ..⟩

set_option maxRecDepth 8192 in
theorem opsFin_fresh : (opsFin : List (HloOp τ sig (Elt F))).Forall fun op => op.fresh = ∅ :=
  ⟨rfl, rfl, rfl⟩

/-- Every operation of the line touches buffers of the tensor core only. -/
theorem ops_sub : (ops : List (HloOp τ sig (Elt F))).Forall fun op => op.bufs ⊆ tcRefs τ sig :=
  forall_append' (forall_append' (forall_append' (forall_append' (forall_append' (forall_append' (forall_append' (forall_append' (forall_append' (forall_append' (opsEnc_sub) opsZero_sub) opsS1a_sub) opsS1b_sub) opsS2a_sub) opsS2b_sub) opsS3a_sub) opsS3b_sub) opsS4a_sub) opsS4b_sub) opsFin_sub

/-- Every operation of the line determines its results. -/
theorem ops_fresh : (ops : List (HloOp τ sig (Elt F))).Forall fun op => op.fresh = ∅ :=
  forall_append' (forall_append' (forall_append' (forall_append' (forall_append' (forall_append' (forall_append' (forall_append' (forall_append' (forall_append' (opsEnc_fresh) opsZero_fresh) opsS1a_fresh) opsS1b_fresh) opsS2a_fresh) opsS2b_fresh) opsS3a_fresh) opsS3b_fresh) opsS4a_fresh) opsS4b_fresh) opsFin_fresh

/-- On every device, for any float values, from any memory with zero counters: every weakly fair execution of the
    program terminates, and every final state has each buffer at the fold of the operations' results over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => List.forall_iff_forall_mem.mp ops_fresh op h)

end Cert.ReferenceIdeal.HostRun

end
-- ==== Proof.RefStages.lean ====
/-
  The reference program's host operations grouped into the stages of its mathematics, each stage one function of the
  arrays it reads: the support encoder (`supportVec`), one recurrence step's new output and cell state
  (`stepOut`, `stepCell`) from the previous hidden input and cell state, the next hidden input (`nextHidden`: the
  output followed by the attention read-out over the single support vector), the zero arrays the recurrence starts
  from, and the final inner products (`similarity`). Every stage is the composition of the operations exactly as the
  program lists them.
-/
import proofs.«162834_g48816598286877_cont_sun_m_45_4_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The support encoder: two dense layers with a residual, the layer normalisation, the mean over the five rows. -/
def supportVec (main_arg1 : (⟨S5x128, .f32⟩ : BufTy).Contents (Elt F)) (main_arg2 : (⟨S256x128, .f32⟩ : BufTy).Contents (Elt F)) (main_arg3 : (⟨S256, .f32⟩ : BufTy).Contents (Elt F)) (main_arg4 : (⟨S128x256, .f32⟩ : BufTy).Contents (Elt F)) (main_arg5 main_arg6 main_arg7 : (⟨S128, .f32⟩ : BufTy).Contents (Elt F)) : (⟨S1x128, .f32⟩ : BufTy).Contents (Elt F) :=
  have main_v0 : (⟨S128x256, .f32⟩ : BufTy).Contents (Elt F) := ((transpose S128x256 [1, 0] · transposes_S256x128_S128x256_1_0) : (⟨S256x128, .f32⟩ : BufTy).Contents (Elt F) → (⟨S128x256, .f32⟩ : BufTy).Contents (Elt F)) main_arg2
  have main_v1 : (⟨S5x256, .f32⟩ : BufTy).Contents (Elt F) := ((fun l r => Host.dotGeneral dot_S5x128_S128x256_S5x256_1_0_0_1_n_n none l r) : (⟨S5x128, .f32⟩ : BufTy).Contents (Elt F) → (⟨S128x256, .f32⟩ : BufTy).Contents (Elt F) → (⟨S5x256, .f32⟩ : BufTy).Contents (Elt F)) main_arg1 main_v0
  have main_v2 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) main_arg3
  have main_v3 : (⟨S5x256, .f32⟩ : BufTy).Contents (Elt F) := (broadcastInDim S5x256 ![0, 1] bcast_S1x256_S5x256_0_1 : (⟨S1x256, .f32⟩ : BufTy).Contents (Elt F) → (⟨S5x256, .f32⟩ : BufTy).Contents (Elt F)) main_v2
  have main_v4 : (⟨S5x256, .f32⟩ : BufTy).Contents (Elt F) := (addf : (⟨S5x256, .f32⟩ : BufTy).Contents (Elt F) → (⟨S5x256, .f32⟩ : BufTy).Contents (Elt F) → (⟨S5x256, .f32⟩ : BufTy).Contents (Elt F)) main_v1 main_v3
  have main_call0_cst : (⟨S_, .f32⟩ : BufTy).Contents (Elt F) := (constant S_ .f32 0x00000000#32)
  have main_call0_v0 : (⟨S5x256, .f32⟩ : BufTy).Contents (Elt F) := (broadcastInDim S5x256 ![] bcast_S_S5x256) main_call0_cst
  have main_v5 : (⟨S5x256, .f32⟩ : BufTy).Contents (Elt F) := (maximumf) main_v4 main_call0_v0
  have main_v6 : (⟨S256x128, .f32⟩ : BufTy).Contents (Elt F) := ((transpose S256x128 [1, 0] · transposes_S128x256_S256x128_1_0) : (⟨S128x256, .f32⟩ : BufTy).Contents (Elt F) → (⟨S256x128, .f32⟩ : BufTy).Contents (Elt F)) main_arg4
  have main_v7 : (⟨S5x128, .f32⟩ : BufTy).Contents (Elt F) := ((fun l r => Host.dotGeneral dot_S5x256_S256x128_S5x128_1_0_0_1_n_n none l r) : (⟨S5x256, .f32⟩ : BufTy).Contents (Elt F) → (⟨S256x128, .f32⟩ : BufTy).Contents (Elt F) → (⟨S5x128, .f32⟩ : BufTy).Contents (Elt F)) main_v5 main_v6
  have main_v8 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg5
  have main_v9 : (⟨S5x128, .f32⟩ : BufTy).Contents (Elt F) := (broadcastInDim S5x128 ![0, 1] bcast_S1x128_S5x128_0_1 : (⟨S1x128, .f32⟩ : BufTy).Contents (Elt F) → (⟨S5x128, .f32⟩ : BufTy).Contents (Elt F)) main_v8
  have main_v10 : (⟨S5x128, .f32⟩ : BufTy).Contents (Elt F) := (addf : (⟨S5x128, .f32⟩ : BufTy).Contents (Elt F) → (⟨S5x128, .f32⟩ : BufTy).Contents (Elt F) → (⟨S5x128, .f32⟩ : BufTy).Contents (Elt F)) main_v7 main_v9
  have main_v11 : (⟨S5x128, .f32⟩ : BufTy).Contents (Elt F) := (addf : (⟨S5x128, .f32⟩ : BufTy).Contents (Elt F) → (⟨S5x128, .f32⟩ : BufTy).Contents (Elt F) → (⟨S5x128, .f32⟩ : BufTy).Contents (Elt F)) main_v10 main_arg1
  have main_cst : (⟨S_, .f32⟩ : BufTy).Contents (Elt F) := (constant S_ .f32 0x00000000#32)
  have main_v12 : (⟨S5, .f32⟩ : BufTy).Contents (Elt F) := ((fun x v => Host.reduceAdd x v reducesTo_S5x128_S5_d1 h_S_) : (⟨S5x128, .f32⟩ : BufTy).Contents (Elt F) → (⟨S_, .f32⟩ : BufTy).Contents (Elt F) → (⟨S5, .f32⟩ : BufTy).Contents (Elt F)) main_v11 main_cst
  have main_v13 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) main_v12
  have main_cst_0 : (⟨S_, .f32⟩ : BufTy).Contents (Elt F) := (constant S_ .f32 0x43000000#32)
  have main_v14 : (⟨S5x1, .f32⟩ : BufTy).Contents (Elt F) := (broadcastInDim S5x1 ![] bcast_S_S5x1 : (⟨S_, .f32⟩ : BufTy).Contents (Elt F) → (⟨S5x1, .f32⟩ : BufTy).Contents (Elt F)) main_cst_0
  have main_v15 : (⟨S5x1, .f32⟩ : BufTy).Contents (Elt F) := (Host.divf : (⟨S5x1, .f32⟩ : BufTy).Contents (Elt F) → (⟨S5x1, .f32⟩ : BufTy).Contents (Elt F) → (⟨S5x1, .f32⟩ : BufTy).Contents (Elt F)) main_v13 main_v14
  have main_c : (⟨S_, .i32⟩ : BufTy).Contents (Elt F) := (constantI S_ 32 1#32)
  have main_call1_call0_cst : (⟨S_, .f32⟩ : BufTy).Contents (Elt F) := (constant S_ .f32 0x00000000#32)
  have main_call1_call0_v0 : (⟨S5, .f32⟩ : BufTy).Contents (Elt F) := (fun x v => Host.reduceAdd x v reducesTo_S5x128_S5_d1 h_S_) main_v11 main_call1_call0_cst
  have main_call1_call0_v1 : (⟨S5x1, .f32⟩ : BufTy).Contents (Elt F) := (broadcastInDim S5x1 ![0] bcast_S5_S5x1_0) main_call1_call0_v0
  have main_call1_call0_cst_0 : (⟨S_, .f32⟩ : BufTy).Contents (Elt F) := (constant S_ .f32 0x43000000#32)
  have main_call1_call0_v2 : (⟨S5x1, .f32⟩ : BufTy).Contents (Elt F) := (broadcastInDim S5x1 ![] bcast_S_S5x1) main_call1_call0_cst_0
  have main_call1_call0_v3 : (⟨S5x1, .f32⟩ : BufTy).Contents (Elt F) := (Host.divf) main_call1_call0_v1 main_call1_call0_v2
  have main_call1_call0_v4 : (⟨S5x128, .f32⟩ : BufTy).Contents (Elt F) := (broadcastInDim S5x128 ![0, 1] bcast_S5x1_S5x128_0_1) main_call1_call0_v3
  have main_call1_call0_v5 : (⟨S5x128, .f32⟩ : BufTy).Contents (Elt F) := (subf) main_v11 main_call1_call0_v4
  have main_call1_call0_v6 : (⟨S5x128, .f32⟩ : BufTy).Contents (Elt F) := (mulf) main_call1_call0_v5 main_call1_call0_v5
  have main_call1_call0_v7 : (⟨S_, .f32⟩ : BufTy).Contents (Elt F) := (sitofp .f32) main_c
  have main_call1_call0_cst_1 : (⟨S_, .f32⟩ : BufTy).Contents (Elt F) := (constant S_ .f32 0x43000000#32)
  have main_call1_call0_v8 : (⟨S_, .f32⟩ : BufTy).Contents (Elt F) := (subf) main_call1_call0_cst_1 main_call1_call0_v7
  have main_call1_call0_cst_2 : (⟨S_, .f32⟩ : BufTy).Contents (Elt F) := (constant S_ .f32 0x00000000#32)
  have main_call1_call0_v9 : (⟨S5, .f32⟩ : BufTy).Contents (Elt F) := (fun x v => Host.reduceAdd x v reducesTo_S5x128_S5_d1 h_S_) main_call1_call0_v6 main_call1_call0_cst_2
  have main_call1_call0_v10 : (⟨S5x1, .f32⟩ : BufTy).Contents (Elt F) := (broadcastInDim S5x1 ![0] bcast_S5_S5x1_0) main_call1_call0_v9
  have main_call1_call0_v11 : (⟨S5x1, .f32⟩ : BufTy).Contents (Elt F) := (broadcastInDim S5x1 ![] bcast_S_S5x1) main_call1_call0_v8
  have main_call1_call0_v12 : (⟨S5x1, .f32⟩ : BufTy).Contents (Elt F) := (Host.divf) main_call1_call0_v10 main_call1_call0_v11
  have main_call1_call0_cst_3 : (⟨S_, .f32⟩ : BufTy).Contents (Elt F) := (constant S_ .f32 0x00000000#32)
  have main_call1_call0_v13 : (⟨S_, .i1⟩ : BufTy).Contents (Elt F) := (cmpf .ogt) main_call1_call0_v8 main_call1_call0_cst_3
  have main_call1_call0_cst_4 : (⟨S_, .f32⟩ : BufTy).Contents (Elt F) := (constant S_ .f32 0x7FC00000#32)
  have main_call1_call0_call0_v0 : (⟨S_, .f32⟩ : BufTy).Contents (Elt F) := (id) main_call1_call0_cst_4
  have main_call1_call0_call0_v1 : (⟨S5x1, .f32⟩ : BufTy).Contents (Elt F) := (broadcastInDim S5x1 ![] bcast_S_S5x1) main_call1_call0_call0_v0
  have main_call1_v0 : (⟨S5x1, .f32⟩ : BufTy).Contents (Elt F) := (fun p a b => select (broadcastInDim S5x1 ![] bcast_S_S5x1 p) a b) main_call1_call0_v13 main_call1_call0_v12 main_call1_call0_call0_v1
  have main_v16 : (⟨S5x1, .f32⟩ : BufTy).Contents (Elt F) := (Host.sqrt) main_call1_v0
  have main_v17 : (⟨S5x128, .f32⟩ : BufTy).Contents (Elt F) := (broadcastInDim S5x128 ![0, 1] bcast_S5x1_S5x128_0_1 : (⟨S5x1, .f32⟩ : BufTy).Contents (Elt F) → (⟨S5x128, .f32⟩ : BufTy).Contents (Elt F)) main_v15
  have main_v18 : (⟨S5x128, .f32⟩ : BufTy).Contents (Elt F) := (subf : (⟨S5x128, .f32⟩ : BufTy).Contents (Elt F) → (⟨S5x128, .f32⟩ : BufTy).Contents (Elt F) → (⟨S5x128, .f32⟩ : BufTy).Contents (Elt F)) main_v11 main_v17
  have main_cst_1 : (⟨S_, .f32⟩ : BufTy).Contents (Elt F) := (constant S_ .f32 0x3A83126F#32)
  have main_v19 : (⟨S5x1, .f32⟩ : BufTy).Contents (Elt F) := (broadcastInDim S5x1 ![] bcast_S_S5x1 : (⟨S_, .f32⟩ : BufTy).Contents (Elt F) → (⟨S5x1, .f32⟩ : BufTy).Contents (Elt F)) main_cst_1
  have main_v20 : (⟨S5x1, .f32⟩ : BufTy).Contents (Elt F) := (addf : (⟨S5x1, .f32⟩ : BufTy).Contents (Elt F) → (⟨S5x1, .f32⟩ : BufTy).Contents (Elt F) → (⟨S5x1, .f32⟩ : BufTy).Contents (Elt F)) main_v16 main_v19
  have main_v21 : (⟨S5x128, .f32⟩ : BufTy).Contents (Elt F) := (broadcastInDim S5x128 ![0, 1] bcast_S5x1_S5x128_0_1 : (⟨S5x1, .f32⟩ : BufTy).Contents (Elt F) → (⟨S5x128, .f32⟩ : BufTy).Contents (Elt F)) main_v20
  have main_v22 : (⟨S5x128, .f32⟩ : BufTy).Contents (Elt F) := (Host.divf : (⟨S5x128, .f32⟩ : BufTy).Contents (Elt F) → (⟨S5x128, .f32⟩ : BufTy).Contents (Elt F) → (⟨S5x128, .f32⟩ : BufTy).Contents (Elt F)) main_v18 main_v21
  have main_v23 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg6
  have main_v24 : (⟨S5x128, .f32⟩ : BufTy).Contents (Elt F) := (broadcastInDim S5x128 ![0, 1] bcast_S1x128_S5x128_0_1 : (⟨S1x128, .f32⟩ : BufTy).Contents (Elt F) → (⟨S5x128, .f32⟩ : BufTy).Contents (Elt F)) main_v23
  have main_v25 : (⟨S5x128, .f32⟩ : BufTy).Contents (Elt F) := (mulf : (⟨S5x128, .f32⟩ : BufTy).Contents (Elt F) → (⟨S5x128, .f32⟩ : BufTy).Contents (Elt F) → (⟨S5x128, .f32⟩ : BufTy).Contents (Elt F)) main_v22 main_v24
  have main_v26 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg7
  have main_v27 : (⟨S5x128, .f32⟩ : BufTy).Contents (Elt F) := (broadcastInDim S5x128 ![0, 1] bcast_S1x128_S5x128_0_1 : (⟨S1x128, .f32⟩ : BufTy).Contents (Elt F) → (⟨S5x128, .f32⟩ : BufTy).Contents (Elt F)) main_v26
  have main_v28 : (⟨S5x128, .f32⟩ : BufTy).Contents (Elt F) := (addf : (⟨S5x128, .f32⟩ : BufTy).Contents (Elt F) → (⟨S5x128, .f32⟩ : BufTy).Contents (Elt F) → (⟨S5x128, .f32⟩ : BufTy).Contents (Elt F)) main_v25 main_v27
  have main_cst_2 : (⟨S_, .f32⟩ : BufTy).Contents (Elt F) := (constant S_ .f32 0x00000000#32)
  have main_v29 : (⟨S128, .f32⟩ : BufTy).Contents (Elt F) := ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)) main_v28 main_cst_2
  have main_v30 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v29
  have main_cst_3 : (⟨S_, .f32⟩ : BufTy).Contents (Elt F) := (constant S_ .f32 0x40A00000#32)
  have main_v31 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_3
  have main_v32 : (⟨S1x128, .f32⟩ : BufTy).Contents (Elt F) := (Host.divf : (⟨S1x128, .f32⟩ : BufTy).Contents (Elt F) → (⟨S1x128, .f32⟩ : BufTy).Contents (Elt F) → (⟨S1x128, .f32⟩ : BufTy).Contents (Elt F)) main_v30 main_v31
  main_v32

/-- The zero array both the hidden input and the cell state start from. -/
def zeros : (⟨S16384x256, .f32⟩ : BufTy).Contents (Elt F) :=
  have main_cst_4 : (⟨S_, .f32⟩ : BufTy).Contents (Elt F) := (constant S_ .f32 0x00000000#32)
  have main_v33 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_4
  main_v33

/-- One step's output `query + (output gate · tanh cell)[:, :128]`. -/
def stepOut (q : (⟨S16384x128, .f32⟩ : BufTy).Contents (Elt F)) (Wih : (⟨S1024x128, .f32⟩ : BufTy).Contents (Elt F)) (Whh : (⟨S1024x256, .f32⟩ : BufTy).Contents (Elt F)) (bih bhh : (⟨S1024, .f32⟩ : BufTy).Contents (Elt F)) (hr c : (⟨S16384x256, .f32⟩ : BufTy).Contents (Elt F)) : (⟨S16384x128, .f32⟩ : BufTy).Contents (Elt F) :=
  have main_v35 : (⟨S128x1024, .f32⟩ : BufTy).Contents (Elt F) := ((transpose S128x1024 [1, 0] · transposes_S1024x128_S128x1024_1_0) : (⟨S1024x128, .f32⟩ : BufTy).Contents (Elt F) → (⟨S128x1024, .f32⟩ : BufTy).Contents (Elt F)) Wih
  have main_v36 : (⟨S16384x1024, .f32⟩ : BufTy).Contents (Elt F) := ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)) q main_v35
  have main_v37 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) bih
  have main_v38 : (⟨S16384x1024, .f32⟩ : BufTy).Contents (Elt F) := (broadcastInDim S16384x1024 ![0, 1] bcast_S1x1024_S16384x1024_0_1 : (⟨S1x1024, .f32⟩ : BufTy).Contents (Elt F) → (⟨S16384x1024, .f32⟩ : BufTy).Contents (Elt F)) main_v37
  have main_v39 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) main_v36 main_v38
  have main_v40 : (⟨S256x1024, .f32⟩ : BufTy).Contents (Elt F) := ((transpose S256x1024 [1, 0] · transposes_S1024x256_S256x1024_1_0) : (⟨S1024x256, .f32⟩ : BufTy).Contents (Elt F) → (⟨S256x1024, .f32⟩ : BufTy).Contents (Elt F)) Whh
  have main_v41 : (⟨S16384x1024, .f32⟩ : BufTy).Contents (Elt F) := ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)) hr main_v40
  have main_v42 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) main_v39 main_v41
  have main_v43 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) bhh
  have main_v44 : (⟨S16384x1024, .f32⟩ : BufTy).Contents (Elt F) := (broadcastInDim S16384x1024 ![0, 1] bcast_S1x1024_S16384x1024_0_1 : (⟨S1x1024, .f32⟩ : BufTy).Contents (Elt F) → (⟨S16384x1024, .f32⟩ : BufTy).Contents (Elt F)) main_v43
  have main_v45 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) main_v42 main_v44
  have main_v46 : (⟨S16384x256, .f32⟩ : BufTy).Contents (Elt F) := ((extractStridedSlice S16384x256 ![0, 0] · slices_S16384x1024_S16384x256_0_0) : (⟨S16384x1024, .f32⟩ : BufTy).Contents (Elt F) → (⟨S16384x256, .f32⟩ : BufTy).Contents (Elt F)) main_v45
  have main_v47 : (⟨S16384x256, .f32⟩ : BufTy).Contents (Elt F) := ((extractStridedSlice S16384x256 ![0, 256] · slices_S16384x1024_S16384x256_0_256) : (⟨S16384x1024, .f32⟩ : BufTy).Contents (Elt F) → (⟨S16384x256, .f32⟩ : BufTy).Contents (Elt F)) main_v45
  have main_v48 : (⟨S16384x256, .f32⟩ : BufTy).Contents (Elt F) := ((extractStridedSlice S16384x256 ![0, 512] · slices_S16384x1024_S16384x256_0_512) : (⟨S16384x1024, .f32⟩ : BufTy).Contents (Elt F) → (⟨S16384x256, .f32⟩ : BufTy).Contents (Elt F)) main_v45
  have main_v49 : (⟨S16384x256, .f32⟩ : BufTy).Contents (Elt F) := ((extractStridedSlice S16384x256 ![0, 768] · slices_S16384x1024_S16384x256_0_768) : (⟨S16384x1024, .f32⟩ : BufTy).Contents (Elt F) → (⟨S16384x256, .f32⟩ : BufTy).Contents (Elt F)) main_v45
  have main_v50 : (⟨S16384x256, .f32⟩ : BufTy).Contents (Elt F) := (Host.negf : (⟨S16384x256, .f32⟩ : BufTy).Contents (Elt F) → (⟨S16384x256, .f32⟩ : BufTy).Contents (Elt F)) main_v46
  have main_v51 : (⟨S16384x256, .f32⟩ : BufTy).Contents (Elt F) := (Host.exp : (⟨S16384x256, .f32⟩ : BufTy).Contents (Elt F) → (⟨S16384x256, .f32⟩ : BufTy).Contents (Elt F)) main_v50
  have main_cst_6 : (⟨S_, .f32⟩ : BufTy).Contents (Elt F) := (constant S_ .f32 0x3F800000#32)
  have main_v52 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_6
  have main_v53 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v52 main_v51
  have main_cst_7 : (⟨S_, .f32⟩ : BufTy).Contents (Elt F) := (constant S_ .f32 0x3F800000#32)
  have main_v54 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_7
  have main_v55 : (⟨S16384x256, .f32⟩ : BufTy).Contents (Elt F) := (Host.divf : (⟨S16384x256, .f32⟩ : BufTy).Contents (Elt F) → (⟨S16384x256, .f32⟩ : BufTy).Contents (Elt F) → (⟨S16384x256, .f32⟩ : BufTy).Contents (Elt F)) main_v54 main_v53
  have main_v56 : (⟨S16384x256, .f32⟩ : BufTy).Contents (Elt F) := (Host.negf : (⟨S16384x256, .f32⟩ : BufTy).Contents (Elt F) → (⟨S16384x256, .f32⟩ : BufTy).Contents (Elt F)) main_v47
  have main_v57 : (⟨S16384x256, .f32⟩ : BufTy).Contents (Elt F) := (Host.exp : (⟨S16384x256, .f32⟩ : BufTy).Contents (Elt F) → (⟨S16384x256, .f32⟩ : BufTy).Contents (Elt F)) main_v56
  have main_cst_8 : (⟨S_, .f32⟩ : BufTy).Contents (Elt F) := (constant S_ .f32 0x3F800000#32)
  have main_v58 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_8
  have main_v59 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v58 main_v57
  have main_cst_9 : (⟨S_, .f32⟩ : BufTy).Contents (Elt F) := (constant S_ .f32 0x3F800000#32)
  have main_v60 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_9
  have main_v61 : (⟨S16384x256, .f32⟩ : BufTy).Contents (Elt F) := (Host.divf : (⟨S16384x256, .f32⟩ : BufTy).Contents (Elt F) → (⟨S16384x256, .f32⟩ : BufTy).Contents (Elt F) → (⟨S16384x256, .f32⟩ : BufTy).Contents (Elt F)) main_v60 main_v59
  have main_v62 : (⟨S16384x256, .f32⟩ : BufTy).Contents (Elt F) := (Host.tanh : (⟨S16384x256, .f32⟩ : BufTy).Contents (Elt F) → (⟨S16384x256, .f32⟩ : BufTy).Contents (Elt F)) main_v48
  have main_v63 : (⟨S16384x256, .f32⟩ : BufTy).Contents (Elt F) := (Host.negf : (⟨S16384x256, .f32⟩ : BufTy).Contents (Elt F) → (⟨S16384x256, .f32⟩ : BufTy).Contents (Elt F)) main_v49
  have main_v64 : (⟨S16384x256, .f32⟩ : BufTy).Contents (Elt F) := (Host.exp : (⟨S16384x256, .f32⟩ : BufTy).Contents (Elt F) → (⟨S16384x256, .f32⟩ : BufTy).Contents (Elt F)) main_v63
  have main_cst_10 : (⟨S_, .f32⟩ : BufTy).Contents (Elt F) := (constant S_ .f32 0x3F800000#32)
  have main_v65 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_10
  have main_v66 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v65 main_v64
  have main_cst_11 : (⟨S_, .f32⟩ : BufTy).Contents (Elt F) := (constant S_ .f32 0x3F800000#32)
  have main_v67 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_11
  have main_v68 : (⟨S16384x256, .f32⟩ : BufTy).Contents (Elt F) := (Host.divf : (⟨S16384x256, .f32⟩ : BufTy).Contents (Elt F) → (⟨S16384x256, .f32⟩ : BufTy).Contents (Elt F) → (⟨S16384x256, .f32⟩ : BufTy).Contents (Elt F)) main_v67 main_v66
  have main_v69 : (⟨S16384x256, .f32⟩ : BufTy).Contents (Elt F) := (mulf : (⟨S16384x256, .f32⟩ : BufTy).Contents (Elt F) → (⟨S16384x256, .f32⟩ : BufTy).Contents (Elt F) → (⟨S16384x256, .f32⟩ : BufTy).Contents (Elt F)) main_v61 c
  have main_v70 : (⟨S16384x256, .f32⟩ : BufTy).Contents (Elt F) := (mulf : (⟨S16384x256, .f32⟩ : BufTy).Contents (Elt F) → (⟨S16384x256, .f32⟩ : BufTy).Contents (Elt F) → (⟨S16384x256, .f32⟩ : BufTy).Contents (Elt F)) main_v55 main_v62
  have main_v71 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v69 main_v70
  have main_v72 : (⟨S16384x256, .f32⟩ : BufTy).Contents (Elt F) := (Host.tanh : (⟨S16384x256, .f32⟩ : BufTy).Contents (Elt F) → (⟨S16384x256, .f32⟩ : BufTy).Contents (Elt F)) main_v71
  have main_v73 : (⟨S16384x256, .f32⟩ : BufTy).Contents (Elt F) := (mulf : (⟨S16384x256, .f32⟩ : BufTy).Contents (Elt F) → (⟨S16384x256, .f32⟩ : BufTy).Contents (Elt F) → (⟨S16384x256, .f32⟩ : BufTy).Contents (Elt F)) main_v68 main_v72
  have main_v74 : (⟨S16384x128, .f32⟩ : BufTy).Contents (Elt F) := ((extractStridedSlice S16384x128 ![0, 0] · slices_S16384x256_S16384x128_0_0) : (⟨S16384x256, .f32⟩ : BufTy).Contents (Elt F) → (⟨S16384x128, .f32⟩ : BufTy).Contents (Elt F)) main_v73
  have main_v75 : (⟨S16384x128, .f32⟩ : BufTy).Contents (Elt F) := (addf : (⟨S16384x128, .f32⟩ : BufTy).Contents (Elt F) → (⟨S16384x128, .f32⟩ : BufTy).Contents (Elt F) → (⟨S16384x128, .f32⟩ : BufTy).Contents (Elt F)) q main_v74
  main_v75

/-- One step's new cell state. -/
def stepCell (q : (⟨S16384x128, .f32⟩ : BufTy).Contents (Elt F)) (Wih : (⟨S1024x128, .f32⟩ : BufTy).Contents (Elt F)) (Whh : (⟨S1024x256, .f32⟩ : BufTy).Contents (Elt F)) (bih bhh : (⟨S1024, .f32⟩ : BufTy).Contents (Elt F)) (hr c : (⟨S16384x256, .f32⟩ : BufTy).Contents (Elt F)) : (⟨S16384x256, .f32⟩ : BufTy).Contents (Elt F) :=
  have main_v35 : (⟨S128x1024, .f32⟩ : BufTy).Contents (Elt F) := ((transpose S128x1024 [1, 0] · transposes_S1024x128_S128x1024_1_0) : (⟨S1024x128, .f32⟩ : BufTy).Contents (Elt F) → (⟨S128x1024, .f32⟩ : BufTy).Contents (Elt F)) Wih
  have main_v36 : (⟨S16384x1024, .f32⟩ : BufTy).Contents (Elt F) := ((fun l r => Host.dotGeneral dot_S16384x128_S128x1024_S16384x1024_1_0_0_1_n_n none l r) : (⟨S16384x128, .f32⟩ : BufTy).Contents (Elt F) → (⟨S128x1024, .f32⟩ : BufTy).Contents (Elt F) → (⟨S16384x1024, .f32⟩ : BufTy).Contents (Elt F)) q main_v35
  have main_v37 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) bih
  have main_v38 : (⟨S16384x1024, .f32⟩ : BufTy).Contents (Elt F) := (broadcastInDim S16384x1024 ![0, 1] bcast_S1x1024_S16384x1024_0_1 : (⟨S1x1024, .f32⟩ : BufTy).Contents (Elt F) → (⟨S16384x1024, .f32⟩ : BufTy).Contents (Elt F)) main_v37
  have main_v39 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) main_v36 main_v38
  have main_v40 : (⟨S256x1024, .f32⟩ : BufTy).Contents (Elt F) := ((transpose S256x1024 [1, 0] · transposes_S1024x256_S256x1024_1_0) : (⟨S1024x256, .f32⟩ : BufTy).Contents (Elt F) → (⟨S256x1024, .f32⟩ : BufTy).Contents (Elt F)) Whh
  have main_v41 : (⟨S16384x1024, .f32⟩ : BufTy).Contents (Elt F) := ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)) hr main_v40
  have main_v42 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) main_v39 main_v41
  have main_v43 : (⟨S1x1024, .f32⟩ : BufTy).Contents (Elt F) := (broadcastInDim S1x1024 ![1] bcast_S1024_S1x1024_1 : (⟨S1024, .f32⟩ : BufTy).Contents (Elt F) → (⟨S1x1024, .f32⟩ : BufTy).Contents (Elt F)) bhh
  have main_v44 : (⟨S16384x1024, .f32⟩ : BufTy).Contents (Elt F) := (broadcastInDim S16384x1024 ![0, 1] bcast_S1x1024_S16384x1024_0_1 : (⟨S1x1024, .f32⟩ : BufTy).Contents (Elt F) → (⟨S16384x1024, .f32⟩ : BufTy).Contents (Elt F)) main_v43
  have main_v45 : (⟨S16384x1024, .f32⟩ : BufTy).Contents (Elt F) := (addf : (⟨S16384x1024, .f32⟩ : BufTy).Contents (Elt F) → (⟨S16384x1024, .f32⟩ : BufTy).Contents (Elt F) → (⟨S16384x1024, .f32⟩ : BufTy).Contents (Elt F)) main_v42 main_v44
  have main_v46 : (⟨S16384x256, .f32⟩ : BufTy).Contents (Elt F) := ((extractStridedSlice S16384x256 ![0, 0] · slices_S16384x1024_S16384x256_0_0) : (⟨S16384x1024, .f32⟩ : BufTy).Contents (Elt F) → (⟨S16384x256, .f32⟩ : BufTy).Contents (Elt F)) main_v45
  have main_v47 : (⟨S16384x256, .f32⟩ : BufTy).Contents (Elt F) := ((extractStridedSlice S16384x256 ![0, 256] · slices_S16384x1024_S16384x256_0_256) : (⟨S16384x1024, .f32⟩ : BufTy).Contents (Elt F) → (⟨S16384x256, .f32⟩ : BufTy).Contents (Elt F)) main_v45
  have main_v48 : (⟨S16384x256, .f32⟩ : BufTy).Contents (Elt F) := ((extractStridedSlice S16384x256 ![0, 512] · slices_S16384x1024_S16384x256_0_512) : (⟨S16384x1024, .f32⟩ : BufTy).Contents (Elt F) → (⟨S16384x256, .f32⟩ : BufTy).Contents (Elt F)) main_v45
  have main_v49 : (⟨S16384x256, .f32⟩ : BufTy).Contents (Elt F) := ((extractStridedSlice S16384x256 ![0, 768] · slices_S16384x1024_S16384x256_0_768) : (⟨S16384x1024, .f32⟩ : BufTy).Contents (Elt F) → (⟨S16384x256, .f32⟩ : BufTy).Contents (Elt F)) main_v45
  have main_v50 : (⟨S16384x256, .f32⟩ : BufTy).Contents (Elt F) := (Host.negf : (⟨S16384x256, .f32⟩ : BufTy).Contents (Elt F) → (⟨S16384x256, .f32⟩ : BufTy).Contents (Elt F)) main_v46
  have main_v51 : (⟨S16384x256, .f32⟩ : BufTy).Contents (Elt F) := (Host.exp : (⟨S16384x256, .f32⟩ : BufTy).Contents (Elt F) → (⟨S16384x256, .f32⟩ : BufTy).Contents (Elt F)) main_v50
  have main_cst_6 : (⟨S_, .f32⟩ : BufTy).Contents (Elt F) := (constant S_ .f32 0x3F800000#32)
  have main_v52 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_6
  have main_v53 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v52 main_v51
  have main_cst_7 : (⟨S_, .f32⟩ : BufTy).Contents (Elt F) := (constant S_ .f32 0x3F800000#32)
  have main_v54 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_7
  have main_v55 : (⟨S16384x256, .f32⟩ : BufTy).Contents (Elt F) := (Host.divf : (⟨S16384x256, .f32⟩ : BufTy).Contents (Elt F) → (⟨S16384x256, .f32⟩ : BufTy).Contents (Elt F) → (⟨S16384x256, .f32⟩ : BufTy).Contents (Elt F)) main_v54 main_v53
  have main_v56 : (⟨S16384x256, .f32⟩ : BufTy).Contents (Elt F) := (Host.negf : (⟨S16384x256, .f32⟩ : BufTy).Contents (Elt F) → (⟨S16384x256, .f32⟩ : BufTy).Contents (Elt F)) main_v47
  have main_v57 : (⟨S16384x256, .f32⟩ : BufTy).Contents (Elt F) := (Host.exp : (⟨S16384x256, .f32⟩ : BufTy).Contents (Elt F) → (⟨S16384x256, .f32⟩ : BufTy).Contents (Elt F)) main_v56
  have main_cst_8 : (⟨S_, .f32⟩ : BufTy).Contents (Elt F) := (constant S_ .f32 0x3F800000#32)
  have main_v58 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_8
  have main_v59 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v58 main_v57
  have main_cst_9 : (⟨S_, .f32⟩ : BufTy).Contents (Elt F) := (constant S_ .f32 0x3F800000#32)
  have main_v60 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_9
  have main_v61 : (⟨S16384x256, .f32⟩ : BufTy).Contents (Elt F) := (Host.divf : (⟨S16384x256, .f32⟩ : BufTy).Contents (Elt F) → (⟨S16384x256, .f32⟩ : BufTy).Contents (Elt F) → (⟨S16384x256, .f32⟩ : BufTy).Contents (Elt F)) main_v60 main_v59
  have main_v62 : (⟨S16384x256, .f32⟩ : BufTy).Contents (Elt F) := (Host.tanh : (⟨S16384x256, .f32⟩ : BufTy).Contents (Elt F) → (⟨S16384x256, .f32⟩ : BufTy).Contents (Elt F)) main_v48
  have main_v63 : (⟨S16384x256, .f32⟩ : BufTy).Contents (Elt F) := (Host.negf : (⟨S16384x256, .f32⟩ : BufTy).Contents (Elt F) → (⟨S16384x256, .f32⟩ : BufTy).Contents (Elt F)) main_v49
  have main_v64 : (⟨S16384x256, .f32⟩ : BufTy).Contents (Elt F) := (Host.exp : (⟨S16384x256, .f32⟩ : BufTy).Contents (Elt F) → (⟨S16384x256, .f32⟩ : BufTy).Contents (Elt F)) main_v63
  have main_cst_10 : (⟨S_, .f32⟩ : BufTy).Contents (Elt F) := (constant S_ .f32 0x3F800000#32)
  have main_v65 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_10
  have main_v66 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v65 main_v64
  have main_cst_11 : (⟨S_, .f32⟩ : BufTy).Contents (Elt F) := (constant S_ .f32 0x3F800000#32)
  have main_v67 : (⟨S16384x256, .f32⟩ : BufTy).Contents (Elt F) := (broadcastInDim S16384x256 ![] bcast_S_S16384x256 : (⟨S_, .f32⟩ : BufTy).Contents (Elt F) → (⟨S16384x256, .f32⟩ : BufTy).Contents (Elt F)) main_cst_11
  have main_v68 : (⟨S16384x256, .f32⟩ : BufTy).Contents (Elt F) := (Host.divf : (⟨S16384x256, .f32⟩ : BufTy).Contents (Elt F) → (⟨S16384x256, .f32⟩ : BufTy).Contents (Elt F) → (⟨S16384x256, .f32⟩ : BufTy).Contents (Elt F)) main_v67 main_v66
  have main_v69 : (⟨S16384x256, .f32⟩ : BufTy).Contents (Elt F) := (mulf : (⟨S16384x256, .f32⟩ : BufTy).Contents (Elt F) → (⟨S16384x256, .f32⟩ : BufTy).Contents (Elt F) → (⟨S16384x256, .f32⟩ : BufTy).Contents (Elt F)) main_v61 c
  have main_v70 : (⟨S16384x256, .f32⟩ : BufTy).Contents (Elt F) := (mulf : (⟨S16384x256, .f32⟩ : BufTy).Contents (Elt F) → (⟨S16384x256, .f32⟩ : BufTy).Contents (Elt F) → (⟨S16384x256, .f32⟩ : BufTy).Contents (Elt F)) main_v55 main_v62
  have main_v71 : (⟨S16384x256, .f32⟩ : BufTy).Contents (Elt F) := (addf : (⟨S16384x256, .f32⟩ : BufTy).Contents (Elt F) → (⟨S16384x256, .f32⟩ : BufTy).Contents (Elt F) → (⟨S16384x256, .f32⟩ : BufTy).Contents (Elt F)) main_v69 main_v70
  main_v71

/-- The next hidden input: the output followed by the softmax-weighted read-out of the support vector. -/
def nextHidden (main_v75 : (⟨S16384x128, .f32⟩ : BufTy).Contents (Elt F)) (sg : (⟨S1x128, .f32⟩ : BufTy).Contents (Elt F)) : (⟨S16384x256, .f32⟩ : BufTy).Contents (Elt F) :=
  have main_v76 : (⟨S128x1, .f32⟩ : BufTy).Contents (Elt F) := ((transpose S128x1 [1, 0] · transposes_S1x128_S128x1_1_0) : (⟨S1x128, .f32⟩ : BufTy).Contents (Elt F) → (⟨S128x1, .f32⟩ : BufTy).Contents (Elt F)) sg
  have main_v77 : (⟨S16384x1, .f32⟩ : BufTy).Contents (Elt F) := ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)) main_v75 main_v76
  have main_cst_12 : (⟨S_, .f32⟩ : BufTy).Contents (Elt F) := (constant S_ .f32 0xFF800000#32)
  have main_v78 : (⟨S16384, .f32⟩ : BufTy).Contents (Elt F) := ((fun x v => Host.reduce FloatOps.maximumf x v reducesTo_S16384x1_S16384_d1 h_S_) : (⟨S16384x1, .f32⟩ : BufTy).Contents (Elt F) → (⟨S_, .f32⟩ : BufTy).Contents (Elt F) → (⟨S16384, .f32⟩ : BufTy).Contents (Elt F)) main_v77 main_cst_12
  have main_cst_13 : (⟨S_, .f32⟩ : BufTy).Contents (Elt F) := (constant S_ .f32 0xFF800000#32)
  have main_v79 : (⟨S16384, .f32⟩ : BufTy).Contents (Elt F) := (broadcastInDim S16384 ![] bcast_S_S16384 : (⟨S_, .f32⟩ : BufTy).Contents (Elt F) → (⟨S16384, .f32⟩ : BufTy).Contents (Elt F)) main_cst_13
  have main_v80 : (⟨S16384, .f32⟩ : BufTy).Contents (Elt F) := (maximumf : (⟨S16384, .f32⟩ : BufTy).Contents (Elt F) → (⟨S16384, .f32⟩ : BufTy).Contents (Elt F) → (⟨S16384, .f32⟩ : BufTy).Contents (Elt F)) main_v79 main_v78
  have main_v81 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) main_v80
  have main_v82 : (⟨S16384x1, .f32⟩ : BufTy).Contents (Elt F) := (subf : (⟨S16384x1, .f32⟩ : BufTy).Contents (Elt F) → (⟨S16384x1, .f32⟩ : BufTy).Contents (Elt F) → (⟨S16384x1, .f32⟩ : BufTy).Contents (Elt F)) main_v77 main_v81
  have main_v83 : (⟨S16384x1, .f32⟩ : BufTy).Contents (Elt F) := (Host.exp : (⟨S16384x1, .f32⟩ : BufTy).Contents (Elt F) → (⟨S16384x1, .f32⟩ : BufTy).Contents (Elt F)) main_v82
  have main_cst_14 : (⟨S_, .f32⟩ : BufTy).Contents (Elt F) := (constant S_ .f32 0x00000000#32)
  have main_v84 : (⟨S16384, .f32⟩ : BufTy).Contents (Elt F) := ((fun x v => Host.reduceAdd x v reducesTo_S16384x1_S16384_d1 h_S_) : (⟨S16384x1, .f32⟩ : BufTy).Contents (Elt F) → (⟨S_, .f32⟩ : BufTy).Contents (Elt F) → (⟨S16384, .f32⟩ : BufTy).Contents (Elt F)) main_v83 main_cst_14
  have main_v85 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) main_v84
  have main_v86 : (⟨S16384x1, .f32⟩ : BufTy).Contents (Elt F) := (Host.divf : (⟨S16384x1, .f32⟩ : BufTy).Contents (Elt F) → (⟨S16384x1, .f32⟩ : BufTy).Contents (Elt F) → (⟨S16384x1, .f32⟩ : BufTy).Contents (Elt F)) main_v83 main_v85
  have main_v87 : (⟨S16384x128, .f32⟩ : BufTy).Contents (Elt F) := ((fun l r => Host.dotGeneral dot_S16384x1_S1x128_S16384x128_1_0_0_1_n_n none l r) : (⟨S16384x1, .f32⟩ : BufTy).Contents (Elt F) → (⟨S1x128, .f32⟩ : BufTy).Contents (Elt F) → (⟨S16384x128, .f32⟩ : BufTy).Contents (Elt F)) main_v86 sg
  have main_v88 : (⟨S16384x256, .f32⟩ : BufTy).Contents (Elt F) := ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) main_v75 main_v87
  main_v88

/-- The inner product of every output row with the support vector. -/
def similarity (main_v237 : (⟨S16384x128, .f32⟩ : BufTy).Contents (Elt F)) (main_v32 : (⟨S1x128, .f32⟩ : BufTy).Contents (Elt F)) : (⟨S16384, .f32⟩ : BufTy).Contents (Elt F) :=
  have main_v251 : (⟨S128x1, .f32⟩ : BufTy).Contents (Elt F) := ((transpose S128x1 [1, 0] · transposes_S1x128_S128x1_1_0) : (⟨S1x128, .f32⟩ : BufTy).Contents (Elt F) → (⟨S128x1, .f32⟩ : BufTy).Contents (Elt F)) main_v32
  have main_v252 : (⟨S16384x1, .f32⟩ : BufTy).Contents (Elt F) := ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)) main_v237 main_v251
  have main_v253 : (⟨S16384, .f32⟩ : BufTy).Contents (Elt F) := shapeCast S16384 main_v252 shapeCasts_S16384x1_S16384
  main_v253

end Cert.ReferenceIdeal.Stages

end
-- ==== Proof.RefVal.lean ====
/-
  What each stage of the straight line leaves in the buffer of its result, from ANY contents of the buffers before it:
  the stage's function (RefStages) of the contents of the buffers the stage reads; and that a stage leaves every buffer
  it does not write as it was.
-/
import proofs.«162834_g48816598286877_cont_sun_m_45_4_alg».proof.Proof.RefOps
import proofs.«162834_g48816598286877_cont_sun_m_45_4_alg».proof.Proof.RefStages

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- An operation whose one written buffer is among a list's writes within the list. -/
theorem writes_sub_of_mem {W : List (Ref sig .tc)} {op : HloOp τ sig (Elt F)} (y : Ref sig .tc)
    (hop : op.writes = {Proc.devRef .tc y}) (hy : y ∈ W) :
    op.writes ⊆ (W.map (Proc.devRef (τ := τ) .tc)).toFinset := by
  rw [hop, Finset.singleton_subset_iff, List.mem_toFinset]
  exact List.mem_map_of_mem hy

/-- The buffers the operations of `opsEnc` write. -/
abbrev opsEnc_W : List (Ref sig .tc) :=
  [main_v0, main_v1, main_v2, main_v3, main_v4, main_call0_cst, main_call0_v0, main_v5, main_v6, main_v7,
   main_v8, main_v9, main_v10, main_v11, main_cst, main_v12, main_v13, main_cst_0, main_v14, main_v15,
   main_c, main_call1_call0_cst, main_call1_call0_v0, main_call1_call0_v1, main_call1_call0_cst_0, main_call1_call0_v2, main_call1_call0_v3, main_call1_call0_v4, main_call1_call0_v5, main_call1_call0_v6,
   main_call1_call0_v7, main_call1_call0_cst_1, main_call1_call0_v8, main_call1_call0_cst_2, main_call1_call0_v9, main_call1_call0_v10, main_call1_call0_v11, main_call1_call0_v12, main_call1_call0_cst_3, main_call1_call0_v13,
   main_call1_call0_cst_4, main_call1_call0_call0_v0, main_call1_call0_call0_v1, main_call1_v0, main_v16, main_v17, main_v18, main_cst_1, main_v19, main_v20,
   main_v21, main_v22, main_v23, main_v24, main_v25, main_v26, main_v27, main_v28, main_cst_2, main_v29,
   main_v30, main_cst_3, main_v31, main_v32]

set_option maxRecDepth 8192 in
set_option maxHeartbeats 1000000 in
theorem opsEnc_writes : (opsEnc : List (HloOp τ sig (Elt F))).Forall fun op =>
    op.writes ⊆ (opsEnc_W.map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_v4 rfl (by decide), writes_sub_of_mem main_call0_cst rfl (by decide),
    writes_sub_of_mem main_call0_v0 rfl (by decide), writes_sub_of_mem main_v5 rfl (by decide), writes_sub_of_mem main_v6 rfl (by decide),
    writes_sub_of_mem main_v7 rfl (by decide), writes_sub_of_mem main_v8 rfl (by decide), writes_sub_of_mem main_v9 rfl (by decide),
    writes_sub_of_mem main_v10 rfl (by decide), writes_sub_of_mem main_v11 rfl (by decide), writes_sub_of_mem main_cst rfl (by decide),
    writes_sub_of_mem main_v12 rfl (by decide), writes_sub_of_mem main_v13 rfl (by decide), writes_sub_of_mem main_cst_0 rfl (by decide),
    writes_sub_of_mem main_v14 rfl (by decide), writes_sub_of_mem main_v15 rfl (by decide), writes_sub_of_mem main_c rfl (by decide),
    writes_sub_of_mem main_call1_call0_cst rfl (by decide), writes_sub_of_mem main_call1_call0_v0 rfl (by decide), writes_sub_of_mem main_call1_call0_v1 rfl (by decide),
    writes_sub_of_mem main_call1_call0_cst_0 rfl (by decide), writes_sub_of_mem main_call1_call0_v2 rfl (by decide), writes_sub_of_mem main_call1_call0_v3 rfl (by decide),
    writes_sub_of_mem main_call1_call0_v4 rfl (by decide), writes_sub_of_mem main_call1_call0_v5 rfl (by decide), writes_sub_of_mem main_call1_call0_v6 rfl (by decide),
    writes_sub_of_mem main_call1_call0_v7 rfl (by decide), writes_sub_of_mem main_call1_call0_cst_1 rfl (by decide), writes_sub_of_mem main_call1_call0_v8 rfl (by decide),
    writes_sub_of_mem main_call1_call0_cst_2 rfl (by decide), writes_sub_of_mem main_call1_call0_v9 rfl (by decide), writes_sub_of_mem main_call1_call0_v10 rfl (by decide),
    writes_sub_of_mem main_call1_call0_v11 rfl (by decide), writes_sub_of_mem main_call1_call0_v12 rfl (by decide), writes_sub_of_mem main_call1_call0_cst_3 rfl (by decide),
    writes_sub_of_mem main_call1_call0_v13 rfl (by decide), writes_sub_of_mem main_call1_call0_cst_4 rfl (by decide), writes_sub_of_mem main_call1_call0_call0_v0 rfl (by decide),
    writes_sub_of_mem main_call1_call0_call0_v1 rfl (by decide), writes_sub_of_mem main_call1_v0 rfl (by decide), writes_sub_of_mem main_v16 rfl (by decide),
    writes_sub_of_mem main_v17 rfl (by decide), writes_sub_of_mem main_v18 rfl (by decide), writes_sub_of_mem main_cst_1 rfl (by decide),
    writes_sub_of_mem main_v19 rfl (by decide), writes_sub_of_mem main_v20 rfl (by decide), writes_sub_of_mem main_v21 rfl (by decide),
    writes_sub_of_mem main_v22 rfl (by decide), writes_sub_of_mem main_v23 rfl (by decide), writes_sub_of_mem main_v24 rfl (by decide),
    writes_sub_of_mem main_v25 rfl (by decide), writes_sub_of_mem main_v26 rfl (by decide), writes_sub_of_mem main_v27 rfl (by decide),
    writes_sub_of_mem main_v28 rfl (by decide), writes_sub_of_mem main_cst_2 rfl (by decide), writes_sub_of_mem main_v29 rfl (by decide),
    writes_sub_of_mem main_v30 rfl (by decide), writes_sub_of_mem main_cst_3 rfl (by decide), writes_sub_of_mem main_v31 rfl (by decide),
    writes_sub_of_mem main_v32 rfl (by decide)⟩

/-- A buffer the stage does not write keeps its contents through it. -/
theorem opsEnc_keep (W : Valuation τ sig (Elt F)) (r : Ref sig .tc) (h : r ∉ opsEnc_W) :
    after opsEnc W (Proc.devRef .tc r) = W (Proc.devRef .tc r) :=
  after_of_writes_sub opsEnc W opsEnc_writes h

/-- The buffers the operations of `opsZero` write. -/
abbrev opsZero_W : List (Ref sig .tc) :=
  [main_cst_4, main_v33, main_cst_5, main_v34]

set_option maxRecDepth 8192 in
set_option maxHeartbeats 1000000 in
theorem opsZero_writes : (opsZero : List (HloOp τ sig (Elt F))).Forall fun op =>
    op.writes ⊆ (opsZero_W.map (Proc.devRef (τ := τ) .tc)).toFinset :=
  ⟨writes_sub_of_mem main_cst_4 rfl (by decide), writes_sub_of_mem main_v33 rfl (by decide), writes_sub_of_mem main_cst_5 rfl (by decide),
    writes_sub_of_mem main_v34 rfl (by decide)⟩

/-- A buffer the stage does not write keeps its contents through it. -/
theorem opsZero_keep (W : Valuation τ sig (Elt F)) (r : Ref sig .tc) (h : r ∉ opsZero_W) :
    after opsZero W (Proc.devRef .tc r) = W (Proc.devRef .tc r) :=
  after_of_writes_sub opsZero W opsZero_writes h

/-- The buffers the operations of `opsS1a` write. -/
abbrev opsS1a_W : List (Ref sig .tc) :=
  [main_v35, main_v36, main_v37, main_v38, main_v39, main_v40, main_v41, main_v42, main_v43, main_v44,
   main_v45, main_v46, main_v47, main_v48, main_v49, main_v50, main_v51, main_cst_6, main_v52, main_v53,
   main_cst_7, main_v54, main_v55, main_v56, main_v57, main_cst_8, main_v58, main_v59, main_cst_9, main_v60,
   main_v61, main_v62, main_v63, main_v64, main_cst_10, main_v65, main_v66, main_cst_11, main_v67, main_v68,
   main_v69, main_v70, main_v71, main_v72, main_v73, main_v74, main_v75]

set_option maxRecDepth 8192 in
set_option maxHeartbeats 1000000 in
theorem opsS1a_writes : (opsS1a : List (HloOp τ sig (Elt F))).Forall fun op =>
    op.writes ⊆ (opsS1a_W.map (Proc.devRef (τ := τ) .tc)).toFinset :=
  ⟨writes_sub_of_mem main_v35 rfl (by decide), writes_sub_of_mem main_v36 rfl (by decide), writes_sub_of_mem main_v37 rfl (by decide),
    writes_sub_of_mem main_v38 rfl (by decide), writes_sub_of_mem main_v39 rfl (by decide), writes_sub_of_mem main_v40 rfl (by decide),
    writes_sub_of_mem main_v41 rfl (by decide), writes_sub_of_mem main_v42 rfl (by decide), writes_sub_of_mem main_v43 rfl (by decide),
    writes_sub_of_mem main_v44 rfl (by decide), writes_sub_of_mem main_v45 rfl (by decide), writes_sub_of_mem main_v46 rfl (by decide),
    writes_sub_of_mem main_v47 rfl (by decide), writes_sub_of_mem main_v48 rfl (by decide), writes_sub_of_mem main_v49 rfl (by decide),
    writes_sub_of_mem main_v50 rfl (by decide), writes_sub_of_mem main_v51 rfl (by decide), writes_sub_of_mem main_cst_6 rfl (by decide),
    writes_sub_of_mem main_v52 rfl (by decide), writes_sub_of_mem main_v53 rfl (by decide), writes_sub_of_mem main_cst_7 rfl (by decide),
    writes_sub_of_mem main_v54 rfl (by decide), writes_sub_of_mem main_v55 rfl (by decide), writes_sub_of_mem main_v56 rfl (by decide),
    writes_sub_of_mem main_v57 rfl (by decide), writes_sub_of_mem main_cst_8 rfl (by decide), writes_sub_of_mem main_v58 rfl (by decide),
    writes_sub_of_mem main_v59 rfl (by decide), writes_sub_of_mem main_cst_9 rfl (by decide), writes_sub_of_mem main_v60 rfl (by decide),
    writes_sub_of_mem main_v61 rfl (by decide), writes_sub_of_mem main_v62 rfl (by decide), writes_sub_of_mem main_v63 rfl (by decide),
    writes_sub_of_mem main_v64 rfl (by decide), writes_sub_of_mem main_cst_10 rfl (by decide), writes_sub_of_mem main_v65 rfl (by decide),
    writes_sub_of_mem main_v66 rfl (by decide), writes_sub_of_mem main_cst_11 rfl (by decide), writes_sub_of_mem main_v67 rfl (by decide),
    writes_sub_of_mem main_v68 rfl (by decide), writes_sub_of_mem main_v69 rfl (by decide), writes_sub_of_mem main_v70 rfl (by decide),
    writes_sub_of_mem main_v71 rfl (by decide), writes_sub_of_mem main_v72 rfl (by decide), writes_sub_of_mem main_v73 rfl (by decide),
    writes_sub_of_mem main_v74 rfl (by decide), writes_sub_of_mem main_v75 rfl (by decide)⟩

/-- A buffer the stage does not write keeps its contents through it. -/
theorem opsS1a_keep (W : Valuation τ sig (Elt F)) (r : Ref sig .tc) (h : r ∉ opsS1a_W) :
    after opsS1a W (Proc.devRef .tc r) = W (Proc.devRef .tc r) :=
  after_of_writes_sub opsS1a W opsS1a_writes h

/-- The buffers the operations of `opsS1b` write. -/
abbrev opsS1b_W : List (Ref sig .tc) :=
  [main_v76, main_v77, main_cst_12, main_v78, main_cst_13, main_v79, main_v80, main_v81, main_v82, main_v83,
   main_cst_14, main_v84, main_v85, main_v86, main_v87, main_v88]

set_option maxRecDepth 8192 in
set_option maxHeartbeats 1000000 in
theorem opsS1b_writes : (opsS1b : List (HloOp τ sig (Elt F))).Forall fun op =>
    op.writes ⊆ (opsS1b_W.map (Proc.devRef (τ := τ) .tc)).toFinset :=
  ⟨writes_sub_of_mem main_v76 rfl (by decide), writes_sub_of_mem main_v77 rfl (by decide), writes_sub_of_mem main_cst_12 rfl (by decide),
    writes_sub_of_mem main_v78 rfl (by decide), writes_sub_of_mem main_cst_13 rfl (by decide), writes_sub_of_mem main_v79 rfl (by decide),
    writes_sub_of_mem main_v80 rfl (by decide), writes_sub_of_mem main_v81 rfl (by decide), writes_sub_of_mem main_v82 rfl (by decide),
    writes_sub_of_mem main_v83 rfl (by decide), writes_sub_of_mem main_cst_14 rfl (by decide), writes_sub_of_mem main_v84 rfl (by decide),
    writes_sub_of_mem main_v85 rfl (by decide), writes_sub_of_mem main_v86 rfl (by decide), writes_sub_of_mem main_v87 rfl (by decide),
    writes_sub_of_mem main_v88 rfl (by decide)⟩

/-- A buffer the stage does not write keeps its contents through it. -/
theorem opsS1b_keep (W : Valuation τ sig (Elt F)) (r : Ref sig .tc) (h : r ∉ opsS1b_W) :
    after opsS1b W (Proc.devRef .tc r) = W (Proc.devRef .tc r) :=
  after_of_writes_sub opsS1b W opsS1b_writes h

/-- The buffers the operations of `opsS2a` write. -/
abbrev opsS2a_W : List (Ref sig .tc) :=
  [main_v89, main_v90, main_v91, main_v92, main_v93, main_v94, main_v95, main_v96, main_v97, main_v98,
   main_v99, main_v100, main_v101, main_v102, main_v103, main_v104, main_v105, main_cst_15, main_v106, main_v107,
   main_cst_16, main_v108, main_v109, main_v110, main_v111, main_cst_17, main_v112, main_v113, main_cst_18, main_v114,
   main_v115, main_v116, main_v117, main_v118, main_cst_19, main_v119, main_v120, main_cst_20, main_v121, main_v122,
   main_v123, main_v124, main_v125, main_v126, main_v127, main_v128, main_v129]

set_option maxRecDepth 8192 in
set_option maxHeartbeats 1000000 in
theorem opsS2a_writes : (opsS2a : List (HloOp τ sig (Elt F))).Forall fun op =>
    op.writes ⊆ (opsS2a_W.map (Proc.devRef (τ := τ) .tc)).toFinset :=
  ⟨writes_sub_of_mem main_v89 rfl (by decide), writes_sub_of_mem main_v90 rfl (by decide), writes_sub_of_mem main_v91 rfl (by decide),
    writes_sub_of_mem main_v92 rfl (by decide), writes_sub_of_mem main_v93 rfl (by decide), writes_sub_of_mem main_v94 rfl (by decide),
    writes_sub_of_mem main_v95 rfl (by decide), writes_sub_of_mem main_v96 rfl (by decide), writes_sub_of_mem main_v97 rfl (by decide),
    writes_sub_of_mem main_v98 rfl (by decide), writes_sub_of_mem main_v99 rfl (by decide), writes_sub_of_mem main_v100 rfl (by decide),
    writes_sub_of_mem main_v101 rfl (by decide), writes_sub_of_mem main_v102 rfl (by decide), writes_sub_of_mem main_v103 rfl (by decide),
    writes_sub_of_mem main_v104 rfl (by decide), writes_sub_of_mem main_v105 rfl (by decide), writes_sub_of_mem main_cst_15 rfl (by decide),
    writes_sub_of_mem main_v106 rfl (by decide), writes_sub_of_mem main_v107 rfl (by decide), writes_sub_of_mem main_cst_16 rfl (by decide),
    writes_sub_of_mem main_v108 rfl (by decide), writes_sub_of_mem main_v109 rfl (by decide), writes_sub_of_mem main_v110 rfl (by decide),
    writes_sub_of_mem main_v111 rfl (by decide), writes_sub_of_mem main_cst_17 rfl (by decide), writes_sub_of_mem main_v112 rfl (by decide),
    writes_sub_of_mem main_v113 rfl (by decide), writes_sub_of_mem main_cst_18 rfl (by decide), writes_sub_of_mem main_v114 rfl (by decide),
    writes_sub_of_mem main_v115 rfl (by decide), writes_sub_of_mem main_v116 rfl (by decide), writes_sub_of_mem main_v117 rfl (by decide),
    writes_sub_of_mem main_v118 rfl (by decide), writes_sub_of_mem main_cst_19 rfl (by decide), writes_sub_of_mem main_v119 rfl (by decide),
    writes_sub_of_mem main_v120 rfl (by decide), writes_sub_of_mem main_cst_20 rfl (by decide), writes_sub_of_mem main_v121 rfl (by decide),
    writes_sub_of_mem main_v122 rfl (by decide), writes_sub_of_mem main_v123 rfl (by decide), writes_sub_of_mem main_v124 rfl (by decide),
    writes_sub_of_mem main_v125 rfl (by decide), writes_sub_of_mem main_v126 rfl (by decide), writes_sub_of_mem main_v127 rfl (by decide),
    writes_sub_of_mem main_v128 rfl (by decide), writes_sub_of_mem main_v129 rfl (by decide)⟩

/-- A buffer the stage does not write keeps its contents through it. -/
theorem opsS2a_keep (W : Valuation τ sig (Elt F)) (r : Ref sig .tc) (h : r ∉ opsS2a_W) :
    after opsS2a W (Proc.devRef .tc r) = W (Proc.devRef .tc r) :=
  after_of_writes_sub opsS2a W opsS2a_writes h

/-- The buffers the operations of `opsS2b` write. -/
abbrev opsS2b_W : List (Ref sig .tc) :=
  [main_v130, main_v131, main_cst_21, main_v132, main_cst_22, main_v133, main_v134, main_v135, main_v136, main_v137,
   main_cst_23, main_v138, main_v139, main_v140, main_v141, main_v142]

set_option maxRecDepth 8192 in
set_option maxHeartbeats 1000000 in
theorem opsS2b_writes : (opsS2b : List (HloOp τ sig (Elt F))).Forall fun op =>
    op.writes ⊆ (opsS2b_W.map (Proc.devRef (τ := τ) .tc)).toFinset :=
  ⟨writes_sub_of_mem main_v130 rfl (by decide), writes_sub_of_mem main_v131 rfl (by decide), writes_sub_of_mem main_cst_21 rfl (by decide),
    writes_sub_of_mem main_v132 rfl (by decide), writes_sub_of_mem main_cst_22 rfl (by decide), writes_sub_of_mem main_v133 rfl (by decide),
    writes_sub_of_mem main_v134 rfl (by decide), writes_sub_of_mem main_v135 rfl (by decide), writes_sub_of_mem main_v136 rfl (by decide),
    writes_sub_of_mem main_v137 rfl (by decide), writes_sub_of_mem main_cst_23 rfl (by decide), writes_sub_of_mem main_v138 rfl (by decide),
    writes_sub_of_mem main_v139 rfl (by decide), writes_sub_of_mem main_v140 rfl (by decide), writes_sub_of_mem main_v141 rfl (by decide),
    writes_sub_of_mem main_v142 rfl (by decide)⟩

/-- A buffer the stage does not write keeps its contents through it. -/
theorem opsS2b_keep (W : Valuation τ sig (Elt F)) (r : Ref sig .tc) (h : r ∉ opsS2b_W) :
    after opsS2b W (Proc.devRef .tc r) = W (Proc.devRef .tc r) :=
  after_of_writes_sub opsS2b W opsS2b_writes h

/-- The buffers the operations of `opsS3a` write. -/
abbrev opsS3a_W : List (Ref sig .tc) :=
  [main_v143, main_v144, main_v145, main_v146, main_v147, main_v148, main_v149, main_v150, main_v151, main_v152,
   main_v153, main_v154, main_v155, main_v156, main_v157, main_v158, main_v159, main_cst_24, main_v160, main_v161,
   main_cst_25, main_v162, main_v163, main_v164, main_v165, main_cst_26, main_v166, main_v167, main_cst_27, main_v168,
   main_v169, main_v170, main_v171, main_v172, main_cst_28, main_v173, main_v174, main_cst_29, main_v175, main_v176,
   main_v177, main_v178, main_v179, main_v180, main_v181, main_v182, main_v183]

set_option maxRecDepth 8192 in
set_option maxHeartbeats 1000000 in
theorem opsS3a_writes : (opsS3a : List (HloOp τ sig (Elt F))).Forall fun op =>
    op.writes ⊆ (opsS3a_W.map (Proc.devRef (τ := τ) .tc)).toFinset :=
  ⟨writes_sub_of_mem main_v143 rfl (by decide), writes_sub_of_mem main_v144 rfl (by decide), writes_sub_of_mem main_v145 rfl (by decide),
    writes_sub_of_mem main_v146 rfl (by decide), writes_sub_of_mem main_v147 rfl (by decide), writes_sub_of_mem main_v148 rfl (by decide),
    writes_sub_of_mem main_v149 rfl (by decide), writes_sub_of_mem main_v150 rfl (by decide), writes_sub_of_mem main_v151 rfl (by decide),
    writes_sub_of_mem main_v152 rfl (by decide), writes_sub_of_mem main_v153 rfl (by decide), writes_sub_of_mem main_v154 rfl (by decide),
    writes_sub_of_mem main_v155 rfl (by decide), writes_sub_of_mem main_v156 rfl (by decide), writes_sub_of_mem main_v157 rfl (by decide),
    writes_sub_of_mem main_v158 rfl (by decide), writes_sub_of_mem main_v159 rfl (by decide), writes_sub_of_mem main_cst_24 rfl (by decide),
    writes_sub_of_mem main_v160 rfl (by decide), writes_sub_of_mem main_v161 rfl (by decide), writes_sub_of_mem main_cst_25 rfl (by decide),
    writes_sub_of_mem main_v162 rfl (by decide), writes_sub_of_mem main_v163 rfl (by decide), writes_sub_of_mem main_v164 rfl (by decide),
    writes_sub_of_mem main_v165 rfl (by decide), writes_sub_of_mem main_cst_26 rfl (by decide), writes_sub_of_mem main_v166 rfl (by decide),
    writes_sub_of_mem main_v167 rfl (by decide), writes_sub_of_mem main_cst_27 rfl (by decide), writes_sub_of_mem main_v168 rfl (by decide),
    writes_sub_of_mem main_v169 rfl (by decide), writes_sub_of_mem main_v170 rfl (by decide), writes_sub_of_mem main_v171 rfl (by decide),
    writes_sub_of_mem main_v172 rfl (by decide), writes_sub_of_mem main_cst_28 rfl (by decide), writes_sub_of_mem main_v173 rfl (by decide),
    writes_sub_of_mem main_v174 rfl (by decide), writes_sub_of_mem main_cst_29 rfl (by decide), writes_sub_of_mem main_v175 rfl (by decide),
    writes_sub_of_mem main_v176 rfl (by decide), writes_sub_of_mem main_v177 rfl (by decide), writes_sub_of_mem main_v178 rfl (by decide),
    writes_sub_of_mem main_v179 rfl (by decide), writes_sub_of_mem main_v180 rfl (by decide), writes_sub_of_mem main_v181 rfl (by decide),
    writes_sub_of_mem main_v182 rfl (by decide), writes_sub_of_mem main_v183 rfl (by decide)⟩

/-- A buffer the stage does not write keeps its contents through it. -/
theorem opsS3a_keep (W : Valuation τ sig (Elt F)) (r : Ref sig .tc) (h : r ∉ opsS3a_W) :
    after opsS3a W (Proc.devRef .tc r) = W (Proc.devRef .tc r) :=
  after_of_writes_sub opsS3a W opsS3a_writes h

/-- The buffers the operations of `opsS3b` write. -/
abbrev opsS3b_W : List (Ref sig .tc) :=
  [main_v184, main_v185, main_cst_30, main_v186, main_cst_31, main_v187, main_v188, main_v189, main_v190, main_v191,
   main_cst_32, main_v192, main_v193, main_v194, main_v195, main_v196]

set_option maxRecDepth 8192 in
set_option maxHeartbeats 1000000 in
theorem opsS3b_writes : (opsS3b : List (HloOp τ sig (Elt F))).Forall fun op =>
    op.writes ⊆ (opsS3b_W.map (Proc.devRef (τ := τ) .tc)).toFinset :=
  ⟨writes_sub_of_mem main_v184 rfl (by decide), writes_sub_of_mem main_v185 rfl (by decide), writes_sub_of_mem main_cst_30 rfl (by decide),
    writes_sub_of_mem main_v186 rfl (by decide), writes_sub_of_mem main_cst_31 rfl (by decide), writes_sub_of_mem main_v187 rfl (by decide),
    writes_sub_of_mem main_v188 rfl (by decide), writes_sub_of_mem main_v189 rfl (by decide), writes_sub_of_mem main_v190 rfl (by decide),
    writes_sub_of_mem main_v191 rfl (by decide), writes_sub_of_mem main_cst_32 rfl (by decide), writes_sub_of_mem main_v192 rfl (by decide),
    writes_sub_of_mem main_v193 rfl (by decide), writes_sub_of_mem main_v194 rfl (by decide), writes_sub_of_mem main_v195 rfl (by decide),
    writes_sub_of_mem main_v196 rfl (by decide)⟩

/-- A buffer the stage does not write keeps its contents through it. -/
theorem opsS3b_keep (W : Valuation τ sig (Elt F)) (r : Ref sig .tc) (h : r ∉ opsS3b_W) :
    after opsS3b W (Proc.devRef .tc r) = W (Proc.devRef .tc r) :=
  after_of_writes_sub opsS3b W opsS3b_writes h

/-- The buffers the operations of `opsS4a` write. -/
abbrev opsS4a_W : List (Ref sig .tc) :=
  [main_v197, main_v198, main_v199, main_v200, main_v201, main_v202, main_v203, main_v204, main_v205, main_v206,
   main_v207, main_v208, main_v209, main_v210, main_v211, main_v212, main_v213, main_cst_33, main_v214, main_v215,
   main_cst_34, main_v216, main_v217, main_v218, main_v219, main_cst_35, main_v220, main_v221, main_cst_36, main_v222,
   main_v223, main_v224, main_v225, main_v226, main_cst_37, main_v227, main_v228, main_cst_38, main_v229, main_v230,
   main_v231, main_v232, main_v233, main_v234, main_v235, main_v236, main_v237]

set_option maxRecDepth 8192 in
set_option maxHeartbeats 1000000 in
theorem opsS4a_writes : (opsS4a : List (HloOp τ sig (Elt F))).Forall fun op =>
    op.writes ⊆ (opsS4a_W.map (Proc.devRef (τ := τ) .tc)).toFinset :=
  ⟨writes_sub_of_mem main_v197 rfl (by decide), writes_sub_of_mem main_v198 rfl (by decide), writes_sub_of_mem main_v199 rfl (by decide),
    writes_sub_of_mem main_v200 rfl (by decide), writes_sub_of_mem main_v201 rfl (by decide), writes_sub_of_mem main_v202 rfl (by decide),
    writes_sub_of_mem main_v203 rfl (by decide), writes_sub_of_mem main_v204 rfl (by decide), writes_sub_of_mem main_v205 rfl (by decide),
    writes_sub_of_mem main_v206 rfl (by decide), writes_sub_of_mem main_v207 rfl (by decide), writes_sub_of_mem main_v208 rfl (by decide),
    writes_sub_of_mem main_v209 rfl (by decide), writes_sub_of_mem main_v210 rfl (by decide), writes_sub_of_mem main_v211 rfl (by decide),
    writes_sub_of_mem main_v212 rfl (by decide), writes_sub_of_mem main_v213 rfl (by decide), writes_sub_of_mem main_cst_33 rfl (by decide),
    writes_sub_of_mem main_v214 rfl (by decide), writes_sub_of_mem main_v215 rfl (by decide), writes_sub_of_mem main_cst_34 rfl (by decide),
    writes_sub_of_mem main_v216 rfl (by decide), writes_sub_of_mem main_v217 rfl (by decide), writes_sub_of_mem main_v218 rfl (by decide),
    writes_sub_of_mem main_v219 rfl (by decide), writes_sub_of_mem main_cst_35 rfl (by decide), writes_sub_of_mem main_v220 rfl (by decide),
    writes_sub_of_mem main_v221 rfl (by decide), writes_sub_of_mem main_cst_36 rfl (by decide), writes_sub_of_mem main_v222 rfl (by decide),
    writes_sub_of_mem main_v223 rfl (by decide), writes_sub_of_mem main_v224 rfl (by decide), writes_sub_of_mem main_v225 rfl (by decide),
    writes_sub_of_mem main_v226 rfl (by decide), writes_sub_of_mem main_cst_37 rfl (by decide), writes_sub_of_mem main_v227 rfl (by decide),
    writes_sub_of_mem main_v228 rfl (by decide), writes_sub_of_mem main_cst_38 rfl (by decide), writes_sub_of_mem main_v229 rfl (by decide),
    writes_sub_of_mem main_v230 rfl (by decide), writes_sub_of_mem main_v231 rfl (by decide), writes_sub_of_mem main_v232 rfl (by decide),
    writes_sub_of_mem main_v233 rfl (by decide), writes_sub_of_mem main_v234 rfl (by decide), writes_sub_of_mem main_v235 rfl (by decide),
    writes_sub_of_mem main_v236 rfl (by decide), writes_sub_of_mem main_v237 rfl (by decide)⟩

/-- A buffer the stage does not write keeps its contents through it. -/
theorem opsS4a_keep (W : Valuation τ sig (Elt F)) (r : Ref sig .tc) (h : r ∉ opsS4a_W) :
    after opsS4a W (Proc.devRef .tc r) = W (Proc.devRef .tc r) :=
  after_of_writes_sub opsS4a W opsS4a_writes h

/-- The buffers the operations of `opsS4b` write. -/
abbrev opsS4b_W : List (Ref sig .tc) :=
  [main_v238, main_v239, main_cst_39, main_v240, main_cst_40, main_v241, main_v242, main_v243, main_v244, main_v245,
   main_cst_41, main_v246, main_v247, main_v248, main_v249, main_v250]

set_option maxRecDepth 8192 in
set_option maxHeartbeats 1000000 in
theorem opsS4b_writes : (opsS4b : List (HloOp τ sig (Elt F))).Forall fun op =>
    op.writes ⊆ (opsS4b_W.map (Proc.devRef (τ := τ) .tc)).toFinset :=
  ⟨writes_sub_of_mem main_v238 rfl (by decide), writes_sub_of_mem main_v239 rfl (by decide), writes_sub_of_mem main_cst_39 rfl (by decide),
    writes_sub_of_mem main_v240 rfl (by decide), writes_sub_of_mem main_cst_40 rfl (by decide), writes_sub_of_mem main_v241 rfl (by decide),
    writes_sub_of_mem main_v242 rfl (by decide), writes_sub_of_mem main_v243 rfl (by decide), writes_sub_of_mem main_v244 rfl (by decide),
    writes_sub_of_mem main_v245 rfl (by decide), writes_sub_of_mem main_cst_41 rfl (by decide), writes_sub_of_mem main_v246 rfl (by decide),
    writes_sub_of_mem main_v247 rfl (by decide), writes_sub_of_mem main_v248 rfl (by decide), writes_sub_of_mem main_v249 rfl (by decide),
    writes_sub_of_mem main_v250 rfl (by decide)⟩

/-- A buffer the stage does not write keeps its contents through it. -/
theorem opsS4b_keep (W : Valuation τ sig (Elt F)) (r : Ref sig .tc) (h : r ∉ opsS4b_W) :
    after opsS4b W (Proc.devRef .tc r) = W (Proc.devRef .tc r) :=
  after_of_writes_sub opsS4b W opsS4b_writes h

/-- The buffers the operations of `opsFin` write. -/
abbrev opsFin_W : List (Ref sig .tc) :=
  [main_v251, main_v252, main_v253]

set_option maxRecDepth 8192 in
set_option maxHeartbeats 1000000 in
theorem opsFin_writes : (opsFin : List (HloOp τ sig (Elt F))).Forall fun op =>
    op.writes ⊆ (opsFin_W.map (Proc.devRef (τ := τ) .tc)).toFinset :=
  ⟨writes_sub_of_mem main_v251 rfl (by decide), writes_sub_of_mem main_v252 rfl (by decide), writes_sub_of_mem main_v253 rfl (by decide)⟩

/-- A buffer the stage does not write keeps its contents through it. -/
theorem opsFin_keep (W : Valuation τ sig (Elt F)) (r : Ref sig .tc) (h : r ∉ opsFin_W) :
    after opsFin W (Proc.devRef .tc r) = W (Proc.devRef .tc r) :=
  after_of_writes_sub opsFin W opsFin_writes h

set_option maxRecDepth 8192 in
set_option maxHeartbeats 4000000 in
/-- The support encoder's stage leaves the support vector. -/
theorem enc_out (W : Valuation τ sig (Elt F)) :
    after opsEnc W (main_v32 : DevRef τ sig)
      = Stages.supportVec (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) := by
  simp only [opsEnc]
  after_results_simp
  rfl

set_option maxRecDepth 8192 in
set_option maxHeartbeats 4000000 in
/-- The two arrays the recurrence starts from are the zero array. -/
theorem zero_hr (W : Valuation τ sig (Elt F)) :
    after opsZero W (main_v33 : DevRef τ sig)
      = Stages.zeros := by
  simp only [opsZero]
  after_results_simp
  rfl

set_option maxRecDepth 8192 in
set_option maxHeartbeats 4000000 in
theorem zero_c (W : Valuation τ sig (Elt F)) :
    after opsZero W (main_v34 : DevRef τ sig)
      = Stages.zeros := by
  simp only [opsZero]
  after_results_simp
  rfl

set_option maxRecDepth 8192 in
set_option maxHeartbeats 4000000 in
/-- Step 1, first half: the step's output. -/
theorem s1a_h (W : Valuation τ sig (Elt F)) :
    after opsS1a W (main_v75 : DevRef τ sig)
      = Stages.stepOut (W (main_arg0 : DevRef τ sig)) (W (main_arg8 : DevRef τ sig)) (W (main_arg9 : DevRef τ sig)) (W (main_arg10 : DevRef τ sig)) (W (main_arg11 : DevRef τ sig)) (W (main_v33 : DevRef τ sig)) (W (main_v34 : DevRef τ sig)) := by
  simp only [opsS1a]
  after_results_simp
  rfl

set_option maxRecDepth 8192 in
set_option maxHeartbeats 4000000 in
/-- Step 1, first half: the new cell state. -/
theorem s1a_c (W : Valuation τ sig (Elt F)) :
    after opsS1a W (main_v71 : DevRef τ sig)
      = Stages.stepCell (W (main_arg0 : DevRef τ sig)) (W (main_arg8 : DevRef τ sig)) (W (main_arg9 : DevRef τ sig)) (W (main_arg10 : DevRef τ sig)) (W (main_arg11 : DevRef τ sig)) (W (main_v33 : DevRef τ sig)) (W (main_v34 : DevRef τ sig)) := by
  simp only [opsS1a]
  after_results_simp
  rfl

-- the reduction and the concatenation are kept folded while the two compositions are compared: neither side looks inside them
attribute [local irreducible] Host.reduce Host.reduceAdd concatenate in
set_option maxRecDepth 100000 in
set_option maxHeartbeats 4000000 in
/-- Step 1, second half: the next hidden input. -/
theorem s1b (W : Valuation τ sig (Elt F)) :
    after opsS1b W (main_v88 : DevRef τ sig)
      = Stages.nextHidden (W (main_v75 : DevRef τ sig)) (W (main_v32 : DevRef τ sig)) := by
  simp only [opsS1b]
  after_results_simp
  rfl

set_option maxRecDepth 8192 in
set_option maxHeartbeats 4000000 in
/-- Step 2, first half: the step's output. -/
theorem s2a_h (W : Valuation τ sig (Elt F)) :
    after opsS2a W (main_v129 : DevRef τ sig)
      = Stages.stepOut (W (main_arg0 : DevRef τ sig)) (W (main_arg8 : DevRef τ sig)) (W (main_arg9 : DevRef τ sig)) (W (main_arg10 : DevRef τ sig)) (W (main_arg11 : DevRef τ sig)) (W (main_v88 : DevRef τ sig)) (W (main_v71 : DevRef τ sig)) := by
  simp only [opsS2a]
  after_results_simp
  rfl

set_option maxRecDepth 8192 in
set_option maxHeartbeats 4000000 in
/-- Step 2, first half: the new cell state. -/
theorem s2a_c (W : Valuation τ sig (Elt F)) :
    after opsS2a W (main_v125 : DevRef τ sig)
      = Stages.stepCell (W (main_arg0 : DevRef τ sig)) (W (main_arg8 : DevRef τ sig)) (W (main_arg9 : DevRef τ sig)) (W (main_arg10 : DevRef τ sig)) (W (main_arg11 : DevRef τ sig)) (W (main_v88 : DevRef τ sig)) (W (main_v71 : DevRef τ sig)) := by
  simp only [opsS2a]
  after_results_simp
  rfl

-- the reduction and the concatenation are kept folded while the two compositions are compared: neither side looks inside them
attribute [local irreducible] Host.reduce Host.reduceAdd concatenate in
set_option maxRecDepth 100000 in
set_option maxHeartbeats 4000000 in
/-- Step 2, second half: the next hidden input. -/
theorem s2b (W : Valuation τ sig (Elt F)) :
    after opsS2b W (main_v142 : DevRef τ sig)
      = Stages.nextHidden (W (main_v129 : DevRef τ sig)) (W (main_v32 : DevRef τ sig)) := by
  simp only [opsS2b]
  after_results_simp
  rfl

set_option maxRecDepth 8192 in
set_option maxHeartbeats 4000000 in
/-- Step 3, first half: the step's output. -/
theorem s3a_h (W : Valuation τ sig (Elt F)) :
    after opsS3a W (main_v183 : DevRef τ sig)
      = Stages.stepOut (W (main_arg0 : DevRef τ sig)) (W (main_arg8 : DevRef τ sig)) (W (main_arg9 : DevRef τ sig)) (W (main_arg10 : DevRef τ sig)) (W (main_arg11 : DevRef τ sig)) (W (main_v142 : DevRef τ sig)) (W (main_v125 : DevRef τ sig)) := by
  simp only [opsS3a]
  after_results_simp
  rfl

set_option maxRecDepth 8192 in
set_option maxHeartbeats 4000000 in
/-- Step 3, first half: the new cell state. -/
theorem s3a_c (W : Valuation τ sig (Elt F)) :
    after opsS3a W (main_v179 : DevRef τ sig)
      = Stages.stepCell (W (main_arg0 : DevRef τ sig)) (W (main_arg8 : DevRef τ sig)) (W (main_arg9 : DevRef τ sig)) (W (main_arg10 : DevRef τ sig)) (W (main_arg11 : DevRef τ sig)) (W (main_v142 : DevRef τ sig)) (W (main_v125 : DevRef τ sig)) := by
  simp only [opsS3a]
  after_results_simp
  rfl

-- the reduction and the concatenation are kept folded while the two compositions are compared: neither side looks inside them
attribute [local irreducible] Host.reduce Host.reduceAdd concatenate in
set_option maxRecDepth 100000 in
set_option maxHeartbeats 4000000 in
/-- Step 3, second half: the next hidden input. -/
theorem s3b (W : Valuation τ sig (Elt F)) :
    after opsS3b W (main_v196 : DevRef τ sig)
      = Stages.nextHidden (W (main_v183 : DevRef τ sig)) (W (main_v32 : DevRef τ sig)) := by
  simp only [opsS3b]
  after_results_simp
  rfl

set_option maxRecDepth 8192 in
set_option maxHeartbeats 4000000 in
/-- Step 4, first half: the step's output. -/
theorem s4a_h (W : Valuation τ sig (Elt F)) :
    after opsS4a W (main_v237 : DevRef τ sig)
      = Stages.stepOut (W (main_arg0 : DevRef τ sig)) (W (main_arg8 : DevRef τ sig)) (W (main_arg9 : DevRef τ sig)) (W (main_arg10 : DevRef τ sig)) (W (main_arg11 : DevRef τ sig)) (W (main_v196 : DevRef τ sig)) (W (main_v179 : DevRef τ sig)) := by
  simp only [opsS4a]
  after_results_simp
  rfl

set_option maxRecDepth 8192 in
set_option maxHeartbeats 4000000 in
/-- Step 4, first half: the new cell state. -/
theorem s4a_c (W : Valuation τ sig (Elt F)) :
    after opsS4a W (main_v233 : DevRef τ sig)
      = Stages.stepCell (W (main_arg0 : DevRef τ sig)) (W (main_arg8 : DevRef τ sig)) (W (main_arg9 : DevRef τ sig)) (W (main_arg10 : DevRef τ sig)) (W (main_arg11 : DevRef τ sig)) (W (main_v196 : DevRef τ sig)) (W (main_v179 : DevRef τ sig)) := by
  simp only [opsS4a]
  after_results_simp
  rfl

set_option maxRecDepth 8192 in
set_option maxHeartbeats 4000000 in
/-- The last stage: the inner products of the last output's rows with the support vector. -/
theorem fin_out (W : Valuation τ sig (Elt F)) :
    after opsFin W (main_v253 : DevRef τ sig)
      = Stages.similarity (W (main_v237 : DevRef τ sig)) (W (main_v32 : DevRef τ sig)) := by
  simp only [opsFin]
  after_results_simp
  rfl

end Cert.ReferenceIdeal.HostRun

end
-- ==== Proof.RefRun.lean ====
/-
  The run of the reference program read back: from any contents of the argument buffers the straight line leaves, in
  the result buffer, the composition of the stages — the support vector, four recurrence steps from the zero arrays
  (each step's output, cell state and next hidden input), the final inner products — of the ARGUMENTS' contents, and
  leaves the arguments as they were. Every weakly fair execution of the program terminates in such a state.
-/
import proofs.«162834_g48816598286877_cont_sun_m_45_4_alg».proof.Proof.RefSub
import proofs.«162834_g48816598286877_cont_sun_m_45_4_alg».proof.Proof.RefVal

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference program's result as a function of its twelve argument arrays: with `sg` the support vector, each
    step takes the hidden input and cell state (zero at first) to the step's output and new cell state, and the output
    and `sg` to the next hidden input; the result is the last output's inner products with `sg`. -/
def refResult (a0 : (⟨S16384x128, .f32⟩ : BufTy).Contents (Elt F))
    (a1 : (⟨S5x128, .f32⟩ : BufTy).Contents (Elt F))
    (a2 : (⟨S256x128, .f32⟩ : BufTy).Contents (Elt F))
    (a3 : (⟨S256, .f32⟩ : BufTy).Contents (Elt F))
    (a4 : (⟨S128x256, .f32⟩ : BufTy).Contents (Elt F))
    (a5 : (⟨S128, .f32⟩ : BufTy).Contents (Elt F))
    (a6 : (⟨S128, .f32⟩ : BufTy).Contents (Elt F))
    (a7 : (⟨S128, .f32⟩ : BufTy).Contents (Elt F))
    (a8 : (⟨S1024x128, .f32⟩ : BufTy).Contents (Elt F))
    (a9 : (⟨S1024x256, .f32⟩ : BufTy).Contents (Elt F))
    (a10 : (⟨S1024, .f32⟩ : BufTy).Contents (Elt F))
    (a11 : (⟨S1024, .f32⟩ : BufTy).Contents (Elt F)) :
    (⟨S16384, .f32⟩ : BufTy).Contents (Elt F) :=
  have sg := Stages.supportVec a1 a2 a3 a4 a5 a6 a7
  have h1 := Stages.stepOut a0 a8 a9 a10 a11 Stages.zeros Stages.zeros
  have c1 := Stages.stepCell a0 a8 a9 a10 a11 Stages.zeros Stages.zeros
  have r1 := Stages.nextHidden h1 sg
  have h2 := Stages.stepOut a0 a8 a9 a10 a11 r1 c1
  have c2 := Stages.stepCell a0 a8 a9 a10 a11 r1 c1
  have r2 := Stages.nextHidden h2 sg
  have h3 := Stages.stepOut a0 a8 a9 a10 a11 r2 c2
  have c3 := Stages.stepCell a0 a8 a9 a10 a11 r2 c2
  have r3 := Stages.nextHidden h3 sg
  have h4 := Stages.stepOut a0 a8 a9 a10 a11 r3 c3
  Stages.similarity h4 sg

/-! ## The intermediate arrays, as functions of the buffers' contents at launch -/

section Closed
variable (V : Valuation τ sig (Elt F))
/-- The support vector. -/
def vSG : (⟨S1x128, .f32⟩ : BufTy).Contents (Elt F) := Stages.supportVec (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
/-- A step's output and new cell state from a hidden input and a cell state. -/
def vOut (hr c : (⟨S16384x256, .f32⟩ : BufTy).Contents (Elt F)) : (⟨S16384x128, .f32⟩ : BufTy).Contents (Elt F) :=
  Stages.stepOut (V (main_arg0 : DevRef τ sig)) (V (main_arg8 : DevRef τ sig)) (V (main_arg9 : DevRef τ sig)) (V (main_arg10 : DevRef τ sig)) (V (main_arg11 : DevRef τ sig)) hr c
def vCell (hr c : (⟨S16384x256, .f32⟩ : BufTy).Contents (Elt F)) : (⟨S16384x256, .f32⟩ : BufTy).Contents (Elt F) :=
  Stages.stepCell (V (main_arg0 : DevRef τ sig)) (V (main_arg8 : DevRef τ sig)) (V (main_arg9 : DevRef τ sig)) (V (main_arg10 : DevRef τ sig)) (V (main_arg11 : DevRef τ sig)) hr c
def vH1 := vOut V Stages.zeros Stages.zeros
def vC1 := vCell V Stages.zeros Stages.zeros
def vR1 := Stages.nextHidden (vH1 V) (vSG V)
def vH2 := vOut V (vR1 V) (vC1 V)
def vC2 := vCell V (vR1 V) (vC1 V)
def vR2 := Stages.nextHidden (vH2 V) (vSG V)
def vH3 := vOut V (vR2 V) (vC2 V)
def vC3 := vCell V (vR2 V) (vC2 V)
def vR3 := Stages.nextHidden (vH3 V) (vSG V)
def vH4 := vOut V (vR3 V) (vC3 V)
end Closed

/-! ## The buffers' contents after each stage -/

abbrev val0 (V : Valuation τ sig (Elt F)) : Valuation τ sig (Elt F) := V
def val1 (V : Valuation τ sig (Elt F)) : Valuation τ sig (Elt F) := after opsEnc (val0 V)
def val2 (V : Valuation τ sig (Elt F)) : Valuation τ sig (Elt F) := after opsZero (val1 V)
def val3 (V : Valuation τ sig (Elt F)) : Valuation τ sig (Elt F) := after opsS1a (val2 V)
def val4 (V : Valuation τ sig (Elt F)) : Valuation τ sig (Elt F) := after opsS1b (val3 V)
def val5 (V : Valuation τ sig (Elt F)) : Valuation τ sig (Elt F) := after opsS2a (val4 V)
def val6 (V : Valuation τ sig (Elt F)) : Valuation τ sig (Elt F) := after opsS2b (val5 V)
def val7 (V : Valuation τ sig (Elt F)) : Valuation τ sig (Elt F) := after opsS3a (val6 V)
def val8 (V : Valuation τ sig (Elt F)) : Valuation τ sig (Elt F) := after opsS3b (val7 V)
def val9 (V : Valuation τ sig (Elt F)) : Valuation τ sig (Elt F) := after opsS4a (val8 V)
def val10 (V : Valuation τ sig (Elt F)) : Valuation τ sig (Elt F) := after opsS4b (val9 V)
def val11 (V : Valuation τ sig (Elt F)) : Valuation τ sig (Elt F) := after opsFin (val10 V)

/-- The whole line's fold is the stages' folds one after the other. -/
theorem after_ops (V : Valuation τ sig (Elt F)) : after ops V = val11 V := by
  simp only [ops, after_app]
  rfl

theorem keep1 (V : Valuation τ sig (Elt F)) (r : Ref sig .tc) (h : r ∉ opsEnc_W) :
    val1 V (Proc.devRef .tc r) = val0 V (Proc.devRef .tc r) := opsEnc_keep (val0 V) r h

theorem keep2 (V : Valuation τ sig (Elt F)) (r : Ref sig .tc) (h : r ∉ opsZero_W) :
    val2 V (Proc.devRef .tc r) = val1 V (Proc.devRef .tc r) := opsZero_keep (val1 V) r h

theorem keep3 (V : Valuation τ sig (Elt F)) (r : Ref sig .tc) (h : r ∉ opsS1a_W) :
    val3 V (Proc.devRef .tc r) = val2 V (Proc.devRef .tc r) := opsS1a_keep (val2 V) r h

theorem keep4 (V : Valuation τ sig (Elt F)) (r : Ref sig .tc) (h : r ∉ opsS1b_W) :
    val4 V (Proc.devRef .tc r) = val3 V (Proc.devRef .tc r) := opsS1b_keep (val3 V) r h

theorem keep5 (V : Valuation τ sig (Elt F)) (r : Ref sig .tc) (h : r ∉ opsS2a_W) :
    val5 V (Proc.devRef .tc r) = val4 V (Proc.devRef .tc r) := opsS2a_keep (val4 V) r h

theorem keep6 (V : Valuation τ sig (Elt F)) (r : Ref sig .tc) (h : r ∉ opsS2b_W) :
    val6 V (Proc.devRef .tc r) = val5 V (Proc.devRef .tc r) := opsS2b_keep (val5 V) r h

theorem keep7 (V : Valuation τ sig (Elt F)) (r : Ref sig .tc) (h : r ∉ opsS3a_W) :
    val7 V (Proc.devRef .tc r) = val6 V (Proc.devRef .tc r) := opsS3a_keep (val6 V) r h

theorem keep8 (V : Valuation τ sig (Elt F)) (r : Ref sig .tc) (h : r ∉ opsS3b_W) :
    val8 V (Proc.devRef .tc r) = val7 V (Proc.devRef .tc r) := opsS3b_keep (val7 V) r h

theorem keep9 (V : Valuation τ sig (Elt F)) (r : Ref sig .tc) (h : r ∉ opsS4a_W) :
    val9 V (Proc.devRef .tc r) = val8 V (Proc.devRef .tc r) := opsS4a_keep (val8 V) r h

theorem keep10 (V : Valuation τ sig (Elt F)) (r : Ref sig .tc) (h : r ∉ opsS4b_W) :
    val10 V (Proc.devRef .tc r) = val9 V (Proc.devRef .tc r) := opsS4b_keep (val9 V) r h

theorem keep11 (V : Valuation τ sig (Elt F)) (r : Ref sig .tc) (h : r ∉ opsFin_W) :
    val11 V (Proc.devRef .tc r) = val10 V (Proc.devRef .tc r) := opsFin_keep (val10 V) r h

/-! Stage by stage: what each live buffer holds, in terms of the launch contents. -/

theorem val1_v32 (V : Valuation τ sig (Elt F)) : val1 V (main_v32 : DevRef τ sig) = vSG V := by
  unfold val1 vSG
  exact enc_out V
theorem val1_arg0 (V : Valuation τ sig (Elt F)) : val1 V (main_arg0 : DevRef τ sig) = V (main_arg0 : DevRef τ sig) :=
  keep1 V main_arg0 (by decide)
theorem val1_arg8 (V : Valuation τ sig (Elt F)) : val1 V (main_arg8 : DevRef τ sig) = V (main_arg8 : DevRef τ sig) :=
  keep1 V main_arg8 (by decide)
theorem val1_arg9 (V : Valuation τ sig (Elt F)) : val1 V (main_arg9 : DevRef τ sig) = V (main_arg9 : DevRef τ sig) :=
  keep1 V main_arg9 (by decide)
theorem val1_arg10 (V : Valuation τ sig (Elt F)) : val1 V (main_arg10 : DevRef τ sig) = V (main_arg10 : DevRef τ sig) :=
  keep1 V main_arg10 (by decide)
theorem val1_arg11 (V : Valuation τ sig (Elt F)) : val1 V (main_arg11 : DevRef τ sig) = V (main_arg11 : DevRef τ sig) :=
  keep1 V main_arg11 (by decide)
theorem val2_v32 (V : Valuation τ sig (Elt F)) : val2 V (main_v32 : DevRef τ sig) = vSG V :=
  (keep2 V main_v32 (by decide)).trans (val1_v32 V)
theorem val2_arg0 (V : Valuation τ sig (Elt F)) : val2 V (main_arg0 : DevRef τ sig) = V (main_arg0 : DevRef τ sig) :=
  (keep2 V main_arg0 (by decide)).trans (val1_arg0 V)
theorem val2_arg8 (V : Valuation τ sig (Elt F)) : val2 V (main_arg8 : DevRef τ sig) = V (main_arg8 : DevRef τ sig) :=
  (keep2 V main_arg8 (by decide)).trans (val1_arg8 V)
theorem val2_arg9 (V : Valuation τ sig (Elt F)) : val2 V (main_arg9 : DevRef τ sig) = V (main_arg9 : DevRef τ sig) :=
  (keep2 V main_arg9 (by decide)).trans (val1_arg9 V)
theorem val2_arg10 (V : Valuation τ sig (Elt F)) : val2 V (main_arg10 : DevRef τ sig) = V (main_arg10 : DevRef τ sig) :=
  (keep2 V main_arg10 (by decide)).trans (val1_arg10 V)
theorem val2_arg11 (V : Valuation τ sig (Elt F)) : val2 V (main_arg11 : DevRef τ sig) = V (main_arg11 : DevRef τ sig) :=
  (keep2 V main_arg11 (by decide)).trans (val1_arg11 V)
theorem val2_v33 (V : Valuation τ sig (Elt F)) : val2 V (main_v33 : DevRef τ sig) = Stages.zeros := zero_hr (val1 V)
theorem val2_v34 (V : Valuation τ sig (Elt F)) : val2 V (main_v34 : DevRef τ sig) = Stages.zeros := zero_c (val1 V)
theorem val3_v75 (V : Valuation τ sig (Elt F)) : val3 V (main_v75 : DevRef τ sig) = vH1 V := by
  unfold val3
  rw [s1a_h, val2_arg0, val2_arg8, val2_arg9, val2_arg10, val2_arg11, val2_v33, val2_v34]
  first | done | rfl
theorem val3_v71 (V : Valuation τ sig (Elt F)) : val3 V (main_v71 : DevRef τ sig) = vC1 V := by
  unfold val3
  rw [s1a_c, val2_arg0, val2_arg8, val2_arg9, val2_arg10, val2_arg11, val2_v33, val2_v34]
  first | done | rfl
theorem val3_v32 (V : Valuation τ sig (Elt F)) : val3 V (main_v32 : DevRef τ sig) = vSG V :=
  (keep3 V main_v32 (by decide)).trans (val2_v32 V)
theorem val3_arg0 (V : Valuation τ sig (Elt F)) : val3 V (main_arg0 : DevRef τ sig) = V (main_arg0 : DevRef τ sig) :=
  (keep3 V main_arg0 (by decide)).trans (val2_arg0 V)
theorem val3_arg8 (V : Valuation τ sig (Elt F)) : val3 V (main_arg8 : DevRef τ sig) = V (main_arg8 : DevRef τ sig) :=
  (keep3 V main_arg8 (by decide)).trans (val2_arg8 V)
theorem val3_arg9 (V : Valuation τ sig (Elt F)) : val3 V (main_arg9 : DevRef τ sig) = V (main_arg9 : DevRef τ sig) :=
  (keep3 V main_arg9 (by decide)).trans (val2_arg9 V)
theorem val3_arg10 (V : Valuation τ sig (Elt F)) : val3 V (main_arg10 : DevRef τ sig) = V (main_arg10 : DevRef τ sig) :=
  (keep3 V main_arg10 (by decide)).trans (val2_arg10 V)
theorem val3_arg11 (V : Valuation τ sig (Elt F)) : val3 V (main_arg11 : DevRef τ sig) = V (main_arg11 : DevRef τ sig) :=
  (keep3 V main_arg11 (by decide)).trans (val2_arg11 V)
theorem val4_v88 (V : Valuation τ sig (Elt F)) : val4 V (main_v88 : DevRef τ sig) = vR1 V := by
  unfold val4
  rw [s1b, val3_v75, val3_v32]
  first | done | rfl
theorem val4_v71 (V : Valuation τ sig (Elt F)) : val4 V (main_v71 : DevRef τ sig) = vC1 V :=
  (keep4 V main_v71 (by decide)).trans (val3_v71 V)
theorem val4_v32 (V : Valuation τ sig (Elt F)) : val4 V (main_v32 : DevRef τ sig) = vSG V :=
  (keep4 V main_v32 (by decide)).trans (val3_v32 V)
theorem val4_arg0 (V : Valuation τ sig (Elt F)) : val4 V (main_arg0 : DevRef τ sig) = V (main_arg0 : DevRef τ sig) :=
  (keep4 V main_arg0 (by decide)).trans (val3_arg0 V)
theorem val4_arg8 (V : Valuation τ sig (Elt F)) : val4 V (main_arg8 : DevRef τ sig) = V (main_arg8 : DevRef τ sig) :=
  (keep4 V main_arg8 (by decide)).trans (val3_arg8 V)
theorem val4_arg9 (V : Valuation τ sig (Elt F)) : val4 V (main_arg9 : DevRef τ sig) = V (main_arg9 : DevRef τ sig) :=
  (keep4 V main_arg9 (by decide)).trans (val3_arg9 V)
theorem val4_arg10 (V : Valuation τ sig (Elt F)) : val4 V (main_arg10 : DevRef τ sig) = V (main_arg10 : DevRef τ sig) :=
  (keep4 V main_arg10 (by decide)).trans (val3_arg10 V)
theorem val4_arg11 (V : Valuation τ sig (Elt F)) : val4 V (main_arg11 : DevRef τ sig) = V (main_arg11 : DevRef τ sig) :=
  (keep4 V main_arg11 (by decide)).trans (val3_arg11 V)
theorem val5_v129 (V : Valuation τ sig (Elt F)) : val5 V (main_v129 : DevRef τ sig) = vH2 V := by
  unfold val5
  rw [s2a_h, val4_arg0, val4_arg8, val4_arg9, val4_arg10, val4_arg11, val4_v88, val4_v71]
  first | done | rfl
theorem val5_v125 (V : Valuation τ sig (Elt F)) : val5 V (main_v125 : DevRef τ sig) = vC2 V := by
  unfold val5
  rw [s2a_c, val4_arg0, val4_arg8, val4_arg9, val4_arg10, val4_arg11, val4_v88, val4_v71]
  first | done | rfl
theorem val5_v32 (V : Valuation τ sig (Elt F)) : val5 V (main_v32 : DevRef τ sig) = vSG V :=
  (keep5 V main_v32 (by decide)).trans (val4_v32 V)
theorem val5_arg0 (V : Valuation τ sig (Elt F)) : val5 V (main_arg0 : DevRef τ sig) = V (main_arg0 : DevRef τ sig) :=
  (keep5 V main_arg0 (by decide)).trans (val4_arg0 V)
theorem val5_arg8 (V : Valuation τ sig (Elt F)) : val5 V (main_arg8 : DevRef τ sig) = V (main_arg8 : DevRef τ sig) :=
  (keep5 V main_arg8 (by decide)).trans (val4_arg8 V)
theorem val5_arg9 (V : Valuation τ sig (Elt F)) : val5 V (main_arg9 : DevRef τ sig) = V (main_arg9 : DevRef τ sig) :=
  (keep5 V main_arg9 (by decide)).trans (val4_arg9 V)
theorem val5_arg10 (V : Valuation τ sig (Elt F)) : val5 V (main_arg10 : DevRef τ sig) = V (main_arg10 : DevRef τ sig) :=
  (keep5 V main_arg10 (by decide)).trans (val4_arg10 V)
theorem val5_arg11 (V : Valuation τ sig (Elt F)) : val5 V (main_arg11 : DevRef τ sig) = V (main_arg11 : DevRef τ sig) :=
  (keep5 V main_arg11 (by decide)).trans (val4_arg11 V)
theorem val6_v142 (V : Valuation τ sig (Elt F)) : val6 V (main_v142 : DevRef τ sig) = vR2 V := by
  unfold val6
  rw [s2b, val5_v129, val5_v32]
  first | done | rfl
theorem val6_v125 (V : Valuation τ sig (Elt F)) : val6 V (main_v125 : DevRef τ sig) = vC2 V :=
  (keep6 V main_v125 (by decide)).trans (val5_v125 V)
theorem val6_v32 (V : Valuation τ sig (Elt F)) : val6 V (main_v32 : DevRef τ sig) = vSG V :=
  (keep6 V main_v32 (by decide)).trans (val5_v32 V)
theorem val6_arg0 (V : Valuation τ sig (Elt F)) : val6 V (main_arg0 : DevRef τ sig) = V (main_arg0 : DevRef τ sig) :=
  (keep6 V main_arg0 (by decide)).trans (val5_arg0 V)
theorem val6_arg8 (V : Valuation τ sig (Elt F)) : val6 V (main_arg8 : DevRef τ sig) = V (main_arg8 : DevRef τ sig) :=
  (keep6 V main_arg8 (by decide)).trans (val5_arg8 V)
theorem val6_arg9 (V : Valuation τ sig (Elt F)) : val6 V (main_arg9 : DevRef τ sig) = V (main_arg9 : DevRef τ sig) :=
  (keep6 V main_arg9 (by decide)).trans (val5_arg9 V)
theorem val6_arg10 (V : Valuation τ sig (Elt F)) : val6 V (main_arg10 : DevRef τ sig) = V (main_arg10 : DevRef τ sig) :=
  (keep6 V main_arg10 (by decide)).trans (val5_arg10 V)
theorem val6_arg11 (V : Valuation τ sig (Elt F)) : val6 V (main_arg11 : DevRef τ sig) = V (main_arg11 : DevRef τ sig) :=
  (keep6 V main_arg11 (by decide)).trans (val5_arg11 V)
theorem val7_v183 (V : Valuation τ sig (Elt F)) : val7 V (main_v183 : DevRef τ sig) = vH3 V := by
  unfold val7
  rw [s3a_h, val6_arg0, val6_arg8, val6_arg9, val6_arg10, val6_arg11, val6_v142, val6_v125]
  first | done | rfl
theorem val7_v179 (V : Valuation τ sig (Elt F)) : val7 V (main_v179 : DevRef τ sig) = vC3 V := by
  unfold val7
  rw [s3a_c, val6_arg0, val6_arg8, val6_arg9, val6_arg10, val6_arg11, val6_v142, val6_v125]
  first | done | rfl
theorem val7_v32 (V : Valuation τ sig (Elt F)) : val7 V (main_v32 : DevRef τ sig) = vSG V :=
  (keep7 V main_v32 (by decide)).trans (val6_v32 V)
theorem val7_arg0 (V : Valuation τ sig (Elt F)) : val7 V (main_arg0 : DevRef τ sig) = V (main_arg0 : DevRef τ sig) :=
  (keep7 V main_arg0 (by decide)).trans (val6_arg0 V)
theorem val7_arg8 (V : Valuation τ sig (Elt F)) : val7 V (main_arg8 : DevRef τ sig) = V (main_arg8 : DevRef τ sig) :=
  (keep7 V main_arg8 (by decide)).trans (val6_arg8 V)
theorem val7_arg9 (V : Valuation τ sig (Elt F)) : val7 V (main_arg9 : DevRef τ sig) = V (main_arg9 : DevRef τ sig) :=
  (keep7 V main_arg9 (by decide)).trans (val6_arg9 V)
theorem val7_arg10 (V : Valuation τ sig (Elt F)) : val7 V (main_arg10 : DevRef τ sig) = V (main_arg10 : DevRef τ sig) :=
  (keep7 V main_arg10 (by decide)).trans (val6_arg10 V)
theorem val7_arg11 (V : Valuation τ sig (Elt F)) : val7 V (main_arg11 : DevRef τ sig) = V (main_arg11 : DevRef τ sig) :=
  (keep7 V main_arg11 (by decide)).trans (val6_arg11 V)
theorem val8_v196 (V : Valuation τ sig (Elt F)) : val8 V (main_v196 : DevRef τ sig) = vR3 V := by
  unfold val8
  rw [s3b, val7_v183, val7_v32]
  first | done | rfl
theorem val8_v179 (V : Valuation τ sig (Elt F)) : val8 V (main_v179 : DevRef τ sig) = vC3 V :=
  (keep8 V main_v179 (by decide)).trans (val7_v179 V)
theorem val8_v32 (V : Valuation τ sig (Elt F)) : val8 V (main_v32 : DevRef τ sig) = vSG V :=
  (keep8 V main_v32 (by decide)).trans (val7_v32 V)
theorem val8_arg0 (V : Valuation τ sig (Elt F)) : val8 V (main_arg0 : DevRef τ sig) = V (main_arg0 : DevRef τ sig) :=
  (keep8 V main_arg0 (by decide)).trans (val7_arg0 V)
theorem val8_arg8 (V : Valuation τ sig (Elt F)) : val8 V (main_arg8 : DevRef τ sig) = V (main_arg8 : DevRef τ sig) :=
  (keep8 V main_arg8 (by decide)).trans (val7_arg8 V)
theorem val8_arg9 (V : Valuation τ sig (Elt F)) : val8 V (main_arg9 : DevRef τ sig) = V (main_arg9 : DevRef τ sig) :=
  (keep8 V main_arg9 (by decide)).trans (val7_arg9 V)
theorem val8_arg10 (V : Valuation τ sig (Elt F)) : val8 V (main_arg10 : DevRef τ sig) = V (main_arg10 : DevRef τ sig) :=
  (keep8 V main_arg10 (by decide)).trans (val7_arg10 V)
theorem val8_arg11 (V : Valuation τ sig (Elt F)) : val8 V (main_arg11 : DevRef τ sig) = V (main_arg11 : DevRef τ sig) :=
  (keep8 V main_arg11 (by decide)).trans (val7_arg11 V)
theorem val9_v237 (V : Valuation τ sig (Elt F)) : val9 V (main_v237 : DevRef τ sig) = vH4 V := by
  unfold val9
  rw [s4a_h, val8_arg0, val8_arg8, val8_arg9, val8_arg10, val8_arg11, val8_v196, val8_v179]
  first | done | rfl
theorem val9_v32 (V : Valuation τ sig (Elt F)) : val9 V (main_v32 : DevRef τ sig) = vSG V :=
  (keep9 V main_v32 (by decide)).trans (val8_v32 V)
theorem val10_v237 (V : Valuation τ sig (Elt F)) : val10 V (main_v237 : DevRef τ sig) = vH4 V :=
  (keep10 V main_v237 (by decide)).trans (val9_v237 V)
theorem val10_v32 (V : Valuation τ sig (Elt F)) : val10 V (main_v32 : DevRef τ sig) = vSG V :=
  (keep10 V main_v32 (by decide)).trans (val9_v32 V)

/-- After the last stage the result buffer holds the inner products of the fourth output with the support vector. -/
theorem val11_v253 (V : Valuation τ sig (Elt F)) : val11 V (main_v253 : DevRef τ sig) = Stages.similarity (vH4 V) (vSG V) := by
  unfold val11
  rw [fin_out, val10_v237, val10_v32]

/-- The result buffer after the whole line, from any contents: the composed result of the arguments' contents. -/
theorem out_eq (V : Valuation τ sig (Elt F)) :
    after ops V (main_v253 : DevRef τ sig)
      = refResult (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops, val11_v253]
  rfl

/-- The line writes no argument. -/
theorem arg0_eq (V : Valuation τ sig (Elt F)) : after ops V (main_arg0 : DevRef τ sig) = V (main_arg0 : DevRef τ sig) := by
  rw [after_ops]
  exact (keep11 V main_arg0 (by decide)).trans ((keep10 V main_arg0 (by decide)).trans ((keep9 V main_arg0 (by decide)).trans ((keep8 V main_arg0 (by decide)).trans ((keep7 V main_arg0 (by decide)).trans ((keep6 V main_arg0 (by decide)).trans ((keep5 V main_arg0 (by decide)).trans ((keep4 V main_arg0 (by decide)).trans ((keep3 V main_arg0 (by decide)).trans ((keep2 V main_arg0 (by decide)).trans (keep1 V main_arg0 (by decide)))))))))))

/-- The line writes no argument. -/
theorem arg1_eq (V : Valuation τ sig (Elt F)) : after ops V (main_arg1 : DevRef τ sig) = V (main_arg1 : DevRef τ sig) := by
  rw [after_ops]
  exact (keep11 V main_arg1 (by decide)).trans ((keep10 V main_arg1 (by decide)).trans ((keep9 V main_arg1 (by decide)).trans ((keep8 V main_arg1 (by decide)).trans ((keep7 V main_arg1 (by decide)).trans ((keep6 V main_arg1 (by decide)).trans ((keep5 V main_arg1 (by decide)).trans ((keep4 V main_arg1 (by decide)).trans ((keep3 V main_arg1 (by decide)).trans ((keep2 V main_arg1 (by decide)).trans (keep1 V main_arg1 (by decide)))))))))))

/-- The line writes no argument. -/
theorem arg2_eq (V : Valuation τ sig (Elt F)) : after ops V (main_arg2 : DevRef τ sig) = V (main_arg2 : DevRef τ sig) := by
  rw [after_ops]
  exact (keep11 V main_arg2 (by decide)).trans ((keep10 V main_arg2 (by decide)).trans ((keep9 V main_arg2 (by decide)).trans ((keep8 V main_arg2 (by decide)).trans ((keep7 V main_arg2 (by decide)).trans ((keep6 V main_arg2 (by decide)).trans ((keep5 V main_arg2 (by decide)).trans ((keep4 V main_arg2 (by decide)).trans ((keep3 V main_arg2 (by decide)).trans ((keep2 V main_arg2 (by decide)).trans (keep1 V main_arg2 (by decide)))))))))))

/-- The line writes no argument. -/
theorem arg3_eq (V : Valuation τ sig (Elt F)) : after ops V (main_arg3 : DevRef τ sig) = V (main_arg3 : DevRef τ sig) := by
  rw [after_ops]
  exact (keep11 V main_arg3 (by decide)).trans ((keep10 V main_arg3 (by decide)).trans ((keep9 V main_arg3 (by decide)).trans ((keep8 V main_arg3 (by decide)).trans ((keep7 V main_arg3 (by decide)).trans ((keep6 V main_arg3 (by decide)).trans ((keep5 V main_arg3 (by decide)).trans ((keep4 V main_arg3 (by decide)).trans ((keep3 V main_arg3 (by decide)).trans ((keep2 V main_arg3 (by decide)).trans (keep1 V main_arg3 (by decide)))))))))))

/-- The line writes no argument. -/
theorem arg4_eq (V : Valuation τ sig (Elt F)) : after ops V (main_arg4 : DevRef τ sig) = V (main_arg4 : DevRef τ sig) := by
  rw [after_ops]
  exact (keep11 V main_arg4 (by decide)).trans ((keep10 V main_arg4 (by decide)).trans ((keep9 V main_arg4 (by decide)).trans ((keep8 V main_arg4 (by decide)).trans ((keep7 V main_arg4 (by decide)).trans ((keep6 V main_arg4 (by decide)).trans ((keep5 V main_arg4 (by decide)).trans ((keep4 V main_arg4 (by decide)).trans ((keep3 V main_arg4 (by decide)).trans ((keep2 V main_arg4 (by decide)).trans (keep1 V main_arg4 (by decide)))))))))))

/-- The line writes no argument. -/
theorem arg5_eq (V : Valuation τ sig (Elt F)) : after ops V (main_arg5 : DevRef τ sig) = V (main_arg5 : DevRef τ sig) := by
  rw [after_ops]
  exact (keep11 V main_arg5 (by decide)).trans ((keep10 V main_arg5 (by decide)).trans ((keep9 V main_arg5 (by decide)).trans ((keep8 V main_arg5 (by decide)).trans ((keep7 V main_arg5 (by decide)).trans ((keep6 V main_arg5 (by decide)).trans ((keep5 V main_arg5 (by decide)).trans ((keep4 V main_arg5 (by decide)).trans ((keep3 V main_arg5 (by decide)).trans ((keep2 V main_arg5 (by decide)).trans (keep1 V main_arg5 (by decide)))))))))))

/-- The line writes no argument. -/
theorem arg6_eq (V : Valuation τ sig (Elt F)) : after ops V (main_arg6 : DevRef τ sig) = V (main_arg6 : DevRef τ sig) := by
  rw [after_ops]
  exact (keep11 V main_arg6 (by decide)).trans ((keep10 V main_arg6 (by decide)).trans ((keep9 V main_arg6 (by decide)).trans ((keep8 V main_arg6 (by decide)).trans ((keep7 V main_arg6 (by decide)).trans ((keep6 V main_arg6 (by decide)).trans ((keep5 V main_arg6 (by decide)).trans ((keep4 V main_arg6 (by decide)).trans ((keep3 V main_arg6 (by decide)).trans ((keep2 V main_arg6 (by decide)).trans (keep1 V main_arg6 (by decide)))))))))))

/-- The line writes no argument. -/
theorem arg7_eq (V : Valuation τ sig (Elt F)) : after ops V (main_arg7 : DevRef τ sig) = V (main_arg7 : DevRef τ sig) := by
  rw [after_ops]
  exact (keep11 V main_arg7 (by decide)).trans ((keep10 V main_arg7 (by decide)).trans ((keep9 V main_arg7 (by decide)).trans ((keep8 V main_arg7 (by decide)).trans ((keep7 V main_arg7 (by decide)).trans ((keep6 V main_arg7 (by decide)).trans ((keep5 V main_arg7 (by decide)).trans ((keep4 V main_arg7 (by decide)).trans ((keep3 V main_arg7 (by decide)).trans ((keep2 V main_arg7 (by decide)).trans (keep1 V main_arg7 (by decide)))))))))))

/-- The line writes no argument. -/
theorem arg8_eq (V : Valuation τ sig (Elt F)) : after ops V (main_arg8 : DevRef τ sig) = V (main_arg8 : DevRef τ sig) := by
  rw [after_ops]
  exact (keep11 V main_arg8 (by decide)).trans ((keep10 V main_arg8 (by decide)).trans ((keep9 V main_arg8 (by decide)).trans ((keep8 V main_arg8 (by decide)).trans ((keep7 V main_arg8 (by decide)).trans ((keep6 V main_arg8 (by decide)).trans ((keep5 V main_arg8 (by decide)).trans ((keep4 V main_arg8 (by decide)).trans ((keep3 V main_arg8 (by decide)).trans ((keep2 V main_arg8 (by decide)).trans (keep1 V main_arg8 (by decide)))))))))))

/-- The line writes no argument. -/
theorem arg9_eq (V : Valuation τ sig (Elt F)) : after ops V (main_arg9 : DevRef τ sig) = V (main_arg9 : DevRef τ sig) := by
  rw [after_ops]
  exact (keep11 V main_arg9 (by decide)).trans ((keep10 V main_arg9 (by decide)).trans ((keep9 V main_arg9 (by decide)).trans ((keep8 V main_arg9 (by decide)).trans ((keep7 V main_arg9 (by decide)).trans ((keep6 V main_arg9 (by decide)).trans ((keep5 V main_arg9 (by decide)).trans ((keep4 V main_arg9 (by decide)).trans ((keep3 V main_arg9 (by decide)).trans ((keep2 V main_arg9 (by decide)).trans (keep1 V main_arg9 (by decide)))))))))))

/-- The line writes no argument. -/
theorem arg10_eq (V : Valuation τ sig (Elt F)) : after ops V (main_arg10 : DevRef τ sig) = V (main_arg10 : DevRef τ sig) := by
  rw [after_ops]
  exact (keep11 V main_arg10 (by decide)).trans ((keep10 V main_arg10 (by decide)).trans ((keep9 V main_arg10 (by decide)).trans ((keep8 V main_arg10 (by decide)).trans ((keep7 V main_arg10 (by decide)).trans ((keep6 V main_arg10 (by decide)).trans ((keep5 V main_arg10 (by decide)).trans ((keep4 V main_arg10 (by decide)).trans ((keep3 V main_arg10 (by decide)).trans ((keep2 V main_arg10 (by decide)).trans (keep1 V main_arg10 (by decide)))))))))))

/-- The line writes no argument. -/
theorem arg11_eq (V : Valuation τ sig (Elt F)) : after ops V (main_arg11 : DevRef τ sig) = V (main_arg11 : DevRef τ sig) := by
  rw [after_ops]
  exact (keep11 V main_arg11 (by decide)).trans ((keep10 V main_arg11 (by decide)).trans ((keep9 V main_arg11 (by decide)).trans ((keep8 V main_arg11 (by decide)).trans ((keep7 V main_arg11 (by decide)).trans ((keep6 V main_arg11 (by decide)).trans ((keep5 V main_arg11 (by decide)).trans ((keep4 V main_arg11 (by decide)).trans ((keep3 V main_arg11 (by decide)).trans ((keep2 V main_arg11 (by decide)).trans (keep1 V main_arg11 (by decide)))))))))))

/-- On every device, for any float values, from any memory with zero counters: every weakly fair execution of the
    program terminates with the result buffer at the composed result of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v253)
          = refResult (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v253).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_main m ρ)

end Cert.ReferenceIdeal.HostRun

end
-- ==== Proof.RefReadA.lean ====
/-
  One recurrence step of the reference, read one entry at a time on the extended reals: the gate pre-activations of
  query row `b` are the row's products with the two weight matrices plus the two biases, added in the program's order;
  the new cell state and the step's output at row `b` are the cell's and the output's formulas (Spec) of that row's
  gates, old cell state and query entries; the zero array is the zero word's value at every entry.

  The step is first restated as the composition of four array functions (gate pre-activations, the logistic as the
  program prints it, the cell state, the output); each is then read at an index: a matrix product against a
  transposed weight is the row-by-row sum, a bias broadcast down the rows is the bias entry, a column slice at an offset
  is the entry at the offset column, and every pointwise operation is the scalar one.
-/
import proofs.«162834_g48816598286877_cont_sun_m_45_4_alg».proof.Proof.RefStages
import proofs.«162834_g48816598286877_cont_sun_m_45_4_alg».proof.Proof.Spec
import proofs.«162834_g48816598286877_cont_sun_m_45_4_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Idealize.ShloMosaic Idealize.ShloMosaic.ValueIdx

/-! ## The step as a composition of four array functions (any float values) -/

section Compose
variable {F : FTy → Type} [FloatOps F]

/-- The gate pre-activations of every row: `((q · Wihᵀ + bih) + hr · Whhᵀ) + bhh`. -/
def gatesArr (q : (⟨S16384x128, .f32⟩ : BufTy).Contents (Elt F)) (Wih : (⟨S1024x128, .f32⟩ : BufTy).Contents (Elt F)) (Whh : (⟨S1024x256, .f32⟩ : BufTy).Contents (Elt F))
    (bih bhh : (⟨S1024, .f32⟩ : BufTy).Contents (Elt F)) (hr : (⟨S16384x256, .f32⟩ : BufTy).Contents (Elt F)) : (⟨S16384x1024, .f32⟩ : BufTy).Contents (Elt F) :=
  addf
    (addf
      (addf
        (Host.dotGeneral dot_S16384x128_S128x1024_S16384x1024_1_0_0_1_n_n none q
          (transpose S128x1024 [1, 0] Wih transposes_S1024x128_S128x1024_1_0))
        (broadcastInDim S16384x1024 ![0, 1] bcast_S1x1024_S16384x1024_0_1 (broadcastInDim S1x1024 ![1] bcast_S1024_S1x1024_1 bih)))
      (Host.dotGeneral dot_S16384x256_S256x1024_S16384x1024_1_0_0_1_n_n none hr
        (transpose S256x1024 [1, 0] Whh transposes_S1024x256_S256x1024_1_0)))
    (broadcastInDim S16384x1024 ![0, 1] bcast_S1x1024_S16384x1024_0_1 (broadcastInDim S1x1024 ![1] bcast_S1024_S1x1024_1 bhh))

/-- The logistic function as the program prints it: `1 / (1 + exp (-x))`, the ones broadcast. -/
def sigArr (x : (⟨S16384x256, .f32⟩ : BufTy).Contents (Elt F)) : (⟨S16384x256, .f32⟩ : BufTy).Contents (Elt F) :=
  Host.divf (broadcastInDim S16384x256 ![] bcast_S_S16384x256 (constant S_ .f32 0x3F800000#32))
    (addf (broadcastInDim S16384x256 ![] bcast_S_S16384x256 (constant S_ .f32 0x3F800000#32)) (Host.exp (Host.negf x)))

/-- The new cell state from the gate pre-activations `G` and the old cell state. -/
def cellArr (G : (⟨S16384x1024, .f32⟩ : BufTy).Contents (Elt F)) (c : (⟨S16384x256, .f32⟩ : BufTy).Contents (Elt F)) : (⟨S16384x256, .f32⟩ : BufTy).Contents (Elt F) :=
  addf
    (mulf (sigArr (extractStridedSlice S16384x256 ![0, 256] G slices_S16384x1024_S16384x256_0_256)) c)
    (mulf (sigArr (extractStridedSlice S16384x256 ![0, 0] G slices_S16384x1024_S16384x256_0_0))
      (Host.tanh (extractStridedSlice S16384x256 ![0, 512] G slices_S16384x1024_S16384x256_0_512)))

/-- The step's output from the query, the gate pre-activations and the old cell state. -/
def outArr (q : (⟨S16384x128, .f32⟩ : BufTy).Contents (Elt F)) (G : (⟨S16384x1024, .f32⟩ : BufTy).Contents (Elt F)) (c : (⟨S16384x256, .f32⟩ : BufTy).Contents (Elt F)) : (⟨S16384x128, .f32⟩ : BufTy).Contents (Elt F) :=
  addf q
    (extractStridedSlice S16384x128 ![0, 0]
      (mulf (sigArr (extractStridedSlice S16384x256 ![0, 768] G slices_S16384x1024_S16384x256_0_768)) (Host.tanh (cellArr G c)))
      slices_S16384x256_S16384x128_0_0)

/-- The step's new cell state is the cell function of the gate pre-activations: the same operations, grouped. -/
theorem stepCell_eq (q : (⟨S16384x128, .f32⟩ : BufTy).Contents (Elt F)) (Wih : (⟨S1024x128, .f32⟩ : BufTy).Contents (Elt F)) (Whh : (⟨S1024x256, .f32⟩ : BufTy).Contents (Elt F))
    (bih bhh : (⟨S1024, .f32⟩ : BufTy).Contents (Elt F)) (hr c : (⟨S16384x256, .f32⟩ : BufTy).Contents (Elt F)) :
    Stages.stepCell q Wih Whh bih bhh hr c = cellArr (gatesArr q Wih Whh bih bhh hr) c := rfl

/-- The step's output likewise. -/
theorem stepOut_eq (q : (⟨S16384x128, .f32⟩ : BufTy).Contents (Elt F)) (Wih : (⟨S1024x128, .f32⟩ : BufTy).Contents (Elt F)) (Whh : (⟨S1024x256, .f32⟩ : BufTy).Contents (Elt F))
    (bih bhh : (⟨S1024, .f32⟩ : BufTy).Contents (Elt F)) (hr c : (⟨S16384x256, .f32⟩ : BufTy).Contents (Elt F)) :
    Stages.stepOut q Wih Whh bih bhh hr c = outArr q (gatesArr q Wih Whh bih bhh hr) c := rfl

end Compose

/-! ## Reading at an index, on the extended reals -/

/-- A plain matrix product at an entry: the sum over the contracted axis. -/
theorem dot_apply {M K N : ℕ} (D : DotDims ⟨2, ![M, K]⟩ ⟨2, ![K, N]⟩ ⟨2, ![M, N]⟩) (hD : D = DotDims.plain M K N)
    (x : (⟨2, ![M, K]⟩ : Shape).Idx → EReal) (w : (⟨2, ![K, N]⟩ : Shape).Idx → EReal) (i : Fin M) (j : Fin N) :
    Host.dotGeneral (F := Ideal) (φ₁ := .f32) (φ₂ := .f32) D none x w (ix2 i j) = ∑ k : Fin K, x (ix2 i k) * w (ix2 k j) := by
  subst hD
  exact Cert.LibDense.dotGeneral_plain .single x w (ix2 i j)

/-- A product against a transposed weight matrix, at an entry: row of the operand times row of the weights. -/
theorem dotT_apply {M K N : ℕ} (D : DotDims ⟨2, ![M, K]⟩ ⟨2, ![K, N]⟩ ⟨2, ![M, N]⟩) (hD : D = DotDims.plain M K N)
    (x : (⟨2, ![M, K]⟩ : Shape).Idx → EReal) (W : (⟨2, ![N, K]⟩ : Shape).Idx → EReal)
    (hT : (⟨2, ![N, K]⟩ : Shape).Transposes [1, 0] ⟨2, ![K, N]⟩) (i : Fin M) (j : Fin N) :
    Host.dotGeneral (F := Ideal) (φ₁ := .f32) (φ₂ := .f32) D none x (transpose ⟨2, ![K, N]⟩ [1, 0] W hT) (ix2 i j)
      = ∑ k : Fin K, x (ix2 i k) * W (ix2 j k) := by
  rw [dot_apply D hD]
  exact Finset.sum_congr rfl fun k _ => by rw [transpose_ix2_apply]

/-- A bias vector broadcast to one row and then down all rows, at an entry: the bias entry of the column. -/
theorem bias_apply (v : (⟨S1024, .f32⟩ : BufTy).Contents (Elt Ideal)) (b : Fin 16384) (a : Fin 1024) :
    broadcastInDim S16384x1024 ![0, 1] bcast_S1x1024_S16384x1024_0_1 (broadcastInDim S1x1024 ![1] bcast_S1024_S1x1024_1 v) (ix2 b a)
      = v (ix1 a) := by
  refine (broadcastInDim_apply _ _ _ (ix2 b a) (ix2 (0 : Fin 1) a) (fun c => ?_)).trans ?_
  · match c with
    | ⟨0, _⟩ => rfl
    | ⟨1, _⟩ => rfl
  · refine broadcastInDim_apply _ _ _ _ (ix1 a) (fun c => ?_)
    match c with
    | ⟨0, _⟩ => rfl

/-- The gate pre-activations of row `b` at gate `a`. -/
theorem gatesArr_apply (q : (⟨S16384x128, .f32⟩ : BufTy).Contents (Elt Ideal)) (Wih : (⟨S1024x128, .f32⟩ : BufTy).Contents (Elt Ideal)) (Whh : (⟨S1024x256, .f32⟩ : BufTy).Contents (Elt Ideal))
    (bih bhh : (⟨S1024, .f32⟩ : BufTy).Contents (Elt Ideal)) (hr : (⟨S16384x256, .f32⟩ : BufTy).Contents (Elt Ideal)) (b : Fin 16384) (a : Fin 1024) :
    gatesArr q Wih Whh bih bhh hr (ix2 b a)
      = Cert.Spec.gates (fun a k => Wih (ix2 a k)) (fun a k => Whh (ix2 a k)) (fun a => bih (ix1 a)) (fun a => bhh (ix1 a))
          (fun k => q (ix2 b k)) (fun k => hr (ix2 b k)) a := by
  have d1 := dotT_apply dot_S16384x128_S128x1024_S16384x1024_1_0_0_1_n_n rfl q Wih transposes_S1024x128_S128x1024_1_0 b a
  have d2 := dotT_apply dot_S16384x256_S256x1024_S16384x1024_1_0_0_1_n_n rfl hr Whh transposes_S1024x256_S256x1024_1_0 b a
  have b1 := bias_apply bih b a
  have b2 := bias_apply bhh b a
  unfold gatesArr
  rw [addf_apply, addf_apply, addf_apply, d1, d2, b1, b2]
  rfl

/-- The hyperbolic tangent of an array at an entry. -/
theorem tanh_apply {s : Shape} (x : FVec Ideal s .f32) (i : s.Idx) :
    Host.tanh (F := Ideal) (φ := .f32) x i = Ideal.tanh (x i) := rfl

/-- The printed logistic at an entry is the logistic of the entry. -/
theorem sigArr_apply (x : (⟨S16384x256, .f32⟩ : BufTy).Contents (Elt Ideal)) (i : S16384x256.Idx) : sigArr x i = Cert.Spec.sig (x i) := rfl

/-- The new cell state of row `b` at `j`: the cell's formula of the row's gates and old cell state. -/
theorem cellArr_apply (G : (⟨S16384x1024, .f32⟩ : BufTy).Contents (Elt Ideal)) (c : (⟨S16384x256, .f32⟩ : BufTy).Contents (Elt Ideal)) (b : Fin 16384) (j : Fin 256) :
    cellArr G c (ix2 b j) = Cert.Spec.cell (fun a => G (ix2 b a)) (fun k => c (ix2 b k)) j := by
  have ei : extractStridedSlice S16384x256 ![0, 0] G slices_S16384x1024_S16384x256_0_0 (ix2 b j) = G (ix2 b (Cert.Spec.gi j)) :=
    slice2_axis1_apply 0 G slices_S16384x1024_S16384x256_0_0 b j (Cert.Spec.gi j) (Nat.zero_add _).symm
  have ef : extractStridedSlice S16384x256 ![0, 256] G slices_S16384x1024_S16384x256_0_256 (ix2 b j) = G (ix2 b (Cert.Spec.gf j)) :=
    slice2_axis1_apply 256 G slices_S16384x1024_S16384x256_0_256 b j (Cert.Spec.gf j) rfl
  have eg : extractStridedSlice S16384x256 ![0, 512] G slices_S16384x1024_S16384x256_0_512 (ix2 b j) = G (ix2 b (Cert.Spec.gg j)) :=
    slice2_axis1_apply 512 G slices_S16384x1024_S16384x256_0_512 b j (Cert.Spec.gg j) rfl
  unfold cellArr
  rw [addf_apply, mulf_apply, mulf_apply, sigArr_apply, sigArr_apply, tanh_apply, ei, ef, eg]
  rfl

/-- The step's output of row `b` at `j`: the output's formula of the row's query entries, gates and old cell state. -/
theorem outArr_apply (q : (⟨S16384x128, .f32⟩ : BufTy).Contents (Elt Ideal)) (G : (⟨S16384x1024, .f32⟩ : BufTy).Contents (Elt Ideal)) (c : (⟨S16384x256, .f32⟩ : BufTy).Contents (Elt Ideal)) (b : Fin 16384) (j : Fin 128) :
    outArr q G c (ix2 b j)
      = Cert.Spec.hnext (fun k => q (ix2 b k)) (fun a => G (ix2 b a)) (fun k => c (ix2 b k)) j := by
  have eo : extractStridedSlice S16384x256 ![0, 768] G slices_S16384x1024_S16384x256_0_768 (ix2 b (Cert.Spec.lo j))
      = G (ix2 b (Cert.Spec.go (Cert.Spec.lo j))) :=
    slice2_axis1_apply 768 G slices_S16384x1024_S16384x256_0_768 b (Cert.Spec.lo j) (Cert.Spec.go (Cert.Spec.lo j)) rfl
  unfold outArr
  rw [addf_apply, slice2_axis1_apply 0 _ slices_S16384x256_S16384x128_0_0 b j (Cert.Spec.lo j) (Nat.zero_add _).symm,
    mulf_apply, sigArr_apply, tanh_apply, eo, cellArr_apply]
  rfl

/-! ## The stages at an index -/

/-- The new cell state of query row `b`: the cell's formula of the row's gate pre-activations and old cell state. -/
theorem stepCell_apply (q : (⟨S16384x128, .f32⟩ : BufTy).Contents (Elt Ideal)) (Wih : (⟨S1024x128, .f32⟩ : BufTy).Contents (Elt Ideal)) (Whh : (⟨S1024x256, .f32⟩ : BufTy).Contents (Elt Ideal))
    (bih bhh : (⟨S1024, .f32⟩ : BufTy).Contents (Elt Ideal)) (hr c : (⟨S16384x256, .f32⟩ : BufTy).Contents (Elt Ideal)) (b : Fin 16384) (j : Fin 256) :
    Stages.stepCell q Wih Whh bih bhh hr c (ix2 b j)
      = Cert.Spec.cell
          (Cert.Spec.gates (fun a k => Wih (ix2 a k)) (fun a k => Whh (ix2 a k)) (fun a => bih (ix1 a)) (fun a => bhh (ix1 a))
            (fun k => q (ix2 b k)) (fun k => hr (ix2 b k)))
          (fun k => c (ix2 b k)) j := by
  rw [stepCell_eq, cellArr_apply]
  exact congrArg (fun G => Cert.Spec.cell G (fun k => c (ix2 b k)) j)
    (funext fun a => gatesArr_apply q Wih Whh bih bhh hr b a)

/-- The output of query row `b`: the output's formula of the row's query entries, gate pre-activations and old cell state. -/
theorem stepOut_apply (q : (⟨S16384x128, .f32⟩ : BufTy).Contents (Elt Ideal)) (Wih : (⟨S1024x128, .f32⟩ : BufTy).Contents (Elt Ideal)) (Whh : (⟨S1024x256, .f32⟩ : BufTy).Contents (Elt Ideal))
    (bih bhh : (⟨S1024, .f32⟩ : BufTy).Contents (Elt Ideal)) (hr c : (⟨S16384x256, .f32⟩ : BufTy).Contents (Elt Ideal)) (b : Fin 16384) (j : Fin 128) :
    Stages.stepOut q Wih Whh bih bhh hr c (ix2 b j)
      = Cert.Spec.hnext (fun k => q (ix2 b k))
          (Cert.Spec.gates (fun a k => Wih (ix2 a k)) (fun a k => Whh (ix2 a k)) (fun a => bih (ix1 a)) (fun a => bhh (ix1 a))
            (fun k => q (ix2 b k)) (fun k => hr (ix2 b k)))
          (fun k => c (ix2 b k)) j := by
  rw [stepOut_eq, outArr_apply]
  exact congrArg (fun G => Cert.Spec.hnext (fun k => q (ix2 b k)) G (fun k => c (ix2 b k)) j)
    (funext fun a => gatesArr_apply q Wih Whh bih bhh hr b a)

/-- The zero array at an entry is the zero word's value. -/
theorem zeros_apply (i : S16384x256.Idx) : Stages.zeros (F := Ideal) i = Cert.Spec.c0 := rfl

end Cert.ReferenceIdeal.Read

end
-- ==== Proof.RefReadB.lean ====
/-
  The attention read-out and the final inner products of the reference, read one entry at a time on the extended reals.

  The next hidden input of query row `b` is the step's output row followed by the read-out over the support set; the
  support set here is ONE vector, so the row's logits are one number, and when that number is real the softmax over it is
  the constant one: the maximum of the logit with minus infinity is the logit, the logit less itself is zero, whose
  exponential is one, the sum of the one exponential from zero is one, and one over one is one. The read-out, the sum
  over the one support row of the weight times the row, is then the support vector itself. The final result at row `b`
  is the row's inner product with the support vector.
-/
import proofs.«162834_g48816598286877_cont_sun_m_45_4_alg».proof.Proof.RefStages
import proofs.«162834_g48816598286877_cont_sun_m_45_4_alg».proof.Proof.Spec
import proofs.«162834_g48816598286877_cont_sun_m_45_4_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read

open Cert.ReferenceIdeal Cert.ReferenceIdeal.Gen Idealize.ShloMosaic Idealize.ShloMosaic.ValueIdx

/-! ## The two stages as compositions of array functions (any float values) -/

section Compose
variable {F : FTy → Type} [FloatOps F]

/-- The logits: every output row's inner product with the (one) support vector. -/
def logitArr (h : (⟨S16384x128, .f32⟩ : BufTy).Contents (Elt F)) (sg : (⟨S1x128, .f32⟩ : BufTy).Contents (Elt F)) : (⟨S16384x1, .f32⟩ : BufTy).Contents (Elt F) :=
  Host.dotGeneral dot_S16384x128_S128x1_S16384x1_1_0_0_1_n_n none h (transpose S128x1 [1, 0] sg transposes_S1x128_S128x1_1_0)

/-- Each row's largest logit, from minus infinity. -/
def mxArr (L : (⟨S16384x1, .f32⟩ : BufTy).Contents (Elt F)) : (⟨S16384, .f32⟩ : BufTy).Contents (Elt F) :=
  maximumf (broadcastInDim S16384 ![] bcast_S_S16384 (constant S_ .f32 0xFF800000#32))
    (Host.reduce FloatOps.maximumf L (constant S_ .f32 0xFF800000#32) reducesTo_S16384x1_S16384_d1 h_S_)

/-- The exponentials of the logits less their row's largest. -/
def expArr (L : (⟨S16384x1, .f32⟩ : BufTy).Contents (Elt F)) : (⟨S16384x1, .f32⟩ : BufTy).Contents (Elt F) :=
  Host.exp (subf L (broadcastInDim S16384x1 ![0] bcast_S16384_S16384x1_0 (mxArr L)))

/-- The softmax weights: each exponential over its row's sum. -/
def attnArr (L : (⟨S16384x1, .f32⟩ : BufTy).Contents (Elt F)) : (⟨S16384x1, .f32⟩ : BufTy).Contents (Elt F) :=
  Host.divf (expArr L)
    (broadcastInDim S16384x1 ![0] bcast_S16384_S16384x1_0
      (Host.reduceAdd (expArr L) (constant S_ .f32 0x00000000#32) reducesTo_S16384x1_S16384_d1 h_S_))

/-- The read-out: the weights times the support set. -/
def readArr (L : (⟨S16384x1, .f32⟩ : BufTy).Contents (Elt F)) (sg : (⟨S1x128, .f32⟩ : BufTy).Contents (Elt F)) : (⟨S16384x128, .f32⟩ : BufTy).Contents (Elt F) :=
  Host.dotGeneral dot_S16384x1_S1x128_S16384x128_1_0_0_1_n_n none (attnArr L) sg

/-- The next hidden input is the output followed by the read-out of its logits. -/
theorem nextHidden_eq (h : (⟨S16384x128, .f32⟩ : BufTy).Contents (Elt F)) (sg : (⟨S1x128, .f32⟩ : BufTy).Contents (Elt F)) :
    Stages.nextHidden h sg
      = concatenate S16384x256 1 [⟨S16384x128, h⟩, ⟨S16384x128, readArr (logitArr h sg) sg⟩]
          concatenates_S16384x128_S16384x128_S16384x256_d1 := rfl

/-- The result is the logits of the last output, as a vector. -/
theorem similarity_eq (h : (⟨S16384x128, .f32⟩ : BufTy).Contents (Elt F)) (sg : (⟨S1x128, .f32⟩ : BufTy).Contents (Elt F)) :
    Stages.similarity h sg = shapeCast S16384 (logitArr h sg) shapeCasts_S16384x1_S16384 := rfl

end Compose

/-! ## Folds and sums over one index -/

/-- A fold over the one-element index set is one application. -/
theorem fold_fin1 {α : Type} (f : α → α → α) [Std.Commutative f] [Std.Associative f] (b : α) (g : Fin 1 → α) :
    (Finset.univ : Finset (Fin 1)).fold f b g = f (g 0) b :=
  (congrArg (fun s => Finset.fold f b g s) (Finset.univ_unique (α := Fin 1))).trans
    (Finset.fold_singleton.trans (congrArg (fun k => f (g k) b) (Subsingleton.elim _ _)))

/-- A sum over the one-element index set is its one term. -/
theorem sum_fin1 (g : Fin 1 → EReal) : ∑ k : Fin 1, g k = g 0 := Fin.sum_univ_one g

/-! ## Reading at an index, on the extended reals -/

/-- A plain matrix product at an entry: the sum over the contracted axis. -/
theorem dotB_apply {M K N : ℕ} (D : DotDims ⟨2, ![M, K]⟩ ⟨2, ![K, N]⟩ ⟨2, ![M, N]⟩) (hD : D = DotDims.plain M K N)
    (x : (⟨2, ![M, K]⟩ : Shape).Idx → EReal) (w : (⟨2, ![K, N]⟩ : Shape).Idx → EReal) (i : Fin M) (j : Fin N) :
    Host.dotGeneral (F := Ideal) (φ₁ := .f32) (φ₂ := .f32) D none x w (ix2 i j) = ∑ k : Fin K, x (ix2 i k) * w (ix2 k j) := by
  subst hD
  exact Cert.LibDense.dotGeneral_plain .single x w (ix2 i j)

/-- A product against a transposed matrix, at an entry: row of the operand times row of the matrix. -/
theorem dotBT_apply {M K N : ℕ} (D : DotDims ⟨2, ![M, K]⟩ ⟨2, ![K, N]⟩ ⟨2, ![M, N]⟩) (hD : D = DotDims.plain M K N)
    (x : (⟨2, ![M, K]⟩ : Shape).Idx → EReal) (W : (⟨2, ![N, K]⟩ : Shape).Idx → EReal)
    (hT : (⟨2, ![N, K]⟩ : Shape).Transposes [1, 0] ⟨2, ![K, N]⟩) (i : Fin M) (j : Fin N) :
    Host.dotGeneral (F := Ideal) (φ₁ := .f32) (φ₂ := .f32) D none x (transpose ⟨2, ![K, N]⟩ [1, 0] W hT) (ix2 i j)
      = ∑ k : Fin K, x (ix2 i k) * W (ix2 j k) := by
  rw [dotB_apply D hD]
  exact Finset.sum_congr rfl fun k _ => by rw [transpose_ix2_apply]

/-- The logit of row `b`: the row's inner product with the support vector. -/
theorem logitArr_apply (h : (⟨S16384x128, .f32⟩ : BufTy).Contents (Elt Ideal)) (sg : (⟨S1x128, .f32⟩ : BufTy).Contents (Elt Ideal)) (b : Fin 16384) :
    logitArr h sg (ix2 b (0 : Fin 1)) = ∑ k : Fin 128, h (ix2 b k) * sg (ix2 (0 : Fin 1) k) :=
  dotBT_apply dot_S16384x128_S128x1_S16384x1_1_0_0_1_n_n rfl h sg transposes_S1x128_S128x1_1_0 b 0

/-- A column vector's one coordinate put back into a row index. -/
theorem lift_col (hR : S16384x1.Reduces [1] S16384) (b : Fin 16384) (k : Fin (S16384x1.size 1)) :
    hR.lift (ix1 b) k = ix2 b (0 : Fin 1) := by
  have hk : k.val < 1 := k.isLt
  funext c
  apply Fin.ext
  match c with
  | ⟨0, _⟩ => rfl
  | ⟨1, _⟩ =>
    show k.val = 0
    omega

/-- A vector broadcast to one column, at the column's entry of row `b`. -/
theorem bcastCol_apply (m : (⟨S16384, .f32⟩ : BufTy).Contents (Elt Ideal)) (b : Fin 16384) :
    broadcastInDim S16384x1 ![0] bcast_S16384_S16384x1_0 m (ix2 b (0 : Fin 1)) = m (ix1 b) := by
  refine broadcastInDim_apply _ _ _ _ (ix1 b) (fun c => ?_)
  match c with
  | ⟨0, _⟩ => rfl

/-- The maximum-reduce of a one-column array, at row `b`: the maximum of the row's entry and the initial value. -/
theorem reduceMax_row (L : (⟨S16384x1, .f32⟩ : BufTy).Contents (Elt Ideal)) (b : Fin 16384) :
    Host.reduce (FloatOps.maximumf (F := Ideal) (φ := .f32)) L (constant (F := Ideal) S_ .f32 0xFF800000#32) reducesTo_S16384x1_S16384_d1 h_S_ (ix1 b)
      = max (L (ix2 b (0 : Fin 1))) (Ideal.ofBits .f32 0xFF800000#32) := by
  have hR : S16384x1.Reduces [1] S16384 := by decide
  rw [Host.reduce_eq_fold_single (FloatOps.maximumf (F := Ideal) (φ := .f32)) L _ reducesTo_S16384x1_S16384_d1 hR h_S_]
  refine (fold_fin1 (FloatOps.maximumf (F := Ideal) (φ := .f32)) _ _).trans ?_
  exact congrArg (fun i => max (L i) (Ideal.ofBits .f32 0xFF800000#32)) (lift_col hR b _)

/-- The add-reduce of a one-column array from the zero word, at row `b`: the row's entry. -/
theorem reduceAdd_row (E : (⟨S16384x1, .f32⟩ : BufTy).Contents (Elt Ideal)) (b : Fin 16384) :
    Host.reduceAdd (F := Ideal) (φ := .f32) E (constant S_ .f32 0x00000000#32) reducesTo_S16384x1_S16384_d1 h_S_ (ix1 b) = E (ix2 b (0 : Fin 1)) := by
  have hR : S16384x1.Reduces [1] S16384 := by decide
  show Ideal.hostReduceAdd reducesTo_S16384x1_S16384_d1 E (Ideal.ofBits .f32 0x00000000#32) (ix1 b) = _
  rw [Ideal.hostReduceAdd_single reducesTo_S16384x1_S16384_d1 hR, Ideal.ofBits_zero_f32, zero_add]
  exact (sum_fin1 (fun k => E (hR.lift (ix1 b) k))).trans (congrArg E (lift_col hR b _))

/-- Each row's largest logit is its one logit. -/
theorem mxArr_apply (L : (⟨S16384x1, .f32⟩ : BufTy).Contents (Elt Ideal)) (b : Fin 16384) : mxArr L (ix1 b) = L (ix2 b (0 : Fin 1)) := by
  have hb : ∀ y : EReal, max (Ideal.ofBits .f32 0xFF800000#32) y = y := fun y => by simp [Ideal.ofBits, Ideal.ieee]
  unfold mxArr
  rw [maximumf_apply, reduceMax_row]
  show max (Ideal.ofBits .f32 0xFF800000#32) (max (L (ix2 b (0 : Fin 1))) (Ideal.ofBits .f32 0xFF800000#32)) = _
  rw [max_comm (L (ix2 b (0 : Fin 1))), hb, hb]

/-- The exponential of zero is one. -/
theorem exp_zero_eq : Ideal.exp (0 : EReal) = 1 := by
  rw [← EReal.coe_zero, Ideal.exp_coe, Real.exp_zero, EReal.coe_one]

/-- One over one is one. -/
theorem div_one_one : Ideal.div (1 : EReal) 1 = 1 := by
  have h := Ideal.div_coe (y := 1) one_ne_zero (1 : EReal)
  simpa using h

/-- A real logit's exponential, less the row's largest, is one. -/
theorem expArr_apply (L : (⟨S16384x1, .f32⟩ : BufTy).Contents (Elt Ideal)) (b : Fin 16384) (s : ℝ) (hL : L (ix2 b (0 : Fin 1)) = (s : EReal)) :
    expArr L (ix2 b (0 : Fin 1)) = 1 := by
  have hm := mxArr_apply L b
  have hc := bcastCol_apply (mxArr L) b
  show Ideal.exp (L (ix2 b (0 : Fin 1)) - broadcastInDim S16384x1 ![0] bcast_S16384_S16384x1_0 (mxArr L) (ix2 b (0 : Fin 1))) = 1
  rw [hc, hm, hL, ← EReal.coe_sub, sub_self, EReal.coe_zero]
  exact exp_zero_eq

/-- The host's quotient of two arrays at an entry is the quotient of the entries. -/
theorem hostDivf_apply {s : Shape} (x y : FVec Ideal s .f32) (i : s.Idx) : Host.divf x y i = Ideal.div (x i) (y i) := rfl

/-- The softmax weight of a row whose one logit is real is one. -/
theorem attnArr_apply (L : (⟨S16384x1, .f32⟩ : BufTy).Contents (Elt Ideal)) (b : Fin 16384) (s : ℝ) (hL : L (ix2 b (0 : Fin 1)) = (s : EReal)) :
    attnArr L (ix2 b (0 : Fin 1)) = 1 := by
  have he := expArr_apply L b s hL
  have hr := reduceAdd_row (expArr L) b
  unfold attnArr
  rw [hostDivf_apply, bcastCol_apply, hr, he]
  exact div_one_one

/-- The read-out of a row whose logit is real is the support vector. -/
theorem readArr_apply (h : (⟨S16384x128, .f32⟩ : BufTy).Contents (Elt Ideal)) (sg : (⟨S1x128, .f32⟩ : BufTy).Contents (Elt Ideal)) (b : Fin 16384) (j : Fin 128) (s : ℝ)
    (hs : (∑ k : Fin 128, h (ix2 b k) * sg (ix2 (0 : Fin 1) k)) = (s : EReal)) :
    readArr (logitArr h sg) sg (ix2 b j) = sg (ix2 (0 : Fin 1) j) := by
  have ha := attnArr_apply (logitArr h sg) b s ((logitArr_apply h sg b).trans hs)
  unfold readArr
  rw [dotB_apply dot_S16384x1_S1x128_S16384x128_1_0_0_1_n_n rfl, sum_fin1, ha, one_mul]

/-! ## The stages at an index -/

/-- The next hidden input of query row `b`, its logit real: the output row followed by the support vector. -/
theorem nextHidden_apply (h : (⟨S16384x128, .f32⟩ : BufTy).Contents (Elt Ideal)) (sg : (⟨S1x128, .f32⟩ : BufTy).Contents (Elt Ideal)) (b : Fin 16384) (k : Fin 256)
    (hs : ∃ s : ℝ, (∑ k : Fin 128, h (ix2 b k) * sg (ix2 (0 : Fin 1) k)) = (s : EReal)) :
    Stages.nextHidden h sg (ix2 b k)
      = Cert.Spec.cat (fun k => h (ix2 b k)) (fun k => sg (ix2 (0 : Fin 1) k)) k := by
  obtain ⟨s, hs⟩ := hs
  rw [nextHidden_eq]
  unfold Cert.Spec.cat
  by_cases hk : k.val < 128
  · rw [dif_pos hk]
    exact concatenate_pair_apply_left _ h _ concatenates_S16384x128_S16384x128_S16384x256_d1 (ix2 b k) rfl
      (ix2 b ⟨k.val, hk⟩) (fun c => by
        match c with
        | ⟨0, _⟩ => rfl
        | ⟨1, _⟩ => rfl)
  · rw [dif_neg hk]
    have hlt : k.val - 128 < 128 := by
      have := k.isLt
      omega
    refine (concatenate_pair_apply_right _ h _ concatenates_S16384x128_S16384x128_S16384x256_d1 (ix2 b k) rfl rfl
      (ix2 b ⟨k.val - 128, hlt⟩) (fun c hc => ?_) ?_).trans ?_
    · match c with
      | ⟨0, _⟩ => rfl
      | ⟨1, _⟩ => exact absurd rfl hc
    · show k.val - 128 + 128 = k.val
      omega
    · exact readArr_apply h sg b ⟨k.val - 128, hlt⟩ s hs

/-- The result at query row `b`: the last output row's inner product with the support vector. -/
theorem similarity_apply (h : (⟨S16384x128, .f32⟩ : BufTy).Contents (Elt Ideal)) (sg : (⟨S1x128, .f32⟩ : BufTy).Contents (Elt Ideal)) (b : Fin 16384) :
    Stages.similarity h sg (ix1 b) = ∑ k : Fin 128, h (ix2 b k) * sg (ix2 (0 : Fin 1) k) := by
  rw [similarity_eq]
  refine (shapeCast_apply _ shapeCasts_S16384x1_S16384 (ix1 b) (ix2 b (0 : Fin 1)) ?_).trans (logitArr_apply h sg b)
  rw [Shape.rowMajor_val_two, Shape.rowMajor_val_one]
  show b.val * 1 + 0 = b.val
  omega

end Cert.ReferenceIdeal.Read

end
-- ==== Proof.RefSupport.lean ====
/-
  The support encoder of the reference program, read index by index on the extended reals.

  The reference transposes each weight matrix and contracts against it, so a product's entry is a row of the operand
  times a row of the weights; a bias vector is broadcast to one row and then down all rows; a sum along an axis starts
  from the zero word, so it is the finite sum over that axis; the variance's divisor is the row length minus one,
  computed from the integer one, and the guard that this divisor is positive selects the quotient. Each intermediate
  array is read at an index, and the chain ends at the mean of the five normalised rows of the residual.
-/
import proofs.«162834_g48816598286877_cont_sun_m_45_4_alg».proof.Proof.RefStages
import proofs.«162834_g48816598286877_cont_sun_m_45_4_alg».proof.Proof.Spec
import proofs.«162834_g48816598286877_cont_sun_m_45_4_alg».proof.Proof.LibDense
import proofs.«162834_g48816598286877_cont_sun_m_45_4_alg».proof.Proof.Reals
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Support

open Cert.ReferenceIdeal Cert.ReferenceIdeal.Gen Idealize.ShloMosaic Idealize.ShloMosaic.ValueIdx

/-! ## Layout readings -/

/-- A vector broadcast to one row and then down five rows, at (s, j): the vector's entry j. -/
theorem row256_apply (v : FVec Ideal S256 .f32) (s : Fin 5) (j : Fin 256) :
    broadcastInDim S5x256 ![0, 1] bcast_S1x256_S5x256_0_1 (broadcastInDim S1x256 ![1] bcast_S256_S1x256_1 v) (ix2 s j)
      = v (ix1 j) := by
  refine (broadcastInDim_apply _ _ _ (ix2 s j) (ix2 (0 : Fin 1) j) (fun c => ?_)).trans ?_
  · match c with
    | ⟨0, _⟩ => rfl
    | ⟨1, _⟩ => rfl
  · refine broadcastInDim_apply _ _ _ _ (ix1 j) (fun c => ?_)
    match c with
    | ⟨0, _⟩ => rfl

/-- The same for a vector of length 128. -/
theorem row128_apply (v : FVec Ideal S128 .f32) (s : Fin 5) (j : Fin 128) :
    broadcastInDim S5x128 ![0, 1] bcast_S1x128_S5x128_0_1 (broadcastInDim S1x128 ![1] bcast_S128_S1x128_1 v) (ix2 s j)
      = v (ix1 j) := by
  refine (broadcastInDim_apply _ _ _ (ix2 s j) (ix2 (0 : Fin 1) j) (fun c => ?_)).trans ?_
  · match c with
    | ⟨0, _⟩ => rfl
    | ⟨1, _⟩ => rfl
  · refine broadcastInDim_apply _ _ _ _ (ix1 j) (fun c => ?_)
    match c with
    | ⟨0, _⟩ => rfl

/-- A vector of five entries kept as a column, at (s, u): the vector's entry s. -/
theorem col5_apply (v : FVec Ideal S5 .f32) (s : Fin 5) (u : Fin 1) :
    broadcastInDim S5x1 ![0] bcast_S5_S5x1_0 v (ix2 s u) = v (ix1 s) := by
  refine broadcastInDim_apply _ _ _ _ (ix1 s) (fun c => ?_)
  match c with
  | ⟨0, _⟩ => rfl

/-- A column of five entries broadcast along 128 columns, at (s, j): the column's entry s. -/
theorem colBcast_apply (v : FVec Ideal S5x1 .f32) (s : Fin 5) (j : Fin 128) :
    broadcastInDim S5x128 ![0, 1] bcast_S5x1_S5x128_0_1 v (ix2 s j) = v (ix2 s (0 : Fin 1)) := by
  refine broadcastInDim_apply _ _ _ _ (ix2 s (0 : Fin 1)) (fun c => ?_)
  match c with
  | ⟨0, _⟩ => rfl
  | ⟨1, _⟩ => rfl

/-- A vector of 128 entries kept as one row, at (u, j): the vector's entry j. -/
theorem row1_apply (v : FVec Ideal S128 .f32) (u : Fin 1) (j : Fin 128) :
    broadcastInDim S1x128 ![1] bcast_S128_S1x128_1 v (ix2 u j) = v (ix1 j) := by
  refine broadcastInDim_apply _ _ _ _ (ix1 j) (fun c => ?_)
  match c with
  | ⟨0, _⟩ => rfl

/-- The sum of a `[5, 128]` array along its last axis from the zero word, at row s. -/
theorem sumLast_apply (t : FVec Ideal S5x128 .f32) (s : Fin 5) :
    Host.reduceAdd t (constant S_ .f32 0x00000000#32) reducesTo_S5x128_S5_d1 h_S_ (ix1 s) = ∑ k : Fin 128, t (ix2 s k) := by
  have hR : S5x128.Reduces [1] S5 := by decide
  show Ideal.hostReduceAdd reducesTo_S5x128_S5_d1 t (Ideal.ofBits .f32 0x00000000#32) (ix1 s) = _
  rw [Ideal.hostReduceAdd_single reducesTo_S5x128_S5_d1 hR, Ideal.ofBits_zero_f32, zero_add]
  refine Finset.sum_congr rfl fun k _ => congrArg t (funext fun a => Fin.ext ?_)
  match a with
  | ⟨0, _⟩ => rfl
  | ⟨1, _⟩ => rfl

/-- The sum of a `[5, 128]` array along its first axis from the zero word, at column j. -/
theorem sumFirst_apply (t : FVec Ideal S5x128 .f32) (j : Fin 128) :
    Host.reduceAdd t (constant S_ .f32 0x00000000#32) reducesTo_S5x128_S128_d0 h_S_ (ix1 j) = ∑ s : Fin 5, t (ix2 s j) := by
  have hR : S5x128.Reduces [0] S128 := by decide
  show Ideal.hostReduceAdd reducesTo_S5x128_S128_d0 t (Ideal.ofBits .f32 0x00000000#32) (ix1 j) = _
  rw [Ideal.hostReduceAdd_single reducesTo_S5x128_S128_d0 hR, Ideal.ofBits_zero_f32, zero_add]
  refine Finset.sum_congr rfl fun s _ => congrArg t (funext fun a => Fin.ext ?_)
  match a with
  | ⟨0, _⟩ => rfl
  | ⟨1, _⟩ => rfl

/-! ## The residual -/

section
variable (a1 : FVec Ideal S5x128 .f32) (a2 : FVec Ideal S256x128 .f32) (a3 : FVec Ideal S256 .f32)
  (a4 : FVec Ideal S128x256 .f32) (a5 : FVec Ideal S128 .f32)

/-- The hidden layer as the reference computes it. -/
def hidR : FVec Ideal S5x256 .f32 :=
  maximumf (addf (Host.dotGeneral dot_S5x128_S128x256_S5x256_1_0_0_1_n_n none a1 (transpose S128x256 [1, 0] a2 transposes_S256x128_S128x256_1_0))
      (broadcastInDim S5x256 ![0, 1] bcast_S1x256_S5x256_0_1 (broadcastInDim S1x256 ![1] bcast_S256_S1x256_1 a3)))
    (broadcastInDim S5x256 ![] bcast_S_S5x256 (constant S_ .f32 0x00000000#32))

theorem hidR_apply (s : Fin 5) (a : Fin 256) :
    hidR a1 a2 a3 (ix2 s a)
      = Cert.Spec.hid (fun s k => a1 (ix2 s k)) (fun a k => a2 (ix2 a k)) (fun a => a3 (ix1 a)) s a := by
  unfold hidR Cert.Spec.hid
  show max (_ + _) _ = _
  refine congrArg₂ max (congrArg₂ (· + ·) ?_ ?_) rfl
  · refine (Cert.LibDense.dotGeneral_plain .single a1 _ (ix2 s a)).trans ?_
    unfold Cert.LibDense.prod
    exact Finset.sum_congr rfl fun k _ => congrArg (a1 (ix2 s k) * ·) (transpose_ix2_apply a2 _ k a)
  · exact row256_apply a3 s a

/-- The residual as the reference computes it. -/
def resR : FVec Ideal S5x128 .f32 :=
  addf (addf (Host.dotGeneral dot_S5x256_S256x128_S5x128_1_0_0_1_n_n none (hidR a1 a2 a3) (transpose S256x128 [1, 0] a4 transposes_S128x256_S256x128_1_0))
      (broadcastInDim S5x128 ![0, 1] bcast_S1x128_S5x128_0_1 (broadcastInDim S1x128 ![1] bcast_S128_S1x128_1 a5))) a1

theorem resR_apply (s : Fin 5) (j : Fin 128) :
    resR a1 a2 a3 a4 a5 (ix2 s j)
      = Cert.Spec.res (fun s k => a1 (ix2 s k)) (fun a k => a2 (ix2 a k)) (fun a => a3 (ix1 a))
          (fun a k => a4 (ix2 a k)) (fun a => a5 (ix1 a)) s j := by
  unfold resR Cert.Spec.res
  show (_ + _) + _ = _
  refine congrArg₂ (· + ·) (congrArg₂ (· + ·) ?_ ?_) rfl
  · refine (Cert.LibDense.dotGeneral_plain .single (hidR a1 a2 a3) _ (ix2 s j)).trans ?_
    unfold Cert.LibDense.prod
    exact Finset.sum_congr rfl fun k _ =>
      congrArg₂ (· * ·) (hidR_apply a1 a2 a3 s k) (transpose_ix2_apply a4 _ k j)
  · exact row128_apply a5 s j

end

/-! ## The normalisation of a `[5, 128]` array -/

section
variable (t : FVec Ideal S5x128 .f32)

/-- The row means, kept as a column. -/
def meanR : FVec Ideal S5x1 .f32 :=
  Host.divf (broadcastInDim S5x1 ![0] bcast_S5_S5x1_0 (Host.reduceAdd t (constant S_ .f32 0x00000000#32) reducesTo_S5x128_S5_d1 h_S_))
    (broadcastInDim S5x1 ![] bcast_S_S5x1 (constant S_ .f32 0x43000000#32))

theorem meanR_apply (s : Fin 5) (u : Fin 1) :
    meanR t (ix2 s u) = Cert.Spec.mean (fun s k => t (ix2 s k)) s := by
  unfold meanR Cert.Spec.mean
  show Ideal.div _ _ = _
  refine congrArg₂ Ideal.div ?_ rfl
  exact (col5_apply _ s u).trans (sumLast_apply t s)

/-- The array minus its row means. -/
def subR : FVec Ideal S5x128 .f32 := subf t (broadcastInDim S5x128 ![0, 1] bcast_S5x1_S5x128_0_1 (meanR t))

theorem subR_apply (s : Fin 5) (j : Fin 128) :
    subR t (ix2 s j) = t (ix2 s j) - Cert.Spec.mean (fun s k => t (ix2 s k)) s := by
  unfold subR
  show _ - _ = _
  rw [colBcast_apply, meanR_apply]

/-- The row length minus one, from the integer one. -/
def nm1 : FVec Ideal S_ .f32 := subf (constant S_ .f32 0x43000000#32) (sitofp .f32 (constantI S_ 32 1#32))

/-- The row variances, kept as a column, guarded by the divisor being positive. -/
def varR : FVec Ideal S5x1 .f32 :=
  select (broadcastInDim S5x1 ![] bcast_S_S5x1 (cmpf .ogt nm1 (constant S_ .f32 0x00000000#32)))
    (Host.divf (broadcastInDim S5x1 ![0] bcast_S5_S5x1_0 (Host.reduceAdd (mulf (subR t) (subR t)) (constant S_ .f32 0x00000000#32) reducesTo_S5x128_S5_d1 h_S_))
      (broadcastInDim S5x1 ![] bcast_S_S5x1 nm1))
    (broadcastInDim S5x1 ![] bcast_S_S5x1 (id (constant S_ .f32 0x7FC00000#32)))

theorem varR_apply (h127 : Cert.Spec.c128 - FloatOps.sitofp (F := Ideal) .f32 1#32 = Cert.Spec.c127)
    (hgt : FloatOps.cmpf (F := Ideal) (φ := .f32) .ogt Cert.Spec.c127 Cert.Spec.c0 = 1#1) (s : Fin 5) (u : Fin 1) :
    varR t (ix2 s u) = Cert.Spec.var (fun s k => t (ix2 s k)) s := by
  unfold varR Cert.Spec.var nm1
  show Scalar.select (FloatOps.cmpf (F := Ideal) (φ := .f32) .ogt (Cert.Spec.c128 - FloatOps.sitofp (F := Ideal) .f32 1#32) Cert.Spec.c0)
      (Ideal.div _ (Cert.Spec.c128 - FloatOps.sitofp (F := Ideal) .f32 1#32)) _ = _
  rw [h127, hgt, select_one]
  refine congrArg₂ Ideal.div ?_ rfl
  refine (col5_apply _ s u).trans ((sumLast_apply _ s).trans ?_)
  refine Finset.sum_congr rfl fun k _ => ?_
  show _ * _ = _
  rw [subR_apply]

/-- The centred rows over the standard deviation plus the small constant. -/
def cenR : FVec Ideal S5x128 .f32 :=
  Host.divf (subR t)
    (broadcastInDim S5x128 ![0, 1] bcast_S5x1_S5x128_0_1
      (addf (Host.sqrt (varR t)) (broadcastInDim S5x1 ![] bcast_S_S5x1 (constant S_ .f32 0x3A83126F#32))))

theorem cenR_apply (h127 : Cert.Spec.c128 - FloatOps.sitofp (F := Ideal) .f32 1#32 = Cert.Spec.c127)
    (hgt : FloatOps.cmpf (F := Ideal) (φ := .f32) .ogt Cert.Spec.c127 Cert.Spec.c0 = 1#1) (s : Fin 5) (j : Fin 128) :
    cenR t (ix2 s j) = Cert.Spec.cen (fun s k => t (ix2 s k)) s j := by
  unfold cenR Cert.Spec.cen
  show Ideal.div _ _ = _
  rw [colBcast_apply, subR_apply]
  show Ideal.div _ (Ideal.sqrt _ + _) = _
  rw [varR_apply t h127 hgt]
  rfl

end

/-- The five rows scaled by the gain, shifted by the bias, summed and divided by five. -/
def sgR (v : FVec Ideal S5x128 .f32) (a6 a7 : FVec Ideal S128 .f32) : FVec Ideal S1x128 .f32 :=
  Host.divf
    (broadcastInDim S1x128 ![1] bcast_S128_S1x128_1
      (Host.reduceAdd
        (addf (mulf v (broadcastInDim S5x128 ![0, 1] bcast_S1x128_S5x128_0_1 (broadcastInDim S1x128 ![1] bcast_S128_S1x128_1 a6)))
          (broadcastInDim S5x128 ![0, 1] bcast_S1x128_S5x128_0_1 (broadcastInDim S1x128 ![1] bcast_S128_S1x128_1 a7)))
        (constant S_ .f32 0x00000000#32) reducesTo_S5x128_S128_d0 h_S_))
    (broadcastInDim S1x128 ![] bcast_S_S1x128 (constant S_ .f32 0x40A00000#32))

theorem sgR_apply (v : FVec Ideal S5x128 .f32) (a6 a7 : FVec Ideal S128 .f32) (j : Fin 128) :
    sgR v a6 a7 (ix2 0 j)
      = Ideal.div (∑ s : Fin 5, (v (ix2 s j) * a6 (ix1 j) + a7 (ix1 j))) Cert.Spec.c5 := by
  unfold sgR
  show Ideal.div _ _ = _
  refine congrArg₂ Ideal.div ?_ rfl
  refine (row1_apply _ 0 j).trans ((sumFirst_apply _ j).trans ?_)
  refine Finset.sum_congr rfl fun s _ => ?_
  show _ * _ + _ = _
  rw [row128_apply, row128_apply]

/-- The reference's support encoder is the scaled mean of the normalisation of its residual. -/
theorem supportVec_eq (a1 : FVec Ideal S5x128 .f32) (a2 : FVec Ideal S256x128 .f32) (a3 : FVec Ideal S256 .f32)
    (a4 : FVec Ideal S128x256 .f32) (a5 a6 a7 : FVec Ideal S128 .f32) :
    Cert.ReferenceIdeal.Stages.supportVec (F := Ideal) a1 a2 a3 a4 a5 a6 a7 = sgR (cenR (resR a1 a2 a3 a4 a5)) a6 a7 := by
  unfold Cert.ReferenceIdeal.Stages.supportVec sgR cenR varR nm1 subR meanR resR hidR
  rfl

/-- The reference's support vector at column j is the mean of the five normalised rows of the residual, given that
    the row length minus one is 127 and that 127 is positive. -/
theorem ref_support_of (h127 : Cert.Spec.c128 - FloatOps.sitofp (F := Ideal) .f32 1#32 = Cert.Spec.c127)
    (hgt : FloatOps.cmpf (F := Ideal) (φ := .f32) .ogt Cert.Spec.c127 Cert.Spec.c0 = 1#1)
    (a1 : S5x128.Idx → EReal) (a2 : S256x128.Idx → EReal) (a3 : S256.Idx → EReal)
    (a4 : S128x256.Idx → EReal) (a5 a6 a7 : S128.Idx → EReal) (j : Fin 128) :
    Cert.ReferenceIdeal.Stages.supportVec (F := Ideal) a1 a2 a3 a4 a5 a6 a7 (ix2 0 j)
      = Cert.Spec.sgOf (Cert.Spec.res (fun s k => a1 (ix2 s k)) (fun a k => a2 (ix2 a k)) (fun a => a3 (ix1 a))
          (fun a k => a4 (ix2 a k)) (fun a => a5 (ix1 a))) (fun a => a6 (ix1 a)) (fun a => a7 (ix1 a)) j := by
  have hT : (fun s k => resR a1 a2 a3 a4 a5 (ix2 s k))
      = Cert.Spec.res (fun s k => a1 (ix2 s k)) (fun a k => a2 (ix2 a k)) (fun a => a3 (ix1 a))
          (fun a k => a4 (ix2 a k)) (fun a => a5 (ix1 a)) :=
    funext fun s => funext fun k => resR_apply a1 a2 a3 a4 a5 s k
  rw [supportVec_eq, sgR_apply]
  unfold Cert.Spec.sgOf Cert.Spec.lnorm
  refine congrArg₂ Ideal.div (Finset.sum_congr rfl fun s _ => ?_) rfl
  rw [cenR_apply _ h127 hgt, hT]

/-! ## The two constant facts, and the statement without hypotheses -/

/-- The row length minus the integer one is 127. -/
theorem len_sub_one : Cert.Spec.c128 - FloatOps.sitofp (F := Ideal) .f32 1#32 = Cert.Spec.c127 := by
  have h1 : FloatOps.sitofp (F := Ideal) .f32 1#32 = ((1 : ℝ) : EReal) := by
    show ((((1#32 : BitVec 32).toInt : ℤ) : ℝ) : EReal) = ((1 : ℝ) : EReal)
    have : (1#32 : BitVec 32).toInt = 1 := by decide
    rw [this]
    norm_num
  rw [h1, Cert.Reals.c128_eq, Cert.Reals.c127_eq, ← EReal.coe_sub]
  norm_num

/-- 127 is positive. -/
theorem len_sub_one_pos : FloatOps.cmpf (F := Ideal) (φ := .f32) .ogt Cert.Spec.c127 Cert.Spec.c0 = 1#1 := by
  have h : (Cert.Spec.c0 : EReal) < Cert.Spec.c127 := by
    rw [Cert.Reals.c0_eq, Cert.Reals.c127_eq]
    exact_mod_cast (by norm_num : (0 : ℝ) < 127)
  show BitVec.ofBool (decide (Cert.Spec.c0 < Cert.Spec.c127)) = 1#1
  rw [decide_eq_true h]
  rfl

/-- The reference's support vector at column j is the mean of the five normalised rows of the residual. -/
theorem ref_support (a1 : S5x128.Idx → EReal) (a2 : S256x128.Idx → EReal) (a3 : S256.Idx → EReal)
    (a4 : S128x256.Idx → EReal) (a5 a6 a7 : S128.Idx → EReal) (j : Fin 128) :
    Cert.ReferenceIdeal.Stages.supportVec (F := Ideal) a1 a2 a3 a4 a5 a6 a7 (ix2 0 j)
      = Cert.Spec.sgOf (Cert.Spec.res (fun s k => a1 (ix2 s k)) (fun a k => a2 (ix2 a k)) (fun a => a3 (ix1 a))
          (fun a k => a4 (ix2 a k)) (fun a => a5 (ix1 a))) (fun a => a6 (ix1 a)) (fun a => a7 (ix1 a)) j :=
  ref_support_of len_sub_one len_sub_one_pos a1 a2 a3 a4 a5 a6 a7 j

end Cert.ReferenceIdeal.Support

end
-- ==== Proof.Reals2.lean ====
/-
  More facts on the extended reals: the integer and comparison constants, which values of the encoder and of the
  cell are real numbers, and the attention over a single support vector.
-/
import Idealize.ShloMosaic.PureOps.Ideal
import proofs.«162834_g48816598286877_cont_sun_m_45_4_alg».proof.Proof.Spec
import proofs.«162834_g48816598286877_cont_sun_m_45_4_alg».proof.Proof.Reals

noncomputable section

namespace Cert.Reals

open Idealize.ShloMosaic Cert.Spec

/-! ## The integer and comparison constants -/

/-- The integer one, converted, is the real one. -/
theorem sitofp_one : FloatOps.sitofp (F := Ideal) .f32 (1#32 : BitVec 32) = 1 := by
  show (((1#32 : BitVec 32).toInt : ℝ) : EReal) = 1
  have h : (1#32 : BitVec 32).toInt = 1 := by first | rfl | decide | simp
  rw [h, Int.cast_one, EReal.coe_one]

/-- The unbiased variance's divisor: `128 - 1 = 127`. -/
theorem c128_sub_one : c128 - FloatOps.sitofp (F := Ideal) .f32 (1#32 : BitVec 32) = c127 := by
  rw [sitofp_one, c128_eq, c127_eq, ← EReal.coe_one, ← EReal.coe_sub]
  norm_num

/-- The divisor `127` is positive. -/
theorem cmp_c127_c0 : FloatOps.cmpf (F := Ideal) (φ := .f32) .ogt c127 c0 = 1#1 := by
  have h : c0 < c127 := by
    rw [c0_eq, c127_eq]
    exact_mod_cast (by norm_num : (0 : ℝ) < 127)
  show BitVec.ofBool (decide (c0 < c127)) = 1#1
  rw [decide_eq_true h]; rfl

/-! ## Which values are real numbers -/

theorem sig_real (x : EReal) : ∃ r : ℝ, 0 ≤ r ∧ r ≤ 1 ∧ sig x = (r : EReal) := by
  rw [sig_eq_logistic]
  induction x with
  | bot => exact ⟨0, le_refl _, zero_le_one, by rw [Ideal.logistic_bot, EReal.coe_zero]⟩
  | coe r =>
    have hp : 0 < 1 + Real.exp (-r) := by positivity
    refine ⟨(1 + Real.exp (-r))⁻¹, inv_nonneg.2 hp.le, ?_, Ideal.logistic_coe r⟩
    rw [inv_eq_one_div, div_le_one hp]
    linarith [Real.exp_pos (-r)]
  | top => exact ⟨1, zero_le_one, le_refl _, by rw [Ideal.logistic_top, EReal.coe_one]⟩

theorem tanh_real (x : EReal) : ∃ r : ℝ, |r| ≤ 1 ∧ Ideal.tanh x = (r : EReal) := by
  induction x with
  | bot => exact ⟨-1, by norm_num, by rw [Ideal.tanh_bot, EReal.coe_neg, EReal.coe_one]⟩
  | coe r => exact ⟨Real.tanh r, (Real.abs_tanh_lt_one r).le, Ideal.tanh_coe r⟩
  | top => exact ⟨1, by norm_num, by rw [Ideal.tanh_top, EReal.coe_one]⟩

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_neg {x : EReal} (hx : IsReal x) : IsReal (-x) := by
  obtain ⟨a, rfl⟩ := hx
  exact ⟨-a, (EReal.coe_neg a).symm⟩

theorem isReal_max {x y : EReal} (hx : IsReal x) (hy : IsReal y) : IsReal (max x y) := by
  rcases le_total x y with h | h
  · rw [max_eq_right h]; exact hy
  · rw [max_eq_left h]; exact hx

theorem isReal_finset_sum {ι : Type*} (s : Finset ι) (f : ι → EReal) :
    (∀ k ∈ s, IsReal (f k)) → IsReal (∑ k ∈ s, f k) := by
  classical
  refine Finset.induction_on s ?_ ?_
  · intro _
    rw [Finset.sum_empty]
    exact isReal_zero
  · intro a s ha ih h
    rw [Finset.sum_insert ha]
    exact isReal_add (h a (Finset.mem_insert_self a s)) (ih (fun k hk => h k (Finset.mem_insert_of_mem hk)))

theorem isReal_sum {n : ℕ} (f : Fin n → EReal) (h : ∀ k, IsReal (f k)) : IsReal (∑ k, f k) :=
  isReal_finset_sum Finset.univ f (fun k _ => h k)

/-- The coercion of a finite sum of reals is the sum of the coercions. -/
theorem coe_finset_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

theorem isReal_div_coe {x : EReal} (hx : IsReal x) {y : ℝ} (hy : y ≠ 0) : IsReal (Ideal.div x (y : EReal)) := by
  obtain ⟨a, rfl⟩ := hx
  rw [Ideal.div_coe hy, ← EReal.coe_mul]
  exact ⟨_, rfl⟩

theorem isReal_div {x y : EReal} (hx : IsReal x) (hy : IsReal y) (h0 : y ≠ 0) : IsReal (Ideal.div x y) := by
  obtain ⟨b, rfl⟩ := hy
  exact isReal_div_coe hx (fun hb => h0 (by rw [hb, EReal.coe_zero]))

theorem isReal_sqrt_coe {r : ℝ} (hr : 0 ≤ r) : IsReal (Ideal.sqrt (r : EReal)) := by
  rw [Ideal.sqrt_coe, if_neg (not_lt.2 hr)]
  exact ⟨_, rfl⟩

theorem isReal_tanh (x : EReal) : IsReal (Ideal.tanh x) := by
  obtain ⟨r, _, h⟩ := tanh_real x
  exact ⟨r, h⟩

theorem isReal_sig (x : EReal) : IsReal (sig x) := by
  obtain ⟨r, _, _, h⟩ := sig_real x
  exact ⟨r, h⟩

theorem sub_self_of_isReal {x : EReal} (hx : IsReal x) : x - x = 0 := by
  obtain ⟨a, rfl⟩ := hx
  rw [← EReal.coe_sub, sub_self, EReal.coe_zero]

theorem ideal_exp_zero : Ideal.exp 0 = 1 := by
  rw [← EReal.coe_zero, Ideal.exp_coe, Real.exp_zero, EReal.coe_one]

theorem ideal_exp_coe_zero : Ideal.exp ((0 : ℝ) : EReal) = 1 := by
  rw [Ideal.exp_coe, Real.exp_zero, EReal.coe_one]

/-! ## The attention over a single support vector -/

theorem div_one_one : Ideal.div 1 1 = 1 := by
  rw [Ideal.div, if_neg one_ne_zero, one_mul, ← EReal.coe_one, ← EReal.coe_inv, inv_one]

/-- The softmax over one real score is one. -/
theorem softmax_single (s : EReal) (hs : IsReal s) : Ideal.div (Ideal.exp (s - s)) (Ideal.exp (s - s)) = 1 := by
  rw [sub_self_of_isReal hs, ideal_exp_zero, div_one_one]

theorem softmax_single' (s : EReal) (hs : IsReal s) :
    Ideal.div (Ideal.exp (s - s)) (0 + Ideal.exp (s - s)) = 1 := by
  rw [zero_add, softmax_single s hs]

theorem max_bot_left (s : EReal) : max ⊥ s = s := max_eq_right bot_le

theorem max_bot_right (s : EReal) : max s ⊥ = s := max_eq_left bot_le

/-! ## Nonnegative reals -/

/-- An extended real that is a nonnegative real number. -/
def IsNN (x : EReal) : Prop := ∃ r : ℝ, 0 ≤ r ∧ x = (r : EReal)

theorem isReal_of_isNN {x : EReal} (h : IsNN x) : IsReal x := by
  obtain ⟨r, _, hr⟩ := h
  exact ⟨r, hr⟩

theorem isNN_zero : IsNN 0 := ⟨0, le_refl _, EReal.coe_zero.symm⟩

theorem isNN_add {x y : EReal} (hx : IsNN x) (hy : IsNN y) : IsNN (x + y) := by
  obtain ⟨a, ha, rfl⟩ := hx
  obtain ⟨b, hb, rfl⟩ := hy
  exact ⟨a + b, add_nonneg ha hb, (EReal.coe_add a b).symm⟩

theorem isNN_finset_sum {ι : Type*} (s : Finset ι) (f : ι → EReal) :
    (∀ k ∈ s, IsNN (f k)) → IsNN (∑ k ∈ s, f k) := by
  classical
  refine Finset.induction_on s ?_ ?_
  · intro _
    rw [Finset.sum_empty]
    exact isNN_zero
  · intro a s ha ih h
    rw [Finset.sum_insert ha]
    exact isNN_add (h a (Finset.mem_insert_self a s)) (ih (fun k hk => h k (Finset.mem_insert_of_mem hk)))

theorem isNN_mul_self {x : EReal} (hx : IsReal x) : IsNN (x * x) := by
  obtain ⟨a, rfl⟩ := hx
  exact ⟨a * a, mul_self_nonneg a, (EReal.coe_mul a a).symm⟩

theorem isNN_div_pos {x : EReal} (hx : IsNN x) {y : ℝ} (hy : 0 < y) : IsNN (Ideal.div x (y : EReal)) := by
  obtain ⟨a, ha, rfl⟩ := hx
  rw [Ideal.div_coe hy.ne', ← EReal.coe_mul]
  exact ⟨_, mul_nonneg ha (by positivity), rfl⟩

theorem isNN_sqrt {x : EReal} (hx : IsNN x) : IsNN (Ideal.sqrt x) := by
  obtain ⟨a, ha, rfl⟩ := hx
  rw [Ideal.sqrt_coe, if_neg (not_lt.2 ha)]
  exact ⟨_, Real.sqrt_nonneg a, rfl⟩

/-- A nonnegative real plus a positive real is a positive real. -/
theorem isNN_add_pos {x : EReal} (hx : IsNN x) {e : ℝ} (he : 0 < e) :
    ∃ r : ℝ, 0 < r ∧ x + (e : EReal) = (r : EReal) := by
  obtain ⟨a, ha, rfl⟩ := hx
  exact ⟨a + e, by linarith, (EReal.coe_add a e).symm⟩

/-! ## The support encoder on real inputs -/

theorem mean_real (t : Fin 5 → Fin 128 → EReal) (ht : ∀ s k, IsReal (t s k)) (s : Fin 5) : IsReal (mean t s) := by
  unfold mean
  rw [c128_eq]
  exact isReal_div_coe (isReal_sum _ (fun k => ht s k)) (by norm_num)

/-- The variance of a real row is a sum of squares over `127`: a nonnegative real. -/
theorem var_nn (t : Fin 5 → Fin 128 → EReal) (ht : ∀ s k, IsReal (t s k)) (s : Fin 5) : IsNN (var t s) := by
  unfold var
  rw [c127_eq]
  exact isNN_div_pos
    (isNN_finset_sum _ _ (fun k _ => isNN_mul_self (isReal_sub (ht s k) (mean_real t ht s)))) (by norm_num)

/-- The standard deviation plus the small constant is a positive real, so the quotient is real. -/
theorem cen_real (t : Fin 5 → Fin 128 → EReal) (ht : ∀ s k, IsReal (t s k)) (s : Fin 5) (j : Fin 128) :
    IsReal (cen t s j) := by
  unfold cen
  obtain ⟨e, he, hce⟩ := ceps_pos
  obtain ⟨r, hr, hrr⟩ := isNN_add_pos (isNN_sqrt (var_nn t ht s)) he
  rw [hce, hrr]
  exact isReal_div_coe (isReal_sub (ht s j) (mean_real t ht s)) hr.ne'

theorem lnorm_real (t : Fin 5 → Fin 128 → EReal) (g b : Fin 128 → EReal) (ht : ∀ s k, IsReal (t s k))
    (hg : ∀ j, IsReal (g j)) (hb : ∀ j, IsReal (b j)) (s : Fin 5) (j : Fin 128) : IsReal (lnorm t g b s j) := by
  unfold lnorm
  exact isReal_add (isReal_mul (cen_real t ht s j) (hg j)) (hb j)

theorem sgOf_real_of (t : Fin 5 → Fin 128 → EReal) (g b : Fin 128 → EReal) (ht : ∀ s k, IsReal (t s k))
    (hg : ∀ j, IsReal (g j)) (hb : ∀ j, IsReal (b j)) (j : Fin 128) : IsReal (sgOf t g b j) := by
  unfold sgOf
  rw [c5_eq]
  exact isReal_div_coe (isReal_sum _ (fun s => lnorm_real t g b ht hg hb s j)) (by norm_num)

theorem hid_real (sup : Fin 5 → Fin 128 → EReal) (W1 : Fin 256 → Fin 128 → EReal) (b1 : Fin 256 → EReal)
    (hsup : ∀ s k, IsReal (sup s k)) (hW1 : ∀ j k, IsReal (W1 j k)) (hb1 : ∀ j, IsReal (b1 j))
    (s : Fin 5) (j : Fin 256) : IsReal (hid sup W1 b1 s j) := by
  unfold hid
  refine isReal_max (isReal_add (isReal_sum _ (fun k => isReal_mul (hsup s k) (hW1 j k))) (hb1 j)) ?_
  rw [c0_eq]
  exact isReal_zero

theorem res_real (sup : Fin 5 → Fin 128 → EReal) (W1 : Fin 256 → Fin 128 → EReal) (b1 : Fin 256 → EReal)
    (W2 : Fin 128 → Fin 256 → EReal) (b2 : Fin 128 → EReal)
    (hsup : ∀ s k, IsReal (sup s k)) (hW1 : ∀ j k, IsReal (W1 j k)) (hb1 : ∀ j, IsReal (b1 j))
    (hW2 : ∀ j k, IsReal (W2 j k)) (hb2 : ∀ j, IsReal (b2 j)) (s : Fin 5) (j : Fin 128) :
    IsReal (res sup W1 b1 W2 b2 s j) := by
  unfold res
  exact isReal_add
    (isReal_add (isReal_sum _ (fun k => isReal_mul (hid_real sup W1 b1 hsup hW1 hb1 s k) (hW2 j k))) (hb2 j))
    (hsup s j)

/-- On real inputs every coordinate of the support vector is a real number. -/
theorem sgOf_real (sup : Fin 5 → Fin 128 → EReal) (W1 : Fin 256 → Fin 128 → EReal) (b1 : Fin 256 → EReal)
    (W2 : Fin 128 → Fin 256 → EReal) (b2 g b : Fin 128 → EReal)
    (hsup : ∀ s k, IsReal (sup s k)) (hW1 : ∀ a k, IsReal (W1 a k)) (hb1 : ∀ a, IsReal (b1 a))
    (hW2 : ∀ a k, IsReal (W2 a k)) (hb2 : ∀ a, IsReal (b2 a)) (hg : ∀ a, IsReal (g a)) (hb : ∀ a, IsReal (b a))
    (j : Fin 128) : IsReal (sgOf (res sup W1 b1 W2 b2) g b j) :=
  sgOf_real_of _ g b (fun s k => res_real sup W1 b1 W2 b2 hsup hW1 hb1 hW2 hb2 s k) hg hb j

/-! ## The cell on a real query row -/

/-- The logistic function and the hyperbolic tangent are real everywhere, so a step's output is real whenever the
    query row is, whatever the gates and the cell state are. -/
theorem hnext_real (x : Fin 128 → EReal) (hx : ∀ k, IsReal (x k)) (G : Fin 1024 → EReal) (c : Fin 256 → EReal)
    (j : Fin 128) : IsReal (hnext x G c j) := by
  unfold hnext
  exact isReal_add (hx j) (isReal_mul (isReal_sig _) (isReal_tanh _))

/-- A step's output against a real support vector: a real inner product, whatever the gates and the cell state. -/
theorem logit_real (x sg : Fin 128 → EReal) (hx : ∀ k, IsReal (x k)) (hsg : ∀ k, IsReal (sg k))
    (G : Fin 1024 → EReal) (c : Fin 256 → EReal) : IsReal (∑ k : Fin 128, hnext x G c k * sg k) :=
  isReal_sum _ (fun k => isReal_mul (hnext_real x hx G c k) (hsg k))

theorem st1_h (Wih : Fin 1024 → Fin 128 → EReal) (Whh : Fin 1024 → Fin 256 → EReal) (bih bhh : Fin 1024 → EReal)
    (x : Fin 128 → EReal) :
    (st1 Wih Whh bih bhh x).h = hnext x (gates Wih Whh bih bhh x (fun _ => c0)) (fun _ => c0) := rfl

theorem st1_c (Wih : Fin 1024 → Fin 128 → EReal) (Whh : Fin 1024 → Fin 256 → EReal) (bih bhh : Fin 1024 → EReal)
    (x : Fin 128 → EReal) :
    (st1 Wih Whh bih bhh x).c = cell (gates Wih Whh bih bhh x (fun _ => c0)) (fun _ => c0) := rfl

theorem st2_h (Wih : Fin 1024 → Fin 128 → EReal) (Whh : Fin 1024 → Fin 256 → EReal) (bih bhh : Fin 1024 → EReal)
    (sg x : Fin 128 → EReal) :
    (st2 Wih Whh bih bhh sg x).h =
      hnext x (gates Wih Whh bih bhh x (cat (st1 Wih Whh bih bhh x).h sg)) (st1 Wih Whh bih bhh x).c := rfl

theorem st2_c (Wih : Fin 1024 → Fin 128 → EReal) (Whh : Fin 1024 → Fin 256 → EReal) (bih bhh : Fin 1024 → EReal)
    (sg x : Fin 128 → EReal) :
    (st2 Wih Whh bih bhh sg x).c =
      cell (gates Wih Whh bih bhh x (cat (st1 Wih Whh bih bhh x).h sg)) (st1 Wih Whh bih bhh x).c := rfl

theorem st3_h (Wih : Fin 1024 → Fin 128 → EReal) (Whh : Fin 1024 → Fin 256 → EReal) (bih bhh : Fin 1024 → EReal)
    (sg x : Fin 128 → EReal) :
    (st3 Wih Whh bih bhh sg x).h =
      hnext x (gates Wih Whh bih bhh x (cat (st2 Wih Whh bih bhh sg x).h sg)) (st2 Wih Whh bih bhh sg x).c := rfl

theorem st3_c (Wih : Fin 1024 → Fin 128 → EReal) (Whh : Fin 1024 → Fin 256 → EReal) (bih bhh : Fin 1024 → EReal)
    (sg x : Fin 128 → EReal) :
    (st3 Wih Whh bih bhh sg x).c =
      cell (gates Wih Whh bih bhh x (cat (st2 Wih Whh bih bhh sg x).h sg)) (st2 Wih Whh bih bhh sg x).c := rfl

theorem st4_h (Wih : Fin 1024 → Fin 128 → EReal) (Whh : Fin 1024 → Fin 256 → EReal) (bih bhh : Fin 1024 → EReal)
    (sg x : Fin 128 → EReal) :
    (st4 Wih Whh bih bhh sg x).h =
      hnext x (gates Wih Whh bih bhh x (cat (st3 Wih Whh bih bhh sg x).h sg)) (st3 Wih Whh bih bhh sg x).c := rfl

theorem st4_c (Wih : Fin 1024 → Fin 128 → EReal) (Whh : Fin 1024 → Fin 256 → EReal) (bih bhh : Fin 1024 → EReal)
    (sg x : Fin 128 → EReal) :
    (st4 Wih Whh bih bhh sg x).c =
      cell (gates Wih Whh bih bhh x (cat (st3 Wih Whh bih bhh sg x).h sg)) (st3 Wih Whh bih bhh sg x).c := rfl

theorem st1_h_real (Wih : Fin 1024 → Fin 128 → EReal) (Whh : Fin 1024 → Fin 256 → EReal) (bih bhh : Fin 1024 → EReal)
    (x : Fin 128 → EReal) (hx : ∀ k, IsReal (x k)) (k : Fin 128) : IsReal ((st1 Wih Whh bih bhh x).h k) := by
  rw [st1_h]
  exact hnext_real x hx _ _ k

theorem st2_h_real (Wih : Fin 1024 → Fin 128 → EReal) (Whh : Fin 1024 → Fin 256 → EReal) (bih bhh : Fin 1024 → EReal)
    (sg x : Fin 128 → EReal) (hx : ∀ k, IsReal (x k)) (k : Fin 128) :
    IsReal ((st2 Wih Whh bih bhh sg x).h k) := by
  rw [st2_h]
  exact hnext_real x hx _ _ k

theorem st3_h_real (Wih : Fin 1024 → Fin 128 → EReal) (Whh : Fin 1024 → Fin 256 → EReal) (bih bhh : Fin 1024 → EReal)
    (sg x : Fin 128 → EReal) (hx : ∀ k, IsReal (x k)) (k : Fin 128) :
    IsReal ((st3 Wih Whh bih bhh sg x).h k) := by
  rw [st3_h]
  exact hnext_real x hx _ _ k

theorem st4_h_real (Wih : Fin 1024 → Fin 128 → EReal) (Whh : Fin 1024 → Fin 256 → EReal) (bih bhh : Fin 1024 → EReal)
    (sg x : Fin 128 → EReal) (hx : ∀ k, IsReal (x k)) (k : Fin 128) :
    IsReal ((st4 Wih Whh bih bhh sg x).h k) := by
  rw [st4_h]
  exact hnext_real x hx _ _ k

/-- The inner product of two real vectors is real. -/
theorem inner_real (h sg : Fin 128 → EReal) (hh : ∀ k, IsReal (h k)) (hsg : ∀ k, IsReal (sg k)) :
    IsReal (∑ k : Fin 128, h k * sg k) :=
  isReal_sum _ (fun k => isReal_mul (hh k) (hsg k))

theorem st1_logit_real (Wih : Fin 1024 → Fin 128 → EReal) (Whh : Fin 1024 → Fin 256 → EReal)
    (bih bhh : Fin 1024 → EReal) (sg x : Fin 128 → EReal) (hx : ∀ k, IsReal (x k)) (hsg : ∀ k, IsReal (sg k)) :
    IsReal (∑ k : Fin 128, (st1 Wih Whh bih bhh x).h k * sg k) :=
  inner_real _ sg (st1_h_real Wih Whh bih bhh x hx) hsg

theorem st2_logit_real (Wih : Fin 1024 → Fin 128 → EReal) (Whh : Fin 1024 → Fin 256 → EReal)
    (bih bhh : Fin 1024 → EReal) (sg x : Fin 128 → EReal) (hx : ∀ k, IsReal (x k)) (hsg : ∀ k, IsReal (sg k)) :
    IsReal (∑ k : Fin 128, (st2 Wih Whh bih bhh sg x).h k * sg k) :=
  inner_real _ sg (st2_h_real Wih Whh bih bhh sg x hx) hsg

theorem st3_logit_real (Wih : Fin 1024 → Fin 128 → EReal) (Whh : Fin 1024 → Fin 256 → EReal)
    (bih bhh : Fin 1024 → EReal) (sg x : Fin 128 → EReal) (hx : ∀ k, IsReal (x k)) (hsg : ∀ k, IsReal (sg k)) :
    IsReal (∑ k : Fin 128, (st3 Wih Whh bih bhh sg x).h k * sg k) :=
  inner_real _ sg (st3_h_real Wih Whh bih bhh sg x hx) hsg

theorem st4_logit_real (Wih : Fin 1024 → Fin 128 → EReal) (Whh : Fin 1024 → Fin 256 → EReal)
    (bih bhh : Fin 1024 → EReal) (sg x : Fin 128 → EReal) (hx : ∀ k, IsReal (x k)) (hsg : ∀ k, IsReal (sg k)) :
    IsReal (∑ k : Fin 128, (st4 Wih Whh bih bhh sg x).h k * sg k) :=
  inner_real _ sg (st4_h_real Wih Whh bih bhh sg x hx) hsg

theorem out_real (Wih : Fin 1024 → Fin 128 → EReal) (Whh : Fin 1024 → Fin 256 → EReal)
    (bih bhh : Fin 1024 → EReal) (sg x : Fin 128 → EReal) (hx : ∀ k, IsReal (x k)) (hsg : ∀ k, IsReal (sg k)) :
    IsReal (out Wih Whh bih bhh sg x) :=
  st4_logit_real Wih Whh bih bhh sg x hx hsg

end Cert.Reals

end
-- ==== Proof.RefValue.lean ====
/-
  The reference's result is the specification's, when every argument entry is a real number.

  Stage by stage at query row `b`: the encoder's row is the specification's support vector; each step's cell state
  and output are the specification's from the previous hidden input and cell state; the next hidden input is the
  output followed by the support vector, because the attention logit — the inner product of the output with the
  support vector — is a real number (the output is the real query row plus a product of a logistic value and a
  hyperbolic tangent, both real whatever their arguments; the support vector is real because the encoder divides
  only by non-zero numbers), so the softmax over the single support vector is one.
-/
import proofs.«162834_g48816598286877_cont_sun_m_45_4_alg».proof.Proof.RefRun
import proofs.«162834_g48816598286877_cont_sun_m_45_4_alg».proof.Proof.RefReadA
import proofs.«162834_g48816598286877_cont_sun_m_45_4_alg».proof.Proof.RefReadB
import proofs.«162834_g48816598286877_cont_sun_m_45_4_alg».proof.Proof.RefSupport
import proofs.«162834_g48816598286877_cont_sun_m_45_4_alg».proof.Proof.SpecArr
import proofs.«162834_g48816598286877_cont_sun_m_45_4_alg».proof.Proof.Reals2

noncomputable section

namespace Cert.ReferenceIdeal.Whole

open Cert.ReferenceIdeal Cert.ReferenceIdeal.Stages Cert.ReferenceIdeal.Read Cert.Spec
open Idealize.ShloMosaic Idealize.ShloMosaic.ValueIdx

theorem ref_value (a0 : S16384x128.Idx → EReal) (a1 : S5x128.Idx → EReal) (a2 : S256x128.Idx → EReal) (a3 : S256.Idx → EReal) (a4 : S128x256.Idx → EReal) (a5 a6 a7 : S128.Idx → EReal) (a8 : S1024x128.Idx → EReal) (a9 : S1024x256.Idx → EReal) (a10 a11 : S1024.Idx → EReal)
    (hreal : (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal))) :
    Cert.ReferenceIdeal.HostRun.refResult (F := Ideal) a0 a1 a2 a3 a4 a5 a6 a7 a8 a9 a10 a11
      = Cert.Spec.result a0 a1 a2 a3 a4 a5 a6 a7 a8 a9 a10 a11 := by
  obtain ⟨r0, r1, r2, r3, r4, r5, r6, r7, r8, r9, r10, r11⟩ := hreal
  funext i
  obtain ⟨b, rfl⟩ : ∃ b : Fin 16384, i = ix1 b := ⟨i 0, eq_ix1 i⟩
  show similarity (stepOut a0 a8 a9 a10 a11 (nextHidden (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7)) (stepCell a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))))) (supportVec (F := Ideal) a1 a2 a3 a4 a5 a6 a7) (ix1 b) = _
  have hsg : ∀ k : Fin 128, (supportVec (F := Ideal) a1 a2 a3 a4 a5 a6 a7) (ix2 (0 : Fin 1) k) = (sgArr a1 a2 a3 a4 a5 a6 a7) k :=
    fun k => Cert.ReferenceIdeal.Support.ref_support a1 a2 a3 a4 a5 a6 a7 k
  have hsgR : ∀ k : Fin 128, Cert.Reals.IsReal ((sgArr a1 a2 a3 a4 a5 a6 a7) k) := fun k =>
    Cert.Reals.sgOf_real _ _ _ _ _ _ _ (fun s k => r1 _) (fun a k => r2 _) (fun a => r3 _) (fun a k => r4 _) (fun a => r5 _) (fun a => r6 _) (fun a => r7 _) k
  have hx : ∀ k : Fin 128, Cert.Reals.IsReal ((fun k => a0 (ix2 b k)) k) := fun k => r0 _
  have e2 : (fun k => (supportVec (F := Ideal) a1 a2 a3 a4 a5 a6 a7) (ix2 (0 : Fin 1) k)) = (sgArr a1 a2 a3 a4 a5 a6 a7) := funext hsg
  -- step 1
  have H1 : ∀ j : Fin 128, (stepOut a0 a8 a9 a10 a11 (zeros (F := Ideal)) (zeros (F := Ideal))) (ix2 b j) = (st1 (fun a k => a8 (ix2 a k)) (fun a k => a9 (ix2 a k)) (fun a => a10 (ix1 a)) (fun a => a11 (ix1 a)) (fun k => a0 (ix2 b k))).h j := fun j => by
    rw [stepOut_apply]
    rw [show (fun k => (zeros (F := Ideal)) (ix2 b k)) = (fun _ : Fin 256 => c0) from funext fun k => zeros_apply _]
    rfl
  have C1 : ∀ j : Fin 256, (stepCell a0 a8 a9 a10 a11 (zeros (F := Ideal)) (zeros (F := Ideal))) (ix2 b j) = (st1 (fun a k => a8 (ix2 a k)) (fun a k => a9 (ix2 a k)) (fun a => a10 (ix1 a)) (fun a => a11 (ix1 a)) (fun k => a0 (ix2 b k))).c j := fun j => by
    rw [stepCell_apply]
    rw [show (fun k => (zeros (F := Ideal)) (ix2 b k)) = (fun _ : Fin 256 => c0) from funext fun k => zeros_apply _]
    rfl
  have R1 : ∀ k : Fin 256, (nextHidden (stepOut a0 a8 a9 a10 a11 (zeros (F := Ideal)) (zeros (F := Ideal))) (supportVec (F := Ideal) a1 a2 a3 a4 a5 a6 a7)) (ix2 b k) = cat (st1 (fun a k => a8 (ix2 a k)) (fun a k => a9 (ix2 a k)) (fun a => a10 (ix1 a)) (fun a => a11 (ix1 a)) (fun k => a0 (ix2 b k))).h (sgArr a1 a2 a3 a4 a5 a6 a7) k := fun k => by
    have e1 : (fun k => (stepOut a0 a8 a9 a10 a11 (zeros (F := Ideal)) (zeros (F := Ideal))) (ix2 b k)) = (st1 (fun a k => a8 (ix2 a k)) (fun a k => a9 (ix2 a k)) (fun a => a10 (ix1 a)) (fun a => a11 (ix1 a)) (fun k => a0 (ix2 b k))).h := funext H1
    rw [nextHidden_apply (stepOut a0 a8 a9 a10 a11 (zeros (F := Ideal)) (zeros (F := Ideal))) (supportVec (F := Ideal) a1 a2 a3 a4 a5 a6 a7) b k (by
      rw [show (∑ k : Fin 128, (stepOut a0 a8 a9 a10 a11 (zeros (F := Ideal)) (zeros (F := Ideal))) (ix2 b k) * (supportVec (F := Ideal) a1 a2 a3 a4 a5 a6 a7) (ix2 (0 : Fin 1) k)) = ∑ k : Fin 128, (st1 (fun a k => a8 (ix2 a k)) (fun a k => a9 (ix2 a k)) (fun a => a10 (ix1 a)) (fun a => a11 (ix1 a)) (fun k => a0 (ix2 b k))).h k * (sgArr a1 a2 a3 a4 a5 a6 a7) k from
        Finset.sum_congr rfl fun k _ => by rw [H1 k, hsg k]]
      exact Cert.Reals.logit_real (fun k => a0 (ix2 b k)) (sgArr a1 a2 a3 a4 a5 a6 a7) hx hsgR _ _), e1, e2]
  -- step 2
  have H2 : ∀ j : Fin 128, (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (ix2 b j) = (st2 (fun a k => a8 (ix2 a k)) (fun a k => a9 (ix2 a k)) (fun a => a10 (ix1 a)) (fun a => a11 (ix1 a)) (sgArr a1 a2 a3 a4 a5 a6 a7) (fun k => a0 (ix2 b k))).h j := fun j => by
    rw [stepOut_apply]
    rw [show (fun k => (nextHidden (stepOut a0 a8 a9 a10 a11 (zeros (F := Ideal)) (zeros (F := Ideal))) (supportVec (F := Ideal) a1 a2 a3 a4 a5 a6 a7)) (ix2 b k)) = cat (st1 (fun a k => a8 (ix2 a k)) (fun a k => a9 (ix2 a k)) (fun a => a10 (ix1 a)) (fun a => a11 (ix1 a)) (fun k => a0 (ix2 b k))).h (sgArr a1 a2 a3 a4 a5 a6 a7) from funext R1, show (fun k => (stepCell a0 a8 a9 a10 a11 (zeros (F := Ideal)) (zeros (F := Ideal))) (ix2 b k)) = (st1 (fun a k => a8 (ix2 a k)) (fun a k => a9 (ix2 a k)) (fun a => a10 (ix1 a)) (fun a => a11 (ix1 a)) (fun k => a0 (ix2 b k))).c from funext C1]
    rfl
  have C2 : ∀ j : Fin 256, (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (ix2 b j) = (st2 (fun a k => a8 (ix2 a k)) (fun a k => a9 (ix2 a k)) (fun a => a10 (ix1 a)) (fun a => a11 (ix1 a)) (sgArr a1 a2 a3 a4 a5 a6 a7) (fun k => a0 (ix2 b k))).c j := fun j => by
    rw [stepCell_apply]
    rw [show (fun k => (nextHidden (stepOut a0 a8 a9 a10 a11 (zeros (F := Ideal)) (zeros (F := Ideal))) (supportVec (F := Ideal) a1 a2 a3 a4 a5 a6 a7)) (ix2 b k)) = cat (st1 (fun a k => a8 (ix2 a k)) (fun a k => a9 (ix2 a k)) (fun a => a10 (ix1 a)) (fun a => a11 (ix1 a)) (fun k => a0 (ix2 b k))).h (sgArr a1 a2 a3 a4 a5 a6 a7) from funext R1, show (fun k => (stepCell a0 a8 a9 a10 a11 (zeros (F := Ideal)) (zeros (F := Ideal))) (ix2 b k)) = (st1 (fun a k => a8 (ix2 a k)) (fun a k => a9 (ix2 a k)) (fun a => a10 (ix1 a)) (fun a => a11 (ix1 a)) (fun k => a0 (ix2 b k))).c from funext C1]
    rfl
  have R2 : ∀ k : Fin 256, (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (ix2 b k) = cat (st2 (fun a k => a8 (ix2 a k)) (fun a k => a9 (ix2 a k)) (fun a => a10 (ix1 a)) (fun a => a11 (ix1 a)) (sgArr a1 a2 a3 a4 a5 a6 a7) (fun k => a0 (ix2 b k))).h (sgArr a1 a2 a3 a4 a5 a6 a7) k := fun k => by
    have e1 : (fun k => (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (ix2 b k)) = (st2 (fun a k => a8 (ix2 a k)) (fun a k => a9 (ix2 a k)) (fun a => a10 (ix1 a)) (fun a => a11 (ix1 a)) (sgArr a1 a2 a3 a4 a5 a6 a7) (fun k => a0 (ix2 b k))).h := funext H2
    rw [nextHidden_apply (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7) b k (by
      rw [show (∑ k : Fin 128, (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (ix2 b k) * (supportVec (F := Ideal) a1 a2 a3 a4 a5 a6 a7) (ix2 (0 : Fin 1) k)) = ∑ k : Fin 128, (st2 (fun a k => a8 (ix2 a k)) (fun a k => a9 (ix2 a k)) (fun a => a10 (ix1 a)) (fun a => a11 (ix1 a)) (sgArr a1 a2 a3 a4 a5 a6 a7) (fun k => a0 (ix2 b k))).h k * (sgArr a1 a2 a3 a4 a5 a6 a7) k from
        Finset.sum_congr rfl fun k _ => by rw [H2 k, hsg k]]
      exact Cert.Reals.logit_real (fun k => a0 (ix2 b k)) (sgArr a1 a2 a3 a4 a5 a6 a7) hx hsgR _ _), e1, e2]
  -- step 3
  have H3 : ∀ j : Fin 128, (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (ix2 b j) = (st3 (fun a k => a8 (ix2 a k)) (fun a k => a9 (ix2 a k)) (fun a => a10 (ix1 a)) (fun a => a11 (ix1 a)) (sgArr a1 a2 a3 a4 a5 a6 a7) (fun k => a0 (ix2 b k))).h j := fun j => by
    rw [stepOut_apply]
    rw [show (fun k => (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (ix2 b k)) = cat (st2 (fun a k => a8 (ix2 a k)) (fun a k => a9 (ix2 a k)) (fun a => a10 (ix1 a)) (fun a => a11 (ix1 a)) (sgArr a1 a2 a3 a4 a5 a6 a7) (fun k => a0 (ix2 b k))).h (sgArr a1 a2 a3 a4 a5 a6 a7) from funext R2, show (fun k => (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (ix2 b k)) = (st2 (fun a k => a8 (ix2 a k)) (fun a k => a9 (ix2 a k)) (fun a => a10 (ix1 a)) (fun a => a11 (ix1 a)) (sgArr a1 a2 a3 a4 a5 a6 a7) (fun k => a0 (ix2 b k))).c from funext C2]
    rfl
  have C3 : ∀ j : Fin 256, (stepCell a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (ix2 b j) = (st3 (fun a k => a8 (ix2 a k)) (fun a k => a9 (ix2 a k)) (fun a => a10 (ix1 a)) (fun a => a11 (ix1 a)) (sgArr a1 a2 a3 a4 a5 a6 a7) (fun k => a0 (ix2 b k))).c j := fun j => by
    rw [stepCell_apply]
    rw [show (fun k => (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (ix2 b k)) = cat (st2 (fun a k => a8 (ix2 a k)) (fun a k => a9 (ix2 a k)) (fun a => a10 (ix1 a)) (fun a => a11 (ix1 a)) (sgArr a1 a2 a3 a4 a5 a6 a7) (fun k => a0 (ix2 b k))).h (sgArr a1 a2 a3 a4 a5 a6 a7) from funext R2, show (fun k => (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (ix2 b k)) = (st2 (fun a k => a8 (ix2 a k)) (fun a k => a9 (ix2 a k)) (fun a => a10 (ix1 a)) (fun a => a11 (ix1 a)) (sgArr a1 a2 a3 a4 a5 a6 a7) (fun k => a0 (ix2 b k))).c from funext C2]
    rfl
  have R3 : ∀ k : Fin 256, (nextHidden (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7)) (ix2 b k) = cat (st3 (fun a k => a8 (ix2 a k)) (fun a k => a9 (ix2 a k)) (fun a => a10 (ix1 a)) (fun a => a11 (ix1 a)) (sgArr a1 a2 a3 a4 a5 a6 a7) (fun k => a0 (ix2 b k))).h (sgArr a1 a2 a3 a4 a5 a6 a7) k := fun k => by
    have e1 : (fun k => (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (ix2 b k)) = (st3 (fun a k => a8 (ix2 a k)) (fun a k => a9 (ix2 a k)) (fun a => a10 (ix1 a)) (fun a => a11 (ix1 a)) (sgArr a1 a2 a3 a4 a5 a6 a7) (fun k => a0 (ix2 b k))).h := funext H3
    rw [nextHidden_apply (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7) b k (by
      rw [show (∑ k : Fin 128, (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (ix2 b k) * (supportVec (F := Ideal) a1 a2 a3 a4 a5 a6 a7) (ix2 (0 : Fin 1) k)) = ∑ k : Fin 128, (st3 (fun a k => a8 (ix2 a k)) (fun a k => a9 (ix2 a k)) (fun a => a10 (ix1 a)) (fun a => a11 (ix1 a)) (sgArr a1 a2 a3 a4 a5 a6 a7) (fun k => a0 (ix2 b k))).h k * (sgArr a1 a2 a3 a4 a5 a6 a7) k from
        Finset.sum_congr rfl fun k _ => by rw [H3 k, hsg k]]
      exact Cert.Reals.logit_real (fun k => a0 (ix2 b k)) (sgArr a1 a2 a3 a4 a5 a6 a7) hx hsgR _ _), e1, e2]
  -- step 4
  have H4 : ∀ j : Fin 128, (stepOut a0 a8 a9 a10 a11 (nextHidden (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7)) (stepCell a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))))) (ix2 b j) = (st4 (fun a k => a8 (ix2 a k)) (fun a k => a9 (ix2 a k)) (fun a => a10 (ix1 a)) (fun a => a11 (ix1 a)) (sgArr a1 a2 a3 a4 a5 a6 a7) (fun k => a0 (ix2 b k))).h j := fun j => by
    rw [stepOut_apply]
    rw [show (fun k => (nextHidden (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7)) (ix2 b k)) = cat (st3 (fun a k => a8 (ix2 a k)) (fun a k => a9 (ix2 a k)) (fun a => a10 (ix1 a)) (fun a => a11 (ix1 a)) (sgArr a1 a2 a3 a4 a5 a6 a7) (fun k => a0 (ix2 b k))).h (sgArr a1 a2 a3 a4 a5 a6 a7) from funext R3, show (fun k => (stepCell a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (ix2 b k)) = (st3 (fun a k => a8 (ix2 a k)) (fun a k => a9 (ix2 a k)) (fun a => a10 (ix1 a)) (fun a => a11 (ix1 a)) (sgArr a1 a2 a3 a4 a5 a6 a7) (fun k => a0 (ix2 b k))).c from funext C3]
    rfl
  have C4 : ∀ j : Fin 256, (stepCell a0 a8 a9 a10 a11 (nextHidden (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7)) (stepCell a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))))) (ix2 b j) = (st4 (fun a k => a8 (ix2 a k)) (fun a k => a9 (ix2 a k)) (fun a => a10 (ix1 a)) (fun a => a11 (ix1 a)) (sgArr a1 a2 a3 a4 a5 a6 a7) (fun k => a0 (ix2 b k))).c j := fun j => by
    rw [stepCell_apply]
    rw [show (fun k => (nextHidden (stepOut a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (supportVec (F := Ideal) a1 a2 a3 a4 a5 a6 a7)) (ix2 b k)) = cat (st3 (fun a k => a8 (ix2 a k)) (fun a k => a9 (ix2 a k)) (fun a => a10 (ix1 a)) (fun a => a11 (ix1 a)) (sgArr a1 a2 a3 a4 a5 a6 a7) (fun k => a0 (ix2 b k))).h (sgArr a1 a2 a3 a4 a5 a6 a7) from funext R3, show (fun k => (stepCell a0 a8 a9 a10 a11 (nextHidden (stepOut a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal)))) (supportVec (F := Ideal) a1 a2 a3 a4 a5 a6 a7)) (stepCell a0 a8 a9 a10 a11 (nextHidden (stepOut a0 a8 a9 a10 a11 (zeros (F := Ideal)) (zeros (F := Ideal))) (supportVec (F := Ideal) a1 a2 a3 a4 a5 a6 a7)) (stepCell a0 a8 a9 a10 a11 (zeros (F := Ideal)) (zeros (F := Ideal))))) (ix2 b k)) = (st3 (fun a k => a8 (ix2 a k)) (fun a k => a9 (ix2 a k)) (fun a => a10 (ix1 a)) (fun a => a11 (ix1 a)) (sgArr a1 a2 a3 a4 a5 a6 a7) (fun k => a0 (ix2 b k))).c from funext C3]
    rfl
  rw [similarity_apply]
  show _ = out (fun a k => a8 (ix2 a k)) (fun a k => a9 (ix2 a k)) (fun a => a10 (ix1 a)) (fun a => a11 (ix1 a)) (sgArr a1 a2 a3 a4 a5 a6 a7) (fun k => a0 (ix2 b k))
  unfold out
  exact Finset.sum_congr rfl fun k _ => by rw [H4 k, hsg k]

end Cert.ReferenceIdeal.Whole

end
-- ==== Proof.Finite.lean ====
/- Finiteness of the inputs, read back from the precondition: every entry of each of the twelve argument
   arrays has absolute value strictly below +∞, hence is a real number. -/
import proofs.«162834_g48816598286877_cont_sun_m_45_4_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The word `0x7F800000` denotes `+∞`. -/
theorem ofBits_inf : Ideal.ofBits .f32 0x7F800000#32 = ⊤ := by
  simp [Ideal.ofBits, Ideal.ieee]

/-- The rank-zero shape has exactly one index. -/
instance subsingleton_S_ : Subsingleton S_.Idx := ⟨fun a b => funext fun d => d.elim0⟩

/-- An extended real whose absolute value `max x (-x)` is strictly below `+∞` is a real number:
    at `⊥` and at `⊤` the absolute value is `⊤`, which is not below itself. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- If the conjunction over all entries of `|x| < +∞` holds, every entry of `x` is a real number. -/
theorem all_real {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant S_ .f32 0x7F800000#32)))
          (constantI S_ 1 1#1) hr hu ValueIdx.ix0 = 1#1) :
    ∀ i, ∃ r : ℝ, x i = (r : EReal) := by
  intro i
  have h := Host.reduce_andi_all _ _ hr hu _ e i
  have h' : Ideal.cmp .olt (max (x i) (-(x i))) (Ideal.ofBits .f32 0x7F800000#32) = 1#1 := h
  rw [ofBits_inf] at h'
  exact real_of_abs_lt_top _ h'

/-- The precondition read back: when the finiteness predicate of the twelve argument arrays is true,
    every entry of every array is a real number. -/
theorem real_of_pre (a0 : FVec Ideal S16384x128 .f32) (a1 : FVec Ideal S5x128 .f32) (a2 : FVec Ideal S256x128 .f32)
    (a3 : FVec Ideal S256 .f32) (a4 : FVec Ideal S128x256 .f32) (a5 a6 a7 : FVec Ideal S128 .f32)
    (a8 : FVec Ideal S1024x128 .f32) (a9 : FVec Ideal S1024x256 .f32) (a10 a11 : FVec Ideal S1024 .f32)
    (h : Cert.Pre_finite_inputs.fn (F := Ideal) a0 a1 a2 a3 a4 a5 a6 a7 a8 a9 a10 a11 = fun _ => 1#1) :
    (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) := by
  have h0 := congrFun h ValueIdx.ix0
  dsimp only [fn, fn_part1, fn_part2, fn_part3, andi] at h0
  simp only [IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨all_real _ _ _ a0 e0,
    all_real _ _ _ a1 e1,
    all_real _ _ _ a2 e2,
    all_real _ _ _ a3 e3,
    all_real _ _ _ a4 e4,
    all_real _ _ _ a5 e5,
    all_real _ _ _ a6 e6,
    all_real _ _ _ a7 e7,
    all_real _ _ _ a8 e8,
    all_real _ _ _ a9 e9,
    all_real _ _ _ a10 e10,
    all_real _ _ _ a11 e11⟩

end Cert.Finite

end
-- ==== Proof.lean ====
/-
  The certificate: the kernel that scores sixteen thousand query rows against a five-row support set equals its
  plain reference on the extended reals.

  Both programs encode the support set into one vector (two dense layers with a residual, a layer normalisation, the
  mean of the five rows) and run each query row through four steps of a long short-term memory cell whose hidden
  input is the previous output followed by that vector; the result is the inner product of the last output with it.
  The reference attends over the single support vector with a softmax, which is the constant one once the logit is a
  real number — it is, the inputs being finite and the cell's output a bounded perturbation of the query row. The
  kernel drops the attention, folds the support vector's contribution to the gates into a per-call constant, keeps
  only the gate columns that are ever read, and computes the logistic function through a hyperbolic tangent: the same
  values, by commutativity and associativity of addition and an identity of the logistic function that holds on every
  extended real. Both runs are read as the one specification (`Cert.Spec`).
-/
import proofs.«162834_g48816598286877_cont_sun_m_45_4_alg».proof.Defs
import proofs.«162834_g48816598286877_cont_sun_m_45_4_alg».proof.Proof.Gen.Kernel
import proofs.«162834_g48816598286877_cont_sun_m_45_4_alg».proof.Proof.Gen.Kernel.Frame
import proofs.«162834_g48816598286877_cont_sun_m_45_4_alg».proof.Proof.Gen.KernelIdeal
import proofs.«162834_g48816598286877_cont_sun_m_45_4_alg».proof.Proof.Gen.KernelIdeal.Frame
import proofs.«162834_g48816598286877_cont_sun_m_45_4_alg».proof.Proof.Gen.ReferenceIdeal
import proofs.«162834_g48816598286877_cont_sun_m_45_4_alg».proof.Proof.Gen.Pre_finite_inputs
import proofs.«162834_g48816598286877_cont_sun_m_45_4_alg».proof.Proof.KerValue
import proofs.«162834_g48816598286877_cont_sun_m_45_4_alg».proof.Proof.RefRun
import proofs.«162834_g48816598286877_cont_sun_m_45_4_alg».proof.Proof.RefValue
import proofs.«162834_g48816598286877_cont_sun_m_45_4_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both runs end at the specification's result of the (agreeing, finite) argument arrays. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  obtain ⟨e0, e1, e2, e3, e4, e5, e6, e7, e8, e9, e10, e11⟩ := hagree c
  rw [e0, e1, e2, e3, e4, e5, e6, e7, e8, e9, e10, e11]
  exact Cert.ReferenceIdeal.Whole.ref_value _ _ _ _ _ _ _ _ _ _ _ _ (Cert.Finite.real_of_pre _ _ _ _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
